-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x8192x2048 : Shape := ⟨3, ![4, 8192, 2048]⟩
abbrev S4x8192 : Shape := ⟨2, ![4, 8192]⟩
abbrev S16x128 : Shape := ⟨2, ![16, 128]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S4x8192 : S_.BroadcastsInDim S4x8192 (![] : Fin 0 → Fin S4x8192.rank)
  reducesTo_S4x8192_S_d0_1 : S4x8192.ReducesTo [0, 1] S_

variable [Facts]

def fn_part1 {F : FTy → Type} [FloatOps F] (main_arg1 : IVec S4x8192 32) (main_v13 : IVec S_ 1) (main_v15 : IVec S4x8192 1) (main_c_5 : IVec S_ 32) : IVec S_ 1 :=
  let main_v16 : IVec S4x8192 32 := broadcastInDim S4x8192 ![] bcast_S_S4x8192 main_c_5
  let main_v17 : IVec S4x8192 1 := cmpi .sle main_arg1 main_v16
  let main_v18 : IVec S4x8192 1 := andi main_v15 main_v17
  let main_c_6 : IVec S_ 1 := constantI S_ 1 1#1
  let main_v19 : IVec S_ 1 := (fun x v => Host.reduce IntOp.andi x v reducesTo_S4x8192_S_d0_1 h_S_) main_v18 main_c_6
  let main_v20 : IVec S_ 1 := andi main_v13 main_v19
  main_v20

def fn {F : FTy → Type} [FloatOps F] (main_arg0 : FVec F S4x8192x2048 .f32) (main_arg1 : IVec S4x8192 32) (main_arg2 : FVec F S16x128 .f32) (main_arg3 : FVec F S16x128 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_c_4 : IVec S_ 32 := constantI S_ 32 0#32
  let main_v14 : IVec S4x8192 32 := broadcastInDim S4x8192 ![] bcast_S_S4x8192 main_c_4
  let main_v15 : IVec S4x8192 1 := cmpi .sge main_arg1 main_v14
  let main_c_5 : IVec S_ 32 := constantI S_ 32 8191#32
  fn_part1 (F := F) main_arg1 main_v13 main_v15 main_c_5
-- ==== Kernel.lean ====
abbrev S4x8192x2048 : Shape := ⟨3, ![4, 8192, 2048]⟩
abbrev S4x8192 : Shape := ⟨2, ![4, 8192]⟩
abbrev S16x128 : Shape := ⟨2, ![16, 128]⟩
abbrev S256x128 : Shape := ⟨2, ![256, 128]⟩
abbrev S32768x128 : Shape := ⟨2, ![32768, 128]⟩
abbrev S8x128 : Shape := ⟨2, ![8, 128]⟩
abbrev S7x128x128 : Shape := ⟨3, ![7, 128, 128]⟩
abbrev S7 : Shape := ⟨1, ![7]⟩
abbrev S_ : Shape := ⟨0, ![]⟩
abbrev S1x16 : Shape := ⟨2, ![1, 16]⟩
abbrev S16 : Shape := ⟨1, ![16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S64x128 : Shape := ⟨2, ![64, 128]⟩
abbrev S8192x128 : Shape := ⟨2, ![8192, 128]⟩
abbrev S64x64 : Shape := ⟨2, ![64, 64]⟩
abbrev S128x64 : Shape := ⟨2, ![128, 64]⟩
abbrev S128x1 : Shape := ⟨2, ![128, 1]⟩
abbrev S128x16 : Shape := ⟨2, ![128, 16]⟩

abbrev nBuf : Table → Nat
  | .hbm => 7
  | .local .tc .vmem => 5
  | .shared => 1
  | .local .scVector .vmem => 2
  | _ => 0

abbrev bufTy : (tb : Table) → Fin (nBuf tb) → BufTy
  | .hbm, ⟨0, _⟩ => ⟨S4x8192x2048, .f32⟩
  | .hbm, ⟨1, _⟩ => ⟨S4x8192, .i32⟩
  | .hbm, ⟨2, _⟩ => ⟨S16x128, .f32⟩
  | .hbm, ⟨3, _⟩ => ⟨S16x128, .f32⟩
  | .hbm, ⟨4, _⟩ => ⟨S256x128, .i32⟩
  | .hbm, ⟨5, _⟩ => ⟨S32768x128, .f32⟩
  | .hbm, ⟨6, _⟩ => ⟨S32768x128, .f32⟩
  | .local .tc .vmem, ⟨0, _⟩ => ⟨S64x128, .i32⟩
  | .local .tc .vmem, ⟨1, _⟩ => ⟨S64x128, .i32⟩
  | .local .tc .vmem, ⟨2, _⟩ => ⟨S16x128, .f32⟩
  | .local .tc .vmem, ⟨3, _⟩ => ⟨S8192x128, .f32⟩
  | .local .tc .vmem, ⟨4, _⟩ => ⟨S8192x128, .f32⟩
  | .shared, ⟨0, _⟩ => ⟨S16x128, .f32⟩
  | .local .scVector .vmem, ⟨0, _⟩ => ⟨S8x128, .i32⟩
  | .local .scVector .vmem, ⟨1, _⟩ => ⟨S7x128x128, .f32⟩
  | _, _ => ⟨S4x8192x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | _ => false

abbrev sig : RefSig :=
  ofTables nBuf rfl bufTy 5 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg3_scv : Ref sig .scVector := ⟨.hbm, 3, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch1 : Ref sig .scVector := ⟨.shared, 0, rfl⟩
abbrev cc0_scratch0 : Ref sig .scVector := ⟨.vmem, 0, rfl⟩
abbrev cc0_scratch2 : Ref sig .scVector := ⟨.vmem, 1, rfl⟩
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v6 : BitVec 32 := Scalar.muli v1 c8_i32
  let c0_i32_564_r1 : BitVec 32 := 0#32
  ![v6.toNat, 0]
def k0_off2 (i : grid0.Coords) (c0_i32_371 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v639 : BitVec 32 := Scalar.addi v2 c0_i32_371
  let c0_i32_376 : BitVec 32 := 0#32
  ![v639.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x8192_S256x128 : S4x8192.ShapeCasts S256x128
  inb_S8x128_S1x16_0_0 : ∀ a, (![0, 0] : Fin 2 → Nat) a + S1x16.size a ≤ S8x128.size a
  h_S1x16 : 0 < S1x16.numel
  shapeCasts_S1x16_S16 : S1x16.ShapeCasts S16
  shapeCasts_S16_S1x16 : S16.ShapeCasts S1x16
  inb_S8x128_S1x16_0_16 : ∀ a, (![0, 16] : Fin 2 → Nat) a + S1x16.size a ≤ S8x128.size a
  inb_S8x128_S1x16_0_32 : ∀ a, (![0, 32] : Fin 2 → Nat) a + S1x16.size a ≤ S8x128.size a
  inb_S8x128_S1x16_0_48 : ∀ a, (![0, 48] : Fin 2 → Nat) a + S1x16.size a ≤ S8x128.size a
  inb_S8x128_S1x16_0_64 : ∀ a, (![0, 64] : Fin 2 → Nat) a + S1x16.size a ≤ S8x128.size a
  inb_S8x128_S1x16_0_80 : ∀ a, (![0, 80] : Fin 2 → Nat) a + S1x16.size a ≤ S8x128.size a
  inb_S8x128_S1x16_0_96 : ∀ a, (![0, 96] : Fin 2 → Nat) a + S1x16.size a ≤ S8x128.size a
  inb_S8x128_S1x16_0_112 : ∀ a, (![0, 112] : Fin 2 → Nat) a + S1x16.size a ≤ S8x128.size a
  inb_S8x128_S1x16_1_0 : ∀ a, (![1, 0] : Fin 2 → Nat) a + S1x16.size a ≤ S8x128.size a
  inb_S8x128_S1x16_1_16 : ∀ a, (![1, 16] : Fin 2 → Nat) a + S1x16.size a ≤ S8x128.size a
  inb_S8x128_S1x16_1_32 : ∀ a, (![1, 32] : Fin 2 → Nat) a + S1x16.size a ≤ S8x128.size a
  inb_S8x128_S1x16_1_48 : ∀ a, (![1, 48] : Fin 2 → Nat) a + S1x16.size a ≤ S8x128.size a
  inb_S8x128_S1x16_1_64 : ∀ a, (![1, 64] : Fin 2 → Nat) a + S1x16.size a ≤ S8x128.size a
  inb_S8x128_S1x16_1_80 : ∀ a, (![1, 80] : Fin 2 → Nat) a + S1x16.size a ≤ S8x128.size a
  inb_S8x128_S1x16_1_96 : ∀ a, (![1, 96] : Fin 2 → Nat) a + S1x16.size a ≤ S8x128.size a
  inb_S8x128_S1x16_1_112 : ∀ a, (![1, 112] : Fin 2 → Nat) a + S1x16.size a ≤ S8x128.size a
  inb_S8x128_S1x16_2_0 : ∀ a, (![2, 0] : Fin 2 → Nat) a + S1x16.size a ≤ S8x128.size a
  inb_S8x128_S1x16_2_16 : ∀ a, (![2, 16] : Fin 2 → Nat) a + S1x16.size a ≤ S8x128.size a
  inb_S8x128_S1x16_2_32 : ∀ a, (![2, 32] : Fin 2 → Nat) a + S1x16.size a ≤ S8x128.size a
  inb_S8x128_S1x16_2_48 : ∀ a, (![2, 48] : Fin 2 → Nat) a + S1x16.size a ≤ S8x128.size a
  inb_S8x128_S1x16_2_64 : ∀ a, (![2, 64] : Fin 2 → Nat) a + S1x16.size a ≤ S8x128.size a
  inb_S8x128_S1x16_2_80 : ∀ a, (![2, 80] : Fin 2 → Nat) a + S1x16.size a ≤ S8x128.size a
  inb_S8x128_S1x16_2_96 : ∀ a, (![2, 96] : Fin 2 → Nat) a + S1x16.size a ≤ S8x128.size a
  inb_S8x128_S1x16_2_112 : ∀ a, (![2, 112] : Fin 2 → Nat) a + S1x16.size a ≤ S8x128.size a
  inb_S8x128_S1x16_3_0 : ∀ a, (![3, 0] : Fin 2 → Nat) a + S1x16.size a ≤ S8x128.size a
  inb_S8x128_S1x16_3_16 : ∀ a, (![3, 16] : Fin 2 → Nat) a + S1x16.size a ≤ S8x128.size a
  inb_S8x128_S1x16_3_32 : ∀ a, (![3, 32] : Fin 2 → Nat) a + S1x16.size a ≤ S8x128.size a
  inb_S8x128_S1x16_3_48 : ∀ a, (![3, 48] : Fin 2 → Nat) a + S1x16.size a ≤ S8x128.size a
  inb_S8x128_S1x16_3_64 : ∀ a, (![3, 64] : Fin 2 → Nat) a + S1x16.size a ≤ S8x128.size a
  inb_S8x128_S1x16_3_80 : ∀ a, (![3, 80] : Fin 2 → Nat) a + S1x16.size a ≤ S8x128.size a
  inb_S8x128_S1x16_3_96 : ∀ a, (![3, 96] : Fin 2 → Nat) a + S1x16.size a ≤ S8x128.size a
  inb_S8x128_S1x16_3_112 : ∀ a, (![3, 112] : Fin 2 → Nat) a + S1x16.size a ≤ S8x128.size a
  inb_S8x128_S1x16_4_0 : ∀ a, (![4, 0] : Fin 2 → Nat) a + S1x16.size a ≤ S8x128.size a
  inb_S8x128_S1x16_4_16 : ∀ a, (![4, 16] : Fin 2 → Nat) a + S1x16.size a ≤ S8x128.size a
  inb_S8x128_S1x16_4_32 : ∀ a, (![4, 32] : Fin 2 → Nat) a + S1x16.size a ≤ S8x128.size a
  inb_S8x128_S1x16_4_48 : ∀ a, (![4, 48] : Fin 2 → Nat) a + S1x16.size a ≤ S8x128.size a
  inb_S8x128_S1x16_4_64 : ∀ a, (![4, 64] : Fin 2 → Nat) a + S1x16.size a ≤ S8x128.size a
  inb_S8x128_S1x16_4_80 : ∀ a, (![4, 80] : Fin 2 → Nat) a + S1x16.size a ≤ S8x128.size a
  inb_S8x128_S1x16_4_96 : ∀ a, (![4, 96] : Fin 2 → Nat) a + S1x16.size a ≤ S8x128.size a
  inb_S8x128_S1x16_4_112 : ∀ a, (![4, 112] : Fin 2 → Nat) a + S1x16.size a ≤ S8x128.size a
  inb_S8x128_S1x16_5_0 : ∀ a, (![5, 0] : Fin 2 → Nat) a + S1x16.size a ≤ S8x128.size a
  inb_S8x128_S1x16_5_16 : ∀ a, (![5, 16] : Fin 2 → Nat) a + S1x16.size a ≤ S8x128.size a
  inb_S8x128_S1x16_5_32 : ∀ a, (![5, 32] : Fin 2 → Nat) a + S1x16.size a ≤ S8x128.size a
  inb_S8x128_S1x16_5_48 : ∀ a, (![5, 48] : Fin 2 → Nat) a + S1x16.size a ≤ S8x128.size a
  inb_S8x128_S1x16_5_64 : ∀ a, (![5, 64] : Fin 2 → Nat) a + S1x16.size a ≤ S8x128.size a
  inb_S8x128_S1x16_5_80 : ∀ a, (![5, 80] : Fin 2 → Nat) a + S1x16.size a ≤ S8x128.size a
  inb_S8x128_S1x16_5_96 : ∀ a, (![5, 96] : Fin 2 → Nat) a + S1x16.size a ≤ S8x128.size a
  inb_S8x128_S1x16_5_112 : ∀ a, (![5, 112] : Fin 2 → Nat) a + S1x16.size a ≤ S8x128.size a
  inb_S8x128_S1x16_6_0 : ∀ a, (![6, 0] : Fin 2 → Nat) a + S1x16.size a ≤ S8x128.size a
  inb_S8x128_S1x16_6_16 : ∀ a, (![6, 16] : Fin 2 → Nat) a + S1x16.size a ≤ S8x128.size a
  inb_S8x128_S1x16_6_32 : ∀ a, (![6, 32] : Fin 2 → Nat) a + S1x16.size a ≤ S8x128.size a
  inb_S8x128_S1x16_6_48 : ∀ a, (![6, 48] : Fin 2 → Nat) a + S1x16.size a ≤ S8x128.size a
  inb_S8x128_S1x16_6_64 : ∀ a, (![6, 64] : Fin 2 → Nat) a + S1x16.size a ≤ S8x128.size a
  inb_S8x128_S1x16_6_80 : ∀ a, (![6, 80] : Fin 2 → Nat) a + S1x16.size a ≤ S8x128.size a
  inb_S8x128_S1x16_6_96 : ∀ a, (![6, 96] : Fin 2 → Nat) a + S1x16.size a ≤ S8x128.size a
  inb_S8x128_S1x16_6_112 : ∀ a, (![6, 112] : Fin 2 → Nat) a + S1x16.size a ≤ S8x128.size a
  inb_S8x128_S1x16_7_0 : ∀ a, (![7, 0] : Fin 2 → Nat) a + S1x16.size a ≤ S8x128.size a
  inb_S8x128_S1x16_7_16 : ∀ a, (![7, 16] : Fin 2 → Nat) a + S1x16.size a ≤ S8x128.size a
  inb_S8x128_S1x16_7_32 : ∀ a, (![7, 32] : Fin 2 → Nat) a + S1x16.size a ≤ S8x128.size a
  inb_S8x128_S1x16_7_48 : ∀ a, (![7, 48] : Fin 2 → Nat) a + S1x16.size a ≤ S8x128.size a
  inb_S8x128_S1x16_7_64 : ∀ a, (![7, 64] : Fin 2 → Nat) a + S1x16.size a ≤ S8x128.size a
  inb_S8x128_S1x16_7_80 : ∀ a, (![7, 80] : Fin 2 → Nat) a + S1x16.size a ≤ S8x128.size a
  inb_S8x128_S1x16_7_96 : ∀ a, (![7, 96] : Fin 2 → Nat) a + S1x16.size a ≤ S8x128.size a
  inb_S8x128_S1x16_7_112 : ∀ a, (![7, 112] : Fin 2 → Nat) a + S1x16.size a ≤ S8x128.size a
  inb_S7x128x128_S1x128x128_0_0_0 : ∀ a, (![0, 0, 0] : Fin 3 → Nat) a + S1x128x128.size a ≤ S7x128x128.size a
  squeezes_S1x128x128_S128x128 : S1x128x128.Squeezes S128x128
  inb_S8x128_S1x128_0_0 : ∀ a, (![0, 0] : Fin 2 → Nat) a + S1x128.size a ≤ S8x128.size a
  squeezes_S1x128_S128 : S1x128.Squeezes S128
  inb_S16x128_S16x128_0_0 : ∀ a, (![0, 0] : Fin 2 → Nat) a + S16x128.size a ≤ S16x128.size a
  inb_S7_S1_0 : ∀ a, (![0] : Fin 1 → Nat) a + S1.size a ≤ S7.size a
  squeezes_S1_S_ : S1.Squeezes S_
  gathers_S16x128_S128x128 : S16x128.Gathers 0 S128x128
  inb_S7x128x128_S1x128x128_1_0_0 : ∀ a, (![1, 0, 0] : Fin 3 → Nat) a + S1x128x128.size a ≤ S7x128x128.size a
  inb_S8x128_S1x128_1_0 : ∀ a, (![1, 0] : Fin 2 → Nat) a + S1x128.size a ≤ S8x128.size a
  inb_S7_S1_1 : ∀ a, (![1] : Fin 1 → Nat) a + S1.size a ≤ S7.size a
  inb_S7x128x128_S1x128x128_2_0_0 : ∀ a, (![2, 0, 0] : Fin 3 → Nat) a + S1x128x128.size a ≤ S7x128x128.size a
  inb_S8x128_S1x128_2_0 : ∀ a, (![2, 0] : Fin 2 → Nat) a + S1x128.size a ≤ S8x128.size a
  inb_S7_S1_2 : ∀ a, (![2] : Fin 1 → Nat) a + S1.size a ≤ S7.size a
  inb_S7x128x128_S1x128x128_3_0_0 : ∀ a, (![3, 0, 0] : Fin 3 → Nat) a + S1x128x128.size a ≤ S7x128x128.size a
  inb_S8x128_S1x128_3_0 : ∀ a, (![3, 0] : Fin 2 → Nat) a + S1x128.size a ≤ S8x128.size a
  inb_S7_S1_3 : ∀ a, (![3] : Fin 1 → Nat) a + S1.size a ≤ S7.size a
  inb_S7x128x128_S1x128x128_4_0_0 : ∀ a, (![4, 0, 0] : Fin 3 → Nat) a + S1x128x128.size a ≤ S7x128x128.size a
  inb_S8x128_S1x128_4_0 : ∀ a, (![4, 0] : Fin 2 → Nat) a + S1x128.size a ≤ S8x128.size a
  inb_S7_S1_4 : ∀ a, (![4] : Fin 1 → Nat) a + S1.size a ≤ S7.size a
  inb_S7x128x128_S1x128x128_5_0_0 : ∀ a, (![5, 0, 0] : Fin 3 → Nat) a + S1x128x128.size a ≤ S7x128x128.size a
  inb_S8x128_S1x128_5_0 : ∀ a, (![5, 0] : Fin 2 → Nat) a + S1x128.size a ≤ S8x128.size a
  inb_S7_S1_5 : ∀ a, (![5] : Fin 1 → Nat) a + S1.size a ≤ S7.size a
  inb_S7x128x128_S1x128x128_6_0_0 : ∀ a, (![6, 0, 0] : Fin 3 → Nat) a + S1x128x128.size a ≤ S7x128x128.size a
  inb_S8x128_S1x128_6_0 : ∀ a, (![6, 0] : Fin 2 → Nat) a + S1x128.size a ≤ S8x128.size a
  inb_S7_S1_6 : ∀ a, (![6] : Fin 1 → Nat) a + S1.size a ≤ S7.size a
  inb_S8x128_S1x128_7_0 : ∀ a, (![7, 0] : Fin 2 → Nat) a + S1x128.size a ≤ S8x128.size a
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S64x64_d0_w32 : S64x64.Iotas .tc 32 [0]
  iota_S64x64_d1_w32 : S64x64.Iotas .tc 32 [1]
  natLt_1_32 : 1 < 32
  iota_S1x16_d1_w32 : S1x16.Iotas .tc 32 [1]
  h_S16x128 : 0 < S16x128.numel
  slices_S128x64_o0_0_S128x1 : S128x64.Slices ![0, 0] S128x1
  broadcasts_S128x1_S128x16 : S128x1.Broadcasts S128x16
  broadcasts_S1x16_S128x16 : S1x16.Broadcasts S128x16
  inb_S8192x128_S128x128_0_0 : ∀ a, (![0, 0] : Fin 2 → Nat) a + S128x128.size a ≤ S8192x128.size a
  h_S128x128 : 0 < S128x128.numel
  slices_S128x64_o0_1_S128x1 : S128x64.Slices ![0, 1] S128x1
  inb_S8192x128_S128x128_128_0 : ∀ a, (![128, 0] : Fin 2 → Nat) a + S128x128.size a ≤ S8192x128.size a
  slices_S128x64_o0_2_S128x1 : S128x64.Slices ![0, 2] S128x1
  inb_S8192x128_S128x128_256_0 : ∀ a, (![256, 0] : Fin 2 → Nat) a + S128x128.size a ≤ S8192x128.size a
  slices_S128x64_o0_3_S128x1 : S128x64.Slices ![0, 3] S128x1
  inb_S8192x128_S128x128_384_0 : ∀ a, (![384, 0] : Fin 2 → Nat) a + S128x128.size a ≤ S8192x128.size a
  slices_S128x64_o0_4_S128x1 : S128x64.Slices ![0, 4] S128x1
  inb_S8192x128_S128x128_512_0 : ∀ a, (![512, 0] : Fin 2 → Nat) a + S128x128.size a ≤ S8192x128.size a
  slices_S128x64_o0_5_S128x1 : S128x64.Slices ![0, 5] S128x1
  inb_S8192x128_S128x128_640_0 : ∀ a, (![640, 0] : Fin 2 → Nat) a + S128x128.size a ≤ S8192x128.size a
  slices_S128x64_o0_6_S128x1 : S128x64.Slices ![0, 6] S128x1
  inb_S8192x128_S128x128_768_0 : ∀ a, (![768, 0] : Fin 2 → Nat) a + S128x128.size a ≤ S8192x128.size a
  slices_S128x64_o0_7_S128x1 : S128x64.Slices ![0, 7] S128x1
  inb_S8192x128_S128x128_896_0 : ∀ a, (![896, 0] : Fin 2 → Nat) a + S128x128.size a ≤ S8192x128.size a
  slices_S128x64_o0_8_S128x1 : S128x64.Slices ![0, 8] S128x1
  inb_S8192x128_S128x128_1024_0 : ∀ a, (![1024, 0] : Fin 2 → Nat) a + S128x128.size a ≤ S8192x128.size a
  slices_S128x64_o0_9_S128x1 : S128x64.Slices ![0, 9] S128x1
  inb_S8192x128_S128x128_1152_0 : ∀ a, (![1152, 0] : Fin 2 → Nat) a + S128x128.size a ≤ S8192x128.size a
  slices_S128x64_o0_10_S128x1 : S128x64.Slices ![0, 10] S128x1
  inb_S8192x128_S128x128_1280_0 : ∀ a, (![1280, 0] : Fin 2 → Nat) a + S128x128.size a ≤ S8192x128.size a
  slices_S128x64_o0_11_S128x1 : S128x64.Slices ![0, 11] S128x1
  inb_S8192x128_S128x128_1408_0 : ∀ a, (![1408, 0] : Fin 2 → Nat) a + S128x128.size a ≤ S8192x128.size a
  slices_S128x64_o0_12_S128x1 : S128x64.Slices ![0, 12] S128x1
  inb_S8192x128_S128x128_1536_0 : ∀ a, (![1536, 0] : Fin 2 → Nat) a + S128x128.size a ≤ S8192x128.size a
  slices_S128x64_o0_13_S128x1 : S128x64.Slices ![0, 13] S128x1
  inb_S8192x128_S128x128_1664_0 : ∀ a, (![1664, 0] : Fin 2 → Nat) a + S128x128.size a ≤ S8192x128.size a
  slices_S128x64_o0_14_S128x1 : S128x64.Slices ![0, 14] S128x1
  inb_S8192x128_S128x128_1792_0 : ∀ a, (![1792, 0] : Fin 2 → Nat) a + S128x128.size a ≤ S8192x128.size a
  slices_S128x64_o0_15_S128x1 : S128x64.Slices ![0, 15] S128x1
  inb_S8192x128_S128x128_1920_0 : ∀ a, (![1920, 0] : Fin 2 → Nat) a + S128x128.size a ≤ S8192x128.size a
  slices_S128x64_o0_16_S128x1 : S128x64.Slices ![0, 16] S128x1
  inb_S8192x128_S128x128_2048_0 : ∀ a, (![2048, 0] : Fin 2 → Nat) a + S128x128.size a ≤ S8192x128.size a
  slices_S128x64_o0_17_S128x1 : S128x64.Slices ![0, 17] S128x1
  inb_S8192x128_S128x128_2176_0 : ∀ a, (![2176, 0] : Fin 2 → Nat) a + S128x128.size a ≤ S8192x128.size a
  slices_S128x64_o0_18_S128x1 : S128x64.Slices ![0, 18] S128x1
  inb_S8192x128_S128x128_2304_0 : ∀ a, (![2304, 0] : Fin 2 → Nat) a + S128x128.size a ≤ S8192x128.size a
  slices_S128x64_o0_19_S128x1 : S128x64.Slices ![0, 19] S128x1
  inb_S8192x128_S128x128_2432_0 : ∀ a, (![2432, 0] : Fin 2 → Nat) a + S128x128.size a ≤ S8192x128.size a
  slices_S128x64_o0_20_S128x1 : S128x64.Slices ![0, 20] S128x1
  inb_S8192x128_S128x128_2560_0 : ∀ a, (![2560, 0] : Fin 2 → Nat) a + S128x128.size a ≤ S8192x128.size a
  slices_S128x64_o0_21_S128x1 : S128x64.Slices ![0, 21] S128x1
  inb_S8192x128_S128x128_2688_0 : ∀ a, (![2688, 0] : Fin 2 → Nat) a + S128x128.size a ≤ S8192x128.size a
  slices_S128x64_o0_22_S128x1 : S128x64.Slices ![0, 22] S128x1
  inb_S8192x128_S128x128_2816_0 : ∀ a, (![2816, 0] : Fin 2 → Nat) a + S128x128.size a ≤ S8192x128.size a
  slices_S128x64_o0_23_S128x1 : S128x64.Slices ![0, 23] S128x1
  inb_S8192x128_S128x128_2944_0 : ∀ a, (![2944, 0] : Fin 2 → Nat) a + S128x128.size a ≤ S8192x128.size a
  slices_S128x64_o0_24_S128x1 : S128x64.Slices ![0, 24] S128x1
  inb_S8192x128_S128x128_3072_0 : ∀ a, (![3072, 0] : Fin 2 → Nat) a + S128x128.size a ≤ S8192x128.size a
  slices_S128x64_o0_25_S128x1 : S128x64.Slices ![0, 25] S128x1
  inb_S8192x128_S128x128_3200_0 : ∀ a, (![3200, 0] : Fin 2 → Nat) a + S128x128.size a ≤ S8192x128.size a
  slices_S128x64_o0_26_S128x1 : S128x64.Slices ![0, 26] S128x1
  inb_S8192x128_S128x128_3328_0 : ∀ a, (![3328, 0] : Fin 2 → Nat) a + S128x128.size a ≤ S8192x128.size a
  slices_S128x64_o0_27_S128x1 : S128x64.Slices ![0, 27] S128x1
  inb_S8192x128_S128x128_3456_0 : ∀ a, (![3456, 0] : Fin 2 → Nat) a + S128x128.size a ≤ S8192x128.size a
  slices_S128x64_o0_28_S128x1 : S128x64.Slices ![0, 28] S128x1
  inb_S8192x128_S128x128_3584_0 : ∀ a, (![3584, 0] : Fin 2 → Nat) a + S128x128.size a ≤ S8192x128.size a
  slices_S128x64_o0_29_S128x1 : S128x64.Slices ![0, 29] S128x1
  inb_S8192x128_S128x128_3712_0 : ∀ a, (![3712, 0] : Fin 2 → Nat) a + S128x128.size a ≤ S8192x128.size a
  slices_S128x64_o0_30_S128x1 : S128x64.Slices ![0, 30] S128x1
  inb_S8192x128_S128x128_3840_0 : ∀ a, (![3840, 0] : Fin 2 → Nat) a + S128x128.size a ≤ S8192x128.size a
  slices_S128x64_o0_31_S128x1 : S128x64.Slices ![0, 31] S128x1
  inb_S8192x128_S128x128_3968_0 : ∀ a, (![3968, 0] : Fin 2 → Nat) a + S128x128.size a ≤ S8192x128.size a
  slices_S128x64_o0_32_S128x1 : S128x64.Slices ![0, 32] S128x1
  inb_S8192x128_S128x128_4096_0 : ∀ a, (![4096, 0] : Fin 2 → Nat) a + S128x128.size a ≤ S8192x128.size a
  slices_S128x64_o0_33_S128x1 : S128x64.Slices ![0, 33] S128x1
  inb_S8192x128_S128x128_4224_0 : ∀ a, (![4224, 0] : Fin 2 → Nat) a + S128x128.size a ≤ S8192x128.size a
  slices_S128x64_o0_34_S128x1 : S128x64.Slices ![0, 34] S128x1
  inb_S8192x128_S128x128_4352_0 : ∀ a, (![4352, 0] : Fin 2 → Nat) a + S128x128.size a ≤ S8192x128.size a
  slices_S128x64_o0_35_S128x1 : S128x64.Slices ![0, 35] S128x1
  inb_S8192x128_S128x128_4480_0 : ∀ a, (![4480, 0] : Fin 2 → Nat) a + S128x128.size a ≤ S8192x128.size a
  slices_S128x64_o0_36_S128x1 : S128x64.Slices ![0, 36] S128x1
  inb_S8192x128_S128x128_4608_0 : ∀ a, (![4608, 0] : Fin 2 → Nat) a + S128x128.size a ≤ S8192x128.size a
  slices_S128x64_o0_37_S128x1 : S128x64.Slices ![0, 37] S128x1
  inb_S8192x128_S128x128_4736_0 : ∀ a, (![4736, 0] : Fin 2 → Nat) a + S128x128.size a ≤ S8192x128.size a
  slices_S128x64_o0_38_S128x1 : S128x64.Slices ![0, 38] S128x1
  inb_S8192x128_S128x128_4864_0 : ∀ a, (![4864, 0] : Fin 2 → Nat) a + S128x128.size a ≤ S8192x128.size a
  slices_S128x64_o0_39_S128x1 : S128x64.Slices ![0, 39] S128x1
  inb_S8192x128_S128x128_4992_0 : ∀ a, (![4992, 0] : Fin 2 → Nat) a + S128x128.size a ≤ S8192x128.size a
  slices_S128x64_o0_40_S128x1 : S128x64.Slices ![0, 40] S128x1
  inb_S8192x128_S128x128_5120_0 : ∀ a, (![5120, 0] : Fin 2 → Nat) a + S128x128.size a ≤ S8192x128.size a
  slices_S128x64_o0_41_S128x1 : S128x64.Slices ![0, 41] S128x1
  inb_S8192x128_S128x128_5248_0 : ∀ a, (![5248, 0] : Fin 2 → Nat) a + S128x128.size a ≤ S8192x128.size a
  slices_S128x64_o0_42_S128x1 : S128x64.Slices ![0, 42] S128x1
  inb_S8192x128_S128x128_5376_0 : ∀ a, (![5376, 0] : Fin 2 → Nat) a + S128x128.size a ≤ S8192x128.size a
  slices_S128x64_o0_43_S128x1 : S128x64.Slices ![0, 43] S128x1
  inb_S8192x128_S128x128_5504_0 : ∀ a, (![5504, 0] : Fin 2 → Nat) a + S128x128.size a ≤ S8192x128.size a
  slices_S128x64_o0_44_S128x1 : S128x64.Slices ![0, 44] S128x1
  inb_S8192x128_S128x128_5632_0 : ∀ a, (![5632, 0] : Fin 2 → Nat) a + S128x128.size a ≤ S8192x128.size a
  slices_S128x64_o0_45_S128x1 : S128x64.Slices ![0, 45] S128x1
  inb_S8192x128_S128x128_5760_0 : ∀ a, (![5760, 0] : Fin 2 → Nat) a + S128x128.size a ≤ S8192x128.size a
  slices_S128x64_o0_46_S128x1 : S128x64.Slices ![0, 46] S128x1
  inb_S8192x128_S128x128_5888_0 : ∀ a, (![5888, 0] : Fin 2 → Nat) a + S128x128.size a ≤ S8192x128.size a
  slices_S128x64_o0_47_S128x1 : S128x64.Slices ![0, 47] S128x1
  inb_S8192x128_S128x128_6016_0 : ∀ a, (![6016, 0] : Fin 2 → Nat) a + S128x128.size a ≤ S8192x128.size a
  slices_S128x64_o0_48_S128x1 : S128x64.Slices ![0, 48] S128x1
  inb_S8192x128_S128x128_6144_0 : ∀ a, (![6144, 0] : Fin 2 → Nat) a + S128x128.size a ≤ S8192x128.size a
  slices_S128x64_o0_49_S128x1 : S128x64.Slices ![0, 49] S128x1
  inb_S8192x128_S128x128_6272_0 : ∀ a, (![6272, 0] : Fin 2 → Nat) a + S128x128.size a ≤ S8192x128.size a
  slices_S128x64_o0_50_S128x1 : S128x64.Slices ![0, 50] S128x1
  inb_S8192x128_S128x128_6400_0 : ∀ a, (![6400, 0] : Fin 2 → Nat) a + S128x128.size a ≤ S8192x128.size a
  slices_S128x64_o0_51_S128x1 : S128x64.Slices ![0, 51] S128x1
  inb_S8192x128_S128x128_6528_0 : ∀ a, (![6528, 0] : Fin 2 → Nat) a + S128x128.size a ≤ S8192x128.size a
  slices_S128x64_o0_52_S128x1 : S128x64.Slices ![0, 52] S128x1
  inb_S8192x128_S128x128_6656_0 : ∀ a, (![6656, 0] : Fin 2 → Nat) a + S128x128.size a ≤ S8192x128.size a
  slices_S128x64_o0_53_S128x1 : S128x64.Slices ![0, 53] S128x1
  inb_S8192x128_S128x128_6784_0 : ∀ a, (![6784, 0] : Fin 2 → Nat) a + S128x128.size a ≤ S8192x128.size a
  slices_S128x64_o0_54_S128x1 : S128x64.Slices ![0, 54] S128x1
  inb_S8192x128_S128x128_6912_0 : ∀ a, (![6912, 0] : Fin 2 → Nat) a + S128x128.size a ≤ S8192x128.size a
  slices_S128x64_o0_55_S128x1 : S128x64.Slices ![0, 55] S128x1
  inb_S8192x128_S128x128_7040_0 : ∀ a, (![7040, 0] : Fin 2 → Nat) a + S128x128.size a ≤ S8192x128.size a
  slices_S128x64_o0_56_S128x1 : S128x64.Slices ![0, 56] S128x1
  inb_S8192x128_S128x128_7168_0 : ∀ a, (![7168, 0] : Fin 2 → Nat) a + S128x128.size a ≤ S8192x128.size a
  slices_S128x64_o0_57_S128x1 : S128x64.Slices ![0, 57] S128x1
  inb_S8192x128_S128x128_7296_0 : ∀ a, (![7296, 0] : Fin 2 → Nat) a + S128x128.size a ≤ S8192x128.size a
  slices_S128x64_o0_58_S128x1 : S128x64.Slices ![0, 58] S128x1
  inb_S8192x128_S128x128_7424_0 : ∀ a, (![7424, 0] : Fin 2 → Nat) a + S128x128.size a ≤ S8192x128.size a
  slices_S128x64_o0_59_S128x1 : S128x64.Slices ![0, 59] S128x1
  inb_S8192x128_S128x128_7552_0 : ∀ a, (![7552, 0] : Fin 2 → Nat) a + S128x128.size a ≤ S8192x128.size a
  slices_S128x64_o0_60_S128x1 : S128x64.Slices ![0, 60] S128x1
  inb_S8192x128_S128x128_7680_0 : ∀ a, (![7680, 0] : Fin 2 → Nat) a + S128x128.size a ≤ S8192x128.size a
  slices_S128x64_o0_61_S128x1 : S128x64.Slices ![0, 61] S128x1
  inb_S8192x128_S128x128_7808_0 : ∀ a, (![7808, 0] : Fin 2 → Nat) a + S128x128.size a ≤ S8192x128.size a
  slices_S128x64_o0_62_S128x1 : S128x64.Slices ![0, 62] S128x1
  inb_S8192x128_S128x128_7936_0 : ∀ a, (![7936, 0] : Fin 2 → Nat) a + S128x128.size a ≤ S8192x128.size a
  slices_S128x64_o0_63_S128x1 : S128x64.Slices ![0, 63] S128x1
  inb_S8192x128_S128x128_8064_0 : ∀ a, (![8064, 0] : Fin 2 → Nat) a + S128x128.size a ≤ S8192x128.size a
  dot_S64x128_S64x64_S128x64_0_0_1_1_n_n_wf : DotDims.WF S64x128 S64x64 S128x64 [0] [0] [1] [1] [] []
  dot_S128x16_S16x128_S128x128_1_0_0_1_n_n_wf : DotDims.WF S128x16 S16x128 S128x128 [1] [0] [0] [1] [] []
  hcc0_scratch3 : 0 + S7.numel ≤ 21
  hcc0_scratch4 : 7 + S7.numel ≤ 21
  hcc0_scoped0 : 14 + S_.numel ≤ 21
  hcc0_scoped1 : 15 + S_.numel ≤ 21
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S8x128.size a ≤ S256x128.size a
  k0_off2_inb : ∀ i : grid0.Coords, ∀ (r : Fin 8), ∀ a, (k0_off2 i (BitVec.ofNat 32 (128 * r.val))) a + S128x128.size a ≤ S32768x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S256x128.size a
  hwx1_0 : ∀ i : grid1.Coords, EltTy.bits .i32 = 32 ∨ (Rect.block (s := S256x128) S64x128.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S32768x128.size a
  hwx1_2 : ∀ i : grid1.Coords, EltTy.bits .f32 = 32 ∨ (Rect.block (s := S32768x128) S8192x128.size (cc1_transform_2 i) (hinb1_2 i)).WholeWords (EltTy.packing .f32)

variable [Facts₀]

abbrev cc0_scratch3 : DmaSems sig S7 := SemArray.consecutive 0 S7 hcc0_scratch3
abbrev cc0_scratch4 : DmaSems sig S7 := SemArray.consecutive 7 S7 hcc0_scratch4
abbrev cc0_scoped0 : DmaSems sig S_ := SemArray.consecutive 14 S_ hcc0_scoped0
abbrev cc0_scoped1 : DmaSems sig S_ := SemArray.consecutive 15 S_ hcc0_scoped1
def dot_S64x128_S64x64_S128x64_0_0_1_1_n_n : DotDims S64x128 S64x64 S128x64 where
  lhsContracting := [0]
  rhsContracting := [0]
  lhsNonContracting := [1]
  rhsNonContracting := [1]
  lhsBatch := []
  rhsBatch := []
  wf := dot_S64x128_S64x64_S128x64_0_0_1_1_n_n_wf
def dot_S128x16_S16x128_S128x128_1_0_0_1_n_n : DotDims S128x16 S16x128 S128x128 where
  lhsContracting := [1]
  rhsContracting := [0]
  lhsNonContracting := [0]
  rhsNonContracting := [1]
  lhsBatch := []
  rhsBatch := []
  wf := dot_S128x16_S16x128_S128x128_1_0_0_1_n_n_wf

abbrev win1_0 : Pipeline.Window sig grid1 :=
  Pipeline.Window.ofSpec (Memref.whole main_v0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x8192x2048 : Shape := ⟨3, ![4, 8192, 2048]⟩
abbrev S4x8192 : Shape := ⟨2, ![4, 8192]⟩
abbrev S16x128 : Shape := ⟨2, ![16, 128]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x128 : Shape := ⟨2, ![32768, 128]⟩

abbrev nBuf : Space → Nat
  | .hbm => 73
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192, .i32⟩
  | .hbm, ⟨2, _⟩ => ⟨S16x128, .f32⟩
  | .hbm, ⟨3, _⟩ => ⟨S16x128, .f32⟩
  | .hbm, ⟨4, _⟩ => ⟨S32768, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S_, .i32⟩
  | .hbm, ⟨20, _⟩ => ⟨S_, .i1⟩
  | .hbm, ⟨21, _⟩ => ⟨S32768, .i1⟩
  | .hbm, ⟨22, _⟩ => ⟨S32768, .i1⟩
  | .hbm, ⟨23, _⟩ => ⟨S32768, .i1⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S32768x1, .i32⟩
  | .hbm, ⟨35, _⟩ => ⟨S1, .i32⟩
  | .hbm, ⟨36, _⟩ => ⟨S_, .i32⟩
  | .hbm, ⟨37, _⟩ => ⟨S32768x1, .i32⟩
  | .hbm, ⟨38, _⟩ => ⟨S32768x1, .i1⟩
  | .hbm, ⟨39, _⟩ => ⟨S1x1, .i32⟩
  | .hbm, ⟨40, _⟩ => ⟨S32768x1, .i32⟩
  | .hbm, ⟨41, _⟩ => ⟨S32768x1, .i1⟩
  | .hbm, ⟨42, _⟩ => ⟨S32768x1, .i1⟩
  | .hbm, ⟨43, _⟩ => ⟨S_, .i1⟩
  | .hbm, ⟨44, _⟩ => ⟨S32768, .i1⟩
  | .hbm, ⟨45, _⟩ => ⟨S32768x128, .f32⟩
  | .hbm, ⟨46, _⟩ => ⟨S32768x128, .i1⟩
  | .hbm, ⟨47, _⟩ => ⟨S_, .f32⟩
  | .hbm, ⟨48, _⟩ => ⟨S32768x128, .f32⟩
  | .hbm, ⟨49, _⟩ => ⟨S32768x128, .f32⟩
  | .hbm, ⟨50, _⟩ => ⟨S_, .i32⟩
  | .hbm, ⟨51, _⟩ => ⟨S32768, .i32⟩
  | .hbm, ⟨52, _⟩ => ⟨S32768, .i1⟩
  | .hbm, ⟨53, _⟩ => ⟨S_, .i32⟩
  | .hbm, ⟨54, _⟩ => ⟨S32768, .i32⟩
  | .hbm, ⟨55, _⟩ => ⟨S32768, .i32⟩
  | .hbm, ⟨56, _⟩ => ⟨S32768, .i32⟩
  | .hbm, ⟨57, _⟩ => ⟨S32768x1, .i32⟩
  | .hbm, ⟨58, _⟩ => ⟨S1, .i32⟩
  | .hbm, ⟨59, _⟩ => ⟨S_, .i32⟩
  | .hbm, ⟨60, _⟩ => ⟨S32768x1, .i32⟩
  | .hbm, ⟨61, _⟩ => ⟨S32768x1, .i1⟩
  | .hbm, ⟨62, _⟩ => ⟨S1x1, .i32⟩
  | .hbm, ⟨63, _⟩ => ⟨S32768x1, .i32⟩
  | .hbm, ⟨64, _⟩ => ⟨S32768x1, .i1⟩
  | .hbm, ⟨65, _⟩ => ⟨S32768x1, .i1⟩
  | .hbm, ⟨66, _⟩ => ⟨S_, .i1⟩
  | .hbm, ⟨67, _⟩ => ⟨S32768, .i1⟩
  | .hbm, ⟨68, _⟩ => ⟨S32768x128, .f32⟩
  | .hbm, ⟨69, _⟩ => ⟨S32768x128, .i1⟩
  | .hbm, ⟨70, _⟩ => ⟨S_, .f32⟩
  | .hbm, ⟨71, _⟩ => ⟨S32768x128, .f32⟩
  | .hbm, ⟨72, _⟩ => ⟨S32768x128, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v3 : Ref sig .tc := ⟨.hbm, 72, rfl⟩

abbrev nD : Nat := 1
abbrev τ : Topo := Topo.v7x

variable {F : FTy → Type} [FloatOps F]

class Facts₀ : Prop where
  shapeCasts_S4x8192_S32768 : S4x8192.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x128_0 : S32768.BroadcastsInDim S32768x128 (![0] : Fin 1 → Fin S32768x128.rank)
  bcast_S_S32768x128 : S_.BroadcastsInDim S32768x128 (![] : Fin 0 → Fin S32768x128.rank)
  gather_S16x128_S32768x1_S32768x128_1_0_n_n_0_1_1128_wf : GatherDims.WF S16x128 S32768x1 S32768x128 [1] [0] [] [0] [] 1 ![1, 128]

variable [Facts₀]

def gather_S16x128_S32768x1_S32768x128_1_0_n_n_0_1_1128 : GatherDims S16x128 S32768x1 S32768x128 where
  offsetDims := [1]
  collapsedSliceDims := [0]
  operandBatchingDims := []
  startIndicesBatchingDims := []
  startIndexMap := [0]
  indexVectorDim := 1
  sliceSizes := ![1, 128]
  wf := gather_S16x128_S32768x1_S32768x128_1_0_n_n_0_1_1128_wf

class Facts : Prop extends Facts₀ where

variable [Facts]
-- ==== Proof.Ghost.lean ====
/-
  The launch's vocabulary for this program: the program as the SparseCore launch theorem reads it (its label signature,
  its call table, its body table), and the ghost state every later module speaks of.  The ghost state is a product of
  four resource algebras: the rounds of the four launch handshakes; the rounds of the subcore-barrier cells (through
  which SparseCore tile 0 hands every tile of its core a read share of the staged table); the rounds of the TensorCore
  pipeline's staging cells; and the transfer counters of the local copies.
-/
import proofs.«214958_g36086315221739_cont_8to1_b_1353_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«214958_g36086315221739_cont_8to1_b_1353_25_alg».proof.Proof.Gen.KernelIdeal
import proofs.«214958_g36086315221739_cont_8to1_b_1353_25_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's staging cells' rounds library. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Proof.KI

end
-- ==== Proof.Spec.lean ====
/-
  The function both programs compute, twice (once per table): a rotary-embedding lookup.  The position
  array `pos : i32[4, 8192]` is read flat, row-major, as 32768 positions; result row `b` is the row of the table
  `tab : f32[16, 128]` that position `b` selects, namely row `pos_b mod 16`.  For a position in `[0, 8191]` (the
  precondition's range) the integer remainder, the mask `pos_b &&& 15` and the real `pos_b - 16 * floor (pos_b / 16)`
  are all that number; it is written here through the unsigned value of the word, `toNat % 16`.
  Pure data movement: the function is stated for any type of float, and is the same at every instance.
-/
import Idealize.ShloMosaic.PureOps.Ideal
import Idealize.ShloMosaic.Lib.ValueIdx

noncomputable section

namespace Cert.Proof.Spec

open Idealize.ShloMosaic Idealize.ShloMosaic.ValueIdx

/-- The positions, `[4, 8192]`; the table, `[16, 128]`; a result, `[32768, 128]`; the positions as the kernel's
    host reshape lays them out, `[256, 128]`. -/
abbrev SPos : Shape := ⟨2, ![4, 8192]⟩
abbrev STab : Shape := ⟨2, ![16, 128]⟩
abbrev SOut : Shape := ⟨2, ![32768, 128]⟩
abbrev SPos2 : Shape := ⟨2, ![256, 128]⟩

/-- The table row a position word selects: its unsigned value modulo 16. -/
def rowOf (x : BitVec 32) : Fin 16 := ⟨x.toNat % 16, Nat.mod_lt _ (by decide)⟩

/-- Where flat position `b` sits in the `[4, 8192]` array: row `b / 8192`, column `b % 8192`. -/
def posIx (b : Fin 32768) : SPos.Idx :=
  ix2 (n0 := 4) (n1 := 8192) ⟨b.val / 8192, by have := b.isLt; omega⟩ ⟨b.val % 8192, Nat.mod_lt _ (by decide)⟩

/-- Where flat position `b` sits in the `[256, 128]` reshape: row `b / 128`, column `b % 128`. -/
def posIx2 (b : Fin 32768) : SPos2.Idx :=
  ix2 (n0 := 256) (n1 := 128) ⟨b.val / 128, by have := b.isLt; omega⟩ ⟨b.val % 128, Nat.mod_lt _ (by decide)⟩

/-- The lookup: entry `(b, d)` of the result is entry `(pos_b mod 16, d)` of the table. -/
def rows {α : Type} (pos : SPos.Idx → BitVec 32) (tab : STab.Idx → α) : SOut.Idx → α :=
  fun i => tab (ix2 (n0 := 16) (n1 := 128) (rowOf (pos (posIx (i 0)))) (i 1))

/-- The same lookup read off the `[256, 128]` reshape of the positions. -/
def rows2 {α : Type} (pos2 : SPos2.Idx → BitVec 32) (tab : STab.Idx → α) : SOut.Idx → α :=
  fun i => tab (ix2 (n0 := 16) (n1 := 128) (rowOf (pos2 (posIx2 (i 0)))) (i 1))

theorem rows_apply {α : Type} (pos : SPos.Idx → BitVec 32) (tab : STab.Idx → α) (b : Fin 32768) (d : Fin 128) :
    rows pos tab (ix2 (n0 := 32768) (n1 := 128) b d) = tab (ix2 (n0 := 16) (n1 := 128) (rowOf (pos (posIx b))) d) := rfl

theorem rows2_apply {α : Type} (pos2 : SPos2.Idx → BitVec 32) (tab : STab.Idx → α) (b : Fin 32768) (d : Fin 128) :
    rows2 pos2 tab (ix2 (n0 := 32768) (n1 := 128) b d) = tab (ix2 (n0 := 16) (n1 := 128) (rowOf (pos2 (posIx2 b))) d) := rfl

/-- The mask the SparseCore kernel applies is the row: `(x &&& 15).toNat = x.toNat % 16`. -/
theorem toNat_and_15 (x : BitVec 32) : (x &&& 15#32).toNat = x.toNat % 16 := by
  rw [BitVec.toNat_and]
  exact Nat.and_two_pow_sub_one_eq_mod x.toNat 4

theorem rowOf_and_15 (x : BitVec 32) : rowOf (x &&& 15#32) = rowOf x := by
  apply Fin.ext
  show (x &&& 15#32).toNat % 16 = x.toNat % 16
  rw [toNat_and_15, Nat.mod_mod]

end Cert.Proof.Spec

end
-- ==== Proof.TileDefs.lean ====
/-
  The SparseCore kernel's protocol, as resources.  Thirty-two tiles (two SparseCores of sixteen vector subcores) each
  look up 1024 positions: tile `(c, s)` is worker `2 s + c`; it reads rows `8 (2 s + c) …` of the reshaped positions and
  writes eight blocks of 128 rows of the result, block `k` at rows `1024 (2 s + c) + 128 k …`.  Before that, tile 0 of each
  SparseCore stages the table into the SparseCore's shared memory, and all sixteen tiles meet at the subcore barrier.
  The barrier carries the table: tile 0's arrival in tile `j`'s round hands over read token `j` of the shared table, at
  the table's contents, so that what a tile gathers from after the barrier it holds, and knows.
-/
import proofs.«214958_g36086315221739_cont_8to1_b_1353_25_alg».proof.Proof.Ghost
import proofs.«214958_g36086315221739_cont_8to1_b_1353_25_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

/-- The reshaped positions, the sine table and the sine result, in HBM; a SparseCore's shared copy of the table. -/
abbrev posLoc (d : Dev nD) : Loc nD τ sig := (SparseCore.T d).loc main_v0
abbrev tabLoc (d : Dev nD) : Loc nD τ sig := (SparseCore.T d).loc main_arg3
abbrev outLoc (d : Dev nD) : Loc nD τ sig := (SparseCore.T d).loc main_v1
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl
theorem bound_zero : grid0.bound 0 = 2 := rfl
theorem bound_one : grid0.bound 1 = 16 := rfl

-- What the call finds in the arrays it reads: the reshaped positions and the table, per device.
variable (p2 : (d : Dev nD) → Buf (Elt F) (posLoc d)) (tb : (d : Dev nD) → Buf (Elt F) (tabLoc d))

/-- The table as the contents of a SparseCore's shared copy. -/
abbrev tbS (d : Dev nD) (c : Fin τ.nSC) : Buf (Elt F) (shLoc d c) := tb d

/-- The result the call leaves: the lookup of the reshaped positions in the table. -/
abbrev sinOut (d : Dev nD) : Buf (Elt F) (outLoc d) := Cert.Proof.Spec.rows2 (p2 d) (tb d)

/-- Tile `(c, s)`'s number among the thirty-two: the read token of the positions and of the table it is dealt. -/
abbrev tix (c : Fin τ.nSC) (s : Fin τ.nSub) : ℕ := 16 * c.val + s.val

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Read token `j` of SparseCore `c`'s shared table, at the table. -/
abbrev shTok (d : Dev nD) (c : Fin τ.nSC) (j : Fin τ.nSub) : sProp 𝕄 := shLoc d c ↦{Transfers.shareTokN fullShare j.val} tbS tb d c

/-- What a duty in tile `j`'s round hands over: tile 0's, read token `j` of the staged table; the others', nothing. -/
def bPay (g : GSem nD τ sig) (n : ℕ) : sProp 𝕄 :=
  match g with
  | ((d, .scVector c j), _) => if n = 0 then shTok tb d c j else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay tb g n
  amount_pos _ _ _ _ := Nat.one_pos

instance bRd_payload_storable (g : GSem nD τ sig) (r n : ℕ) : BI.Storable (upEmb : UEmb _ 𝕄) ((bRd (F := F) tb).payload g r n) := by
  show BI.Storable upEmb (bPay tb g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) tb).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) tb).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) tb).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) tb) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## A tile's share of the arrays -/

/-- The grid point of tile `(c, s)`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Block `k` of the result that the tile at `L` writes, as the kernel slices it: 128 rows from `1024 (2 s + c) + 128 k`. -/
abbrev oRect (L : grid0.Coords) (k : Fin 8) : Rect S32768x128 :=
  Rect.unit (s := S32768x128) (k0_off2 L (BitVec.ofNat 32 (128 * k.val))) S128x128.size (k0_off2_inb L k)
/-- Its elements. -/
abbrev oSet (L : grid0.Coords) (k : Fin 8) : Finset S32768x128.Idx :=
  (((Memref.whole main_v1_scv : Memref sig .scVector .hbm S32768x128 .f32).slice (oRect L k) (fun _ => rfl)).view.set)

/-- What the tile at `L` is dealt of the arrays: a read token of the positions and of the table, and its eight blocks of
    the result, at contents `fo`. -/
def tileArr (d : Dev nD) (L : grid0.Coords) (fo : Buf (Elt F) (outLoc d)) : sProp 𝕄 :=
  iprop((posLoc d ↦{Transfers.shareTokN fullShare (tix (cV L) (jV L))} p2 d)
    ∗ (tabLoc d ↦{Transfers.shareTokN fullShare (tix (cV L) (jV L))} tb d)
    ∗ bigSep Finset.univ fun k : Fin 8 => outLoc d ↦[oSet L k]{fullShare} fo)

/-- The part of the shared table tile `s` returns at its task's end: its read token, and for tile 0 also what the sixteen
    tokens left of the whole. -/
def shBack (d : Dev nD) (c : Fin τ.nSC) (s : Fin τ.nSub) : sProp 𝕄 :=
  iprop(shTok tb d c s ∗ if s.val = 0 then shLoc d c ↦{Transfers.shareDrop fullShare 16} tbS tb d c else iprop(emp))

/-- The shared table as tile `s` receives it: tile 0 whole, at contents not chosen; the others not at all. -/
def shIn (d : Dev nD) (c : Fin τ.nSC) (s : Fin τ.nSub) : sProp 𝕄 :=
  if s.val = 0 then iprop(∃ f, shLoc d c ↦{fullShare} f) else iprop(emp)

end Cert.Proof.KI

end
-- ==== Proof.TileOwn.lean ====
/-
  One tile's task, run once at a symbolic tile.
-/
import proofs.«214958_g36086315221739_cont_8to1_b_1353_25_alg».proof.Proof.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "posV" => (Memref.whole Cert.KernelIdeal.main_v0_scv : Memref Cert.KernelIdeal.sig Kind.scVector Space.hbm Cert.KernelIdeal.S256x128 EltTy.i32)
local notation "tabV" => (Memref.whole Cert.KernelIdeal.main_arg3_scv : Memref Cert.KernelIdeal.sig Kind.scVector Space.hbm Cert.KernelIdeal.S16x128 EltTy.f32)
local notation "outV" => (Memref.whole Cert.KernelIdeal.main_v1_scv : Memref Cert.KernelIdeal.sig Kind.scVector Space.hbm Cert.KernelIdeal.S32768x128 EltTy.f32)
local notation "idxV" => (Memref.whole Cert.KernelIdeal.cc0_scratch0 : Memref Cert.KernelIdeal.sig Kind.scVector Space.vmem Cert.KernelIdeal.S8x128 EltTy.i32)
local notation "shV" => (Memref.whole Cert.KernelIdeal.cc0_scratch1 : Memref Cert.KernelIdeal.sig Kind.scVector Space.shared Cert.KernelIdeal.S16x128 EltTy.f32)
local notation "bufV" => (Memref.whole Cert.KernelIdeal.cc0_scratch2 : Memref Cert.KernelIdeal.sig Kind.scVector Space.vmem Cert.KernelIdeal.S7x128x128 EltTy.f32)

variable (p2 : (d : Dev nD) → Buf (Elt F) (posLoc d)) (tb : (d : Dev nD) → Buf (Elt F) (tabLoc d))
variable [FloatOps F]
variable (d : Dev nD) (L : grid0.Coords)

abbrev VT : Thread nD τ := V d (cV L) (jV L)

/-! ## The tile's own semaphores and buffers -/

/-- The sixteen DMA cells the task names: the seven gather cells, the seven store cells, the two scoped copies' cells. -/
abbrev csem (k : Nat) (hk : k < 21 := by decide) : DmaSem sig := ⟨k, hk⟩
abbrev dcell (d : Dev nD) (c : Fin τ.nSC) (i : Fin τ.nSub) (k : Fin 16) : GSem nD τ sig := (V d c i, .dma (csem k.val (by have := k.isLt; omega)))

omit [FloatOps F] in
theorem dcell_mem (c : Fin τ.nSC) (i : Fin τ.nSub) (k : Fin 16) : dcell d c i k ∈ ownCells (V d c i) :=
  mem_ownCells.mpr ⟨rfl, (show ∀ s : DmaSem sig, s.val < 16 → (SemLoc.dma s : SemLoc sig).isScoped .scVector = true by decide) _ k.isLt⟩

/-- The sixteen cells at zero, one by one. -/
abbrev cells0 : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0
    ∗ semVal (VT d L, SemLoc.dma (csem 12)) 0 ∗ semVal (VT d L, SemLoc.dma (csem 13)) 0 ∗ semVal (VT d L, SemLoc.dma (csem 14)) 0
    ∗ semVal (VT d L, SemLoc.dma (csem 15)) 0)

omit [FloatOps F] in
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 16)) = {0, 1, 2, 3, 4, 5, 6, 7, 8, 9, 10, 11, 12, 13, 14, 15} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
/-- The index scratch and the row scratch are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch2 ↦{fullShare} f)
          ∗ bigSep (((ownRefs (τ := τ) (.scVector (cV L) (jV L))).erase ((Proc.scVector (cV L) (jV L)).devRef cc0_scratch0)).erase
              ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩)]

/-! ## The arrays in the program's spelling -/

omit [FloatOps F] in
theorem pts_posV (q : PosShare TreeShare) (f : Buf (Elt F) (posLoc d)) :
    ((posV).view.loc (VT d L) ↦{q} f : sProp 𝕄) = posLoc d ↦{q} f := rfl
omit [FloatOps F] in
theorem pts_tabV (q : PosShare TreeShare) (f : Buf (Elt F) (tabLoc d)) :
    ((tabV).view.loc (VT d L) ↦{q} f : sProp 𝕄) = tabLoc d ↦{q} f := rfl
omit [FloatOps F] in
theorem pts_shV (q : PosShare TreeShare) (f : Buf (Elt F) (shLoc d (cV L))) :
    ((shV).view.loc (VT d L) ↦{q} f : sProp 𝕄) = shLoc d (cV L) ↦{q} f := rfl
omit [FloatOps F] in
theorem pts_idxV (f : Buf (Elt F) ((VT d L).loc cc0_scratch0)) :
    ((idxV).view.loc (VT d L) ↦[(idxV).view.set]{fullShare} f : sProp 𝕄) = (VT d L).loc cc0_scratch0 ↦{fullShare} f := by
  rw [View.set_whole]
omit [FloatOps F] in
theorem pts_bufV (f : Buf (Elt F) ((VT d L).loc cc0_scratch2)) :
    ((bufV).view.loc (VT d L) ↦[(bufV).view.set]{fullShare} f : sProp 𝕄) = (VT d L).loc cc0_scratch2 ↦{fullShare} f := by
  rw [View.set_whole]

end Cert.Proof.KI

end
-- ==== Proof.LibMaskedFill.lean ====
/-
  A buffer filled whole and then rewritten IN PLACE, piece by piece, by an idempotent function.

  The setting: a list of writes (most recent first) whose oldest write fills the buffer, every later write storing
  at a rectangle `r` the image under `mk` of what a load through `r` then reads.  If `mk` is idempotent
  (`mk (mk x) = mk x`: a mask, a clamp, a rounding), the order of the rewrites and any overlap between their rectangles do
  not matter: at every index some rewrite has covered, the buffer holds `mk` of what the fill put there; and at every
  index at all, `mk` of the contents is still `mk` of the fill.  The statement is about `View.canon`, the contents a list of
  writes leaves as a function of the pieces alone, so it serves any view and any prior contents the pieces cover.
-/
import Idealize.ShloMosaic.Lib.Pipeline.Value
import Idealize.ShloMosaic.Lib.Pipeline.FrameBody

noncomputable section

namespace Cert.Proof.LibMaskedFill

open Idealize.ShloMosaic Idealize.ShloMosaic.View

variable {Val : EltTy → Type} [∀ e, Nonempty (Val e)] {s : Shape} {e : EltTy}

/-- The list of writes `L` leaves a buffer that is `raw` rewritten by `mk` exactly on `cov` (and possibly elsewhere):
    `mk` of the contents is `mk` of `raw` everywhere, and on `cov` the contents are `mk` of `raw`. -/
structure Masked (mk : Val e → Val e) (raw : s.Idx → Val e) (L : List (Piece Val s e)) (cov : s.Idx → Prop) : Prop where
  same : ∀ y, mk (canon L y) = mk (raw y)
  done : ∀ y, cov y → canon L y = mk (raw y)

/-- A list that leaves `raw` itself has rewritten nothing yet. -/
theorem Masked.base (mk : Val e → Val e) (L : List (Piece Val s e)) : Masked mk (canon L) L (fun _ => False) :=
  ⟨fun _ => rfl, fun _ h => h.elim⟩

/-- One more rewrite: the piece at `r` stores `mk` of what a load through `r` reads after the writes so far. What is
    covered afterwards is anything `cov'` that lies in `r` or was covered before. -/
theorem Masked.step {sig : RefSig} {κ : Kind} {sp : Space} (v : View sig κ sp s e) {mk : Val e → Val e} (hmk : ∀ x, mk (mk x) = mk x)
    {raw : s.Idx → Val e} {L : List (Piece Val s e)} {cov : s.Idx → Prop} (h : Masked mk raw L cov)
    (r : Rect s) (w : r.shape.Idx → Val e) (hw : ∀ x, w x = mk (v.readCov L r.toLoadRect x))
    (cov' : s.Idx → Prop) (hc : ∀ y, cov' y → y ∈ r.set ∨ cov y) :
    Masked mk raw (⟨r, w⟩ :: L) cov' := by
  have hw' : ∀ x, w x = mk (canon L (r.emb x)) := fun x => by rw [hw, readCov_eq_canon']; rfl
  constructor
  · intro y
    by_cases hy : y ∈ r.set
    · obtain ⟨x, rfl⟩ := r.exists_idx_of_mem hy
      rw [show r.idx x = r.emb x from rfl, canon_cons_emb, hw', hmk]; exact h.same _
    · rw [canon_cons_of_not_mem ⟨r, w⟩ L hy]; exact h.same y
  · intro y hcy
    by_cases hy : y ∈ r.set
    · obtain ⟨x, rfl⟩ := r.exists_idx_of_mem hy
      rw [show r.idx x = r.emb x from rfl, canon_cons_emb, hw']; exact h.same _
    · rw [canon_cons_of_not_mem ⟨r, w⟩ L hy]; exact h.done y ((hc y hcy).resolve_left hy)

/-- Once everything is covered, the buffer is `mk` of the fill. -/
theorem Masked.all {mk : Val e → Val e} {raw : s.Idx → Val e} {L : List (Piece Val s e)} {cov : s.Idx → Prop}
    (h : Masked mk raw L cov) (hcov : ∀ y, cov y) (y : s.Idx) : canon L y = mk (raw y) := h.done y (hcov y)

/-- The rewrite as the vector operations spell it — cast to another shape of the same size, a bitwise AND with a splat,
    cast back — is the AND index by index. -/
theorem shapeCast_andi_shapeCast {s t : Shape} {w : ℕ} (u : IVec s w) (c : BitVec w) (h : s.ShapeCasts t) (h' : t.ShapeCasts s) (x : s.Idx) :
    shapeCast s (andi (shapeCast t u h) (broadcast t c)) h' x = IntOp.andi (u x) c := by
  show IntOp.andi (u (Shape.reshapeEquiv _ (Shape.reshapeEquiv _ x))) c = _
  rw [Shape.reshapeEquiv_reshapeEquiv, Shape.reshapeEquiv_self]

end Cert.Proof.LibMaskedFill

end
-- ==== Proof.IdxFill.lean ====
/-
  The index scratch after the kernel's masking pass, in closed form.

  The kernel copies its eight rows of positions into the `[8, 128]` index scratch and then, sixteen lanes at a time,
  loads a piece, ANDs it with 15 and stores it back: sixty-four rewrites in place, piece `k` at row `k / 8`, lanes
  `16 (k % 8) …`.  Written here as one recursive list of writes (the copy, then the rewrites, most recent first), that list
  leaves, at every index, the copied word ANDed with 15.
-/
import proofs.«214958_g36086315221739_cont_8to1_b_1353_25_alg».proof.Proof.LibMaskedFill
import proofs.«214958_g36086315221739_cont_8to1_b_1353_25_alg».proof.Proof.Gen.KernelIdeal.Skeleton

noncomputable section

namespace Cert.Proof.KI

open Cert.KernelIdeal Cert.KernelIdeal.Gen
open Idealize.ShloMosaic Idealize.ShloMosaic.View
open Cert.Proof.LibMaskedFill

variable {F : FTy → Type} [FloatOps F]

/-- Rewrite `k` stays inside the scratch. -/
theorem fillRect_inb (k : ℕ) (hk : k < 64) : ∀ a, (![k / 8, 16 * (k % 8)] : Fin 2 → ℕ) a + S1x16.size a ≤ S8x128.size a := by
  intro a
  match a with
  | ⟨0, _⟩ => show k / 8 + 1 ≤ 8; omega
  | ⟨1, _⟩ => show 16 * (k % 8) + 16 ≤ 128; omega

/-- Where rewrite `k` goes: row `k / 8`, sixteen lanes from `16 (k % 8)`. -/
abbrev fillRect (k : ℕ) (hk : k < 64) : Rect S8x128 := Rect.unit (s := S8x128) ![k / 8, 16 * (k % 8)] S1x16.size (fillRect_inb k hk)

/-- The writes the index scratch has seen after `k` rewrites: the copy `dma`, then rewrite `j` storing the masked load
    of its own piece, for `j < k`; most recent first. -/
def fillList {sig : RefSig} {κ : Kind} {sp : Space} (v : View sig κ sp S8x128 .i32) (dma : Piece (Elt F) S8x128 .i32) :
    (k : ℕ) → k ≤ 64 → List (Piece (Elt F) S8x128 .i32)
  | 0, _ => [dma]
  | k + 1, h => ⟨fillRect k (by omega), k0_pay1 (F := F) (v.readCov (fillList v dma k (by omega)) (fillRect k (by omega)).toLoadRect)⟩ :: fillList v dma k (by omega)

/-- ANDing with 15 twice is ANDing once. -/
theorem andi15_idem (x : BitVec 32) : IntOp.andi (IntOp.andi x 15#32) 15#32 = IntOp.andi x 15#32 := by
  unfold IntOp.andi; rw [BitVec.and_assoc, BitVec.and_self]

/-- The rewrite's stored value, index by index. -/
theorem k0_pay1_apply (u : Vec F S1x16 .i32) (x : S1x16.Idx) : k0_pay1 (F := F) u x = IntOp.andi (u x) 15#32 := by
  unfold k0_pay1
  exact shapeCast_andi_shapeCast (s := S1x16) (t := S16) u 15#32 _ _ x

/-- After `k` rewrites the first `k` pieces (in row-major order of pieces) hold the masked copy. -/
theorem fill_masked {sig : RefSig} {κ : Kind} {sp : Space} (v : View sig κ sp S8x128 .i32) (dma : Piece (Elt F) S8x128 .i32) :
    ∀ (k : ℕ) (h : k ≤ 64), Masked (fun x : Elt F .i32 => IntOp.andi x 15#32) (canon [dma]) (fillList v dma k h)
      (fun y => 8 * (y 0).val + (y 1).val / 16 < k)
  | 0, _ => ⟨fun _ => rfl, fun _ hy => absurd hy (Nat.not_lt_zero _)⟩
  | k + 1, h => by
    refine Masked.step v andi15_idem (fill_masked v dma k (by omega)) (fillRect k (by omega)) _ (fun x => k0_pay1_apply _ x) _ ?_
    intro y hy
    by_cases hk : 8 * (y 0).val + (y 1).val / 16 < k
    · exact Or.inr hk
    · refine Or.inl (Rect.mem_set_unit.2 fun a => ?_)
      have h1 : (y 1).val < 128 := (y 1).isLt
      match a with
      | ⟨0, _⟩ => show k / 8 ≤ (y 0).val ∧ (y 0).val < k / 8 + 1; omega
      | ⟨1, _⟩ => show 16 * (k % 8) ≤ (y 1).val ∧ (y 1).val < 16 * (k % 8) + 16; omega

/-- After all sixty-four rewrites every word of the scratch is the copied word ANDed with 15. -/
theorem fill_all {sig : RefSig} {κ : Kind} {sp : Space} (v : View sig κ sp S8x128 .i32) (dma : Piece (Elt F) S8x128 .i32) (y : S8x128.Idx) :
    canon (fillList v dma 64 le_rfl) y = IntOp.andi (canon [dma] y) 15#32 :=
  (fill_masked v dma 64 le_rfl).all (fun y => by
    have h0 : (y 0).val < 8 := (y 0).isLt
    have h1 : (y 1).val < 128 := (y 1).isLt
    show 8 * (y 0).val + (y 1).val / 16 < 64
    omega) y

end Cert.Proof.KI

end
-- ==== Proof.TileViews.lean ====
/-
  One tile's task: the views the kernel slices its buffers by, and the values they come to hold.
-/
import proofs.«214958_g36086315221739_cont_8to1_b_1353_25_alg».proof.Proof.TileOwn
import proofs.«214958_g36086315221739_cont_8to1_b_1353_25_alg».proof.Proof.IdxFill

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "posV" => (Memref.whole Cert.KernelIdeal.main_v0_scv : Memref Cert.KernelIdeal.sig Kind.scVector Space.hbm Cert.KernelIdeal.S256x128 EltTy.i32)
local notation "tabV" => (Memref.whole Cert.KernelIdeal.main_arg3_scv : Memref Cert.KernelIdeal.sig Kind.scVector Space.hbm Cert.KernelIdeal.S16x128 EltTy.f32)
local notation "outV" => (Memref.whole Cert.KernelIdeal.main_v1_scv : Memref Cert.KernelIdeal.sig Kind.scVector Space.hbm Cert.KernelIdeal.S32768x128 EltTy.f32)
local notation "idxV" => (Memref.whole Cert.KernelIdeal.cc0_scratch0 : Memref Cert.KernelIdeal.sig Kind.scVector Space.vmem Cert.KernelIdeal.S8x128 EltTy.i32)
local notation "shV" => (Memref.whole Cert.KernelIdeal.cc0_scratch1 : Memref Cert.KernelIdeal.sig Kind.scVector Space.shared Cert.KernelIdeal.S16x128 EltTy.f32)
local notation "bufV" => (Memref.whole Cert.KernelIdeal.cc0_scratch2 : Memref Cert.KernelIdeal.sig Kind.scVector Space.vmem Cert.KernelIdeal.S7x128x128 EltTy.f32)

variable (p2 : (d : Dev nD) → Buf (Elt F) (posLoc d)) (tb : (d : Dev nD) → Buf (Elt F) (tabLoc d))
variable [FloatOps F]
variable (d : Dev nD) (L : grid0.Coords)

/-! ## The eight result blocks, one by one, as the kernel slices them -/

/-- Block `k` of the result as a memref: the kernel's own slice. -/
abbrev oBlk (k : Fin 8) : Memref sig .scVector .hbm S128x128 .f32 := (outV).slice (oRect L k) (fun _ => rfl)

omit [FloatOps F] in
theorem pts_oBlk (k : Fin 8) (f : Buf (Elt F) (outLoc d)) :
    ((oBlk L k).view.loc (VT d L) ↦[(oBlk L k).view.set]{fullShare} f : sProp 𝕄) = outLoc d ↦[oSet L k]{fullShare} f := rfl

omit [FloatOps F] in
theorem bigSep_fin8 (Φ : Fin 8 → sProp 𝕄) :
    (bigSep Finset.univ Φ) = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The index scratch after the masking pass -/

/-- A single whole write leaves its payload. -/
theorem canon_whole_piece {Val : EltTy → Type} [∀ e, Nonempty (Val e)] {S : Shape} {e : EltTy} (w : S.Idx → Val e) (y : S.Idx) :
    View.canon [(⟨Rect.whole S, w⟩ : View.Piece Val S e)] y = w y := by
  have h := View.canon_cons_emb (Val := Val) (Rect.whole S) w [] y
  rw [Rect.emb_whole_apply] at h
  exact h

/-! ## The copied positions and their masked form -/

/-- The eight rows of positions the tile copies, as the copy delivers them. -/
abbrev idxRaw : S8x128.Idx → Elt F .i32 :=
  ReadAs.same.apply (View.read (Elt F) ((posV).slice (Rect.unit (s := S256x128) (k0_off1 L) S8x128.size (k0_off1_inb L)) (fun _ => rfl)).view (p2 d))

/-- The copy as a write of the whole index scratch. -/
abbrev idxDma : View.Piece (Elt F) S8x128 .i32 := ⟨Rect.whole _, idxRaw p2 d L⟩

/-- The index scratch once all sixty-four pieces are rewritten: the copied positions, each ANDed with 15. -/
abbrev idxG : Buf (Elt F) ((VT d L).loc cc0_scratch0) := fun y => IntOp.andi (idxRaw p2 d L y) 15#32

omit [FloatOps F] in
/-- Every entry of it names a row of the sixteen-row table. -/
theorem idxG_lt (y : S8x128.Idx) : (idxG p2 d L y).toNat < 16 := by
  show (IntOp.andi (idxRaw p2 d L y) 15#32).toNat < 16
  unfold IntOp.andi
  rw [Cert.Proof.Spec.toNat_and_15]
  exact Nat.mod_lt _ (by decide)

omit [FloatOps F] in
theorem bigSep_fin7 (Φ : Fin 7 → sProp 𝕄) :
    (bigSep Finset.univ Φ) = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Cert.Proof.KI

end
-- ==== Proof.Pay.lean ====
/-
  What the launch handshakes of the one SparseCore call carry.  The call's start hands each SparseCore the arrays of its
  sixteen tiles; the sequencer deals each tile its share at `go` (tile 0 also the shared table, whole) and collects at
  `taskDone` the share with the result written and the tile's part of the shared table; each tile's proof consumes its
  barrier kit and owes its arrivals at the barrier.
-/
import proofs.«214958_g36086315221739_cont_8to1_b_1353_25_alg».proof.Proof.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (p2 : (d : Dev nD) → Buf (Elt F) (posLoc d)) (tb : (d : Dev nD) → Buf (Elt F) (tabLoc d))
variable (fo : (d : Dev nD) → Buf (Elt F) (outLoc d))
variable [FloatOps F]

/-- The grid point of the call's tile `(c, i)`. -/
abbrev LV (c : Fin ((K (F := F)).nCore 0)) (i : Fin ((K (F := F)).nSub 0)) : grid0.Coords :=
  coordsV (Fin.cast nCore_zero c) (Fin.cast nSub_zero i)

def P : (K (F := F)).Pay (nD := nD) (Val := Elt F) (Name := ℕ) (U := UU) where
  st := fun q d c => match q with
    | 0 => bigSep Finset.univ fun i : Fin ((K (F := F)).nSub 0) => tileArr p2 tb d (LV c i) (fo d)
  dn := fun q d c => match q with
    | 0 => bigSep Finset.univ fun i : Fin ((K (F := F)).nSub 0) => tileArr p2 tb d (LV c i) (sinOut p2 tb d)
  go := fun q d c i => match q with
    | 0 => iprop(tileArr p2 tb d (LV c i) (fo d) ∗ shIn d (cV (LV (F := F) c i)) (jV (LV (F := F) c i)))
  td := fun q d c i => match q with
    | 0 => iprop(tileArr p2 tb d (LV c i) (sinOut p2 tb d) ∗ shBack tb d (cV (LV (F := F) c i)) (jV (LV (F := F) c i)))
  x := fun _ thr => match thr with
    | (d, .scVector c i) => bkit tb d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

omit [FloatOps F] in
theorem tileArr_storable (d : Dev nD) (L : grid0.Coords) (f : Buf (Elt F) (outLoc d)) : BI.Storable (upEmb : UEmb _ 𝕄) (tileArr p2 tb d L f) := by
  unfold tileArr; infer_instance
omit [FloatOps F] in
theorem shIn_storable (d : Dev nD) (c : Fin τ.nSC) (s : Fin τ.nSub) : BI.Storable (upEmb : UEmb _ 𝕄) (shIn (F := F) d c s) := by
  unfold shIn; split <;> infer_instance
omit [FloatOps F] in
theorem shBack_storable (d : Dev nD) (c : Fin τ.nSC) (s : Fin τ.nSub) : BI.Storable (upEmb : UEmb _ 𝕄) (shBack tb d c s) := by
  unfold shBack; split <;> infer_instance

instance P_storable : (P (F := F) p2 tb fo).IsStorable where
  st q d c := match q with
    | 0 => by
      have := fun i => tileArr_storable p2 tb d (LV (F := F) c i) (fo d)
      show BI.Storable upEmb (bigSep Finset.univ fun i : Fin ((K (F := F)).nSub 0) => tileArr p2 tb d (LV c i) (fo d))
      infer_instance
  dn q d c := match q with
    | 0 => by
      have := fun i => tileArr_storable p2 tb d (LV (F := F) c i) (sinOut p2 tb d)
      show BI.Storable upEmb (bigSep Finset.univ fun i : Fin ((K (F := F)).nSub 0) => tileArr p2 tb d (LV c i) (sinOut p2 tb d))
      infer_instance
  go q d c i := match q with
    | 0 => by
      have := tileArr_storable p2 tb d (LV (F := F) c i) (fo d)
      have := shIn_storable (F := F) d (cV (LV (F := F) c i)) (jV (LV (F := F) c i))
      show BI.Storable upEmb iprop(tileArr p2 tb d (LV c i) (fo d) ∗ shIn d (cV (LV (F := F) c i)) (jV (LV (F := F) c i)))
      infer_instance
  td q d c i := match q with
    | 0 => by
      have := tileArr_storable p2 tb d (LV (F := F) c i) (sinOut p2 tb d)
      have := shBack_storable tb d (cV (LV (F := F) c i)) (jV (LV (F := F) c i))
      show BI.Storable upEmb iprop(tileArr p2 tb d (LV c i) (sinOut p2 tb d) ∗ shBack tb d (cV (LV (F := F) c i)) (jV (LV (F := F) c i)))
      infer_instance

end Cert.Proof.KI

end
-- ==== Proof.SplitGeom.lean ====
/-
  The geometry of the sine result as the SparseCore call's thirty-two tiles share it.  Tile `(c, i)` writes eight
  blocks of 128 rows; block `k` is rows `2048 i + 1024 c + 128 k ...`, that is band `16 i + 8 c + k` of the 256
  bands of 128 rows the `[32768, 128]` array is made of.  The bands are pairwise disjoint and cover the array, so the
  array whole is its 256 blocks, tile by tile.
-/
import proofs.«214958_g36086315221739_cont_8to1_b_1353_25_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The result's blocks: 256 bands of 128 rows -/

/-- Block `k` of the tile at `L` is a unit-stride rectangle of the result. -/
theorem oSet_eq (L : grid0.Coords) (k : Fin 8) : oSet L k = (oRect L k).set := by
  show ((View.whole (main_v1_scv : Ref sig .scVector)).slice (oRect L k)).set = _
  rw [View.set_slice]; exact Finset.map_refl

/-- Its elements: the rows `2048 (L 1) + 1024 (L 0) + 128 k ...` of the next 128, every column. -/
theorem mem_oSet (L : grid0.Coords) (k : Fin 8) (i : S32768x128.Idx) :
    i ∈ oSet L k ↔ 2048 * (L 1).val + 1024 * (L 0).val + 128 * k.val ≤ (i 0).val
      ∧ (i 0).val < 2048 * (L 1).val + 1024 * (L 0).val + 128 * k.val + 128 := by
  rw [oSet_eq, Rect.mem_set_unit, k0_off2_eq]
  constructor
  · intro h; exact h 0
  · intro h a
    match a with
    | ⟨0, _⟩ => exact h
    | ⟨1, _⟩ => exact ⟨Nat.zero_le _, by have := ValueIdx.idx2_lt1 i; show (i 1).val < 0 + 128; omega⟩

theorem LV_zero (c : Fin ((K (F := F)).nCore 0)) (i : Fin ((K (F := F)).nSub 0)) : ((LV (F := F) c i) 0).val = c.val := rfl
theorem LV_one (c : Fin ((K (F := F)).nCore 0)) (i : Fin ((K (F := F)).nSub 0)) : ((LV (F := F) c i) 1).val = i.val := rfl

/-- Block `k` of tile `(c, i)` is band `16 i + 8 c + k` of the 256 bands of 128 rows. -/
theorem mem_oSet_LV (c : Fin ((K (F := F)).nCore 0)) (i : Fin ((K (F := F)).nSub 0)) (k : Fin 8) (j : S32768x128.Idx) :
    j ∈ oSet (LV (F := F) c i) k ↔ 128 * (16 * i.val + 8 * c.val + k.val) ≤ (j 0).val
      ∧ (j 0).val < 128 * (16 * i.val + 8 * c.val + k.val) + 128 := by
  rw [mem_oSet, LV_zero, LV_one]
  constructor <;> intro h <;> omega

/-- Different blocks are disjoint. -/
theorem oSet_disjoint (t t' : Fin ((K (F := F)).nCore 0) × Fin ((K (F := F)).nSub 0) × Fin 8) (h : t ≠ t') :
    Disjoint (oSet (LV (F := F) t.1 t.2.1) t.2.2) (oSet (LV (F := F) t'.1 t'.2.1) t'.2.2) := by
  rw [Finset.disjoint_left]
  intro j hj hj'
  rw [mem_oSet_LV] at hj hj'
  apply h
  have hc : t.1.val < 2 := t.1.isLt
  have hc' : t'.1.val < 2 := t'.1.isLt
  have hi : t.2.1.val < 16 := t.2.1.isLt
  have hi' : t'.2.1.val < 16 := t'.2.1.isLt
  have hk := t.2.2.isLt
  have hk' := t'.2.2.isLt
  exact Prod.ext (Fin.ext (by omega)) (Prod.ext (Fin.ext (by omega)) (Fin.ext (by omega)))

/-- The 256 blocks cover the result. -/
theorem oSet_cover :
    (Finset.univ : Finset (Fin ((K (F := F)).nCore 0) × Fin ((K (F := F)).nSub 0) × Fin 8)).biUnion
        (fun t => oSet (LV (F := F) t.1 t.2.1) t.2.2) = Finset.univ := by
  apply Finset.eq_univ_of_forall
  intro j
  have hj := ValueIdx.idx2_lt0 j
  rw [Finset.mem_biUnion]
  refine ⟨(⟨(j 0).val / 128 % 16 / 8, by show _ < 2; omega⟩, ⟨(j 0).val / 128 / 16, by show _ < 16; omega⟩,
    ⟨(j 0).val / 128 % 8, by omega⟩), Finset.mem_univ _, ?_⟩
  rw [mem_oSet_LV]
  show 128 * (16 * ((j 0).val / 128 / 16) + 8 * ((j 0).val / 128 % 16 / 8) + (j 0).val / 128 % 8) ≤ (j 0).val
    ∧ (j 0).val < 128 * (16 * ((j 0).val / 128 / 16) + 8 * ((j 0).val / 128 % 16 / 8) + (j 0).val / 128 % 8) + 128
  omega

/-- The result whole is its 256 blocks, tile by tile. -/
theorem out_blocks (d : Dev nD) (g : Buf (Elt F) (outLoc d)) :
    (outLoc d ↦{fullShare} g : sProp 𝕄)
      = bigSep Finset.univ fun c : Fin ((K (F := F)).nCore 0) => bigSep Finset.univ fun i : Fin ((K (F := F)).nSub 0) =>
          bigSep Finset.univ fun k : Fin 8 => outLoc d ↦[oSet (LV (F := F) c i) k]{fullShare} g := by
  have e : (bigSep Finset.univ fun c : Fin ((K (F := F)).nCore 0) => bigSep Finset.univ fun i : Fin ((K (F := F)).nSub 0) =>
          bigSep Finset.univ fun k : Fin 8 => (outLoc d ↦[oSet (LV (F := F) c i) k]{fullShare} g : sProp 𝕄))
      = bigSep Finset.univ fun t : Fin ((K (F := F)).nCore 0) × Fin ((K (F := F)).nSub 0) × Fin 8 =>
          (outLoc d ↦[oSet (LV (F := F) t.1 t.2.1) t.2.2]{fullShare} g : sProp 𝕄) := by
    rw [bigSep_univ_prod]
    refine bigSep_congr fun c _ => ?_
    rw [bigSep_univ_prod]
  rw [e, ← pointsTo_biUnion Finset.univ (ℓ := outLoc d) (fun t : Fin ((K (F := F)).nCore 0) × Fin ((K (F := F)).nSub 0) × Fin 8 => oSet (LV (F := F) t.1 t.2.1) t.2.2)
    (fun t _ t' _ h => oSet_disjoint t t' h), oSet_cover]
  try rfl

end Cert.Proof.KI

end
-- ==== Proof.TileValsSlots.lean ====
/-
  The row scratch of a tile: seven slots of `[128, 128]`, the rows of its first axis.  A gather fills one slot whole
  and touches no other, so after any run of whole-slot writes a slot reads back the last payload written to it.
-/
import proofs.«214958_g36086315221739_cont_8to1_b_1353_25_alg».proof.Proof.TileViews
import proofs.«214958_g36086315221739_cont_8to1_b_1353_25_alg».proof.Proof.SplitGeom

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "posV" => (Memref.whole Cert.KernelIdeal.main_v0_scv : Memref Cert.KernelIdeal.sig Kind.scVector Space.hbm Cert.KernelIdeal.S256x128 EltTy.i32)
local notation "tabV" => (Memref.whole Cert.KernelIdeal.main_arg3_scv : Memref Cert.KernelIdeal.sig Kind.scVector Space.hbm Cert.KernelIdeal.S16x128 EltTy.f32)
local notation "outV" => (Memref.whole Cert.KernelIdeal.main_v1_scv : Memref Cert.KernelIdeal.sig Kind.scVector Space.hbm Cert.KernelIdeal.S32768x128 EltTy.f32)
local notation "idxV" => (Memref.whole Cert.KernelIdeal.cc0_scratch0 : Memref Cert.KernelIdeal.sig Kind.scVector Space.vmem Cert.KernelIdeal.S8x128 EltTy.i32)
local notation "shV" => (Memref.whole Cert.KernelIdeal.cc0_scratch1 : Memref Cert.KernelIdeal.sig Kind.scVector Space.shared Cert.KernelIdeal.S16x128 EltTy.f32)
local notation "bufV" => (Memref.whole Cert.KernelIdeal.cc0_scratch2 : Memref Cert.KernelIdeal.sig Kind.scVector Space.vmem Cert.KernelIdeal.S7x128x128 EltTy.f32)

/-! ## The seven slots of the row scratch -/

/-- Slot `j` of the row scratch: row `j` of its first axis, squeezed to a `[128, 128]` buffer. -/
abbrev rowSlot (j : ℕ) (hj : ∀ a, (![j, 0, 0] : Fin 3 → ℕ) a + S1x128x128.size a ≤ S7x128x128.size a) :
    Memref sig .scVector .vmem S128x128 .f32 :=
  ((bufV).slice (Rect.unit (s := S7x128x128) ![j, 0, 0] S1x128x128.size hj) (fun _ => rfl)).squeeze S128x128 squeezes_S1x128x128_S128x128

/-- A slot's elements are those of its rectangle. -/
theorem slot_set (j : ℕ) (hj : ∀ a, (![j, 0, 0] : Fin 3 → ℕ) a + S1x128x128.size a ≤ S7x128x128.size a) :
    (rowSlot j hj).view.set = (Rect.unit (s := S7x128x128) ![j, 0, 0] S1x128x128.size hj).set := by
  show (((View.whole (cc0_scratch2 : Ref sig .scVector)).slice (Rect.unit (s := S7x128x128) ![j, 0, 0] S1x128x128.size hj)).reshape
      S128x128 squeezes_S1x128x128_S128x128.numel_eq).set = _
  rw [View.set_reshape, View.set_slice]; exact Finset.map_refl

/-- Different slots share no element. -/
theorem slot_disjoint (i j : ℕ) (hi : ∀ a, (![i, 0, 0] : Fin 3 → ℕ) a + S1x128x128.size a ≤ S7x128x128.size a)
    (hj : ∀ a, (![j, 0, 0] : Fin 3 → ℕ) a + S1x128x128.size a ≤ S7x128x128.size a) (h : i ≠ j) :
    Disjoint (rowSlot j hj).view.set (rowSlot i hi).view.set := by
  rw [slot_set, slot_set]
  exact Rect.unit_disjoint 0 (by show j + 1 ≤ i ∨ i + 1 ≤ j; omega)

/-- Reading a slot just written whole gives what was written. -/
theorem slot_read_self (j : ℕ) (hj : ∀ a, (![j, 0, 0] : Fin 3 → ℕ) a + S1x128x128.size a ≤ S7x128x128.size a)
    (f : (rowSlot j hj).view.ty.Contents (Elt F)) (g : S128x128.Idx → Elt F .f32) :
    View.read (Elt F) (rowSlot j hj).view (View.write (Elt F) (rowSlot j hj).view f g Finset.univ) = g :=
  View.read_write_univ f g

/-- Reading a slot through a whole write of another slot reads what was there before. -/
theorem slot_read_other (i j : ℕ) (hi : ∀ a, (![i, 0, 0] : Fin 3 → ℕ) a + S1x128x128.size a ≤ S7x128x128.size a)
    (hj : ∀ a, (![j, 0, 0] : Fin 3 → ℕ) a + S1x128x128.size a ≤ S7x128x128.size a) (h : i ≠ j)
    (f : (rowSlot i hi).view.ty.Contents (Elt F)) (g : S128x128.Idx → Elt F .f32) :
    View.read (Elt F) (rowSlot j hj).view (View.write (Elt F) (rowSlot i hi).view f g Finset.univ)
      = View.read (Elt F) (rowSlot j hj).view f :=
  View.read_congr fun x hx => View.write_of_not_mem _ _ _
    (fun hm => Finset.disjoint_left.mp (slot_disjoint i j hi hj h) hx hm)

/-! ## The row scratch after the seven gathers (and after the eighth): each slot read back -/

/-- After the seven gathers slot 0 holds gather 0's payload. -/
theorem slot_read_0 (fb : (rowSlot 0 inb_S7x128x128_S1x128x128_0_0_0).view.ty.Contents (Elt F)) (g0 g1 g2 g3 g4 g5 g6 : S128x128.Idx → Elt F .f32) :
    View.read (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g0 := by
  refine (slot_read_other 6 0 inb_S7x128x128_S1x128x128_6_0_0 inb_S7x128x128_S1x128x128_0_0_0 (by decide) _ _).trans ?_
  refine (slot_read_other 5 0 inb_S7x128x128_S1x128x128_5_0_0 inb_S7x128x128_S1x128x128_0_0_0 (by decide) _ _).trans ?_
  refine (slot_read_other 4 0 inb_S7x128x128_S1x128x128_4_0_0 inb_S7x128x128_S1x128x128_0_0_0 (by decide) _ _).trans ?_
  refine (slot_read_other 3 0 inb_S7x128x128_S1x128x128_3_0_0 inb_S7x128x128_S1x128x128_0_0_0 (by decide) _ _).trans ?_
  refine (slot_read_other 2 0 inb_S7x128x128_S1x128x128_2_0_0 inb_S7x128x128_S1x128x128_0_0_0 (by decide) _ _).trans ?_
  refine (slot_read_other 1 0 inb_S7x128x128_S1x128x128_1_0_0 inb_S7x128x128_S1x128x128_0_0_0 (by decide) _ _).trans ?_
  exact slot_read_self 0 inb_S7x128x128_S1x128x128_0_0_0 _ _

/-- After the seven gathers slot 1 holds gather 1's payload. -/
theorem slot_read_1 (fb : (rowSlot 0 inb_S7x128x128_S1x128x128_0_0_0).view.ty.Contents (Elt F)) (g0 g1 g2 g3 g4 g5 g6 : S128x128.Idx → Elt F .f32) :
    View.read (Elt F) (rowSlot 1 inb_S7x128x128_S1x128x128_1_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g1 := by
  refine (slot_read_other 6 1 inb_S7x128x128_S1x128x128_6_0_0 inb_S7x128x128_S1x128x128_1_0_0 (by decide) _ _).trans ?_
  refine (slot_read_other 5 1 inb_S7x128x128_S1x128x128_5_0_0 inb_S7x128x128_S1x128x128_1_0_0 (by decide) _ _).trans ?_
  refine (slot_read_other 4 1 inb_S7x128x128_S1x128x128_4_0_0 inb_S7x128x128_S1x128x128_1_0_0 (by decide) _ _).trans ?_
  refine (slot_read_other 3 1 inb_S7x128x128_S1x128x128_3_0_0 inb_S7x128x128_S1x128x128_1_0_0 (by decide) _ _).trans ?_
  refine (slot_read_other 2 1 inb_S7x128x128_S1x128x128_2_0_0 inb_S7x128x128_S1x128x128_1_0_0 (by decide) _ _).trans ?_
  exact slot_read_self 1 inb_S7x128x128_S1x128x128_1_0_0 _ _

/-- After the seven gathers slot 2 holds gather 2's payload. -/
theorem slot_read_2 (fb : (rowSlot 0 inb_S7x128x128_S1x128x128_0_0_0).view.ty.Contents (Elt F)) (g0 g1 g2 g3 g4 g5 g6 : S128x128.Idx → Elt F .f32) :
    View.read (Elt F) (rowSlot 2 inb_S7x128x128_S1x128x128_2_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g2 := by
  refine (slot_read_other 6 2 inb_S7x128x128_S1x128x128_6_0_0 inb_S7x128x128_S1x128x128_2_0_0 (by decide) _ _).trans ?_
  refine (slot_read_other 5 2 inb_S7x128x128_S1x128x128_5_0_0 inb_S7x128x128_S1x128x128_2_0_0 (by decide) _ _).trans ?_
  refine (slot_read_other 4 2 inb_S7x128x128_S1x128x128_4_0_0 inb_S7x128x128_S1x128x128_2_0_0 (by decide) _ _).trans ?_
  refine (slot_read_other 3 2 inb_S7x128x128_S1x128x128_3_0_0 inb_S7x128x128_S1x128x128_2_0_0 (by decide) _ _).trans ?_
  exact slot_read_self 2 inb_S7x128x128_S1x128x128_2_0_0 _ _

/-- After the seven gathers slot 3 holds gather 3's payload. -/
theorem slot_read_3 (fb : (rowSlot 0 inb_S7x128x128_S1x128x128_0_0_0).view.ty.Contents (Elt F)) (g0 g1 g2 g3 g4 g5 g6 : S128x128.Idx → Elt F .f32) :
    View.read (Elt F) (rowSlot 3 inb_S7x128x128_S1x128x128_3_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g3 := by
  refine (slot_read_other 6 3 inb_S7x128x128_S1x128x128_6_0_0 inb_S7x128x128_S1x128x128_3_0_0 (by decide) _ _).trans ?_
  refine (slot_read_other 5 3 inb_S7x128x128_S1x128x128_5_0_0 inb_S7x128x128_S1x128x128_3_0_0 (by decide) _ _).trans ?_
  refine (slot_read_other 4 3 inb_S7x128x128_S1x128x128_4_0_0 inb_S7x128x128_S1x128x128_3_0_0 (by decide) _ _).trans ?_
  exact slot_read_self 3 inb_S7x128x128_S1x128x128_3_0_0 _ _

/-- After the seven gathers slot 4 holds gather 4's payload. -/
theorem slot_read_4 (fb : (rowSlot 0 inb_S7x128x128_S1x128x128_0_0_0).view.ty.Contents (Elt F)) (g0 g1 g2 g3 g4 g5 g6 : S128x128.Idx → Elt F .f32) :
    View.read (Elt F) (rowSlot 4 inb_S7x128x128_S1x128x128_4_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g4 := by
  refine (slot_read_other 6 4 inb_S7x128x128_S1x128x128_6_0_0 inb_S7x128x128_S1x128x128_4_0_0 (by decide) _ _).trans ?_
  refine (slot_read_other 5 4 inb_S7x128x128_S1x128x128_5_0_0 inb_S7x128x128_S1x128x128_4_0_0 (by decide) _ _).trans ?_
  exact slot_read_self 4 inb_S7x128x128_S1x128x128_4_0_0 _ _

/-- After the seven gathers slot 5 holds gather 5's payload. -/
theorem slot_read_5 (fb : (rowSlot 0 inb_S7x128x128_S1x128x128_0_0_0).view.ty.Contents (Elt F)) (g0 g1 g2 g3 g4 g5 g6 : S128x128.Idx → Elt F .f32) :
    View.read (Elt F) (rowSlot 5 inb_S7x128x128_S1x128x128_5_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g5 := by
  refine (slot_read_other 6 5 inb_S7x128x128_S1x128x128_6_0_0 inb_S7x128x128_S1x128x128_5_0_0 (by decide) _ _).trans ?_
  exact slot_read_self 5 inb_S7x128x128_S1x128x128_5_0_0 _ _

/-- After the seven gathers slot 6 holds gather 6's payload. -/
theorem slot_read_6 (fb : (rowSlot 0 inb_S7x128x128_S1x128x128_0_0_0).view.ty.Contents (Elt F)) (g0 g1 g2 g3 g4 g5 g6 : S128x128.Idx → Elt F .f32) :
    View.read (Elt F) (rowSlot 6 inb_S7x128x128_S1x128x128_6_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g6 := by
  exact slot_read_self 6 inb_S7x128x128_S1x128x128_6_0_0 _ _

/-- After the eighth gather, into slot 0 again, slot 0 holds the eighth payload. -/
theorem slot_read_7 (fb : (rowSlot 0 inb_S7x128x128_S1x128x128_0_0_0).view.ty.Contents (Elt F)) (g0 g1 g2 g3 g4 g5 g6 : S128x128.Idx → Elt F .f32) (g7 : S128x128.Idx → Elt F .f32) :
    View.read (Elt F) (rowSlot 0 inb_S7x128x128_S1x128x128_0_0_0).view (View.write (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) g7 Finset.univ) = g7 :=
  slot_read_self 0 inb_S7x128x128_S1x128x128_0_0_0 _ _

end Cert.Proof.KI

end
-- ==== Proof.TileValsGather.lean ====
/-
  What one gather of a tile delivers.  Gather `k` reads row `k` of the index scratch — the tile's positions
  `(16 (L 1) + 8 (L 0) + k, ·)`, each masked to its low four bits — as a list of 128 table rows, and copies those rows
  of the staged table: entry `(x₀, x₁)` of the payload is entry `(pos mod 16, x₁)` of the table, `pos` the position
  `(16 (L 1) + 8 (L 0) + k, x₀)`.
-/
import proofs.«214958_g36086315221739_cont_8to1_b_1353_25_alg».proof.Proof.TileViews
import proofs.«214958_g36086315221739_cont_8to1_b_1353_25_alg».proof.Proof.SplitGeom

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "posV" => (Memref.whole Cert.KernelIdeal.main_v0_scv : Memref Cert.KernelIdeal.sig Kind.scVector Space.hbm Cert.KernelIdeal.S256x128 EltTy.i32)
local notation "tabV" => (Memref.whole Cert.KernelIdeal.main_arg3_scv : Memref Cert.KernelIdeal.sig Kind.scVector Space.hbm Cert.KernelIdeal.S16x128 EltTy.f32)
local notation "outV" => (Memref.whole Cert.KernelIdeal.main_v1_scv : Memref Cert.KernelIdeal.sig Kind.scVector Space.hbm Cert.KernelIdeal.S32768x128 EltTy.f32)
local notation "idxV" => (Memref.whole Cert.KernelIdeal.cc0_scratch0 : Memref Cert.KernelIdeal.sig Kind.scVector Space.vmem Cert.KernelIdeal.S8x128 EltTy.i32)
local notation "shV" => (Memref.whole Cert.KernelIdeal.cc0_scratch1 : Memref Cert.KernelIdeal.sig Kind.scVector Space.shared Cert.KernelIdeal.S16x128 EltTy.f32)
local notation "bufV" => (Memref.whole Cert.KernelIdeal.cc0_scratch2 : Memref Cert.KernelIdeal.sig Kind.scVector Space.vmem Cert.KernelIdeal.S7x128x128 EltTy.f32)

variable (p2 : (d : Dev nD) → Buf (Elt F) (posLoc d)) (tb : (d : Dev nD) → Buf (Elt F) (tabLoc d))
variable (d : Dev nD) (L : grid0.Coords)

/-! ## Reading through the views the gather uses -/

/-- Row `k` of the index scratch, squeezed to a list of 128 words. -/
abbrev idxRow (k : ℕ) (hk : ∀ a, (![k, 0] : Fin 2 → ℕ) a + S1x128.size a ≤ S8x128.size a) : Memref sig .scVector .vmem S128 .i32 :=
  ((idxV).slice (Rect.unit (s := S8x128) ![k, 0] S1x128.size hk) (fun _ => rfl)).squeeze S128 squeezes_S1x128_S128

/-- The one index of `[1, 128]` with the row-major number of index `y` of `[128]`. -/
theorem unsqueeze_row (y : S128.Idx) :
    Shape.reshapeEquiv squeezes_S1x128_S128.numel_eq y = ValueIdx.ix2 (n0 := 1) (n1 := 128) 0 (y 0) := by
  refine Shape.reshapeEquiv_eq_of_rowMajor _ ?_
  rw [Shape.rowMajor_val_two, Shape.rowMajor_val_one]
  show 0 * 128 + (y 0).val = (y 0).val
  omega

/-- Entry `y` of row `k` of the index scratch is entry `(k, y)` of the scratch. -/
theorem read_rowV (k : ℕ) (hk8 : k < 8) (hk : ∀ a, (![k, 0] : Fin 2 → ℕ) a + S1x128.size a ≤ S8x128.size a)
    (f : S8x128.Idx → Elt F .i32) (y : S128.Idx) :
    View.read (Elt F) (idxRow k hk).view f y = f (ValueIdx.ix2 (n0 := 8) (n1 := 128) ⟨k, hk8⟩ (y 0)) := by
  show f ((Rect.unit (s := S8x128) ![k, 0] S1x128.size hk).emb (Shape.reshapeEquiv squeezes_S1x128_S128.numel_eq y)) = _
  rw [unsqueeze_row]
  refine congrArg f (funext fun a => Fin.ext ?_)
  match a with
  | ⟨0, _⟩ => show k + 1 * 0 = k; omega
  | ⟨1, _⟩ => show 0 + 1 * (y 0).val = (y 0).val; omega

/-- The tile's eight rows of positions: entry `y` is position `(16 (L 1) + 8 (L 0) + y₀, y₁)`. -/
theorem idxRaw_apply (y : S8x128.Idx) (h : 16 * (L 1).val + 8 * (L 0).val + (y 0).val < 256) :
    idxRaw p2 d L y = p2 d (ValueIdx.ix2 (n0 := 256) (n1 := 128) ⟨16 * (L 1).val + 8 * (L 0).val + (y 0).val, h⟩ (y 1)) := by
  show p2 d ((Rect.unit (s := S256x128) (k0_off1 L) S8x128.size (k0_off1_inb L)).emb y) = _
  refine congrArg (p2 d) (funext fun a => Fin.ext ?_)
  have e := k0_off1_eq L
  match a with
  | ⟨0, _⟩ =>
    show k0_off1 L 0 + 1 * (y 0).val = 16 * (L 1).val + 8 * (L 0).val + (y 0).val
    rw [e]
    show 16 * (L 1).val + 8 * (L 0).val + 1 * (y 0).val = 16 * (L 1).val + 8 * (L 0).val + (y 0).val
    omega
  | ⟨1, _⟩ =>
    show k0_off1 L 1 + 1 * (y 1).val = (y 1).val
    rw [e]
    show 0 + 1 * (y 1).val = (y 1).val
    omega

/-- The whole-table view reads the table. -/
theorem read_tabV (hs : ∀ a, (![0, 0] : Fin 2 → ℕ) a + S16x128.size a ≤ S16x128.size a) (f : S16x128.Idx → Elt F .f32) (i : S16x128.Idx) :
    View.read (Elt F) ((shV).slice (Rect.unit (s := S16x128) ![0, 0] S16x128.size hs) (fun _ => rfl)).view f i = f i := by
  show f ((Rect.unit (s := S16x128) ![0, 0] S16x128.size hs).emb i) = _
  refine congrArg f (funext fun a => Fin.ext ?_)
  match a with
  | ⟨0, _⟩ => show 0 + 1 * (i 0).val = (i 0).val; omega
  | ⟨1, _⟩ => show 0 + 1 * (i 1).val = (i 1).val; omega

/-- The masked positions: entry `(kk, c)` of the index scratch is position `(16 (L 1) + 8 (L 0) + kk, c)` modulo 16. -/
theorem idxG_toNat (kk : Fin 8) (c : Fin 128) (h : 16 * (L 1).val + 8 * (L 0).val + kk.val < 256) :
    (idxG p2 d L (ValueIdx.ix2 (n0 := 8) (n1 := 128) kk c)).toNat
      = (p2 d (ValueIdx.ix2 (n0 := 256) (n1 := 128) ⟨16 * (L 1).val + 8 * (L 0).val + kk.val, h⟩ c)).toNat % 16 := by
  show (IntOp.andi (idxRaw p2 d L (ValueIdx.ix2 (n0 := 8) (n1 := 128) kk c)) 15#32).toNat = _
  rw [idxRaw_apply p2 d L (ValueIdx.ix2 (n0 := 8) (n1 := 128) kk c) h]
  unfold IntOp.andi
  rw [Cert.Proof.Spec.toNat_and_15]

/-- The list index with row-major number `c` has coordinate `c`. -/
theorem list_coord {o : ℕ} (hn : S128.numel = o) (c : Fin o) : ((S128.rowMajor.symm (c.cast hn.symm)) 0).val = c.val := by
  have h := congrArg Fin.val (S128.rowMajor.apply_symm_apply (c.cast hn.symm))
  rw [Shape.rowMajor_val_one] at h
  exact h

/-- The row of the table that entry `c` of row `k` of the index scratch names. -/
theorem rows_val (k : ℕ) (hk8 : k < 8) (hk : ∀ a, (![k, 0] : Fin 2 → ℕ) a + S1x128.size a ≤ S8x128.size a)
    {o z : ℕ} (hn : S128.numel = o) (ho : o = 128)
    (hin : ∀ y, (View.read (Elt F) (idxRow k hk).view (idxG p2 d L) y).toNat < z) (c : Fin o)
    (h : 16 * (L 1).val + 8 * (L 0).val + k < 256) :
    (SparseCore.rows (View.read (Elt F) (idxRow k hk).view (idxG p2 d L)) hn hin c).val
      = (p2 d (ValueIdx.ix2 (n0 := 256) (n1 := 128) ⟨16 * (L 1).val + 8 * (L 0).val + k, h⟩ ⟨c.val, ho ▸ c.isLt⟩)).toNat % 16 := by
  show (View.read (Elt F) (idxRow k hk).view (idxG p2 d L) (S128.rowMajor.symm (c.cast hn.symm))).toNat = _
  rw [read_rowV k hk8 hk]
  refine (idxG_toNat p2 d L ⟨k, hk8⟩ _ h).trans ?_
  exact congrArg (fun c' : Fin 128 => (p2 d (ValueIdx.ix2 (n0 := 256) (n1 := 128) ⟨16 * (L 1).val + 8 * (L 0).val + k, h⟩ c')).toNat % 16)
    (Fin.ext (list_coord hn c))

/-! ## What a gather delivers -/

/-- Gather `k` of the tile delivers, at `(x₀, x₁)`, the table row that position `(16 (L 1) + 8 (L 0) + k, x₀)` selects, column `x₁`. -/
theorem gather_value (k : ℕ) (hk8 : k < 8) (hk : ∀ a, (![k, 0] : Fin 2 → ℕ) a + S1x128.size a ≤ S8x128.size a)
    (hs : ∀ a, (![0, 0] : Fin 2 → ℕ) a + S16x128.size a ≤ S16x128.size a) (hg : S16x128.Gathers 0 S128x128)
    (hn : S128.numel = S128x128.size hg.axis')
    (hin : ∀ y, (View.read (Elt F) (idxRow k hk).view (idxG p2 d L) y).toNat < S16x128.size hg.axis)
    (x : S128x128.Idx) :
    SparseCore.gatherPayload hg
        (View.read (Elt F) ((shV).slice (Rect.unit (s := S16x128) ![0, 0] S16x128.size hs) (fun _ => rfl)).view (tb d))
        (SparseCore.rows (View.read (Elt F) (idxRow k hk).view (idxG p2 d L)) hn hin) x
      = tb d (ValueIdx.ix2 (n0 := 16) (n1 := 128)
          (Cert.Proof.Spec.rowOf (p2 d (ValueIdx.ix2 (n0 := 256) (n1 := 128)
            ⟨16 * (L 1).val + 8 * (L 0).val + k, by
              have h1 : (L 1).val < 16 := (L 1).isLt
              have h0 : (L 0).val < 2 := (L 0).isLt
              omega⟩ (x 0)))) (x 1)) := by
  have h1 : (L 1).val < 16 := (L 1).isLt
  have h0 : (L 0).val < 2 := (L 0).isLt
  have hrow : 16 * (L 1).val + 8 * (L 0).val + k < 256 := by omega
  unfold SparseCore.gatherPayload
  rw [read_tabV]
  refine congrArg (tb d) (funext fun a => Fin.ext ?_)
  match a with
  | ⟨0, _⟩ =>
    refine (congrArg Fin.val (Shape.Gathers.idx_axis hg (SparseCore.rows (View.read (Elt F) (idxRow k hk).view (idxG p2 d L)) hn hin) x)).trans ?_
    exact rows_val p2 d L k hk8 hk hn rfl hin (x hg.axis') hrow
  | ⟨1, _⟩ =>
    exact Shape.Gathers.idx_of_ne hg _ x ⟨1, by decide⟩ (by decide)

end Cert.Proof.KI

end
-- ==== Proof.TileValsBlock.lean ====
/-
  A result block written whole.  Block `k` of the tile at `L` is rows `2048 (L 1) + 1024 (L 0) + 128 k ...` of the
  result; its entry `(x₀, x₁)` is flat position `128 (16 (L 1) + 8 (L 0) + k) + x₀`, that is position
  `(16 (L 1) + 8 (L 0) + k, x₀)` of the reshaped positions.  Written whole with the rows the gather delivered, the
  block holds the lookup on its elements.
-/
import proofs.«214958_g36086315221739_cont_8to1_b_1353_25_alg».proof.Proof.TileViews
import proofs.«214958_g36086315221739_cont_8to1_b_1353_25_alg».proof.Proof.SplitGeom

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "posV" => (Memref.whole Cert.KernelIdeal.main_v0_scv : Memref Cert.KernelIdeal.sig Kind.scVector Space.hbm Cert.KernelIdeal.S256x128 EltTy.i32)
local notation "tabV" => (Memref.whole Cert.KernelIdeal.main_arg3_scv : Memref Cert.KernelIdeal.sig Kind.scVector Space.hbm Cert.KernelIdeal.S16x128 EltTy.f32)
local notation "outV" => (Memref.whole Cert.KernelIdeal.main_v1_scv : Memref Cert.KernelIdeal.sig Kind.scVector Space.hbm Cert.KernelIdeal.S32768x128 EltTy.f32)
local notation "idxV" => (Memref.whole Cert.KernelIdeal.cc0_scratch0 : Memref Cert.KernelIdeal.sig Kind.scVector Space.vmem Cert.KernelIdeal.S8x128 EltTy.i32)
local notation "shV" => (Memref.whole Cert.KernelIdeal.cc0_scratch1 : Memref Cert.KernelIdeal.sig Kind.scVector Space.shared Cert.KernelIdeal.S16x128 EltTy.f32)
local notation "bufV" => (Memref.whole Cert.KernelIdeal.cc0_scratch2 : Memref Cert.KernelIdeal.sig Kind.scVector Space.vmem Cert.KernelIdeal.S7x128x128 EltTy.f32)

variable (p2 : (d : Dev nD) → Buf (Elt F) (posLoc d)) (tb : (d : Dev nD) → Buf (Elt F) (tabLoc d))
variable (d : Dev nD) (L : grid0.Coords)

/-! ## A result block written whole -/

/-- Where entry `x` of block `k` sits in the result: row `2048 (L 1) + 1024 (L 0) + 128 k + x₀`, column `x₁`. -/
theorem oBlk_emb_row (k : Fin 8) (x : S128x128.Idx) :
    (((oBlk L k).view.emb x) 0).val = 2048 * (L 1).val + 1024 * (L 0).val + 128 * k.val + (x 0).val := by
  show k0_off2 L (BitVec.ofNat 32 (128 * k.val)) 0 + 1 * (x 0).val = _
  rw [k0_off2_eq]
  show 2048 * (L 1).val + 1024 * (L 0).val + 128 * k.val + 1 * (x 0).val = _
  omega

theorem oBlk_emb_col (k : Fin 8) (x : S128x128.Idx) : (((oBlk L k).view.emb x) 1).val = (x 1).val := by
  show k0_off2 L (BitVec.ofNat 32 (128 * k.val)) 1 + 1 * (x 1).val = _
  rw [k0_off2_eq]
  show 0 + 1 * (x 1).val = _
  omega

/-- Block `k` written whole with the gathered rows holds the lookup on its elements. -/
theorem block_value (k : Fin 8) (fo : (oBlk L k).view.ty.Contents (Elt F)) (w : S128x128.Idx → Elt F .f32)
    (hw : ∀ x : S128x128.Idx, w x = tb d (ValueIdx.ix2 (n0 := 16) (n1 := 128)
          (Cert.Proof.Spec.rowOf (p2 d (ValueIdx.ix2 (n0 := 256) (n1 := 128)
            ⟨16 * (L 1).val + 8 * (L 0).val + k.val, by
              have h1 : (L 1).val < 16 := (L 1).isLt
              have h0 : (L 0).val < 2 := (L 0).isLt
              have h8 : k.val < 8 := by first | exact Fin.isLt _ | omega | decide
              omega⟩ (x 0)))) (x 1))) :
    ∀ i ∈ (oBlk L k).view.set,
      ((oBlk L k).view.writes (Elt F) fo [⟨Rect.whole S128x128, w⟩]) i = sinOut p2 tb d i := by
  intro i hi
  obtain ⟨x, rfl⟩ := View.exists_emb_of_mem_set _ hi
  have h1 : (L 1).val < 16 := (L 1).isLt
  have h0 : (L 0).val < 2 := (L 0).isLt
  have hk := k.isLt
  have hx0 : (x 0).val < 128 := ValueIdx.idx2_lt0 x
  have hx : (oBlk L k).view.emb x = ((oBlk L k).view.slice (Rect.whole S128x128)).emb x := by
    show _ = (oBlk L k).view.emb ((Rect.whole S128x128).emb x)
    rw [Rect.emb_whole_apply]
  rw [View.writes_singleton]
  refine (congrArg _ hx).trans ((View.write_emb_of_mem _ _ (Finset.mem_univ x)).trans ?_)
  show w x = sinOut p2 tb d ((oBlk L k).view.emb x)
  rw [hw x]
  have er := oBlk_emb_row L k x
  have ec := oBlk_emb_col L k x
  show _ = tb d (ValueIdx.ix2 (n0 := 16) (n1 := 128)
    (Cert.Proof.Spec.rowOf (p2 d (Cert.Proof.Spec.posIx2 (((oBlk L k).view.emb x) 0)))) (((oBlk L k).view.emb x) 1))
  have e1 : Cert.Proof.Spec.posIx2 (((oBlk L k).view.emb x) 0)
      = ValueIdx.ix2 (n0 := 256) (n1 := 128) ⟨16 * (L 1).val + 8 * (L 0).val + k.val, by omega⟩ (x 0) := by
    unfold Cert.Proof.Spec.posIx2
    refine funext fun a => Fin.ext ?_
    match a with
    | ⟨0, _⟩ => show (((oBlk L k).view.emb x) 0).val / 128 = 16 * (L 1).val + 8 * (L 0).val + k.val; omega
    | ⟨1, _⟩ => show (((oBlk L k).view.emb x) 0).val % 128 = (x 0).val; omega
  have e2 : (((oBlk L k).view.emb x) 1 : Fin 128) = x 1 := Fin.ext ec
  rw [e1, e2]

end Cert.Proof.KI

end
-- ==== Proof.TileVals.lean ====
/-
  The value of a tile's eight result blocks.  The tile gathers into the seven slots of its row scratch, then stores
  slot `k mod 7` as block `k`, the eighth gather re-using slot 0 after block 0 is stored.  Each slot read back holds
  the payload of the last gather into it; that payload is the table rows the tile's positions select; so each block,
  written whole from its slot, holds the lookup on its elements.
-/
import proofs.«214958_g36086315221739_cont_8to1_b_1353_25_alg».proof.Proof.TileViews
import proofs.«214958_g36086315221739_cont_8to1_b_1353_25_alg».proof.Proof.TileValsSlots
import proofs.«214958_g36086315221739_cont_8to1_b_1353_25_alg».proof.Proof.TileValsGather
import proofs.«214958_g36086315221739_cont_8to1_b_1353_25_alg».proof.Proof.TileValsBlock

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "posV" => (Memref.whole Cert.KernelIdeal.main_v0_scv : Memref Cert.KernelIdeal.sig Kind.scVector Space.hbm Cert.KernelIdeal.S256x128 EltTy.i32)
local notation "tabV" => (Memref.whole Cert.KernelIdeal.main_arg3_scv : Memref Cert.KernelIdeal.sig Kind.scVector Space.hbm Cert.KernelIdeal.S16x128 EltTy.f32)
local notation "outV" => (Memref.whole Cert.KernelIdeal.main_v1_scv : Memref Cert.KernelIdeal.sig Kind.scVector Space.hbm Cert.KernelIdeal.S32768x128 EltTy.f32)
local notation "idxV" => (Memref.whole Cert.KernelIdeal.cc0_scratch0 : Memref Cert.KernelIdeal.sig Kind.scVector Space.vmem Cert.KernelIdeal.S8x128 EltTy.i32)
local notation "shV" => (Memref.whole Cert.KernelIdeal.cc0_scratch1 : Memref Cert.KernelIdeal.sig Kind.scVector Space.shared Cert.KernelIdeal.S16x128 EltTy.f32)
local notation "bufV" => (Memref.whole Cert.KernelIdeal.cc0_scratch2 : Memref Cert.KernelIdeal.sig Kind.scVector Space.vmem Cert.KernelIdeal.S7x128x128 EltTy.f32)

variable (p2 : (d : Dev nD) → Buf (Elt F) (posLoc d)) (tb : (d : Dev nD) → Buf (Elt F) (tabLoc d))
variable (d : Dev nD) (L : grid0.Coords)

/-- Gather `k`'s payload, as the tile's body forms it: the staged table's rows named by row `k` of the index scratch. -/
abbrev gPay (k : ℕ) (hk : ∀ a, (![k, 0] : Fin 2 → ℕ) a + S1x128.size a ≤ S8x128.size a)
    (hn : S128.numel = S128x128.size gathers_S16x128_S128x128.axis')
    (hin : ∀ y, (View.read (Elt F) (idxRow k hk).view (idxG p2 d L) y).toNat < S16x128.size gathers_S16x128_S128x128.axis) :
    S128x128.Idx → Elt F .f32 :=
  SparseCore.gatherPayload gathers_S16x128_S128x128
    (View.read (Elt F) ((shV).slice (Rect.unit (s := S16x128) ![0, 0] S16x128.size inb_S16x128_S16x128_0_0) (fun _ => rfl)).view (tb d))
    (SparseCore.rows (View.read (Elt F) (idxRow k hk).view (idxG p2 d L)) hn hin)

/-- Its value. -/
theorem gPay_value (k : ℕ) (hk8 : k < 8) (hk : ∀ a, (![k, 0] : Fin 2 → ℕ) a + S1x128.size a ≤ S8x128.size a)
    (hn : S128.numel = S128x128.size gathers_S16x128_S128x128.axis')
    (hin : ∀ y, (View.read (Elt F) (idxRow k hk).view (idxG p2 d L) y).toNat < S16x128.size gathers_S16x128_S128x128.axis)
    (x : S128x128.Idx) :
    gPay p2 tb d L k hk hn hin x = tb d (ValueIdx.ix2 (n0 := 16) (n1 := 128)
          (Cert.Proof.Spec.rowOf (p2 d (ValueIdx.ix2 (n0 := 256) (n1 := 128)
            ⟨16 * (L 1).val + 8 * (L 0).val + k, by
              have h1 : (L 1).val < 16 := (L 1).isLt
              have h0 : (L 0).val < 2 := (L 0).isLt
              have h8 : k < 8 := by first | exact Fin.isLt _ | omega | decide
              omega⟩ (x 0)))) (x 1)) :=
  gather_value p2 tb d L k hk8 hk inb_S16x128_S16x128_0_0 gathers_S16x128_S128x128 hn hin x

/-! ## The eight blocks, as the tile's run leaves them -/

/-- Block 0: written whole with slot 0 of the row scratch read back after the seven gathers, it holds the lookup. -/
theorem block_0 (fo : (oBlk L 0).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 0).view.set,
      ((oBlk L 0).view.writes (Elt F) fo [⟨Rect.whole S128x128,
        ReadAs.same.apply (View.read (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 0 inb_S8x128_S1x128_0_0 hn hin0) :=
    slot_read_0 _ _ _ _ _ _ _ _
  rw [e]
  exact block_value p2 tb d L 0 fo _ (fun x => gPay_value p2 tb d L 0 (by decide) inb_S8x128_S1x128_0_0 hn hin0 x)

/-- Block 1: written whole with slot 1 of the row scratch read back after the seven gathers, it holds the lookup. -/
theorem block_1 (fo : (oBlk L 1).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 1).view.set,
      ((oBlk L 1).view.writes (Elt F) fo [⟨Rect.whole S128x128,
        ReadAs.same.apply (View.read (Elt F) (rowSlot 1 inb_S7x128x128_S1x128x128_1_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 1 inb_S7x128x128_S1x128x128_1_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 1 inb_S8x128_S1x128_1_0 hn hin1) :=
    slot_read_1 _ _ _ _ _ _ _ _
  rw [e]
  exact block_value p2 tb d L 1 fo _ (fun x => gPay_value p2 tb d L 1 (by decide) inb_S8x128_S1x128_1_0 hn hin1 x)

/-- Block 2: written whole with slot 2 of the row scratch read back after the seven gathers, it holds the lookup. -/
theorem block_2 (fo : (oBlk L 2).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 2).view.set,
      ((oBlk L 2).view.writes (Elt F) fo [⟨Rect.whole S128x128,
        ReadAs.same.apply (View.read (Elt F) (rowSlot 2 inb_S7x128x128_S1x128x128_2_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 2 inb_S7x128x128_S1x128x128_2_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 2 inb_S8x128_S1x128_2_0 hn hin2) :=
    slot_read_2 _ _ _ _ _ _ _ _
  rw [e]
  exact block_value p2 tb d L 2 fo _ (fun x => gPay_value p2 tb d L 2 (by decide) inb_S8x128_S1x128_2_0 hn hin2 x)

/-- Block 3: written whole with slot 3 of the row scratch read back after the seven gathers, it holds the lookup. -/
theorem block_3 (fo : (oBlk L 3).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 3).view.set,
      ((oBlk L 3).view.writes (Elt F) fo [⟨Rect.whole S128x128,
        ReadAs.same.apply (View.read (Elt F) (rowSlot 3 inb_S7x128x128_S1x128x128_3_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 3 inb_S7x128x128_S1x128x128_3_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 3 inb_S8x128_S1x128_3_0 hn hin3) :=
    slot_read_3 _ _ _ _ _ _ _ _
  rw [e]
  exact block_value p2 tb d L 3 fo _ (fun x => gPay_value p2 tb d L 3 (by decide) inb_S8x128_S1x128_3_0 hn hin3 x)

/-- Block 4: written whole with slot 4 of the row scratch read back after the seven gathers, it holds the lookup. -/
theorem block_4 (fo : (oBlk L 4).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 4).view.set,
      ((oBlk L 4).view.writes (Elt F) fo [⟨Rect.whole S128x128,
        ReadAs.same.apply (View.read (Elt F) (rowSlot 4 inb_S7x128x128_S1x128x128_4_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 4 inb_S7x128x128_S1x128x128_4_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 4 inb_S8x128_S1x128_4_0 hn hin4) :=
    slot_read_4 _ _ _ _ _ _ _ _
  rw [e]
  exact block_value p2 tb d L 4 fo _ (fun x => gPay_value p2 tb d L 4 (by decide) inb_S8x128_S1x128_4_0 hn hin4 x)

/-- Block 5: written whole with slot 5 of the row scratch read back after the seven gathers, it holds the lookup. -/
theorem block_5 (fo : (oBlk L 5).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 5).view.set,
      ((oBlk L 5).view.writes (Elt F) fo [⟨Rect.whole S128x128,
        ReadAs.same.apply (View.read (Elt F) (rowSlot 5 inb_S7x128x128_S1x128x128_5_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 5 inb_S7x128x128_S1x128x128_5_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 5 inb_S8x128_S1x128_5_0 hn hin5) :=
    slot_read_5 _ _ _ _ _ _ _ _
  rw [e]
  exact block_value p2 tb d L 5 fo _ (fun x => gPay_value p2 tb d L 5 (by decide) inb_S8x128_S1x128_5_0 hn hin5 x)

/-- Block 6: written whole with slot 6 of the row scratch read back after the seven gathers, it holds the lookup. -/
theorem block_6 (fo : (oBlk L 6).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 6).view.set,
      ((oBlk L 6).view.writes (Elt F) fo [⟨Rect.whole S128x128,
        ReadAs.same.apply (View.read (Elt F) (rowSlot 6 inb_S7x128x128_S1x128x128_6_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 6 inb_S7x128x128_S1x128x128_6_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 6 inb_S8x128_S1x128_6_0 hn hin6) :=
    slot_read_6 _ _ _ _ _ _ _ _
  rw [e]
  exact block_value p2 tb d L 6 fo _ (fun x => gPay_value p2 tb d L 6 (by decide) inb_S8x128_S1x128_6_0 hn hin6 x)

/-- Block 7: written whole with slot 0 of the row scratch read back after the eighth gather, it holds the lookup. -/
theorem block_7 (fo : (oBlk L 7).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis)
    (hin7 : ∀ y, (View.read (Elt F) (idxRow 7 inb_S8x128_S1x128_7_0).view (idxG p2 d L) y).toNat < S16x128.size gathers_S16x128_S128x128.axis) :
    ∀ i ∈ (oBlk L 7).view.set,
      ((oBlk L 7).view.writes (Elt F) fo [⟨Rect.whole S128x128,
        ReadAs.same.apply (View.read (Elt F) (rowSlot 0 inb_S7x128x128_S1x128x128_0_0_0).view (View.write (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ) (gPay p2 tb d L 7 inb_S8x128_S1x128_7_0 hn hin7) Finset.univ))⟩]) i = sinOut p2 tb d i := by
  have e : ReadAs.same.apply (View.read (Elt F) (rowSlot 0 inb_S7x128x128_S1x128x128_0_0_0).view (View.write (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ) (gPay p2 tb d L 7 inb_S8x128_S1x128_7_0 hn hin7) Finset.univ)) = (gPay p2 tb d L 7 inb_S8x128_S1x128_7_0 hn hin7) :=
    slot_read_7 _ _ _ _ _ _ _ _ _
  rw [e]
  exact block_value p2 tb d L 7 fo _ (fun x => gPay_value p2 tb d L 7 (by decide) inb_S8x128_S1x128_7_0 hn hin7 x)

end Cert.Proof.KI

end
-- ==== Proof.TileBody.lean ====
/-
  One tile's task, run once at a symbolic tile: the body.
-/
import proofs.«214958_g36086315221739_cont_8to1_b_1353_25_alg».proof.Proof.TileViews
import proofs.«214958_g36086315221739_cont_8to1_b_1353_25_alg».proof.Proof.TileVals
import proofs.«214958_g36086315221739_cont_8to1_b_1353_25_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "posV" => (Memref.whole Cert.KernelIdeal.main_v0_scv : Memref Cert.KernelIdeal.sig Kind.scVector Space.hbm Cert.KernelIdeal.S256x128 EltTy.i32)
local notation "tabV" => (Memref.whole Cert.KernelIdeal.main_arg3_scv : Memref Cert.KernelIdeal.sig Kind.scVector Space.hbm Cert.KernelIdeal.S16x128 EltTy.f32)
local notation "outV" => (Memref.whole Cert.KernelIdeal.main_v1_scv : Memref Cert.KernelIdeal.sig Kind.scVector Space.hbm Cert.KernelIdeal.S32768x128 EltTy.f32)
local notation "idxV" => (Memref.whole Cert.KernelIdeal.cc0_scratch0 : Memref Cert.KernelIdeal.sig Kind.scVector Space.vmem Cert.KernelIdeal.S8x128 EltTy.i32)
local notation "shV" => (Memref.whole Cert.KernelIdeal.cc0_scratch1 : Memref Cert.KernelIdeal.sig Kind.scVector Space.shared Cert.KernelIdeal.S16x128 EltTy.f32)
local notation "bufV" => (Memref.whole Cert.KernelIdeal.cc0_scratch2 : Memref Cert.KernelIdeal.sig Kind.scVector Space.vmem Cert.KernelIdeal.S7x128x128 EltTy.f32)

variable (p2 : (d : Dev nD) → Buf (Elt F) (posLoc d)) (tb : (d : Dev nD) → Buf (Elt F) (tabLoc d))
variable [FloatOps F]
variable (d : Dev nD) (L : grid0.Coords)

/-! ## Between the first part of the body and the rest -/

/-- The eight result blocks at contents `f`. -/
abbrev out8 (f : Buf (Elt F) (outLoc d)) : sProp 𝕄 :=
  iprop((outLoc d ↦[oSet L 0]{fullShare} f) ∗ (outLoc d ↦[oSet L 1]{fullShare} f) ∗ (outLoc d ↦[oSet L 2]{fullShare} f) ∗ (outLoc d ↦[oSet L 3]{fullShare} f)
    ∗ (outLoc d ↦[oSet L 4]{fullShare} f) ∗ (outLoc d ↦[oSet L 5]{fullShare} f) ∗ (outLoc d ↦[oSet L 6]{fullShare} f) ∗ (outLoc d ↦[oSet L 7]{fullShare} f))

/-- The subcore's other buffers and semaphores, which the task never names. -/
abbrev restBufs : sProp 𝕄 :=
  bigSep (((ownRefs (τ := τ) (.scVector (cV L) (jV L))).erase ((Proc.scVector (cV L) (jV L)).devRef cc0_scratch0)).erase
      ((Proc.scVector (cV L) (jV L)).devRef cc0_scratch2)) fun b => iprop(∃ f, ((d, b) : Loc nD τ sig) ↦{fullShare} f)
abbrev restSems : sProp 𝕄 := bigSep ((ownCells (VT d L)) \ Finset.univ.image (dcell d (cV L) (jV L))) fun g => semVal g 0

/-- What the tile holds after the first part of its body: the staged table's token (tile 0: and the remainder), the
    index scratch after the copy and the first two rewrites, everything else as dealt, the barrier behind it. -/
def midState (O : CellTallies nD τ sig (HIx 1)) (W : Waits sig (HIx 1)) (fo : Buf (Elt F) (outLoc d)) : sProp 𝕄 :=
  iprop(levAts (K (F := F)).L (K (F := F)).lev
    ∗ (posLoc d ↦{Transfers.shareTokN fullShare (tix (cV L) (jV L))} p2 d)
    ∗ (tabLoc d ↦{Transfers.shareTokN fullShare (tix (cV L) (jV L))} tb d)
    ∗ (∃ fi, (VT d L).loc cc0_scratch0 ↦{fullShare} (idxV).view.writes (Elt F) fi (fillList (F := F) (idxV).view (idxDma p2 d L) 2 (by decide)))
    ∗ (∃ f, (VT d L).loc cc0_scratch2 ↦{fullShare} f)
    ∗ out8 d L fo
    ∗ shBack tb d (cV L) (jV L)
    ∗ restBufs d L ∗ cells0 d L ∗ restSems d L
    ∗ ∃ W1, ⌜∀ p ∈ W1, p ∈ W ∨ p.2 = none ∨ p.2 = some (0 : Fin 1)⌝ ∗ owes (VT d L) O W1)

/-! ## The staging condition, decided per tile -/

omit [FloatOps F] in
/-- The kernel's test "this is vector subcore 0", as it computes it on words, at subcore 0 and elsewhere. -/
theorem stage_cond_pos : ∀ s : Fin 16, s.val = 0 →
    Scalar.cmpi .ne (Scalar.extui (Scalar.cmpi .eq (BitVec.ofNat 32 s.val) 0#32)) 0#32 = 1#1 := by decide
omit [FloatOps F] in
theorem stage_cond_neg : ∀ s : Fin 16, ¬ s.val = 0 →
    ¬ Scalar.cmpi .ne (Scalar.extui (Scalar.cmpi .eq (BitVec.ofNat 32 s.val) 0#32)) 0#32 = 1#1 := by decide

/-! ## Across the barrier -/

omit [FloatOps F] in
/-- Tile 0's arrivals hand over the sixteen read tokens of the staged table, one to each tile's round. -/
theorem pays_intro_zero (hs : (jV L).val = 0) :
    (bigSep Finset.univ fun i : Fin 16 => shLoc d (cV L) ↦{Transfers.shareTok fullShare 16 i} tbS tb d (cV L) : sProp 𝕄)
      ⊢ (bigSep Finset.univ fun j : Fin (grid0.bound 1) => (bRd (F := F) tb).payload (bcell d (cV L) (j.castLE hsub0)) 0 (jV L).val : sProp 𝕄) := by
  refine Entails.of_eq (bigSep_congr fun j _ => ?_)
  show _ = bPay tb (bcell d (cV L) (j.castLE hsub0)) (jV L).val
  unfold bPay; dsimp only
  rw [if_pos hs]; rfl

omit [FloatOps F] in
/-- The other tiles' arrivals hand over nothing. -/
theorem pays_intro_succ (hs : ¬ (jV L).val = 0) :
    (iprop(emp) : sProp 𝕄)
      ⊢ (bigSep Finset.univ fun j : Fin (grid0.bound 1) => (bRd (F := F) tb).payload (bcell d (cV L) (j.castLE hsub0)) 0 (jV L).val : sProp 𝕄) := by
  rw [show (bigSep Finset.univ fun j : Fin (grid0.bound 1) => (bRd (F := F) tb).payload (bcell d (cV L) (j.castLE hsub0)) 0 (jV L).val : sProp 𝕄)
      = bigSep Finset.univ fun _ : Fin (grid0.bound 1) => (iprop(emp) : sProp 𝕄) from
      bigSep_congr fun j _ => by
        show bPay tb (bcell d (cV L) (j.castLE hsub0)) (jV L).val = _
        unfold bPay; dsimp only
        rw [if_neg hs], bigSep_emp']

omit [FloatOps F] in
/-- What a tile's own round collected holds its read token of the staged table. -/
theorem pays_elim : (bigSep ((bRd (F := F) tb).duties (bcell d (cV L) (jV L)) 0 \ ∅) fun n => (bRd (F := F) tb).payload (bcell d (cV L) (jV L)) 0 n)
    ⊢ (shTok tb d (cV L) (jV L) : sProp 𝕄) := by
  rw [Finset.sdiff_empty, bRd_duties₀]
  refine (bigSep_elim (i := 0) ((Finset.mem_image (f := Fin.val) (s := (Finset.univ : Finset (Fin τ.nSub)))).mpr ⟨(⟨0, by decide⟩ : Fin τ.nSub), Finset.mem_univ _, rfl⟩)).trans ?_
  show bPay tb (bcell d (cV L) (jV L)) 0 ⊢ _
  unfold bPay; dsimp only
  rw [if_pos rfl]

set_option maxHeartbeats 4000000 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (fo : Buf (Elt F) (outLoc d)) :
    iprop(levAts (K (F := F)).L (K (F := F)).lev ∗ bkit tb d (cV L) (jV L)
        ∗ (tileArr p2 tb d L fo ∗ shIn d (cV L) (jV L))
        ∗ scopedBufs (VT d L) ∗ scopedSems0 (VT d L) ∗ owes (VT d L) (O + oxV d (cV L)) W)
      ⊢ wp frame (wpE (defs₀ (F := F)) 𝒱₀ (VT d L) none) Set.univ
          (cc0_body L posV (Memref.isWhole_whole _) tabV (Memref.isWhole_whole _) outV (Memref.isWhole_whole _) idxV (Memref.isWhole_whole _)
            shV (Memref.isWhole_whole _) bufV (Memref.isWhole_whole _) cc0_scratch3 cc0_scratch4 cc0_scoped0 cc0_scoped1)
          fun _ => iprop((tileArr p2 tb d L (sinOut p2 tb d) ∗ shBack tb d (cV L) (jV L))
            ∗ scopedBufs (VT d L) ∗ scopedSems0 (VT d L)
            ∗ ∃ W', ⌜∀ p ∈ W', p ∈ W ∨ p.2 = none ∨ p.2 = some (0 : Fin 1)⌝ ∗ owes (VT d L) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold bkit tileArr
  rw [bigSep_fin8 (fun k : Fin 8 => outLoc d ↦[oSet L k]{fullShare} fo), bigSep_fin8 (fun k : Fin 8 => outLoc d ↦[oSet L k]{fullShare} sinOut p2 tb d)]
  have hO' : ∀ g, (O + oxV d (cV L)) g none = 0 := fun g => by rw [Pi.add_apply, Finsupp.add_apply, hO g, oxV_none]
  rw [wp_bind]
  refine BIBase.Entails.trans ?_ (wp_mono _ _ _ (Q := fun _ => midState p2 tb d L O W fo) fun v2 => ?_)
  · -- the first part: the staging (tile 0), the barrier, the copy of the positions, two rewrites
    unfold shIn midState shBack
    by_cases hs : (jV L).val = 0
    · rw [if_pos hs, if_pos hs]
      have hcond := stage_cond_pos (Fin.cast bound_one (L 1)) hs
      iintro ⟨#Hlv, ⟨⟨%κ, #Hinv⟩, Htoks, #Hrch, Hat, Hcred⟩, ⟨⟨Hpos, Htab, ⟨Ho0, Ho1, Ho2, Ho3, Ho4, Ho5, Ho6, Ho7⟩⟩, ⟨%fsh, Hsh⟩⟩, ⟨⟨%fi, Hidx⟩, ⟨%fb, Hbuf⟩, Hbufs⟩, ⟨⟨Hc0, Hc1, Hc2, Hc3, Hc4, Hc5, Hc6, Hc7, Hc8, Hc9, Hc10, Hc11, Hc12, Hc13, Hc14, Hc15⟩, Hsems⟩, HO⟩
      ihave Hmw1 := (show levAts (K (F := F)).L (K (F := F)).lev ⊢ Transfers.MayWaits (VT d L) (default : HIx 1) (O + oxV d (cV L)) from
        (K (F := F)).mayWaits_none (thr := VT d L) hO') $$ Hlv
      ihave Hmw2 := (show levAts (K (F := F)).L (K (F := F)).lev ⊢ Transfers.MayWaits (VT d L) (default : HIx 1) O from
        (K (F := F)).mayWaits_none (thr := VT d L) hO) $$ Hlv
      ihave Hpos' := (Entails.of_eq (pts_posV (F := F) d L _ _).symm) $$ Hpos
      ihave Htab' := (Entails.of_eq (pts_tabV (F := F) d L _ _).symm) $$ Htab
      ihave Hidx' := (Entails.of_eq (pts_idxV (F := F) d L _).symm) $$ Hidx
      ihave Hbuf' := (Entails.of_eq (pts_bufV (F := F) d L _).symm) $$ Hbuf
      ihave Hsh' := (Entails.of_eq (pts_shV (F := F) d L _ _).symm) $$ Hsh
      sl_exec
      -- the staged table, whole: split into the remainder and the sixteen read tokens, which the arrivals hand over
      ihave Hsh3 := (Entails.of_eq (congrArg (fun f => ((shV).view.loc (VT d L) ↦{fullShare} f : sProp 𝕄)) (View.write_whole_univ cc0_scratch1 _ _))) $$ Hsh'
      ihave Hsh4 := (show ((shV).view.loc (VT d L) ↦{fullShare} _root_.Cert.Proof.KI.tile_body.sl.dma0 tb d : sProp 𝕄) ⊢ (shLoc d (cV L) ↦{fullShare} tbS tb d (cV L) : sProp 𝕄) from BI.Entails.refl _) $$ Hsh3
      ihave Hspl := (Transfers.pointsTo_toks_split (f := tbS tb d (cV L)) fullShare 16) $$ Hsh4
      icases Hspl with ⟨Hdrop, Htk⟩
      ihave Hpays := (pays_intro_zero (F := F) tb d L hs) $$ Htk
      iapply (SparseCore.wp_subcoreBarrier 𝒱₀ none EB (bRd (F := F) tb) d (sc := cV L) (i := jV L) sc_bar0 (grid0.bound 1) hsub0 (L 1) rfl κ (fun _ => 0) (jV L).val
          (fun j => bRd_mem₀ tb d _ _ _) (fun _ => rfl) (bRd_expect tb d _ _) (some 0) O _) $$ [HO Htoks Hpays Hcred Hat]
      · isplitr; · iexact Hinv
        isplitl [HO]; · iexact HO
        isplitl [Htoks Hpays]
        · rw [bigSep_sep', bigSep_sep']
          isplitl [Htoks]; · iexact Htoks
          isplitl [Hpays]; · iexact Hpays
          iexact Hrch
        isplitl [Hcred]; · iexact Hcred
        isplitl [Hat]; · iexact Hat
        iapply ((K (F := F)).mayOwe_of_bound (thr := VT d L) 3 (fun p hp => by
            rw [Finset.mem_singleton] at hp; subst hp
            show (K (F := F)).lev (bcell d (cV L) (jV L)) (some 0) ≤ 3
            rw [(K (F := F)).lev_V_reg d _ _ (show (sc_bar0 : Sem sig) ≠ (K (F := F)).go from sc_bar0_ne_go)]; exact le_rfl)
          (fun g ι hg => lt_of_lt_of_le (by decide) (hOlev g ι hg)))
        iexact Hlv
      iintro ⟨HO, Hat, -, Hgot⟩
      ihave Hmine := (pays_elim (F := F) tb d L) $$ Hgot
      ihave Hsh2 := (Entails.of_eq (pts_shV (F := F) d L _ _).symm) $$ Hmine
      sl_exec
      sl_step
      isplitr; · iexact Hlv
      isplitl [Hpos']; · iapply (Entails.of_eq (pts_posV (F := F) d L _ _)); iexact Hpos'
      isplitl [Htab']; · iapply (Entails.of_eq (pts_tabV (F := F) d L _ _)); iexact Htab'
      isplitl [Hidx']; · iexists fi; iapply (Entails.of_eq (pts_idxV (F := F) d L _)); iexact Hidx'
      isplitl [Hbuf']; · iexists fb; iapply (Entails.of_eq (pts_bufV (F := F) d L _)); iexact Hbuf'
      isplitl [Ho0 Ho1 Ho2 Ho3 Ho4 Ho5 Ho6 Ho7]
      · isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
      isplitl [Hsh2 Hdrop]
      · isplitl [Hsh2]; · iapply (Entails.of_eq (pts_shV (F := F) d L _ _)); iexact Hsh2
        iexact Hdrop
      isplitl [Hbufs]; · iexact Hbufs
      isplitl [Hc0 Hc1 Hc2 Hc3 Hc4 Hc5 Hc6 Hc7 Hc8 Hc9 Hc10 Hc11 Hc12 Hc13 Hc14 Hc15]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        isplitl [Hc9]; · iexact Hc9
        isplitl [Hc10]; · iexact Hc10
        isplitl [Hc11]; · iexact Hc11
        isplitl [Hc12]; · iexact Hc12
        isplitl [Hc13]; · iexact Hc13
        isplitl [Hc14]; · iexact Hc14
        iexact Hc15
      isplitl [Hsems]; · iexact Hsems
      iexists _; isplitr
      swap; · iexact HO
      ipureintro; intro p hp
      rcases Finset.mem_insert.mp hp with hp | hp; · exact .inr (.inl (hp ▸ rfl))
      rcases Finset.mem_insert.mp hp with hp | hp; · exact .inr (.inr (hp ▸ rfl))
      rcases Finset.mem_insert.mp hp with hp | hp; · exact .inr (.inl (hp ▸ rfl))
      exact .inl hp
    · rw [if_neg hs, if_neg hs]
      have hcond := stage_cond_neg (Fin.cast bound_one (L 1)) hs
      iintro ⟨#Hlv, ⟨⟨%κ, #Hinv⟩, Htoks, #Hrch, Hat, Hcred⟩, ⟨⟨Hpos, Htab, ⟨Ho0, Ho1, Ho2, Ho3, Ho4, Ho5, Ho6, Ho7⟩⟩, -⟩, ⟨⟨%fi, Hidx⟩, ⟨%fb, Hbuf⟩, Hbufs⟩, ⟨⟨Hc0, Hc1, Hc2, Hc3, Hc4, Hc5, Hc6, Hc7, Hc8, Hc9, Hc10, Hc11, Hc12, Hc13, Hc14, Hc15⟩, Hsems⟩, HO⟩
      ihave Hmw1 := (show levAts (K (F := F)).L (K (F := F)).lev ⊢ Transfers.MayWaits (VT d L) (default : HIx 1) (O + oxV d (cV L)) from
        (K (F := F)).mayWaits_none (thr := VT d L) hO') $$ Hlv
      ihave Hmw2 := (show levAts (K (F := F)).L (K (F := F)).lev ⊢ Transfers.MayWaits (VT d L) (default : HIx 1) O from
        (K (F := F)).mayWaits_none (thr := VT d L) hO) $$ Hlv
      ihave Hpos' := (Entails.of_eq (pts_posV (F := F) d L _ _).symm) $$ Hpos
      ihave Htab' := (Entails.of_eq (pts_tabV (F := F) d L _ _).symm) $$ Htab
      ihave Hidx' := (Entails.of_eq (pts_idxV (F := F) d L _).symm) $$ Hidx
      ihave Hbuf' := (Entails.of_eq (pts_bufV (F := F) d L _).symm) $$ Hbuf
      sl_exec
      ihave Hpays := (pays_intro_succ (F := F) tb d L hs) $$ []
      · iempintro
      iapply (SparseCore.wp_subcoreBarrier 𝒱₀ none EB (bRd (F := F) tb) d (sc := cV L) (i := jV L) sc_bar0 (grid0.bound 1) hsub0 (L 1) rfl κ (fun _ => 0) (jV L).val
          (fun j => bRd_mem₀ tb d _ _ _) (fun _ => rfl) (bRd_expect tb d _ _) (some 0) O _) $$ [HO Htoks Hpays Hcred Hat]
      · isplitr; · iexact Hinv
        isplitl [HO]; · iexact HO
        isplitl [Htoks Hpays]
        · rw [bigSep_sep', bigSep_sep']
          isplitl [Htoks]; · iexact Htoks
          isplitl [Hpays]; · iexact Hpays
          iexact Hrch
        isplitl [Hcred]; · iexact Hcred
        isplitl [Hat]; · iexact Hat
        iapply ((K (F := F)).mayOwe_of_bound (thr := VT d L) 3 (fun p hp => by
            rw [Finset.mem_singleton] at hp; subst hp
            show (K (F := F)).lev (bcell d (cV L) (jV L)) (some 0) ≤ 3
            rw [(K (F := F)).lev_V_reg d _ _ (show (sc_bar0 : Sem sig) ≠ (K (F := F)).go from sc_bar0_ne_go)]; exact le_rfl)
          (fun g ι hg => lt_of_lt_of_le (by decide) (hOlev g ι hg)))
        iexact Hlv
      iintro ⟨HO, Hat, -, Hgot⟩
      ihave Hmine := (pays_elim (F := F) tb d L) $$ Hgot
      ihave Hsh2 := (Entails.of_eq (pts_shV (F := F) d L _ _).symm) $$ Hmine
      sl_exec
      sl_step
      isplitr; · iexact Hlv
      isplitl [Hpos']; · iapply (Entails.of_eq (pts_posV (F := F) d L _ _)); iexact Hpos'
      isplitl [Htab']; · iapply (Entails.of_eq (pts_tabV (F := F) d L _ _)); iexact Htab'
      isplitl [Hidx']; · iexists fi; iapply (Entails.of_eq (pts_idxV (F := F) d L _)); iexact Hidx'
      isplitl [Hbuf']; · iexists fb; iapply (Entails.of_eq (pts_bufV (F := F) d L _)); iexact Hbuf'
      isplitl [Ho0 Ho1 Ho2 Ho3 Ho4 Ho5 Ho6 Ho7]
      · isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
      isplitl [Hsh2]
      · isplitl [Hsh2]; · iapply (Entails.of_eq (pts_shV (F := F) d L _ _)); iexact Hsh2
        iempintro
      isplitl [Hbufs]; · iexact Hbufs
      isplitl [Hc0 Hc1 Hc2 Hc3 Hc4 Hc5 Hc6 Hc7 Hc8 Hc9 Hc10 Hc11 Hc12 Hc13 Hc14 Hc15]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        isplitl [Hc9]; · iexact Hc9
        isplitl [Hc10]; · iexact Hc10
        isplitl [Hc11]; · iexact Hc11
        isplitl [Hc12]; · iexact Hc12
        isplitl [Hc13]; · iexact Hc13
        isplitl [Hc14]; · iexact Hc14
        iexact Hc15
      isplitl [Hsems]; · iexact Hsems
      iexists _; isplitr
      swap; · iexact HO
      ipureintro; intro p hp
      rcases Finset.mem_insert.mp hp with hp | hp; · exact .inr (.inl (hp ▸ rfl))
      rcases Finset.mem_insert.mp hp with hp | hp; · exact .inr (.inr (hp ▸ rfl))
      exact .inl hp
  · -- the rest: sixty-two rewrites, the gathers and the stores
    unfold midState out8
    iintro ⟨#Hlv, Hpos, Htab, ⟨%fi, Hidx⟩, ⟨%fb, Hbuf⟩, ⟨Ho0, Ho1, Ho2, Ho3, Ho4, Ho5, Ho6, Ho7⟩, Hshb, Hbufs, ⟨Hc0, Hc1, Hc2, Hc3, Hc4, Hc5, Hc6, Hc7, Hc8, Hc9, Hc10, Hc11, Hc12, Hc13, Hc14, Hc15⟩, Hsems, ⟨%W1, %hW1, HO⟩⟩
    ihave Hmw2 := (show levAts (K (F := F)).L (K (F := F)).lev ⊢ Transfers.MayWaits (VT d L) (default : HIx 1) O from
      (K (F := F)).mayWaits_none (thr := VT d L) hO) $$ Hlv
    unfold shBack
    icases Hshb with ⟨Hsh, Hdrop⟩
    ihave Hpos' := (Entails.of_eq (pts_posV (F := F) d L _ _).symm) $$ Hpos
    ihave Htab' := (Entails.of_eq (pts_tabV (F := F) d L _ _).symm) $$ Htab
    ihave Hidx' := (Entails.of_eq (pts_idxV (F := F) d L _).symm) $$ Hidx
    ihave Hbuf' := (Entails.of_eq (pts_bufV (F := F) d L _).symm) $$ Hbuf
    ihave Hsh2 := (Entails.of_eq (pts_shV (F := F) d L _ _).symm) $$ Hsh
    ihave Ho0' := (Entails.of_eq (pts_oBlk (F := F) d L 0 _).symm) $$ Ho0
    ihave Ho1' := (Entails.of_eq (pts_oBlk (F := F) d L 1 _).symm) $$ Ho1
    ihave Ho2' := (Entails.of_eq (pts_oBlk (F := F) d L 2 _).symm) $$ Ho2
    ihave Ho3' := (Entails.of_eq (pts_oBlk (F := F) d L 3 _).symm) $$ Ho3
    ihave Ho4' := (Entails.of_eq (pts_oBlk (F := F) d L 4 _).symm) $$ Ho4
    ihave Ho5' := (Entails.of_eq (pts_oBlk (F := F) d L 5 _).symm) $$ Ho5
    ihave Ho6' := (Entails.of_eq (pts_oBlk (F := F) d L 6 _).symm) $$ Ho6
    ihave Ho7' := (Entails.of_eq (pts_oBlk (F := F) d L 7 _).symm) $$ Ho7
    sl_exec
    -- the index scratch in closed form: every entry is the copied position ANDed with 15
    have hL : _root_.Cert.Proof.KI.tile_body.sl.Hidx'_65 p2 d L = fillList (F := F) (idxV).view (idxDma p2 d L) 64 le_rfl := rfl
    have hG : (idxV).view.writes (Elt F) (idxV).view.junk (_root_.Cert.Proof.KI.tile_body.sl.Hidx'_65 p2 d L) = idxG p2 d L := funext fun y => by
      have h1 := View.read_writes_junk_apply_eq_canon (Val := Elt F) (idxV).view y (_root_.Cert.Proof.KI.tile_body.sl.Hidx'_65 p2 d L)
      rw [hL, fill_all, canon_whole_piece] at h1
      exact h1
    ihave Hidx2 := (Entails.of_eq (congrArg (fun f => ((idxV).view.loc (VT d L) ↦[(idxV).view.set]{fullShare} f : sProp 𝕄)) hG)) $$ Hidx'
    have hin0 : ∀ x, (((((idxV).slice (Rect.unit (s := S8x128) ![0, 0] S1x128.size inb_S8x128_S1x128_0_0) (fun _ => rfl)).squeeze S128 squeezes_S1x128_S128)).view.read (Elt F) (idxG p2 d L) x).toNat < 16 := fun x => idxG_lt p2 d L _
    have hin1 : ∀ x, (((((idxV).slice (Rect.unit (s := S8x128) ![1, 0] S1x128.size inb_S8x128_S1x128_1_0) (fun _ => rfl)).squeeze S128 squeezes_S1x128_S128)).view.read (Elt F) (idxG p2 d L) x).toNat < 16 := fun x => idxG_lt p2 d L _
    have hin2 : ∀ x, (((((idxV).slice (Rect.unit (s := S8x128) ![2, 0] S1x128.size inb_S8x128_S1x128_2_0) (fun _ => rfl)).squeeze S128 squeezes_S1x128_S128)).view.read (Elt F) (idxG p2 d L) x).toNat < 16 := fun x => idxG_lt p2 d L _
    have hin3 : ∀ x, (((((idxV).slice (Rect.unit (s := S8x128) ![3, 0] S1x128.size inb_S8x128_S1x128_3_0) (fun _ => rfl)).squeeze S128 squeezes_S1x128_S128)).view.read (Elt F) (idxG p2 d L) x).toNat < 16 := fun x => idxG_lt p2 d L _
    have hin4 : ∀ x, (((((idxV).slice (Rect.unit (s := S8x128) ![4, 0] S1x128.size inb_S8x128_S1x128_4_0) (fun _ => rfl)).squeeze S128 squeezes_S1x128_S128)).view.read (Elt F) (idxG p2 d L) x).toNat < 16 := fun x => idxG_lt p2 d L _
    have hin5 : ∀ x, (((((idxV).slice (Rect.unit (s := S8x128) ![5, 0] S1x128.size inb_S8x128_S1x128_5_0) (fun _ => rfl)).squeeze S128 squeezes_S1x128_S128)).view.read (Elt F) (idxG p2 d L) x).toNat < 16 := fun x => idxG_lt p2 d L _
    have hin6 : ∀ x, (((((idxV).slice (Rect.unit (s := S8x128) ![6, 0] S1x128.size inb_S8x128_S1x128_6_0) (fun _ => rfl)).squeeze S128 squeezes_S1x128_S128)).view.read (Elt F) (idxG p2 d L) x).toNat < 16 := fun x => idxG_lt p2 d L _
    have hin7 : ∀ x, (((((idxV).slice (Rect.unit (s := S8x128) ![7, 0] S1x128.size inb_S8x128_S1x128_7_0) (fun _ => rfl)).squeeze S128 squeezes_S1x128_S128)).view.read (Elt F) (idxG p2 d L) x).toNat < 16 := fun x => idxG_lt p2 d L _
    -- seven gathers read the staged table at once: one read token of the tile's token per gather cell
    ihave Hspl := (Transfers.pointsTo_toks_split (Transfers.shareTokN fullShare (jV L).val) 7) $$ Hsh2
    icases Hspl with ⟨Hshr, Hs7⟩
    ihave Hs7' := (Entails.of_eq (bigSep_fin7 (F := F) _)) $$ Hs7
    icases Hs7' with ⟨Hs0, Hs1, Hs2, Hs3, Hs4, Hs5, Hs6⟩
    sl_exec
    -- the seven read tokens of the staged table rejoin the tile's token
    ihave Hs7j := (Entails.of_eq (bigSep_fin7 (F := F) (fun i : Fin 7 => ((shV).view.loc (VT d L) ↦{Transfers.shareTok (Transfers.shareTokN fullShare (jV L).val) 7 i} tbS tb d (cV L) : sProp 𝕄))).symm) $$ [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    ihave Hshj := (Transfers.pointsTo_toks_join (Transfers.shareTokN fullShare (jV L).val) 7) $$ [Hshr Hs7j]
    · isplitl [Hshr]; · iexact Hshr
      iexact Hs7j
    -- each result block holds the lookup
    ihave Hb0 := (show ((oBlk L 0).view.loc (VT d L) ↦[(oBlk L 0).view.set]{fullShare} (oBlk L 0).view.writes (Elt F) fo [⟨Rect.whole S128x128, _root_.Cert.Proof.KI.tile_body.sl.dma0_3 p2 tb d L fb hin0 hin1 hin2 hin3 hin4 hin5 hin6⟩] : sProp 𝕄) ⊢ ((oBlk L 0).view.loc (VT d L) ↦[(oBlk L 0).view.set]{fullShare} sinOut p2 tb d : sProp 𝕄) from Entails.of_eq (pointsTo_congr (block_0 p2 tb d L fo fb rfl hin0 hin1 hin2 hin3 hin4 hin5 hin6))) $$ Ho0'
    ihave Hb1 := (show ((oBlk L 1).view.loc (VT d L) ↦[(oBlk L 1).view.set]{fullShare} (oBlk L 1).view.writes (Elt F) fo [⟨Rect.whole S128x128, _root_.Cert.Proof.KI.tile_body.sl.dma0_4 p2 tb d L fb hin0 hin1 hin2 hin3 hin4 hin5 hin6⟩] : sProp 𝕄) ⊢ ((oBlk L 1).view.loc (VT d L) ↦[(oBlk L 1).view.set]{fullShare} sinOut p2 tb d : sProp 𝕄) from Entails.of_eq (pointsTo_congr (block_1 p2 tb d L fo fb rfl hin0 hin1 hin2 hin3 hin4 hin5 hin6))) $$ Ho1'
    ihave Hb2 := (show ((oBlk L 2).view.loc (VT d L) ↦[(oBlk L 2).view.set]{fullShare} (oBlk L 2).view.writes (Elt F) fo [⟨Rect.whole S128x128, _root_.Cert.Proof.KI.tile_body.sl.dma0_5 p2 tb d L fb hin0 hin1 hin2 hin3 hin4 hin5 hin6⟩] : sProp 𝕄) ⊢ ((oBlk L 2).view.loc (VT d L) ↦[(oBlk L 2).view.set]{fullShare} sinOut p2 tb d : sProp 𝕄) from Entails.of_eq (pointsTo_congr (block_2 p2 tb d L fo fb rfl hin0 hin1 hin2 hin3 hin4 hin5 hin6))) $$ Ho2'
    ihave Hb3 := (show ((oBlk L 3).view.loc (VT d L) ↦[(oBlk L 3).view.set]{fullShare} (oBlk L 3).view.writes (Elt F) fo [⟨Rect.whole S128x128, _root_.Cert.Proof.KI.tile_body.sl.dma0_6 p2 tb d L fb hin0 hin1 hin2 hin3 hin4 hin5 hin6⟩] : sProp 𝕄) ⊢ ((oBlk L 3).view.loc (VT d L) ↦[(oBlk L 3).view.set]{fullShare} sinOut p2 tb d : sProp 𝕄) from Entails.of_eq (pointsTo_congr (block_3 p2 tb d L fo fb rfl hin0 hin1 hin2 hin3 hin4 hin5 hin6))) $$ Ho3'
    ihave Hb4 := (show ((oBlk L 4).view.loc (VT d L) ↦[(oBlk L 4).view.set]{fullShare} (oBlk L 4).view.writes (Elt F) fo [⟨Rect.whole S128x128, _root_.Cert.Proof.KI.tile_body.sl.dma0_7 p2 tb d L fb hin0 hin1 hin2 hin3 hin4 hin5 hin6⟩] : sProp 𝕄) ⊢ ((oBlk L 4).view.loc (VT d L) ↦[(oBlk L 4).view.set]{fullShare} sinOut p2 tb d : sProp 𝕄) from Entails.of_eq (pointsTo_congr (block_4 p2 tb d L fo fb rfl hin0 hin1 hin2 hin3 hin4 hin5 hin6))) $$ Ho4'
    ihave Hb5 := (show ((oBlk L 5).view.loc (VT d L) ↦[(oBlk L 5).view.set]{fullShare} (oBlk L 5).view.writes (Elt F) fo [⟨Rect.whole S128x128, _root_.Cert.Proof.KI.tile_body.sl.dma0_8 p2 tb d L fb hin0 hin1 hin2 hin3 hin4 hin5 hin6⟩] : sProp 𝕄) ⊢ ((oBlk L 5).view.loc (VT d L) ↦[(oBlk L 5).view.set]{fullShare} sinOut p2 tb d : sProp 𝕄) from Entails.of_eq (pointsTo_congr (block_5 p2 tb d L fo fb rfl hin0 hin1 hin2 hin3 hin4 hin5 hin6))) $$ Ho5'
    ihave Hb6 := (show ((oBlk L 6).view.loc (VT d L) ↦[(oBlk L 6).view.set]{fullShare} (oBlk L 6).view.writes (Elt F) fo [⟨Rect.whole S128x128, _root_.Cert.Proof.KI.tile_body.sl.dma0_9 p2 tb d L fb hin0 hin1 hin2 hin3 hin4 hin5 hin6⟩] : sProp 𝕄) ⊢ ((oBlk L 6).view.loc (VT d L) ↦[(oBlk L 6).view.set]{fullShare} sinOut p2 tb d : sProp 𝕄) from Entails.of_eq (pointsTo_congr (block_6 p2 tb d L fo fb rfl hin0 hin1 hin2 hin3 hin4 hin5 hin6))) $$ Ho6'
    ihave Hb7 := (show ((oBlk L 7).view.loc (VT d L) ↦[(oBlk L 7).view.set]{fullShare} (oBlk L 7).view.writes (Elt F) fo [⟨Rect.whole S128x128, _root_.Cert.Proof.KI.tile_body.sl.dma0_10 p2 tb d L fb hin0 hin1 hin2 hin3 hin4 hin5 hin6 hin7⟩] : sProp 𝕄) ⊢ ((oBlk L 7).view.loc (VT d L) ↦[(oBlk L 7).view.set]{fullShare} sinOut p2 tb d : sProp 𝕄) from Entails.of_eq (pointsTo_congr (block_7 p2 tb d L fo fb rfl hin0 hin1 hin2 hin3 hin4 hin5 hin6 hin7))) $$ Ho7'
    sl_step
    isplitl [Hpos' Htab' Hb0 Hb1 Hb2 Hb3 Hb4 Hb5 Hb6 Hb7 Hshj Hdrop]
    · isplitl [Hpos' Htab' Hb0 Hb1 Hb2 Hb3 Hb4 Hb5 Hb6 Hb7]
      · isplitl [Hpos']; · iapply (Entails.of_eq (pts_posV (F := F) d L _ _)); iexact Hpos'
        isplitl [Htab']; · iapply (Entails.of_eq (pts_tabV (F := F) d L _ _)); iexact Htab'
        isplitl [Hb0]; · iapply (Entails.of_eq (pts_oBlk (F := F) d L 0 _)); iexact Hb0
        isplitl [Hb1]; · iapply (Entails.of_eq (pts_oBlk (F := F) d L 1 _)); iexact Hb1
        isplitl [Hb2]; · iapply (Entails.of_eq (pts_oBlk (F := F) d L 2 _)); iexact Hb2
        isplitl [Hb3]; · iapply (Entails.of_eq (pts_oBlk (F := F) d L 3 _)); iexact Hb3
        isplitl [Hb4]; · iapply (Entails.of_eq (pts_oBlk (F := F) d L 4 _)); iexact Hb4
        isplitl [Hb5]; · iapply (Entails.of_eq (pts_oBlk (F := F) d L 5 _)); iexact Hb5
        isplitl [Hb6]; · iapply (Entails.of_eq (pts_oBlk (F := F) d L 6 _)); iexact Hb6
        iapply (Entails.of_eq (pts_oBlk (F := F) d L 7 _)); iexact Hb7
      · isplitl [Hshj]; · iapply (Entails.of_eq (pts_shV (F := F) d L _ _)); iexact Hshj
        iexact Hdrop
    isplitl [Hidx2 Hbuf' Hbufs]
    · isplitl [Hidx2]; · iexists _; iapply (Entails.of_eq (pts_idxV (F := F) d L _)); iexact Hidx2
      isplitl [Hbuf']; · iexists _; iapply (Entails.of_eq (pts_bufV (F := F) d L _)); iexact Hbuf'
      iexact Hbufs
    isplitl [Hc0 Hc1 Hc2 Hc3 Hc4 Hc5 Hc6 Hc7 Hc8 Hc9 Hc10 Hc11 Hc12 Hc13 Hc14 Hc15 Hsems]
    · isplitl [Hc0 Hc1 Hc2 Hc3 Hc4 Hc5 Hc6 Hc7 Hc8 Hc9 Hc10 Hc11 Hc12 Hc13 Hc14 Hc15]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        isplitl [Hc9]; · iexact Hc9
        isplitl [Hc10]; · iexact Hc10
        isplitl [Hc11]; · iexact Hc11
        isplitl [Hc12]; · iexact Hc12
        isplitl [Hc13]; · iexact Hc13
        isplitl [Hc14]; · iexact Hc14
        iexact Hc15
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW1 p hp

/-! ## The obligation -/

omit [FloatOps F] in
theorem defs₀_vector [FloatOps F] (c : Fin τ.nSC) (s : Fin τ.nSub) :
    defs₀ (F := F) (.scVector c s) 0 ()
      = SparseCore.onTile hcore0 hsub0 (fun c s => cc0_body (coordsV c s)
          posV (Memref.isWhole_whole _) tabV (Memref.isWhole_whole _) outV (Memref.isWhole_whole _) idxV (Memref.isWhole_whole _)
          shV (Memref.isWhole_whole _) bufV (Memref.isWhole_whole _) cc0_scratch3 cc0_scratch4 cc0_scoped0 cc0_scoped1) ⟨⟩ c s := rfl

set_option maxRecDepth 16384 in
theorem tileObl (fo : (d : Dev nD) → Buf (Elt F) (outLoc d)) (hF : (K (F := F)).Facts) : (K (F := F)).TileObl (D (F := F)) 𝒱 (P p2 tb fo) v₀ 0 := by
  intro d c i O W hO hOlev _
  have hci : ((K (F := F)).core 0 c).val < grid0.bound 0 ∧ ((K (F := F)).sub 0 i).val < grid0.bound 1 := ⟨c.isLt, i.isLt⟩
  rw [show (P p2 tb fo).ox 0 (V d ((K (F := F)).core 0 c) ((K (F := F)).sub 0 i)) = oxV d ((K (F := F)).core 0 c) from rfl,
    show (P p2 tb fo).x 0 (V d ((K (F := F)).core 0 c) ((K (F := F)).sub 0 i)) = bkit tb d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body p2 tb d (coordsV ⟨_, hci.1⟩ ⟨_, hci.2⟩) hF O W hO hOlev (fo d)

end Cert.Proof.KI

end
-- ==== Proof.GhostK.lean ====
/-
  The launch's vocabulary for this program: the program as the SparseCore launch theorem reads it (its label signature,
  its call table, its body table), and the ghost state every later module speaks of.  The ghost state is a product of
  four resource algebras: the rounds of the four launch handshakes; the rounds of the subcore-barrier cells (through
  which SparseCore tile 0 hands every tile of its core a read share of the staged table); the rounds of the TensorCore
  pipeline's staging cells; and the transfer counters of the local copies.
-/
import proofs.«214958_g36086315221739_cont_8to1_b_1353_25_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«214958_g36086315221739_cont_8to1_b_1353_25_alg».proof.Proof.Gen.Kernel
import proofs.«214958_g36086315221739_cont_8to1_b_1353_25_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
/-- The barrier cells' rounds library. -/
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's staging cells' rounds library. -/
def EP : Emb UP (MT nD τ sig (HIx 1) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

end Cert.Proof.KB

end
-- ==== Proof.TileDefsK.lean ====
/-
  The SparseCore kernel's protocol, as resources.  Thirty-two tiles (two SparseCores of sixteen vector subcores) each
  look up 1024 positions: tile `(c, s)` is worker `2 s + c`; it reads rows `8 (2 s + c) …` of the reshaped positions and
  writes eight blocks of 128 rows of the result, block `k` at rows `1024 (2 s + c) + 128 k …`.  Before that, tile 0 of each
  SparseCore stages the table into the SparseCore's shared memory, and all sixteen tiles meet at the subcore barrier.
  The barrier carries the table: tile 0's arrival in tile `j`'s round hands over read token `j` of the shared table, at
  the table's contents, so that what a tile gathers from after the barrier it holds, and knows.
-/
import proofs.«214958_g36086315221739_cont_8to1_b_1353_25_alg».proof.Proof.GhostK
import proofs.«214958_g36086315221739_cont_8to1_b_1353_25_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

/-- The reshaped positions, the sine table and the sine result, in HBM; a SparseCore's shared copy of the table. -/
abbrev posLoc (d : Dev nD) : Loc nD τ sig := (SparseCore.T d).loc main_v0
abbrev tabLoc (d : Dev nD) : Loc nD τ sig := (SparseCore.T d).loc main_arg3
abbrev outLoc (d : Dev nD) : Loc nD τ sig := (SparseCore.T d).loc main_v1
abbrev shRef (c : Fin τ.nSC) : DevRef τ sig := ⟨.shared, ⟨0, by decide⟩, c⟩
abbrev shLoc (d : Dev nD) (c : Fin τ.nSC) : Loc nD τ sig := (d, shRef c)

theorem nSub_eq : τ.nSub = 16 := rfl
theorem nSC_eq : τ.nSC = 2 := rfl
theorem bound_zero : grid0.bound 0 = 2 := rfl
theorem bound_one : grid0.bound 1 = 16 := rfl

-- What the call finds in the arrays it reads: the reshaped positions and the table, per device.
variable (p2 : (d : Dev nD) → Buf (Elt F) (posLoc d)) (tb : (d : Dev nD) → Buf (Elt F) (tabLoc d))

/-- The table as the contents of a SparseCore's shared copy. -/
abbrev tbS (d : Dev nD) (c : Fin τ.nSC) : Buf (Elt F) (shLoc d c) := tb d

/-- The result the call leaves: the lookup of the reshaped positions in the table. -/
abbrev sinOut (d : Dev nD) : Buf (Elt F) (outLoc d) := Cert.Proof.Spec.rows2 (p2 d) (tb d)

/-- Tile `(c, s)`'s number among the thirty-two: the read token of the positions and of the table it is dealt. -/
abbrev tix (c : Fin τ.nSC) (s : Fin τ.nSub) : ℕ := 16 * c.val + s.val

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Read token `j` of SparseCore `c`'s shared table, at the table. -/
abbrev shTok (d : Dev nD) (c : Fin τ.nSC) (j : Fin τ.nSub) : sProp 𝕄 := shLoc d c ↦{Transfers.shareTokN fullShare j.val} tbS tb d c

/-- What a duty in tile `j`'s round hands over: tile 0's, read token `j` of the staged table; the others', nothing. -/
def bPay (g : GSem nD τ sig) (n : ℕ) : sProp 𝕄 :=
  match g with
  | ((d, .scVector c j), _) => if n = 0 then shTok tb d c j else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay tb g n
  amount_pos _ _ _ _ := Nat.one_pos

instance bRd_payload_storable (g : GSem nD τ sig) (r n : ℕ) : BI.Storable (upEmb : UEmb _ 𝕄) ((bRd (F := F) tb).payload g r n) := by
  show BI.Storable upEmb (bPay tb g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) tb).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) tb).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) tb).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's barrier kit: every tile's cell invariant of its SparseCore and that each has reached round 0, its own
    position at the origin of round 0, its duty token in every tile's round 0, and the credit for the sixteen units of its
    own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) tb) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## A tile's share of the arrays -/

/-- The grid point of tile `(c, s)`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Block `k` of the result that the tile at `L` writes, as the kernel slices it: 128 rows from `1024 (2 s + c) + 128 k`. -/
abbrev oRect (L : grid0.Coords) (k : Fin 8) : Rect S32768x128 :=
  Rect.unit (s := S32768x128) (k0_off2 L (BitVec.ofNat 32 (128 * k.val))) S128x128.size (k0_off2_inb L k)
/-- Its elements. -/
abbrev oSet (L : grid0.Coords) (k : Fin 8) : Finset S32768x128.Idx :=
  (((Memref.whole main_v1_scv : Memref sig .scVector .hbm S32768x128 .f32).slice (oRect L k) (fun _ => rfl)).view.set)

/-- What the tile at `L` is dealt of the arrays: a read token of the positions and of the table, and its eight blocks of
    the result, at contents `fo`. -/
def tileArr (d : Dev nD) (L : grid0.Coords) (fo : Buf (Elt F) (outLoc d)) : sProp 𝕄 :=
  iprop((posLoc d ↦{Transfers.shareTokN fullShare (tix (cV L) (jV L))} p2 d)
    ∗ (tabLoc d ↦{Transfers.shareTokN fullShare (tix (cV L) (jV L))} tb d)
    ∗ bigSep Finset.univ fun k : Fin 8 => outLoc d ↦[oSet L k]{fullShare} fo)

/-- The part of the shared table tile `s` returns at its task's end: its read token, and for tile 0 also what the sixteen
    tokens left of the whole. -/
def shBack (d : Dev nD) (c : Fin τ.nSC) (s : Fin τ.nSub) : sProp 𝕄 :=
  iprop(shTok tb d c s ∗ if s.val = 0 then shLoc d c ↦{Transfers.shareDrop fullShare 16} tbS tb d c else iprop(emp))

/-- The shared table as tile `s` receives it: tile 0 whole, at contents not chosen; the others not at all. -/
def shIn (d : Dev nD) (c : Fin τ.nSC) (s : Fin τ.nSub) : sProp 𝕄 :=
  if s.val = 0 then iprop(∃ f, shLoc d c ↦{fullShare} f) else iprop(emp)

end Cert.Proof.KB

end
-- ==== Proof.TileOwnK.lean ====
/-
  One tile's task, run once at a symbolic tile.
-/
import proofs.«214958_g36086315221739_cont_8to1_b_1353_25_alg».proof.Proof.TileDefsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "posV" => (Memref.whole Cert.Kernel.main_v0_scv : Memref Cert.Kernel.sig Kind.scVector Space.hbm Cert.Kernel.S256x128 EltTy.i32)
local notation "tabV" => (Memref.whole Cert.Kernel.main_arg3_scv : Memref Cert.Kernel.sig Kind.scVector Space.hbm Cert.Kernel.S16x128 EltTy.f32)
local notation "outV" => (Memref.whole Cert.Kernel.main_v1_scv : Memref Cert.Kernel.sig Kind.scVector Space.hbm Cert.Kernel.S32768x128 EltTy.f32)
local notation "idxV" => (Memref.whole Cert.Kernel.cc0_scratch0 : Memref Cert.Kernel.sig Kind.scVector Space.vmem Cert.Kernel.S8x128 EltTy.i32)
local notation "shV" => (Memref.whole Cert.Kernel.cc0_scratch1 : Memref Cert.Kernel.sig Kind.scVector Space.shared Cert.Kernel.S16x128 EltTy.f32)
local notation "bufV" => (Memref.whole Cert.Kernel.cc0_scratch2 : Memref Cert.Kernel.sig Kind.scVector Space.vmem Cert.Kernel.S7x128x128 EltTy.f32)

variable (p2 : (d : Dev nD) → Buf (Elt F) (posLoc d)) (tb : (d : Dev nD) → Buf (Elt F) (tabLoc d))
variable [FloatOps F]
variable (d : Dev nD) (L : grid0.Coords)

abbrev VT : Thread nD τ := V d (cV L) (jV L)

/-! ## The tile's own semaphores and buffers -/

/-- The sixteen DMA cells the task names: the seven gather cells, the seven store cells, the two scoped copies' cells. -/
abbrev csem (k : Nat) (hk : k < 21 := by decide) : DmaSem sig := ⟨k, hk⟩
abbrev dcell (d : Dev nD) (c : Fin τ.nSC) (i : Fin τ.nSub) (k : Fin 16) : GSem nD τ sig := (V d c i, .dma (csem k.val (by have := k.isLt; omega)))

omit [FloatOps F] in
theorem dcell_mem (c : Fin τ.nSC) (i : Fin τ.nSub) (k : Fin 16) : dcell d c i k ∈ ownCells (V d c i) :=
  mem_ownCells.mpr ⟨rfl, (show ∀ s : DmaSem sig, s.val < 16 → (SemLoc.dma s : SemLoc sig).isScoped .scVector = true by decide) _ k.isLt⟩

/-- The sixteen cells at zero, one by one. -/
abbrev cells0 : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0
    ∗ semVal (VT d L, SemLoc.dma (csem 12)) 0 ∗ semVal (VT d L, SemLoc.dma (csem 13)) 0 ∗ semVal (VT d L, SemLoc.dma (csem 14)) 0
    ∗ semVal (VT d L, SemLoc.dma (csem 15)) 0)

omit [FloatOps F] in
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 16)) = {0, 1, 2, 3, 4, 5, 6, 7, 8, 9, 10, 11, 12, 13, 14, 15} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
/-- The index scratch and the row scratch are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch2 ↦{fullShare} f)
          ∗ bigSep (((ownRefs (τ := τ) (.scVector (cV L) (jV L))).erase ((Proc.scVector (cV L) (jV L)).devRef cc0_scratch0)).erase
              ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩)]

/-! ## The arrays in the program's spelling -/

omit [FloatOps F] in
theorem pts_posV (q : PosShare TreeShare) (f : Buf (Elt F) (posLoc d)) :
    ((posV).view.loc (VT d L) ↦{q} f : sProp 𝕄) = posLoc d ↦{q} f := rfl
omit [FloatOps F] in
theorem pts_tabV (q : PosShare TreeShare) (f : Buf (Elt F) (tabLoc d)) :
    ((tabV).view.loc (VT d L) ↦{q} f : sProp 𝕄) = tabLoc d ↦{q} f := rfl
omit [FloatOps F] in
theorem pts_shV (q : PosShare TreeShare) (f : Buf (Elt F) (shLoc d (cV L))) :
    ((shV).view.loc (VT d L) ↦{q} f : sProp 𝕄) = shLoc d (cV L) ↦{q} f := rfl
omit [FloatOps F] in
theorem pts_idxV (f : Buf (Elt F) ((VT d L).loc cc0_scratch0)) :
    ((idxV).view.loc (VT d L) ↦[(idxV).view.set]{fullShare} f : sProp 𝕄) = (VT d L).loc cc0_scratch0 ↦{fullShare} f := by
  rw [View.set_whole]
omit [FloatOps F] in
theorem pts_bufV (f : Buf (Elt F) ((VT d L).loc cc0_scratch2)) :
    ((bufV).view.loc (VT d L) ↦[(bufV).view.set]{fullShare} f : sProp 𝕄) = (VT d L).loc cc0_scratch2 ↦{fullShare} f := by
  rw [View.set_whole]

end Cert.Proof.KB

end
-- ==== Proof.IdxFillK.lean ====
/-
  The index scratch after the kernel's masking pass, in closed form.

  The kernel copies its eight rows of positions into the `[8, 128]` index scratch and then, sixteen lanes at a time,
  loads a piece, ANDs it with 15 and stores it back: sixty-four rewrites in place, piece `k` at row `k / 8`, lanes
  `16 (k % 8) …`.  Written here as one recursive list of writes (the copy, then the rewrites, most recent first), that list
  leaves, at every index, the copied word ANDed with 15.
-/
import proofs.«214958_g36086315221739_cont_8to1_b_1353_25_alg».proof.Proof.LibMaskedFill
import proofs.«214958_g36086315221739_cont_8to1_b_1353_25_alg».proof.Proof.Gen.Kernel.Skeleton

noncomputable section

namespace Cert.Proof.KB

open Cert.Kernel Cert.Kernel.Gen
open Idealize.ShloMosaic Idealize.ShloMosaic.View
open Cert.Proof.LibMaskedFill

variable {F : FTy → Type} [FloatOps F]

/-- Rewrite `k` stays inside the scratch. -/
theorem fillRect_inb (k : ℕ) (hk : k < 64) : ∀ a, (![k / 8, 16 * (k % 8)] : Fin 2 → ℕ) a + S1x16.size a ≤ S8x128.size a := by
  intro a
  match a with
  | ⟨0, _⟩ => show k / 8 + 1 ≤ 8; omega
  | ⟨1, _⟩ => show 16 * (k % 8) + 16 ≤ 128; omega

/-- Where rewrite `k` goes: row `k / 8`, sixteen lanes from `16 (k % 8)`. -/
abbrev fillRect (k : ℕ) (hk : k < 64) : Rect S8x128 := Rect.unit (s := S8x128) ![k / 8, 16 * (k % 8)] S1x16.size (fillRect_inb k hk)

/-- The writes the index scratch has seen after `k` rewrites: the copy `dma`, then rewrite `j` storing the masked load
    of its own piece, for `j < k`; most recent first. -/
def fillList {sig : RefSig} {κ : Kind} {sp : Space} (v : View sig κ sp S8x128 .i32) (dma : Piece (Elt F) S8x128 .i32) :
    (k : ℕ) → k ≤ 64 → List (Piece (Elt F) S8x128 .i32)
  | 0, _ => [dma]
  | k + 1, h => ⟨fillRect k (by omega), k0_pay1 (F := F) (v.readCov (fillList v dma k (by omega)) (fillRect k (by omega)).toLoadRect)⟩ :: fillList v dma k (by omega)

/-- ANDing with 15 twice is ANDing once. -/
theorem andi15_idem (x : BitVec 32) : IntOp.andi (IntOp.andi x 15#32) 15#32 = IntOp.andi x 15#32 := by
  unfold IntOp.andi; rw [BitVec.and_assoc, BitVec.and_self]

/-- The rewrite's stored value, index by index. -/
theorem k0_pay1_apply (u : Vec F S1x16 .i32) (x : S1x16.Idx) : k0_pay1 (F := F) u x = IntOp.andi (u x) 15#32 := by
  unfold k0_pay1
  exact shapeCast_andi_shapeCast (s := S1x16) (t := S16) u 15#32 _ _ x

/-- After `k` rewrites the first `k` pieces (in row-major order of pieces) hold the masked copy. -/
theorem fill_masked {sig : RefSig} {κ : Kind} {sp : Space} (v : View sig κ sp S8x128 .i32) (dma : Piece (Elt F) S8x128 .i32) :
    ∀ (k : ℕ) (h : k ≤ 64), Masked (fun x : Elt F .i32 => IntOp.andi x 15#32) (canon [dma]) (fillList v dma k h)
      (fun y => 8 * (y 0).val + (y 1).val / 16 < k)
  | 0, _ => ⟨fun _ => rfl, fun _ hy => absurd hy (Nat.not_lt_zero _)⟩
  | k + 1, h => by
    refine Masked.step v andi15_idem (fill_masked v dma k (by omega)) (fillRect k (by omega)) _ (fun x => k0_pay1_apply _ x) _ ?_
    intro y hy
    by_cases hk : 8 * (y 0).val + (y 1).val / 16 < k
    · exact Or.inr hk
    · refine Or.inl (Rect.mem_set_unit.2 fun a => ?_)
      have h1 : (y 1).val < 128 := (y 1).isLt
      match a with
      | ⟨0, _⟩ => show k / 8 ≤ (y 0).val ∧ (y 0).val < k / 8 + 1; omega
      | ⟨1, _⟩ => show 16 * (k % 8) ≤ (y 1).val ∧ (y 1).val < 16 * (k % 8) + 16; omega

/-- After all sixty-four rewrites every word of the scratch is the copied word ANDed with 15. -/
theorem fill_all {sig : RefSig} {κ : Kind} {sp : Space} (v : View sig κ sp S8x128 .i32) (dma : Piece (Elt F) S8x128 .i32) (y : S8x128.Idx) :
    canon (fillList v dma 64 le_rfl) y = IntOp.andi (canon [dma] y) 15#32 :=
  (fill_masked v dma 64 le_rfl).all (fun y => by
    have h0 : (y 0).val < 8 := (y 0).isLt
    have h1 : (y 1).val < 128 := (y 1).isLt
    show 8 * (y 0).val + (y 1).val / 16 < 64
    omega) y

end Cert.Proof.KB

end
-- ==== Proof.TileViewsK.lean ====
/-
  One tile's task: the views the kernel slices its buffers by, and the values they come to hold.
-/
import proofs.«214958_g36086315221739_cont_8to1_b_1353_25_alg».proof.Proof.TileOwnK
import proofs.«214958_g36086315221739_cont_8to1_b_1353_25_alg».proof.Proof.IdxFillK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "posV" => (Memref.whole Cert.Kernel.main_v0_scv : Memref Cert.Kernel.sig Kind.scVector Space.hbm Cert.Kernel.S256x128 EltTy.i32)
local notation "tabV" => (Memref.whole Cert.Kernel.main_arg3_scv : Memref Cert.Kernel.sig Kind.scVector Space.hbm Cert.Kernel.S16x128 EltTy.f32)
local notation "outV" => (Memref.whole Cert.Kernel.main_v1_scv : Memref Cert.Kernel.sig Kind.scVector Space.hbm Cert.Kernel.S32768x128 EltTy.f32)
local notation "idxV" => (Memref.whole Cert.Kernel.cc0_scratch0 : Memref Cert.Kernel.sig Kind.scVector Space.vmem Cert.Kernel.S8x128 EltTy.i32)
local notation "shV" => (Memref.whole Cert.Kernel.cc0_scratch1 : Memref Cert.Kernel.sig Kind.scVector Space.shared Cert.Kernel.S16x128 EltTy.f32)
local notation "bufV" => (Memref.whole Cert.Kernel.cc0_scratch2 : Memref Cert.Kernel.sig Kind.scVector Space.vmem Cert.Kernel.S7x128x128 EltTy.f32)

variable (p2 : (d : Dev nD) → Buf (Elt F) (posLoc d)) (tb : (d : Dev nD) → Buf (Elt F) (tabLoc d))
variable [FloatOps F]
variable (d : Dev nD) (L : grid0.Coords)

/-! ## The eight result blocks, one by one, as the kernel slices them -/

/-- Block `k` of the result as a memref: the kernel's own slice. -/
abbrev oBlk (k : Fin 8) : Memref sig .scVector .hbm S128x128 .f32 := (outV).slice (oRect L k) (fun _ => rfl)

omit [FloatOps F] in
theorem pts_oBlk (k : Fin 8) (f : Buf (Elt F) (outLoc d)) :
    ((oBlk L k).view.loc (VT d L) ↦[(oBlk L k).view.set]{fullShare} f : sProp 𝕄) = outLoc d ↦[oSet L k]{fullShare} f := rfl

omit [FloatOps F] in
theorem bigSep_fin8 (Φ : Fin 8 → sProp 𝕄) :
    (bigSep Finset.univ Φ) = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The index scratch after the masking pass -/

/-- A single whole write leaves its payload. -/
theorem canon_whole_piece {Val : EltTy → Type} [∀ e, Nonempty (Val e)] {S : Shape} {e : EltTy} (w : S.Idx → Val e) (y : S.Idx) :
    View.canon [(⟨Rect.whole S, w⟩ : View.Piece Val S e)] y = w y := by
  have h := View.canon_cons_emb (Val := Val) (Rect.whole S) w [] y
  rw [Rect.emb_whole_apply] at h
  exact h

/-! ## The copied positions and their masked form -/

/-- The eight rows of positions the tile copies, as the copy delivers them. -/
abbrev idxRaw : S8x128.Idx → Elt F .i32 :=
  ReadAs.same.apply (View.read (Elt F) ((posV).slice (Rect.unit (s := S256x128) (k0_off1 L) S8x128.size (k0_off1_inb L)) (fun _ => rfl)).view (p2 d))

/-- The copy as a write of the whole index scratch. -/
abbrev idxDma : View.Piece (Elt F) S8x128 .i32 := ⟨Rect.whole _, idxRaw p2 d L⟩

/-- The index scratch once all sixty-four pieces are rewritten: the copied positions, each ANDed with 15. -/
abbrev idxG : Buf (Elt F) ((VT d L).loc cc0_scratch0) := fun y => IntOp.andi (idxRaw p2 d L y) 15#32

omit [FloatOps F] in
/-- Every entry of it names a row of the sixteen-row table. -/
theorem idxG_lt (y : S8x128.Idx) : (idxG p2 d L y).toNat < 16 := by
  show (IntOp.andi (idxRaw p2 d L y) 15#32).toNat < 16
  unfold IntOp.andi
  rw [Cert.Proof.Spec.toNat_and_15]
  exact Nat.mod_lt _ (by decide)

omit [FloatOps F] in
theorem bigSep_fin7 (Φ : Fin 7 → sProp 𝕄) :
    (bigSep Finset.univ Φ) = iprop(Φ 0 ∗ Φ 1 ∗ Φ 2 ∗ Φ 3 ∗ Φ 4 ∗ Φ 5 ∗ Φ 6) := by
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

end Cert.Proof.KB

end
-- ==== Proof.PayK.lean ====
/-
  What the launch handshakes of the one SparseCore call carry.  The call's start hands each SparseCore the arrays of its
  sixteen tiles; the sequencer deals each tile its share at `go` (tile 0 also the shared table, whole) and collects at
  `taskDone` the share with the result written and the tile's part of the shared table; each tile's proof consumes its
  barrier kit and owes its arrivals at the barrier.
-/
import proofs.«214958_g36086315221739_cont_8to1_b_1353_25_alg».proof.Proof.TileDefsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (p2 : (d : Dev nD) → Buf (Elt F) (posLoc d)) (tb : (d : Dev nD) → Buf (Elt F) (tabLoc d))
variable (fo : (d : Dev nD) → Buf (Elt F) (outLoc d))
variable [FloatOps F]

/-- The grid point of the call's tile `(c, i)`. -/
abbrev LV (c : Fin ((K (F := F)).nCore 0)) (i : Fin ((K (F := F)).nSub 0)) : grid0.Coords :=
  coordsV (Fin.cast nCore_zero c) (Fin.cast nSub_zero i)

def P : (K (F := F)).Pay (nD := nD) (Val := Elt F) (Name := ℕ) (U := UU) where
  st := fun q d c => match q with
    | 0 => bigSep Finset.univ fun i : Fin ((K (F := F)).nSub 0) => tileArr p2 tb d (LV c i) (fo d)
  dn := fun q d c => match q with
    | 0 => bigSep Finset.univ fun i : Fin ((K (F := F)).nSub 0) => tileArr p2 tb d (LV c i) (sinOut p2 tb d)
  go := fun q d c i => match q with
    | 0 => iprop(tileArr p2 tb d (LV c i) (fo d) ∗ shIn d (cV (LV (F := F) c i)) (jV (LV (F := F) c i)))
  td := fun q d c i => match q with
    | 0 => iprop(tileArr p2 tb d (LV c i) (sinOut p2 tb d) ∗ shBack tb d (cV (LV (F := F) c i)) (jV (LV (F := F) c i)))
  x := fun _ thr => match thr with
    | (d, .scVector c i) => bkit tb d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

omit [FloatOps F] in
theorem tileArr_storable (d : Dev nD) (L : grid0.Coords) (f : Buf (Elt F) (outLoc d)) : BI.Storable (upEmb : UEmb _ 𝕄) (tileArr p2 tb d L f) := by
  unfold tileArr; infer_instance
omit [FloatOps F] in
theorem shIn_storable (d : Dev nD) (c : Fin τ.nSC) (s : Fin τ.nSub) : BI.Storable (upEmb : UEmb _ 𝕄) (shIn (F := F) d c s) := by
  unfold shIn; split <;> infer_instance
omit [FloatOps F] in
theorem shBack_storable (d : Dev nD) (c : Fin τ.nSC) (s : Fin τ.nSub) : BI.Storable (upEmb : UEmb _ 𝕄) (shBack tb d c s) := by
  unfold shBack; split <;> infer_instance

instance P_storable : (P (F := F) p2 tb fo).IsStorable where
  st q d c := match q with
    | 0 => by
      have := fun i => tileArr_storable p2 tb d (LV (F := F) c i) (fo d)
      show BI.Storable upEmb (bigSep Finset.univ fun i : Fin ((K (F := F)).nSub 0) => tileArr p2 tb d (LV c i) (fo d))
      infer_instance
  dn q d c := match q with
    | 0 => by
      have := fun i => tileArr_storable p2 tb d (LV (F := F) c i) (sinOut p2 tb d)
      show BI.Storable upEmb (bigSep Finset.univ fun i : Fin ((K (F := F)).nSub 0) => tileArr p2 tb d (LV c i) (sinOut p2 tb d))
      infer_instance
  go q d c i := match q with
    | 0 => by
      have := tileArr_storable p2 tb d (LV (F := F) c i) (fo d)
      have := shIn_storable (F := F) d (cV (LV (F := F) c i)) (jV (LV (F := F) c i))
      show BI.Storable upEmb iprop(tileArr p2 tb d (LV c i) (fo d) ∗ shIn d (cV (LV (F := F) c i)) (jV (LV (F := F) c i)))
      infer_instance
  td q d c i := match q with
    | 0 => by
      have := tileArr_storable p2 tb d (LV (F := F) c i) (sinOut p2 tb d)
      have := shBack_storable tb d (cV (LV (F := F) c i)) (jV (LV (F := F) c i))
      show BI.Storable upEmb iprop(tileArr p2 tb d (LV c i) (sinOut p2 tb d) ∗ shBack tb d (cV (LV (F := F) c i)) (jV (LV (F := F) c i)))
      infer_instance

end Cert.Proof.KB

end
-- ==== Proof.SplitGeomK.lean ====
/-
  The geometry of the sine result as the SparseCore call's thirty-two tiles share it.  Tile `(c, i)` writes eight
  blocks of 128 rows; block `k` is rows `2048 i + 1024 c + 128 k ...`, that is band `16 i + 8 c + k` of the 256
  bands of 128 rows the `[32768, 128]` array is made of.  The bands are pairwise disjoint and cover the array, so the
  array whole is its 256 blocks, tile by tile.
-/
import proofs.«214958_g36086315221739_cont_8to1_b_1353_25_alg».proof.Proof.PayK

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The result's blocks: 256 bands of 128 rows -/

/-- Block `k` of the tile at `L` is a unit-stride rectangle of the result. -/
theorem oSet_eq (L : grid0.Coords) (k : Fin 8) : oSet L k = (oRect L k).set := by
  show ((View.whole (main_v1_scv : Ref sig .scVector)).slice (oRect L k)).set = _
  rw [View.set_slice]; exact Finset.map_refl

/-- Its elements: the rows `2048 (L 1) + 1024 (L 0) + 128 k ...` of the next 128, every column. -/
theorem mem_oSet (L : grid0.Coords) (k : Fin 8) (i : S32768x128.Idx) :
    i ∈ oSet L k ↔ 2048 * (L 1).val + 1024 * (L 0).val + 128 * k.val ≤ (i 0).val
      ∧ (i 0).val < 2048 * (L 1).val + 1024 * (L 0).val + 128 * k.val + 128 := by
  rw [oSet_eq, Rect.mem_set_unit, k0_off2_eq]
  constructor
  · intro h; exact h 0
  · intro h a
    match a with
    | ⟨0, _⟩ => exact h
    | ⟨1, _⟩ => exact ⟨Nat.zero_le _, by have := ValueIdx.idx2_lt1 i; show (i 1).val < 0 + 128; omega⟩

theorem LV_zero (c : Fin ((K (F := F)).nCore 0)) (i : Fin ((K (F := F)).nSub 0)) : ((LV (F := F) c i) 0).val = c.val := rfl
theorem LV_one (c : Fin ((K (F := F)).nCore 0)) (i : Fin ((K (F := F)).nSub 0)) : ((LV (F := F) c i) 1).val = i.val := rfl

/-- Block `k` of tile `(c, i)` is band `16 i + 8 c + k` of the 256 bands of 128 rows. -/
theorem mem_oSet_LV (c : Fin ((K (F := F)).nCore 0)) (i : Fin ((K (F := F)).nSub 0)) (k : Fin 8) (j : S32768x128.Idx) :
    j ∈ oSet (LV (F := F) c i) k ↔ 128 * (16 * i.val + 8 * c.val + k.val) ≤ (j 0).val
      ∧ (j 0).val < 128 * (16 * i.val + 8 * c.val + k.val) + 128 := by
  rw [mem_oSet, LV_zero, LV_one]
  constructor <;> intro h <;> omega

/-- Different blocks are disjoint. -/
theorem oSet_disjoint (t t' : Fin ((K (F := F)).nCore 0) × Fin ((K (F := F)).nSub 0) × Fin 8) (h : t ≠ t') :
    Disjoint (oSet (LV (F := F) t.1 t.2.1) t.2.2) (oSet (LV (F := F) t'.1 t'.2.1) t'.2.2) := by
  rw [Finset.disjoint_left]
  intro j hj hj'
  rw [mem_oSet_LV] at hj hj'
  apply h
  have hc : t.1.val < 2 := t.1.isLt
  have hc' : t'.1.val < 2 := t'.1.isLt
  have hi : t.2.1.val < 16 := t.2.1.isLt
  have hi' : t'.2.1.val < 16 := t'.2.1.isLt
  have hk := t.2.2.isLt
  have hk' := t'.2.2.isLt
  exact Prod.ext (Fin.ext (by omega)) (Prod.ext (Fin.ext (by omega)) (Fin.ext (by omega)))

/-- The 256 blocks cover the result. -/
theorem oSet_cover :
    (Finset.univ : Finset (Fin ((K (F := F)).nCore 0) × Fin ((K (F := F)).nSub 0) × Fin 8)).biUnion
        (fun t => oSet (LV (F := F) t.1 t.2.1) t.2.2) = Finset.univ := by
  apply Finset.eq_univ_of_forall
  intro j
  have hj := ValueIdx.idx2_lt0 j
  rw [Finset.mem_biUnion]
  refine ⟨(⟨(j 0).val / 128 % 16 / 8, by show _ < 2; omega⟩, ⟨(j 0).val / 128 / 16, by show _ < 16; omega⟩,
    ⟨(j 0).val / 128 % 8, by omega⟩), Finset.mem_univ _, ?_⟩
  rw [mem_oSet_LV]
  show 128 * (16 * ((j 0).val / 128 / 16) + 8 * ((j 0).val / 128 % 16 / 8) + (j 0).val / 128 % 8) ≤ (j 0).val
    ∧ (j 0).val < 128 * (16 * ((j 0).val / 128 / 16) + 8 * ((j 0).val / 128 % 16 / 8) + (j 0).val / 128 % 8) + 128
  omega

/-- The result whole is its 256 blocks, tile by tile. -/
theorem out_blocks (d : Dev nD) (g : Buf (Elt F) (outLoc d)) :
    (outLoc d ↦{fullShare} g : sProp 𝕄)
      = bigSep Finset.univ fun c : Fin ((K (F := F)).nCore 0) => bigSep Finset.univ fun i : Fin ((K (F := F)).nSub 0) =>
          bigSep Finset.univ fun k : Fin 8 => outLoc d ↦[oSet (LV (F := F) c i) k]{fullShare} g := by
  have e : (bigSep Finset.univ fun c : Fin ((K (F := F)).nCore 0) => bigSep Finset.univ fun i : Fin ((K (F := F)).nSub 0) =>
          bigSep Finset.univ fun k : Fin 8 => (outLoc d ↦[oSet (LV (F := F) c i) k]{fullShare} g : sProp 𝕄))
      = bigSep Finset.univ fun t : Fin ((K (F := F)).nCore 0) × Fin ((K (F := F)).nSub 0) × Fin 8 =>
          (outLoc d ↦[oSet (LV (F := F) t.1 t.2.1) t.2.2]{fullShare} g : sProp 𝕄) := by
    rw [bigSep_univ_prod]
    refine bigSep_congr fun c _ => ?_
    rw [bigSep_univ_prod]
  rw [e, ← pointsTo_biUnion Finset.univ (ℓ := outLoc d) (fun t : Fin ((K (F := F)).nCore 0) × Fin ((K (F := F)).nSub 0) × Fin 8 => oSet (LV (F := F) t.1 t.2.1) t.2.2)
    (fun t _ t' _ h => oSet_disjoint t t' h), oSet_cover]
  try rfl

end Cert.Proof.KB

end
-- ==== Proof.TileValsSlotsK.lean ====
/-
  The row scratch of a tile: seven slots of `[128, 128]`, the rows of its first axis.  A gather fills one slot whole
  and touches no other, so after any run of whole-slot writes a slot reads back the last payload written to it.
-/
import proofs.«214958_g36086315221739_cont_8to1_b_1353_25_alg».proof.Proof.TileViewsK
import proofs.«214958_g36086315221739_cont_8to1_b_1353_25_alg».proof.Proof.SplitGeomK

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "posV" => (Memref.whole Cert.Kernel.main_v0_scv : Memref Cert.Kernel.sig Kind.scVector Space.hbm Cert.Kernel.S256x128 EltTy.i32)
local notation "tabV" => (Memref.whole Cert.Kernel.main_arg3_scv : Memref Cert.Kernel.sig Kind.scVector Space.hbm Cert.Kernel.S16x128 EltTy.f32)
local notation "outV" => (Memref.whole Cert.Kernel.main_v1_scv : Memref Cert.Kernel.sig Kind.scVector Space.hbm Cert.Kernel.S32768x128 EltTy.f32)
local notation "idxV" => (Memref.whole Cert.Kernel.cc0_scratch0 : Memref Cert.Kernel.sig Kind.scVector Space.vmem Cert.Kernel.S8x128 EltTy.i32)
local notation "shV" => (Memref.whole Cert.Kernel.cc0_scratch1 : Memref Cert.Kernel.sig Kind.scVector Space.shared Cert.Kernel.S16x128 EltTy.f32)
local notation "bufV" => (Memref.whole Cert.Kernel.cc0_scratch2 : Memref Cert.Kernel.sig Kind.scVector Space.vmem Cert.Kernel.S7x128x128 EltTy.f32)

/-! ## The seven slots of the row scratch -/

/-- Slot `j` of the row scratch: row `j` of its first axis, squeezed to a `[128, 128]` buffer. -/
abbrev rowSlot (j : ℕ) (hj : ∀ a, (![j, 0, 0] : Fin 3 → ℕ) a + S1x128x128.size a ≤ S7x128x128.size a) :
    Memref sig .scVector .vmem S128x128 .f32 :=
  ((bufV).slice (Rect.unit (s := S7x128x128) ![j, 0, 0] S1x128x128.size hj) (fun _ => rfl)).squeeze S128x128 squeezes_S1x128x128_S128x128

/-- A slot's elements are those of its rectangle. -/
theorem slot_set (j : ℕ) (hj : ∀ a, (![j, 0, 0] : Fin 3 → ℕ) a + S1x128x128.size a ≤ S7x128x128.size a) :
    (rowSlot j hj).view.set = (Rect.unit (s := S7x128x128) ![j, 0, 0] S1x128x128.size hj).set := by
  show (((View.whole (cc0_scratch2 : Ref sig .scVector)).slice (Rect.unit (s := S7x128x128) ![j, 0, 0] S1x128x128.size hj)).reshape
      S128x128 squeezes_S1x128x128_S128x128.numel_eq).set = _
  rw [View.set_reshape, View.set_slice]; exact Finset.map_refl

/-- Different slots share no element. -/
theorem slot_disjoint (i j : ℕ) (hi : ∀ a, (![i, 0, 0] : Fin 3 → ℕ) a + S1x128x128.size a ≤ S7x128x128.size a)
    (hj : ∀ a, (![j, 0, 0] : Fin 3 → ℕ) a + S1x128x128.size a ≤ S7x128x128.size a) (h : i ≠ j) :
    Disjoint (rowSlot j hj).view.set (rowSlot i hi).view.set := by
  rw [slot_set, slot_set]
  exact Rect.unit_disjoint 0 (by show j + 1 ≤ i ∨ i + 1 ≤ j; omega)

/-- Reading a slot just written whole gives what was written. -/
theorem slot_read_self (j : ℕ) (hj : ∀ a, (![j, 0, 0] : Fin 3 → ℕ) a + S1x128x128.size a ≤ S7x128x128.size a)
    (f : (rowSlot j hj).view.ty.Contents (Elt F)) (g : S128x128.Idx → Elt F .f32) :
    View.read (Elt F) (rowSlot j hj).view (View.write (Elt F) (rowSlot j hj).view f g Finset.univ) = g :=
  View.read_write_univ f g

/-- Reading a slot through a whole write of another slot reads what was there before. -/
theorem slot_read_other (i j : ℕ) (hi : ∀ a, (![i, 0, 0] : Fin 3 → ℕ) a + S1x128x128.size a ≤ S7x128x128.size a)
    (hj : ∀ a, (![j, 0, 0] : Fin 3 → ℕ) a + S1x128x128.size a ≤ S7x128x128.size a) (h : i ≠ j)
    (f : (rowSlot i hi).view.ty.Contents (Elt F)) (g : S128x128.Idx → Elt F .f32) :
    View.read (Elt F) (rowSlot j hj).view (View.write (Elt F) (rowSlot i hi).view f g Finset.univ)
      = View.read (Elt F) (rowSlot j hj).view f :=
  View.read_congr fun x hx => View.write_of_not_mem _ _ _
    (fun hm => Finset.disjoint_left.mp (slot_disjoint i j hi hj h) hx hm)

/-! ## The row scratch after the seven gathers (and after the eighth): each slot read back -/

/-- After the seven gathers slot 0 holds gather 0's payload. -/
theorem slot_read_0 (fb : (rowSlot 0 inb_S7x128x128_S1x128x128_0_0_0).view.ty.Contents (Elt F)) (g0 g1 g2 g3 g4 g5 g6 : S128x128.Idx → Elt F .f32) :
    View.read (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g0 := by
  refine (slot_read_other 6 0 inb_S7x128x128_S1x128x128_6_0_0 inb_S7x128x128_S1x128x128_0_0_0 (by decide) _ _).trans ?_
  refine (slot_read_other 5 0 inb_S7x128x128_S1x128x128_5_0_0 inb_S7x128x128_S1x128x128_0_0_0 (by decide) _ _).trans ?_
  refine (slot_read_other 4 0 inb_S7x128x128_S1x128x128_4_0_0 inb_S7x128x128_S1x128x128_0_0_0 (by decide) _ _).trans ?_
  refine (slot_read_other 3 0 inb_S7x128x128_S1x128x128_3_0_0 inb_S7x128x128_S1x128x128_0_0_0 (by decide) _ _).trans ?_
  refine (slot_read_other 2 0 inb_S7x128x128_S1x128x128_2_0_0 inb_S7x128x128_S1x128x128_0_0_0 (by decide) _ _).trans ?_
  refine (slot_read_other 1 0 inb_S7x128x128_S1x128x128_1_0_0 inb_S7x128x128_S1x128x128_0_0_0 (by decide) _ _).trans ?_
  exact slot_read_self 0 inb_S7x128x128_S1x128x128_0_0_0 _ _

/-- After the seven gathers slot 1 holds gather 1's payload. -/
theorem slot_read_1 (fb : (rowSlot 0 inb_S7x128x128_S1x128x128_0_0_0).view.ty.Contents (Elt F)) (g0 g1 g2 g3 g4 g5 g6 : S128x128.Idx → Elt F .f32) :
    View.read (Elt F) (rowSlot 1 inb_S7x128x128_S1x128x128_1_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g1 := by
  refine (slot_read_other 6 1 inb_S7x128x128_S1x128x128_6_0_0 inb_S7x128x128_S1x128x128_1_0_0 (by decide) _ _).trans ?_
  refine (slot_read_other 5 1 inb_S7x128x128_S1x128x128_5_0_0 inb_S7x128x128_S1x128x128_1_0_0 (by decide) _ _).trans ?_
  refine (slot_read_other 4 1 inb_S7x128x128_S1x128x128_4_0_0 inb_S7x128x128_S1x128x128_1_0_0 (by decide) _ _).trans ?_
  refine (slot_read_other 3 1 inb_S7x128x128_S1x128x128_3_0_0 inb_S7x128x128_S1x128x128_1_0_0 (by decide) _ _).trans ?_
  refine (slot_read_other 2 1 inb_S7x128x128_S1x128x128_2_0_0 inb_S7x128x128_S1x128x128_1_0_0 (by decide) _ _).trans ?_
  exact slot_read_self 1 inb_S7x128x128_S1x128x128_1_0_0 _ _

/-- After the seven gathers slot 2 holds gather 2's payload. -/
theorem slot_read_2 (fb : (rowSlot 0 inb_S7x128x128_S1x128x128_0_0_0).view.ty.Contents (Elt F)) (g0 g1 g2 g3 g4 g5 g6 : S128x128.Idx → Elt F .f32) :
    View.read (Elt F) (rowSlot 2 inb_S7x128x128_S1x128x128_2_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g2 := by
  refine (slot_read_other 6 2 inb_S7x128x128_S1x128x128_6_0_0 inb_S7x128x128_S1x128x128_2_0_0 (by decide) _ _).trans ?_
  refine (slot_read_other 5 2 inb_S7x128x128_S1x128x128_5_0_0 inb_S7x128x128_S1x128x128_2_0_0 (by decide) _ _).trans ?_
  refine (slot_read_other 4 2 inb_S7x128x128_S1x128x128_4_0_0 inb_S7x128x128_S1x128x128_2_0_0 (by decide) _ _).trans ?_
  refine (slot_read_other 3 2 inb_S7x128x128_S1x128x128_3_0_0 inb_S7x128x128_S1x128x128_2_0_0 (by decide) _ _).trans ?_
  exact slot_read_self 2 inb_S7x128x128_S1x128x128_2_0_0 _ _

/-- After the seven gathers slot 3 holds gather 3's payload. -/
theorem slot_read_3 (fb : (rowSlot 0 inb_S7x128x128_S1x128x128_0_0_0).view.ty.Contents (Elt F)) (g0 g1 g2 g3 g4 g5 g6 : S128x128.Idx → Elt F .f32) :
    View.read (Elt F) (rowSlot 3 inb_S7x128x128_S1x128x128_3_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g3 := by
  refine (slot_read_other 6 3 inb_S7x128x128_S1x128x128_6_0_0 inb_S7x128x128_S1x128x128_3_0_0 (by decide) _ _).trans ?_
  refine (slot_read_other 5 3 inb_S7x128x128_S1x128x128_5_0_0 inb_S7x128x128_S1x128x128_3_0_0 (by decide) _ _).trans ?_
  refine (slot_read_other 4 3 inb_S7x128x128_S1x128x128_4_0_0 inb_S7x128x128_S1x128x128_3_0_0 (by decide) _ _).trans ?_
  exact slot_read_self 3 inb_S7x128x128_S1x128x128_3_0_0 _ _

/-- After the seven gathers slot 4 holds gather 4's payload. -/
theorem slot_read_4 (fb : (rowSlot 0 inb_S7x128x128_S1x128x128_0_0_0).view.ty.Contents (Elt F)) (g0 g1 g2 g3 g4 g5 g6 : S128x128.Idx → Elt F .f32) :
    View.read (Elt F) (rowSlot 4 inb_S7x128x128_S1x128x128_4_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g4 := by
  refine (slot_read_other 6 4 inb_S7x128x128_S1x128x128_6_0_0 inb_S7x128x128_S1x128x128_4_0_0 (by decide) _ _).trans ?_
  refine (slot_read_other 5 4 inb_S7x128x128_S1x128x128_5_0_0 inb_S7x128x128_S1x128x128_4_0_0 (by decide) _ _).trans ?_
  exact slot_read_self 4 inb_S7x128x128_S1x128x128_4_0_0 _ _

/-- After the seven gathers slot 5 holds gather 5's payload. -/
theorem slot_read_5 (fb : (rowSlot 0 inb_S7x128x128_S1x128x128_0_0_0).view.ty.Contents (Elt F)) (g0 g1 g2 g3 g4 g5 g6 : S128x128.Idx → Elt F .f32) :
    View.read (Elt F) (rowSlot 5 inb_S7x128x128_S1x128x128_5_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g5 := by
  refine (slot_read_other 6 5 inb_S7x128x128_S1x128x128_6_0_0 inb_S7x128x128_S1x128x128_5_0_0 (by decide) _ _).trans ?_
  exact slot_read_self 5 inb_S7x128x128_S1x128x128_5_0_0 _ _

/-- After the seven gathers slot 6 holds gather 6's payload. -/
theorem slot_read_6 (fb : (rowSlot 0 inb_S7x128x128_S1x128x128_0_0_0).view.ty.Contents (Elt F)) (g0 g1 g2 g3 g4 g5 g6 : S128x128.Idx → Elt F .f32) :
    View.read (Elt F) (rowSlot 6 inb_S7x128x128_S1x128x128_6_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) = g6 := by
  exact slot_read_self 6 inb_S7x128x128_S1x128x128_6_0_0 _ _

/-- After the eighth gather, into slot 0 again, slot 0 holds the eighth payload. -/
theorem slot_read_7 (fb : (rowSlot 0 inb_S7x128x128_S1x128x128_0_0_0).view.ty.Contents (Elt F)) (g0 g1 g2 g3 g4 g5 g6 : S128x128.Idx → Elt F .f32) (g7 : S128x128.Idx → Elt F .f32) :
    View.read (Elt F) (rowSlot 0 inb_S7x128x128_S1x128x128_0_0_0).view (View.write (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb g0 Finset.univ) g1 Finset.univ) g2 Finset.univ) g3 Finset.univ) g4 Finset.univ) g5 Finset.univ) g6 Finset.univ) g7 Finset.univ) = g7 :=
  slot_read_self 0 inb_S7x128x128_S1x128x128_0_0_0 _ _

end Cert.Proof.KB

end
-- ==== Proof.TileValsGatherK.lean ====
/-
  What one gather of a tile delivers.  Gather `k` reads row `k` of the index scratch — the tile's positions
  `(16 (L 1) + 8 (L 0) + k, ·)`, each masked to its low four bits — as a list of 128 table rows, and copies those rows
  of the staged table: entry `(x₀, x₁)` of the payload is entry `(pos mod 16, x₁)` of the table, `pos` the position
  `(16 (L 1) + 8 (L 0) + k, x₀)`.
-/
import proofs.«214958_g36086315221739_cont_8to1_b_1353_25_alg».proof.Proof.TileViewsK
import proofs.«214958_g36086315221739_cont_8to1_b_1353_25_alg».proof.Proof.SplitGeomK

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "posV" => (Memref.whole Cert.Kernel.main_v0_scv : Memref Cert.Kernel.sig Kind.scVector Space.hbm Cert.Kernel.S256x128 EltTy.i32)
local notation "tabV" => (Memref.whole Cert.Kernel.main_arg3_scv : Memref Cert.Kernel.sig Kind.scVector Space.hbm Cert.Kernel.S16x128 EltTy.f32)
local notation "outV" => (Memref.whole Cert.Kernel.main_v1_scv : Memref Cert.Kernel.sig Kind.scVector Space.hbm Cert.Kernel.S32768x128 EltTy.f32)
local notation "idxV" => (Memref.whole Cert.Kernel.cc0_scratch0 : Memref Cert.Kernel.sig Kind.scVector Space.vmem Cert.Kernel.S8x128 EltTy.i32)
local notation "shV" => (Memref.whole Cert.Kernel.cc0_scratch1 : Memref Cert.Kernel.sig Kind.scVector Space.shared Cert.Kernel.S16x128 EltTy.f32)
local notation "bufV" => (Memref.whole Cert.Kernel.cc0_scratch2 : Memref Cert.Kernel.sig Kind.scVector Space.vmem Cert.Kernel.S7x128x128 EltTy.f32)

variable (p2 : (d : Dev nD) → Buf (Elt F) (posLoc d)) (tb : (d : Dev nD) → Buf (Elt F) (tabLoc d))
variable (d : Dev nD) (L : grid0.Coords)

/-! ## Reading through the views the gather uses -/

/-- Row `k` of the index scratch, squeezed to a list of 128 words. -/
abbrev idxRow (k : ℕ) (hk : ∀ a, (![k, 0] : Fin 2 → ℕ) a + S1x128.size a ≤ S8x128.size a) : Memref sig .scVector .vmem S128 .i32 :=
  ((idxV).slice (Rect.unit (s := S8x128) ![k, 0] S1x128.size hk) (fun _ => rfl)).squeeze S128 squeezes_S1x128_S128

/-- The one index of `[1, 128]` with the row-major number of index `y` of `[128]`. -/
theorem unsqueeze_row (y : S128.Idx) :
    Shape.reshapeEquiv squeezes_S1x128_S128.numel_eq y = ValueIdx.ix2 (n0 := 1) (n1 := 128) 0 (y 0) := by
  refine Shape.reshapeEquiv_eq_of_rowMajor _ ?_
  rw [Shape.rowMajor_val_two, Shape.rowMajor_val_one]
  show 0 * 128 + (y 0).val = (y 0).val
  omega

/-- Entry `y` of row `k` of the index scratch is entry `(k, y)` of the scratch. -/
theorem read_rowV (k : ℕ) (hk8 : k < 8) (hk : ∀ a, (![k, 0] : Fin 2 → ℕ) a + S1x128.size a ≤ S8x128.size a)
    (f : S8x128.Idx → Elt F .i32) (y : S128.Idx) :
    View.read (Elt F) (idxRow k hk).view f y = f (ValueIdx.ix2 (n0 := 8) (n1 := 128) ⟨k, hk8⟩ (y 0)) := by
  show f ((Rect.unit (s := S8x128) ![k, 0] S1x128.size hk).emb (Shape.reshapeEquiv squeezes_S1x128_S128.numel_eq y)) = _
  rw [unsqueeze_row]
  refine congrArg f (funext fun a => Fin.ext ?_)
  match a with
  | ⟨0, _⟩ => show k + 1 * 0 = k; omega
  | ⟨1, _⟩ => show 0 + 1 * (y 0).val = (y 0).val; omega

/-- The tile's eight rows of positions: entry `y` is position `(16 (L 1) + 8 (L 0) + y₀, y₁)`. -/
theorem idxRaw_apply (y : S8x128.Idx) (h : 16 * (L 1).val + 8 * (L 0).val + (y 0).val < 256) :
    idxRaw p2 d L y = p2 d (ValueIdx.ix2 (n0 := 256) (n1 := 128) ⟨16 * (L 1).val + 8 * (L 0).val + (y 0).val, h⟩ (y 1)) := by
  show p2 d ((Rect.unit (s := S256x128) (k0_off1 L) S8x128.size (k0_off1_inb L)).emb y) = _
  refine congrArg (p2 d) (funext fun a => Fin.ext ?_)
  have e := k0_off1_eq L
  match a with
  | ⟨0, _⟩ =>
    show k0_off1 L 0 + 1 * (y 0).val = 16 * (L 1).val + 8 * (L 0).val + (y 0).val
    rw [e]
    show 16 * (L 1).val + 8 * (L 0).val + 1 * (y 0).val = 16 * (L 1).val + 8 * (L 0).val + (y 0).val
    omega
  | ⟨1, _⟩ =>
    show k0_off1 L 1 + 1 * (y 1).val = (y 1).val
    rw [e]
    show 0 + 1 * (y 1).val = (y 1).val
    omega

/-- The whole-table view reads the table. -/
theorem read_tabV (hs : ∀ a, (![0, 0] : Fin 2 → ℕ) a + S16x128.size a ≤ S16x128.size a) (f : S16x128.Idx → Elt F .f32) (i : S16x128.Idx) :
    View.read (Elt F) ((shV).slice (Rect.unit (s := S16x128) ![0, 0] S16x128.size hs) (fun _ => rfl)).view f i = f i := by
  show f ((Rect.unit (s := S16x128) ![0, 0] S16x128.size hs).emb i) = _
  refine congrArg f (funext fun a => Fin.ext ?_)
  match a with
  | ⟨0, _⟩ => show 0 + 1 * (i 0).val = (i 0).val; omega
  | ⟨1, _⟩ => show 0 + 1 * (i 1).val = (i 1).val; omega

/-- The masked positions: entry `(kk, c)` of the index scratch is position `(16 (L 1) + 8 (L 0) + kk, c)` modulo 16. -/
theorem idxG_toNat (kk : Fin 8) (c : Fin 128) (h : 16 * (L 1).val + 8 * (L 0).val + kk.val < 256) :
    (idxG p2 d L (ValueIdx.ix2 (n0 := 8) (n1 := 128) kk c)).toNat
      = (p2 d (ValueIdx.ix2 (n0 := 256) (n1 := 128) ⟨16 * (L 1).val + 8 * (L 0).val + kk.val, h⟩ c)).toNat % 16 := by
  show (IntOp.andi (idxRaw p2 d L (ValueIdx.ix2 (n0 := 8) (n1 := 128) kk c)) 15#32).toNat = _
  rw [idxRaw_apply p2 d L (ValueIdx.ix2 (n0 := 8) (n1 := 128) kk c) h]
  unfold IntOp.andi
  rw [Cert.Proof.Spec.toNat_and_15]

/-- The list index with row-major number `c` has coordinate `c`. -/
theorem list_coord {o : ℕ} (hn : S128.numel = o) (c : Fin o) : ((S128.rowMajor.symm (c.cast hn.symm)) 0).val = c.val := by
  have h := congrArg Fin.val (S128.rowMajor.apply_symm_apply (c.cast hn.symm))
  rw [Shape.rowMajor_val_one] at h
  exact h

/-- The row of the table that entry `c` of row `k` of the index scratch names. -/
theorem rows_val (k : ℕ) (hk8 : k < 8) (hk : ∀ a, (![k, 0] : Fin 2 → ℕ) a + S1x128.size a ≤ S8x128.size a)
    {o z : ℕ} (hn : S128.numel = o) (ho : o = 128)
    (hin : ∀ y, (View.read (Elt F) (idxRow k hk).view (idxG p2 d L) y).toNat < z) (c : Fin o)
    (h : 16 * (L 1).val + 8 * (L 0).val + k < 256) :
    (SparseCore.rows (View.read (Elt F) (idxRow k hk).view (idxG p2 d L)) hn hin c).val
      = (p2 d (ValueIdx.ix2 (n0 := 256) (n1 := 128) ⟨16 * (L 1).val + 8 * (L 0).val + k, h⟩ ⟨c.val, ho ▸ c.isLt⟩)).toNat % 16 := by
  show (View.read (Elt F) (idxRow k hk).view (idxG p2 d L) (S128.rowMajor.symm (c.cast hn.symm))).toNat = _
  rw [read_rowV k hk8 hk]
  refine (idxG_toNat p2 d L ⟨k, hk8⟩ _ h).trans ?_
  exact congrArg (fun c' : Fin 128 => (p2 d (ValueIdx.ix2 (n0 := 256) (n1 := 128) ⟨16 * (L 1).val + 8 * (L 0).val + k, h⟩ c')).toNat % 16)
    (Fin.ext (list_coord hn c))

/-! ## What a gather delivers -/

/-- Gather `k` of the tile delivers, at `(x₀, x₁)`, the table row that position `(16 (L 1) + 8 (L 0) + k, x₀)` selects, column `x₁`. -/
theorem gather_value (k : ℕ) (hk8 : k < 8) (hk : ∀ a, (![k, 0] : Fin 2 → ℕ) a + S1x128.size a ≤ S8x128.size a)
    (hs : ∀ a, (![0, 0] : Fin 2 → ℕ) a + S16x128.size a ≤ S16x128.size a) (hg : S16x128.Gathers 0 S128x128)
    (hn : S128.numel = S128x128.size hg.axis')
    (hin : ∀ y, (View.read (Elt F) (idxRow k hk).view (idxG p2 d L) y).toNat < S16x128.size hg.axis)
    (x : S128x128.Idx) :
    SparseCore.gatherPayload hg
        (View.read (Elt F) ((shV).slice (Rect.unit (s := S16x128) ![0, 0] S16x128.size hs) (fun _ => rfl)).view (tb d))
        (SparseCore.rows (View.read (Elt F) (idxRow k hk).view (idxG p2 d L)) hn hin) x
      = tb d (ValueIdx.ix2 (n0 := 16) (n1 := 128)
          (Cert.Proof.Spec.rowOf (p2 d (ValueIdx.ix2 (n0 := 256) (n1 := 128)
            ⟨16 * (L 1).val + 8 * (L 0).val + k, by
              have h1 : (L 1).val < 16 := (L 1).isLt
              have h0 : (L 0).val < 2 := (L 0).isLt
              omega⟩ (x 0)))) (x 1)) := by
  have h1 : (L 1).val < 16 := (L 1).isLt
  have h0 : (L 0).val < 2 := (L 0).isLt
  have hrow : 16 * (L 1).val + 8 * (L 0).val + k < 256 := by omega
  unfold SparseCore.gatherPayload
  rw [read_tabV]
  refine congrArg (tb d) (funext fun a => Fin.ext ?_)
  match a with
  | ⟨0, _⟩ =>
    refine (congrArg Fin.val (Shape.Gathers.idx_axis hg (SparseCore.rows (View.read (Elt F) (idxRow k hk).view (idxG p2 d L)) hn hin) x)).trans ?_
    exact rows_val p2 d L k hk8 hk hn rfl hin (x hg.axis') hrow
  | ⟨1, _⟩ =>
    exact Shape.Gathers.idx_of_ne hg _ x ⟨1, by decide⟩ (by decide)

end Cert.Proof.KB

end
-- ==== Proof.TileValsBlockK.lean ====
/-
  A result block written whole.  Block `k` of the tile at `L` is rows `2048 (L 1) + 1024 (L 0) + 128 k ...` of the
  result; its entry `(x₀, x₁)` is flat position `128 (16 (L 1) + 8 (L 0) + k) + x₀`, that is position
  `(16 (L 1) + 8 (L 0) + k, x₀)` of the reshaped positions.  Written whole with the rows the gather delivered, the
  block holds the lookup on its elements.
-/
import proofs.«214958_g36086315221739_cont_8to1_b_1353_25_alg».proof.Proof.TileViewsK
import proofs.«214958_g36086315221739_cont_8to1_b_1353_25_alg».proof.Proof.SplitGeomK

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "posV" => (Memref.whole Cert.Kernel.main_v0_scv : Memref Cert.Kernel.sig Kind.scVector Space.hbm Cert.Kernel.S256x128 EltTy.i32)
local notation "tabV" => (Memref.whole Cert.Kernel.main_arg3_scv : Memref Cert.Kernel.sig Kind.scVector Space.hbm Cert.Kernel.S16x128 EltTy.f32)
local notation "outV" => (Memref.whole Cert.Kernel.main_v1_scv : Memref Cert.Kernel.sig Kind.scVector Space.hbm Cert.Kernel.S32768x128 EltTy.f32)
local notation "idxV" => (Memref.whole Cert.Kernel.cc0_scratch0 : Memref Cert.Kernel.sig Kind.scVector Space.vmem Cert.Kernel.S8x128 EltTy.i32)
local notation "shV" => (Memref.whole Cert.Kernel.cc0_scratch1 : Memref Cert.Kernel.sig Kind.scVector Space.shared Cert.Kernel.S16x128 EltTy.f32)
local notation "bufV" => (Memref.whole Cert.Kernel.cc0_scratch2 : Memref Cert.Kernel.sig Kind.scVector Space.vmem Cert.Kernel.S7x128x128 EltTy.f32)

variable (p2 : (d : Dev nD) → Buf (Elt F) (posLoc d)) (tb : (d : Dev nD) → Buf (Elt F) (tabLoc d))
variable (d : Dev nD) (L : grid0.Coords)

/-! ## A result block written whole -/

/-- Where entry `x` of block `k` sits in the result: row `2048 (L 1) + 1024 (L 0) + 128 k + x₀`, column `x₁`. -/
theorem oBlk_emb_row (k : Fin 8) (x : S128x128.Idx) :
    (((oBlk L k).view.emb x) 0).val = 2048 * (L 1).val + 1024 * (L 0).val + 128 * k.val + (x 0).val := by
  show k0_off2 L (BitVec.ofNat 32 (128 * k.val)) 0 + 1 * (x 0).val = _
  rw [k0_off2_eq]
  show 2048 * (L 1).val + 1024 * (L 0).val + 128 * k.val + 1 * (x 0).val = _
  omega

theorem oBlk_emb_col (k : Fin 8) (x : S128x128.Idx) : (((oBlk L k).view.emb x) 1).val = (x 1).val := by
  show k0_off2 L (BitVec.ofNat 32 (128 * k.val)) 1 + 1 * (x 1).val = _
  rw [k0_off2_eq]
  show 0 + 1 * (x 1).val = _
  omega

/-- Block `k` written whole with the gathered rows holds the lookup on its elements. -/
theorem block_value (k : Fin 8) (fo : (oBlk L k).view.ty.Contents (Elt F)) (w : S128x128.Idx → Elt F .f32)
    (hw : ∀ x : S128x128.Idx, w x = tb d (ValueIdx.ix2 (n0 := 16) (n1 := 128)
          (Cert.Proof.Spec.rowOf (p2 d (ValueIdx.ix2 (n0 := 256) (n1 := 128)
            ⟨16 * (L 1).val + 8 * (L 0).val + k.val, by
              have h1 : (L 1).val < 16 := (L 1).isLt
              have h0 : (L 0).val < 2 := (L 0).isLt
              have h8 : k.val < 8 := by first | exact Fin.isLt _ | omega | decide
              omega⟩ (x 0)))) (x 1))) :
    ∀ i ∈ (oBlk L k).view.set,
      ((oBlk L k).view.writes (Elt F) fo [⟨Rect.whole S128x128, w⟩]) i = sinOut p2 tb d i := by
  intro i hi
  obtain ⟨x, rfl⟩ := View.exists_emb_of_mem_set _ hi
  have h1 : (L 1).val < 16 := (L 1).isLt
  have h0 : (L 0).val < 2 := (L 0).isLt
  have hk := k.isLt
  have hx0 : (x 0).val < 128 := ValueIdx.idx2_lt0 x
  have hx : (oBlk L k).view.emb x = ((oBlk L k).view.slice (Rect.whole S128x128)).emb x := by
    show _ = (oBlk L k).view.emb ((Rect.whole S128x128).emb x)
    rw [Rect.emb_whole_apply]
  rw [View.writes_singleton]
  refine (congrArg _ hx).trans ((View.write_emb_of_mem _ _ (Finset.mem_univ x)).trans ?_)
  show w x = sinOut p2 tb d ((oBlk L k).view.emb x)
  rw [hw x]
  have er := oBlk_emb_row L k x
  have ec := oBlk_emb_col L k x
  show _ = tb d (ValueIdx.ix2 (n0 := 16) (n1 := 128)
    (Cert.Proof.Spec.rowOf (p2 d (Cert.Proof.Spec.posIx2 (((oBlk L k).view.emb x) 0)))) (((oBlk L k).view.emb x) 1))
  have e1 : Cert.Proof.Spec.posIx2 (((oBlk L k).view.emb x) 0)
      = ValueIdx.ix2 (n0 := 256) (n1 := 128) ⟨16 * (L 1).val + 8 * (L 0).val + k.val, by omega⟩ (x 0) := by
    unfold Cert.Proof.Spec.posIx2
    refine funext fun a => Fin.ext ?_
    match a with
    | ⟨0, _⟩ => show (((oBlk L k).view.emb x) 0).val / 128 = 16 * (L 1).val + 8 * (L 0).val + k.val; omega
    | ⟨1, _⟩ => show (((oBlk L k).view.emb x) 0).val % 128 = (x 0).val; omega
  have e2 : (((oBlk L k).view.emb x) 1 : Fin 128) = x 1 := Fin.ext ec
  rw [e1, e2]

end Cert.Proof.KB

end
-- ==== Proof.TileValsK.lean ====
/-
  The value of a tile's eight result blocks.  The tile gathers into the seven slots of its row scratch, then stores
  slot `k mod 7` as block `k`, the eighth gather re-using slot 0 after block 0 is stored.  Each slot read back holds
  the payload of the last gather into it; that payload is the table rows the tile's positions select; so each block,
  written whole from its slot, holds the lookup on its elements.
-/
import proofs.«214958_g36086315221739_cont_8to1_b_1353_25_alg».proof.Proof.TileViewsK
import proofs.«214958_g36086315221739_cont_8to1_b_1353_25_alg».proof.Proof.TileValsSlotsK
import proofs.«214958_g36086315221739_cont_8to1_b_1353_25_alg».proof.Proof.TileValsGatherK
import proofs.«214958_g36086315221739_cont_8to1_b_1353_25_alg».proof.Proof.TileValsBlockK

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "posV" => (Memref.whole Cert.Kernel.main_v0_scv : Memref Cert.Kernel.sig Kind.scVector Space.hbm Cert.Kernel.S256x128 EltTy.i32)
local notation "tabV" => (Memref.whole Cert.Kernel.main_arg3_scv : Memref Cert.Kernel.sig Kind.scVector Space.hbm Cert.Kernel.S16x128 EltTy.f32)
local notation "outV" => (Memref.whole Cert.Kernel.main_v1_scv : Memref Cert.Kernel.sig Kind.scVector Space.hbm Cert.Kernel.S32768x128 EltTy.f32)
local notation "idxV" => (Memref.whole Cert.Kernel.cc0_scratch0 : Memref Cert.Kernel.sig Kind.scVector Space.vmem Cert.Kernel.S8x128 EltTy.i32)
local notation "shV" => (Memref.whole Cert.Kernel.cc0_scratch1 : Memref Cert.Kernel.sig Kind.scVector Space.shared Cert.Kernel.S16x128 EltTy.f32)
local notation "bufV" => (Memref.whole Cert.Kernel.cc0_scratch2 : Memref Cert.Kernel.sig Kind.scVector Space.vmem Cert.Kernel.S7x128x128 EltTy.f32)

variable (p2 : (d : Dev nD) → Buf (Elt F) (posLoc d)) (tb : (d : Dev nD) → Buf (Elt F) (tabLoc d))
variable (d : Dev nD) (L : grid0.Coords)

/-- Gather `k`'s payload, as the tile's body forms it: the staged table's rows named by row `k` of the index scratch. -/
abbrev gPay (k : ℕ) (hk : ∀ a, (![k, 0] : Fin 2 → ℕ) a + S1x128.size a ≤ S8x128.size a)
    (hn : S128.numel = S128x128.size gathers_S16x128_S128x128.axis')
    (hin : ∀ y, (View.read (Elt F) (idxRow k hk).view (idxG p2 d L) y).toNat < S16x128.size gathers_S16x128_S128x128.axis) :
    S128x128.Idx → Elt F .f32 :=
  SparseCore.gatherPayload gathers_S16x128_S128x128
    (View.read (Elt F) ((shV).slice (Rect.unit (s := S16x128) ![0, 0] S16x128.size inb_S16x128_S16x128_0_0) (fun _ => rfl)).view (tb d))
    (SparseCore.rows (View.read (Elt F) (idxRow k hk).view (idxG p2 d L)) hn hin)

/-- Its value. -/
theorem gPay_value (k : ℕ) (hk8 : k < 8) (hk : ∀ a, (![k, 0] : Fin 2 → ℕ) a + S1x128.size a ≤ S8x128.size a)
    (hn : S128.numel = S128x128.size gathers_S16x128_S128x128.axis')
    (hin : ∀ y, (View.read (Elt F) (idxRow k hk).view (idxG p2 d L) y).toNat < S16x128.size gathers_S16x128_S128x128.axis)
    (x : S128x128.Idx) :
    gPay p2 tb d L k hk hn hin x = tb d (ValueIdx.ix2 (n0 := 16) (n1 := 128)
          (Cert.Proof.Spec.rowOf (p2 d (ValueIdx.ix2 (n0 := 256) (n1 := 128)
            ⟨16 * (L 1).val + 8 * (L 0).val + k, by
              have h1 : (L 1).val < 16 := (L 1).isLt
              have h0 : (L 0).val < 2 := (L 0).isLt
              have h8 : k < 8 := by first | exact Fin.isLt _ | omega | decide
              omega⟩ (x 0)))) (x 1)) :=
  gather_value p2 tb d L k hk8 hk inb_S16x128_S16x128_0_0 gathers_S16x128_S128x128 hn hin x

/-! ## The eight blocks, as the tile's run leaves them -/

/-- Block 0: written whole with slot 0 of the row scratch read back after the seven gathers, it holds the lookup. -/
theorem block_0 (fo : (oBlk L 0).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 0).view.set,
      ((oBlk L 0).view.writes (Elt F) fo [⟨Rect.whole S128x128,
        ReadAs.same.apply (View.read (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 0 inb_S8x128_S1x128_0_0 hn hin0) :=
    slot_read_0 _ _ _ _ _ _ _ _
  rw [e]
  exact block_value p2 tb d L 0 fo _ (fun x => gPay_value p2 tb d L 0 (by decide) inb_S8x128_S1x128_0_0 hn hin0 x)

/-- Block 1: written whole with slot 1 of the row scratch read back after the seven gathers, it holds the lookup. -/
theorem block_1 (fo : (oBlk L 1).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 1).view.set,
      ((oBlk L 1).view.writes (Elt F) fo [⟨Rect.whole S128x128,
        ReadAs.same.apply (View.read (Elt F) (rowSlot 1 inb_S7x128x128_S1x128x128_1_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 1 inb_S7x128x128_S1x128x128_1_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 1 inb_S8x128_S1x128_1_0 hn hin1) :=
    slot_read_1 _ _ _ _ _ _ _ _
  rw [e]
  exact block_value p2 tb d L 1 fo _ (fun x => gPay_value p2 tb d L 1 (by decide) inb_S8x128_S1x128_1_0 hn hin1 x)

/-- Block 2: written whole with slot 2 of the row scratch read back after the seven gathers, it holds the lookup. -/
theorem block_2 (fo : (oBlk L 2).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 2).view.set,
      ((oBlk L 2).view.writes (Elt F) fo [⟨Rect.whole S128x128,
        ReadAs.same.apply (View.read (Elt F) (rowSlot 2 inb_S7x128x128_S1x128x128_2_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 2 inb_S7x128x128_S1x128x128_2_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 2 inb_S8x128_S1x128_2_0 hn hin2) :=
    slot_read_2 _ _ _ _ _ _ _ _
  rw [e]
  exact block_value p2 tb d L 2 fo _ (fun x => gPay_value p2 tb d L 2 (by decide) inb_S8x128_S1x128_2_0 hn hin2 x)

/-- Block 3: written whole with slot 3 of the row scratch read back after the seven gathers, it holds the lookup. -/
theorem block_3 (fo : (oBlk L 3).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 3).view.set,
      ((oBlk L 3).view.writes (Elt F) fo [⟨Rect.whole S128x128,
        ReadAs.same.apply (View.read (Elt F) (rowSlot 3 inb_S7x128x128_S1x128x128_3_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 3 inb_S7x128x128_S1x128x128_3_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 3 inb_S8x128_S1x128_3_0 hn hin3) :=
    slot_read_3 _ _ _ _ _ _ _ _
  rw [e]
  exact block_value p2 tb d L 3 fo _ (fun x => gPay_value p2 tb d L 3 (by decide) inb_S8x128_S1x128_3_0 hn hin3 x)

/-- Block 4: written whole with slot 4 of the row scratch read back after the seven gathers, it holds the lookup. -/
theorem block_4 (fo : (oBlk L 4).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 4).view.set,
      ((oBlk L 4).view.writes (Elt F) fo [⟨Rect.whole S128x128,
        ReadAs.same.apply (View.read (Elt F) (rowSlot 4 inb_S7x128x128_S1x128x128_4_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 4 inb_S7x128x128_S1x128x128_4_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 4 inb_S8x128_S1x128_4_0 hn hin4) :=
    slot_read_4 _ _ _ _ _ _ _ _
  rw [e]
  exact block_value p2 tb d L 4 fo _ (fun x => gPay_value p2 tb d L 4 (by decide) inb_S8x128_S1x128_4_0 hn hin4 x)

/-- Block 5: written whole with slot 5 of the row scratch read back after the seven gathers, it holds the lookup. -/
theorem block_5 (fo : (oBlk L 5).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 5).view.set,
      ((oBlk L 5).view.writes (Elt F) fo [⟨Rect.whole S128x128,
        ReadAs.same.apply (View.read (Elt F) (rowSlot 5 inb_S7x128x128_S1x128x128_5_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 5 inb_S7x128x128_S1x128x128_5_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 5 inb_S8x128_S1x128_5_0 hn hin5) :=
    slot_read_5 _ _ _ _ _ _ _ _
  rw [e]
  exact block_value p2 tb d L 5 fo _ (fun x => gPay_value p2 tb d L 5 (by decide) inb_S8x128_S1x128_5_0 hn hin5 x)

/-- Block 6: written whole with slot 6 of the row scratch read back after the seven gathers, it holds the lookup. -/
theorem block_6 (fo : (oBlk L 6).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis) :
    ∀ i ∈ (oBlk L 6).view.set,
      ((oBlk L 6).view.writes (Elt F) fo [⟨Rect.whole S128x128,
        ReadAs.same.apply (View.read (Elt F) (rowSlot 6 inb_S7x128x128_S1x128x128_6_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ))⟩]) i = sinOut p2 tb d i := by
  have e : ReadAs.same.apply (View.read (Elt F) (rowSlot 6 inb_S7x128x128_S1x128x128_6_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ)) = (gPay p2 tb d L 6 inb_S8x128_S1x128_6_0 hn hin6) :=
    slot_read_6 _ _ _ _ _ _ _ _
  rw [e]
  exact block_value p2 tb d L 6 fo _ (fun x => gPay_value p2 tb d L 6 (by decide) inb_S8x128_S1x128_6_0 hn hin6 x)

/-- Block 7: written whole with slot 0 of the row scratch read back after the eighth gather, it holds the lookup. -/
theorem block_7 (fo : (oBlk L 7).view.ty.Contents (Elt F)) (fb : (rowSlot 0 inb_S7x128x128_S1x128x128_0_0_0).view.ty.Contents (Elt F))
    (hn : S128.numel = S128x128.size gathers_S16x128_S128x128.axis')
    (hin0 : ∀ y, (View.read (Elt F) (idxRow 0 inb_S8x128_S1x128_0_0).view (idxG p2 d L) y).toNat < S16x128.size gathers_S16x128_S128x128.axis)
    (hin1 : ∀ y, (View.read (Elt F) (idxRow 1 inb_S8x128_S1x128_1_0).view (idxG p2 d L) y).toNat < S16x128.size gathers_S16x128_S128x128.axis)
    (hin2 : ∀ y, (View.read (Elt F) (idxRow 2 inb_S8x128_S1x128_2_0).view (idxG p2 d L) y).toNat < S16x128.size gathers_S16x128_S128x128.axis)
    (hin3 : ∀ y, (View.read (Elt F) (idxRow 3 inb_S8x128_S1x128_3_0).view (idxG p2 d L) y).toNat < S16x128.size gathers_S16x128_S128x128.axis)
    (hin4 : ∀ y, (View.read (Elt F) (idxRow 4 inb_S8x128_S1x128_4_0).view (idxG p2 d L) y).toNat < S16x128.size gathers_S16x128_S128x128.axis)
    (hin5 : ∀ y, (View.read (Elt F) (idxRow 5 inb_S8x128_S1x128_5_0).view (idxG p2 d L) y).toNat < S16x128.size gathers_S16x128_S128x128.axis)
    (hin6 : ∀ y, (View.read (Elt F) (idxRow 6 inb_S8x128_S1x128_6_0).view (idxG p2 d L) y).toNat < S16x128.size gathers_S16x128_S128x128.axis)
    (hin7 : ∀ y, (View.read (Elt F) (idxRow 7 inb_S8x128_S1x128_7_0).view (idxG p2 d L) y).toNat < S16x128.size gathers_S16x128_S128x128.axis) :
    ∀ i ∈ (oBlk L 7).view.set,
      ((oBlk L 7).view.writes (Elt F) fo [⟨Rect.whole S128x128,
        ReadAs.same.apply (View.read (Elt F) (rowSlot 0 inb_S7x128x128_S1x128x128_0_0_0).view (View.write (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ) (gPay p2 tb d L 7 inb_S8x128_S1x128_7_0 hn hin7) Finset.univ))⟩]) i = sinOut p2 tb d i := by
  have e : ReadAs.same.apply (View.read (Elt F) (rowSlot 0 inb_S7x128x128_S1x128x128_0_0_0).view (View.write (Elt F) (rowSlot 0 inb_S7x128x128_S1x128x128_0_0_0).view (View.write (Elt F) (rowSlot 6 inb_S7x128x128_S1x128x128_6_0_0).view (View.write (Elt F) (rowSlot 5 inb_S7x128x128_S1x128x128_5_0_0).view (View.write (Elt F) (rowSlot 4 inb_S7x128x128_S1x128x128_4_0_0).view (View.write (Elt F) (rowSlot 3 inb_S7x128x128_S1x128x128_3_0_0).view (View.write (Elt F) (rowSlot 2 inb_S7x128x128_S1x128x128_2_0_0).view (View.write (Elt F) (rowSlot 1 inb_S7x128x128_S1x128x128_1_0_0).view (View.write (Elt F) (rowSlot 0 inb_S7x128x128_S1x128x128_0_0_0).view fb (gPay p2 tb d L 0 inb_S8x128_S1x128_0_0 hn hin0) Finset.univ) (gPay p2 tb d L 1 inb_S8x128_S1x128_1_0 hn hin1) Finset.univ) (gPay p2 tb d L 2 inb_S8x128_S1x128_2_0 hn hin2) Finset.univ) (gPay p2 tb d L 3 inb_S8x128_S1x128_3_0 hn hin3) Finset.univ) (gPay p2 tb d L 4 inb_S8x128_S1x128_4_0 hn hin4) Finset.univ) (gPay p2 tb d L 5 inb_S8x128_S1x128_5_0 hn hin5) Finset.univ) (gPay p2 tb d L 6 inb_S8x128_S1x128_6_0 hn hin6) Finset.univ) (gPay p2 tb d L 7 inb_S8x128_S1x128_7_0 hn hin7) Finset.univ)) = (gPay p2 tb d L 7 inb_S8x128_S1x128_7_0 hn hin7) :=
    slot_read_7 _ _ _ _ _ _ _ _ _
  rw [e]
  exact block_value p2 tb d L 7 fo _ (fun x => gPay_value p2 tb d L 7 (by decide) inb_S8x128_S1x128_7_0 hn hin7 x)

end Cert.Proof.KB

end
-- ==== Proof.TileBodyK.lean ====
/-
  One tile's task, run once at a symbolic tile: the body.
-/
import proofs.«214958_g36086315221739_cont_8to1_b_1353_25_alg».proof.Proof.TileViewsK
import proofs.«214958_g36086315221739_cont_8to1_b_1353_25_alg».proof.Proof.TileValsK
import proofs.«214958_g36086315221739_cont_8to1_b_1353_25_alg».proof.Proof.PayK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "posV" => (Memref.whole Cert.Kernel.main_v0_scv : Memref Cert.Kernel.sig Kind.scVector Space.hbm Cert.Kernel.S256x128 EltTy.i32)
local notation "tabV" => (Memref.whole Cert.Kernel.main_arg3_scv : Memref Cert.Kernel.sig Kind.scVector Space.hbm Cert.Kernel.S16x128 EltTy.f32)
local notation "outV" => (Memref.whole Cert.Kernel.main_v1_scv : Memref Cert.Kernel.sig Kind.scVector Space.hbm Cert.Kernel.S32768x128 EltTy.f32)
local notation "idxV" => (Memref.whole Cert.Kernel.cc0_scratch0 : Memref Cert.Kernel.sig Kind.scVector Space.vmem Cert.Kernel.S8x128 EltTy.i32)
local notation "shV" => (Memref.whole Cert.Kernel.cc0_scratch1 : Memref Cert.Kernel.sig Kind.scVector Space.shared Cert.Kernel.S16x128 EltTy.f32)
local notation "bufV" => (Memref.whole Cert.Kernel.cc0_scratch2 : Memref Cert.Kernel.sig Kind.scVector Space.vmem Cert.Kernel.S7x128x128 EltTy.f32)

variable (p2 : (d : Dev nD) → Buf (Elt F) (posLoc d)) (tb : (d : Dev nD) → Buf (Elt F) (tabLoc d))
variable [FloatOps F]
variable (d : Dev nD) (L : grid0.Coords)

/-! ## Between the first part of the body and the rest -/

/-- The eight result blocks at contents `f`. -/
abbrev out8 (f : Buf (Elt F) (outLoc d)) : sProp 𝕄 :=
  iprop((outLoc d ↦[oSet L 0]{fullShare} f) ∗ (outLoc d ↦[oSet L 1]{fullShare} f) ∗ (outLoc d ↦[oSet L 2]{fullShare} f) ∗ (outLoc d ↦[oSet L 3]{fullShare} f)
    ∗ (outLoc d ↦[oSet L 4]{fullShare} f) ∗ (outLoc d ↦[oSet L 5]{fullShare} f) ∗ (outLoc d ↦[oSet L 6]{fullShare} f) ∗ (outLoc d ↦[oSet L 7]{fullShare} f))

/-- The subcore's other buffers and semaphores, which the task never names. -/
abbrev restBufs : sProp 𝕄 :=
  bigSep (((ownRefs (τ := τ) (.scVector (cV L) (jV L))).erase ((Proc.scVector (cV L) (jV L)).devRef cc0_scratch0)).erase
      ((Proc.scVector (cV L) (jV L)).devRef cc0_scratch2)) fun b => iprop(∃ f, ((d, b) : Loc nD τ sig) ↦{fullShare} f)
abbrev restSems : sProp 𝕄 := bigSep ((ownCells (VT d L)) \ Finset.univ.image (dcell d (cV L) (jV L))) fun g => semVal g 0

/-- What the tile holds after the first part of its body: the staged table's token (tile 0: and the remainder), the
    index scratch after the copy and the first two rewrites, everything else as dealt, the barrier behind it. -/
def midState (O : CellTallies nD τ sig (HIx 1)) (W : Waits sig (HIx 1)) (fo : Buf (Elt F) (outLoc d)) : sProp 𝕄 :=
  iprop(levAts (K (F := F)).L (K (F := F)).lev
    ∗ (posLoc d ↦{Transfers.shareTokN fullShare (tix (cV L) (jV L))} p2 d)
    ∗ (tabLoc d ↦{Transfers.shareTokN fullShare (tix (cV L) (jV L))} tb d)
    ∗ (∃ fi, (VT d L).loc cc0_scratch0 ↦{fullShare} (idxV).view.writes (Elt F) fi (fillList (F := F) (idxV).view (idxDma p2 d L) 2 (by decide)))
    ∗ (∃ f, (VT d L).loc cc0_scratch2 ↦{fullShare} f)
    ∗ out8 d L fo
    ∗ shBack tb d (cV L) (jV L)
    ∗ restBufs d L ∗ cells0 d L ∗ restSems d L
    ∗ ∃ W1, ⌜∀ p ∈ W1, p ∈ W ∨ p.2 = none ∨ p.2 = some (0 : Fin 1)⌝ ∗ owes (VT d L) O W1)

/-! ## The staging condition, decided per tile -/

omit [FloatOps F] in
/-- The kernel's test "this is vector subcore 0", as it computes it on words, at subcore 0 and elsewhere. -/
theorem stage_cond_pos : ∀ s : Fin 16, s.val = 0 →
    Scalar.cmpi .ne (Scalar.extui (Scalar.cmpi .eq (BitVec.ofNat 32 s.val) 0#32)) 0#32 = 1#1 := by decide
omit [FloatOps F] in
theorem stage_cond_neg : ∀ s : Fin 16, ¬ s.val = 0 →
    ¬ Scalar.cmpi .ne (Scalar.extui (Scalar.cmpi .eq (BitVec.ofNat 32 s.val) 0#32)) 0#32 = 1#1 := by decide

/-! ## Across the barrier -/

omit [FloatOps F] in
/-- Tile 0's arrivals hand over the sixteen read tokens of the staged table, one to each tile's round. -/
theorem pays_intro_zero (hs : (jV L).val = 0) :
    (bigSep Finset.univ fun i : Fin 16 => shLoc d (cV L) ↦{Transfers.shareTok fullShare 16 i} tbS tb d (cV L) : sProp 𝕄)
      ⊢ (bigSep Finset.univ fun j : Fin (grid0.bound 1) => (bRd (F := F) tb).payload (bcell d (cV L) (j.castLE hsub0)) 0 (jV L).val : sProp 𝕄) := by
  refine Entails.of_eq (bigSep_congr fun j _ => ?_)
  show _ = bPay tb (bcell d (cV L) (j.castLE hsub0)) (jV L).val
  unfold bPay; dsimp only
  rw [if_pos hs]; rfl

omit [FloatOps F] in
/-- The other tiles' arrivals hand over nothing. -/
theorem pays_intro_succ (hs : ¬ (jV L).val = 0) :
    (iprop(emp) : sProp 𝕄)
      ⊢ (bigSep Finset.univ fun j : Fin (grid0.bound 1) => (bRd (F := F) tb).payload (bcell d (cV L) (j.castLE hsub0)) 0 (jV L).val : sProp 𝕄) := by
  rw [show (bigSep Finset.univ fun j : Fin (grid0.bound 1) => (bRd (F := F) tb).payload (bcell d (cV L) (j.castLE hsub0)) 0 (jV L).val : sProp 𝕄)
      = bigSep Finset.univ fun _ : Fin (grid0.bound 1) => (iprop(emp) : sProp 𝕄) from
      bigSep_congr fun j _ => by
        show bPay tb (bcell d (cV L) (j.castLE hsub0)) (jV L).val = _
        unfold bPay; dsimp only
        rw [if_neg hs], bigSep_emp']

omit [FloatOps F] in
/-- What a tile's own round collected holds its read token of the staged table. -/
theorem pays_elim : (bigSep ((bRd (F := F) tb).duties (bcell d (cV L) (jV L)) 0 \ ∅) fun n => (bRd (F := F) tb).payload (bcell d (cV L) (jV L)) 0 n)
    ⊢ (shTok tb d (cV L) (jV L) : sProp 𝕄) := by
  rw [Finset.sdiff_empty, bRd_duties₀]
  refine (bigSep_elim (i := 0) ((Finset.mem_image (f := Fin.val) (s := (Finset.univ : Finset (Fin τ.nSub)))).mpr ⟨(⟨0, by decide⟩ : Fin τ.nSub), Finset.mem_univ _, rfl⟩)).trans ?_
  show bPay tb (bcell d (cV L) (jV L)) 0 ⊢ _
  unfold bPay; dsimp only
  rw [if_pos rfl]

set_option maxHeartbeats 4000000 in
theorem tile_body (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) (fo : Buf (Elt F) (outLoc d)) :
    iprop(levAts (K (F := F)).L (K (F := F)).lev ∗ bkit tb d (cV L) (jV L)
        ∗ (tileArr p2 tb d L fo ∗ shIn d (cV L) (jV L))
        ∗ scopedBufs (VT d L) ∗ scopedSems0 (VT d L) ∗ owes (VT d L) (O + oxV d (cV L)) W)
      ⊢ wp frame (wpE (defs₀ (F := F)) 𝒱₀ (VT d L) none) Set.univ
          (cc0_body L posV (Memref.isWhole_whole _) tabV (Memref.isWhole_whole _) outV (Memref.isWhole_whole _) idxV (Memref.isWhole_whole _)
            shV (Memref.isWhole_whole _) bufV (Memref.isWhole_whole _) cc0_scratch3 cc0_scratch4 cc0_scoped0 cc0_scoped1)
          fun _ => iprop((tileArr p2 tb d L (sinOut p2 tb d) ∗ shBack tb d (cV L) (jV L))
            ∗ scopedBufs (VT d L) ∗ scopedSems0 (VT d L)
            ∗ ∃ W', ⌜∀ p ∈ W', p ∈ W ∨ p.2 = none ∨ p.2 = some (0 : Fin 1)⌝ ∗ owes (VT d L) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold bkit tileArr
  rw [bigSep_fin8 (fun k : Fin 8 => outLoc d ↦[oSet L k]{fullShare} fo), bigSep_fin8 (fun k : Fin 8 => outLoc d ↦[oSet L k]{fullShare} sinOut p2 tb d)]
  have hO' : ∀ g, (O + oxV d (cV L)) g none = 0 := fun g => by rw [Pi.add_apply, Finsupp.add_apply, hO g, oxV_none]
  rw [wp_bind]
  refine BIBase.Entails.trans ?_ (wp_mono _ _ _ (Q := fun _ => midState p2 tb d L O W fo) fun v2 => ?_)
  · -- the first part: the staging (tile 0), the barrier, the copy of the positions, two rewrites
    unfold shIn midState shBack
    by_cases hs : (jV L).val = 0
    · rw [if_pos hs, if_pos hs]
      have hcond := stage_cond_pos (Fin.cast bound_one (L 1)) hs
      iintro ⟨#Hlv, ⟨⟨%κ, #Hinv⟩, Htoks, #Hrch, Hat, Hcred⟩, ⟨⟨Hpos, Htab, ⟨Ho0, Ho1, Ho2, Ho3, Ho4, Ho5, Ho6, Ho7⟩⟩, ⟨%fsh, Hsh⟩⟩, ⟨⟨%fi, Hidx⟩, ⟨%fb, Hbuf⟩, Hbufs⟩, ⟨⟨Hc0, Hc1, Hc2, Hc3, Hc4, Hc5, Hc6, Hc7, Hc8, Hc9, Hc10, Hc11, Hc12, Hc13, Hc14, Hc15⟩, Hsems⟩, HO⟩
      ihave Hmw1 := (show levAts (K (F := F)).L (K (F := F)).lev ⊢ Transfers.MayWaits (VT d L) (default : HIx 1) (O + oxV d (cV L)) from
        (K (F := F)).mayWaits_none (thr := VT d L) hO') $$ Hlv
      ihave Hmw2 := (show levAts (K (F := F)).L (K (F := F)).lev ⊢ Transfers.MayWaits (VT d L) (default : HIx 1) O from
        (K (F := F)).mayWaits_none (thr := VT d L) hO) $$ Hlv
      ihave Hpos' := (Entails.of_eq (pts_posV (F := F) d L _ _).symm) $$ Hpos
      ihave Htab' := (Entails.of_eq (pts_tabV (F := F) d L _ _).symm) $$ Htab
      ihave Hidx' := (Entails.of_eq (pts_idxV (F := F) d L _).symm) $$ Hidx
      ihave Hbuf' := (Entails.of_eq (pts_bufV (F := F) d L _).symm) $$ Hbuf
      ihave Hsh' := (Entails.of_eq (pts_shV (F := F) d L _ _).symm) $$ Hsh
      sl_exec
      -- the staged table, whole: split into the remainder and the sixteen read tokens, which the arrivals hand over
      ihave Hsh3 := (Entails.of_eq (congrArg (fun f => ((shV).view.loc (VT d L) ↦{fullShare} f : sProp 𝕄)) (View.write_whole_univ cc0_scratch1 _ _))) $$ Hsh'
      ihave Hsh4 := (show ((shV).view.loc (VT d L) ↦{fullShare} _root_.Cert.Proof.KB.tile_body.sl.dma0 tb d : sProp 𝕄) ⊢ (shLoc d (cV L) ↦{fullShare} tbS tb d (cV L) : sProp 𝕄) from BI.Entails.refl _) $$ Hsh3
      ihave Hspl := (Transfers.pointsTo_toks_split (f := tbS tb d (cV L)) fullShare 16) $$ Hsh4
      icases Hspl with ⟨Hdrop, Htk⟩
      ihave Hpays := (pays_intro_zero (F := F) tb d L hs) $$ Htk
      iapply (SparseCore.wp_subcoreBarrier 𝒱₀ none EB (bRd (F := F) tb) d (sc := cV L) (i := jV L) sc_bar0 (grid0.bound 1) hsub0 (L 1) rfl κ (fun _ => 0) (jV L).val
          (fun j => bRd_mem₀ tb d _ _ _) (fun _ => rfl) (bRd_expect tb d _ _) (some 0) O _) $$ [HO Htoks Hpays Hcred Hat]
      · isplitr; · iexact Hinv
        isplitl [HO]; · iexact HO
        isplitl [Htoks Hpays]
        · rw [bigSep_sep', bigSep_sep']
          isplitl [Htoks]; · iexact Htoks
          isplitl [Hpays]; · iexact Hpays
          iexact Hrch
        isplitl [Hcred]; · iexact Hcred
        isplitl [Hat]; · iexact Hat
        iapply ((K (F := F)).mayOwe_of_bound (thr := VT d L) 3 (fun p hp => by
            rw [Finset.mem_singleton] at hp; subst hp
            show (K (F := F)).lev (bcell d (cV L) (jV L)) (some 0) ≤ 3
            rw [(K (F := F)).lev_V_reg d _ _ (show (sc_bar0 : Sem sig) ≠ (K (F := F)).go from sc_bar0_ne_go)]; exact le_rfl)
          (fun g ι hg => lt_of_lt_of_le (by decide) (hOlev g ι hg)))
        iexact Hlv
      iintro ⟨HO, Hat, -, Hgot⟩
      ihave Hmine := (pays_elim (F := F) tb d L) $$ Hgot
      ihave Hsh2 := (Entails.of_eq (pts_shV (F := F) d L _ _).symm) $$ Hmine
      sl_exec
      sl_step
      isplitr; · iexact Hlv
      isplitl [Hpos']; · iapply (Entails.of_eq (pts_posV (F := F) d L _ _)); iexact Hpos'
      isplitl [Htab']; · iapply (Entails.of_eq (pts_tabV (F := F) d L _ _)); iexact Htab'
      isplitl [Hidx']; · iexists fi; iapply (Entails.of_eq (pts_idxV (F := F) d L _)); iexact Hidx'
      isplitl [Hbuf']; · iexists fb; iapply (Entails.of_eq (pts_bufV (F := F) d L _)); iexact Hbuf'
      isplitl [Ho0 Ho1 Ho2 Ho3 Ho4 Ho5 Ho6 Ho7]
      · isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
      isplitl [Hsh2 Hdrop]
      · isplitl [Hsh2]; · iapply (Entails.of_eq (pts_shV (F := F) d L _ _)); iexact Hsh2
        iexact Hdrop
      isplitl [Hbufs]; · iexact Hbufs
      isplitl [Hc0 Hc1 Hc2 Hc3 Hc4 Hc5 Hc6 Hc7 Hc8 Hc9 Hc10 Hc11 Hc12 Hc13 Hc14 Hc15]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        isplitl [Hc9]; · iexact Hc9
        isplitl [Hc10]; · iexact Hc10
        isplitl [Hc11]; · iexact Hc11
        isplitl [Hc12]; · iexact Hc12
        isplitl [Hc13]; · iexact Hc13
        isplitl [Hc14]; · iexact Hc14
        iexact Hc15
      isplitl [Hsems]; · iexact Hsems
      iexists _; isplitr
      swap; · iexact HO
      ipureintro; intro p hp
      rcases Finset.mem_insert.mp hp with hp | hp; · exact .inr (.inl (hp ▸ rfl))
      rcases Finset.mem_insert.mp hp with hp | hp; · exact .inr (.inr (hp ▸ rfl))
      rcases Finset.mem_insert.mp hp with hp | hp; · exact .inr (.inl (hp ▸ rfl))
      exact .inl hp
    · rw [if_neg hs, if_neg hs]
      have hcond := stage_cond_neg (Fin.cast bound_one (L 1)) hs
      iintro ⟨#Hlv, ⟨⟨%κ, #Hinv⟩, Htoks, #Hrch, Hat, Hcred⟩, ⟨⟨Hpos, Htab, ⟨Ho0, Ho1, Ho2, Ho3, Ho4, Ho5, Ho6, Ho7⟩⟩, -⟩, ⟨⟨%fi, Hidx⟩, ⟨%fb, Hbuf⟩, Hbufs⟩, ⟨⟨Hc0, Hc1, Hc2, Hc3, Hc4, Hc5, Hc6, Hc7, Hc8, Hc9, Hc10, Hc11, Hc12, Hc13, Hc14, Hc15⟩, Hsems⟩, HO⟩
      ihave Hmw1 := (show levAts (K (F := F)).L (K (F := F)).lev ⊢ Transfers.MayWaits (VT d L) (default : HIx 1) (O + oxV d (cV L)) from
        (K (F := F)).mayWaits_none (thr := VT d L) hO') $$ Hlv
      ihave Hmw2 := (show levAts (K (F := F)).L (K (F := F)).lev ⊢ Transfers.MayWaits (VT d L) (default : HIx 1) O from
        (K (F := F)).mayWaits_none (thr := VT d L) hO) $$ Hlv
      ihave Hpos' := (Entails.of_eq (pts_posV (F := F) d L _ _).symm) $$ Hpos
      ihave Htab' := (Entails.of_eq (pts_tabV (F := F) d L _ _).symm) $$ Htab
      ihave Hidx' := (Entails.of_eq (pts_idxV (F := F) d L _).symm) $$ Hidx
      ihave Hbuf' := (Entails.of_eq (pts_bufV (F := F) d L _).symm) $$ Hbuf
      sl_exec
      ihave Hpays := (pays_intro_succ (F := F) tb d L hs) $$ []
      · iempintro
      iapply (SparseCore.wp_subcoreBarrier 𝒱₀ none EB (bRd (F := F) tb) d (sc := cV L) (i := jV L) sc_bar0 (grid0.bound 1) hsub0 (L 1) rfl κ (fun _ => 0) (jV L).val
          (fun j => bRd_mem₀ tb d _ _ _) (fun _ => rfl) (bRd_expect tb d _ _) (some 0) O _) $$ [HO Htoks Hpays Hcred Hat]
      · isplitr; · iexact Hinv
        isplitl [HO]; · iexact HO
        isplitl [Htoks Hpays]
        · rw [bigSep_sep', bigSep_sep']
          isplitl [Htoks]; · iexact Htoks
          isplitl [Hpays]; · iexact Hpays
          iexact Hrch
        isplitl [Hcred]; · iexact Hcred
        isplitl [Hat]; · iexact Hat
        iapply ((K (F := F)).mayOwe_of_bound (thr := VT d L) 3 (fun p hp => by
            rw [Finset.mem_singleton] at hp; subst hp
            show (K (F := F)).lev (bcell d (cV L) (jV L)) (some 0) ≤ 3
            rw [(K (F := F)).lev_V_reg d _ _ (show (sc_bar0 : Sem sig) ≠ (K (F := F)).go from sc_bar0_ne_go)]; exact le_rfl)
          (fun g ι hg => lt_of_lt_of_le (by decide) (hOlev g ι hg)))
        iexact Hlv
      iintro ⟨HO, Hat, -, Hgot⟩
      ihave Hmine := (pays_elim (F := F) tb d L) $$ Hgot
      ihave Hsh2 := (Entails.of_eq (pts_shV (F := F) d L _ _).symm) $$ Hmine
      sl_exec
      sl_step
      isplitr; · iexact Hlv
      isplitl [Hpos']; · iapply (Entails.of_eq (pts_posV (F := F) d L _ _)); iexact Hpos'
      isplitl [Htab']; · iapply (Entails.of_eq (pts_tabV (F := F) d L _ _)); iexact Htab'
      isplitl [Hidx']; · iexists fi; iapply (Entails.of_eq (pts_idxV (F := F) d L _)); iexact Hidx'
      isplitl [Hbuf']; · iexists fb; iapply (Entails.of_eq (pts_bufV (F := F) d L _)); iexact Hbuf'
      isplitl [Ho0 Ho1 Ho2 Ho3 Ho4 Ho5 Ho6 Ho7]
      · isplitl [Ho0]; · iexact Ho0
        isplitl [Ho1]; · iexact Ho1
        isplitl [Ho2]; · iexact Ho2
        isplitl [Ho3]; · iexact Ho3
        isplitl [Ho4]; · iexact Ho4
        isplitl [Ho5]; · iexact Ho5
        isplitl [Ho6]; · iexact Ho6
        iexact Ho7
      isplitl [Hsh2]
      · isplitl [Hsh2]; · iapply (Entails.of_eq (pts_shV (F := F) d L _ _)); iexact Hsh2
        iempintro
      isplitl [Hbufs]; · iexact Hbufs
      isplitl [Hc0 Hc1 Hc2 Hc3 Hc4 Hc5 Hc6 Hc7 Hc8 Hc9 Hc10 Hc11 Hc12 Hc13 Hc14 Hc15]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        isplitl [Hc9]; · iexact Hc9
        isplitl [Hc10]; · iexact Hc10
        isplitl [Hc11]; · iexact Hc11
        isplitl [Hc12]; · iexact Hc12
        isplitl [Hc13]; · iexact Hc13
        isplitl [Hc14]; · iexact Hc14
        iexact Hc15
      isplitl [Hsems]; · iexact Hsems
      iexists _; isplitr
      swap; · iexact HO
      ipureintro; intro p hp
      rcases Finset.mem_insert.mp hp with hp | hp; · exact .inr (.inl (hp ▸ rfl))
      rcases Finset.mem_insert.mp hp with hp | hp; · exact .inr (.inr (hp ▸ rfl))
      exact .inl hp
  · -- the rest: sixty-two rewrites, the gathers and the stores
    unfold midState out8
    iintro ⟨#Hlv, Hpos, Htab, ⟨%fi, Hidx⟩, ⟨%fb, Hbuf⟩, ⟨Ho0, Ho1, Ho2, Ho3, Ho4, Ho5, Ho6, Ho7⟩, Hshb, Hbufs, ⟨Hc0, Hc1, Hc2, Hc3, Hc4, Hc5, Hc6, Hc7, Hc8, Hc9, Hc10, Hc11, Hc12, Hc13, Hc14, Hc15⟩, Hsems, ⟨%W1, %hW1, HO⟩⟩
    ihave Hmw2 := (show levAts (K (F := F)).L (K (F := F)).lev ⊢ Transfers.MayWaits (VT d L) (default : HIx 1) O from
      (K (F := F)).mayWaits_none (thr := VT d L) hO) $$ Hlv
    unfold shBack
    icases Hshb with ⟨Hsh, Hdrop⟩
    ihave Hpos' := (Entails.of_eq (pts_posV (F := F) d L _ _).symm) $$ Hpos
    ihave Htab' := (Entails.of_eq (pts_tabV (F := F) d L _ _).symm) $$ Htab
    ihave Hidx' := (Entails.of_eq (pts_idxV (F := F) d L _).symm) $$ Hidx
    ihave Hbuf' := (Entails.of_eq (pts_bufV (F := F) d L _).symm) $$ Hbuf
    ihave Hsh2 := (Entails.of_eq (pts_shV (F := F) d L _ _).symm) $$ Hsh
    ihave Ho0' := (Entails.of_eq (pts_oBlk (F := F) d L 0 _).symm) $$ Ho0
    ihave Ho1' := (Entails.of_eq (pts_oBlk (F := F) d L 1 _).symm) $$ Ho1
    ihave Ho2' := (Entails.of_eq (pts_oBlk (F := F) d L 2 _).symm) $$ Ho2
    ihave Ho3' := (Entails.of_eq (pts_oBlk (F := F) d L 3 _).symm) $$ Ho3
    ihave Ho4' := (Entails.of_eq (pts_oBlk (F := F) d L 4 _).symm) $$ Ho4
    ihave Ho5' := (Entails.of_eq (pts_oBlk (F := F) d L 5 _).symm) $$ Ho5
    ihave Ho6' := (Entails.of_eq (pts_oBlk (F := F) d L 6 _).symm) $$ Ho6
    ihave Ho7' := (Entails.of_eq (pts_oBlk (F := F) d L 7 _).symm) $$ Ho7
    sl_exec
    -- the index scratch in closed form: every entry is the copied position ANDed with 15
    have hL : _root_.Cert.Proof.KB.tile_body.sl.Hidx'_65 p2 d L = fillList (F := F) (idxV).view (idxDma p2 d L) 64 le_rfl := rfl
    have hG : (idxV).view.writes (Elt F) (idxV).view.junk (_root_.Cert.Proof.KB.tile_body.sl.Hidx'_65 p2 d L) = idxG p2 d L := funext fun y => by
      have h1 := View.read_writes_junk_apply_eq_canon (Val := Elt F) (idxV).view y (_root_.Cert.Proof.KB.tile_body.sl.Hidx'_65 p2 d L)
      rw [hL, fill_all, canon_whole_piece] at h1
      exact h1
    ihave Hidx2 := (Entails.of_eq (congrArg (fun f => ((idxV).view.loc (VT d L) ↦[(idxV).view.set]{fullShare} f : sProp 𝕄)) hG)) $$ Hidx'
    have hin0 : ∀ x, (((((idxV).slice (Rect.unit (s := S8x128) ![0, 0] S1x128.size inb_S8x128_S1x128_0_0) (fun _ => rfl)).squeeze S128 squeezes_S1x128_S128)).view.read (Elt F) (idxG p2 d L) x).toNat < 16 := fun x => idxG_lt p2 d L _
    have hin1 : ∀ x, (((((idxV).slice (Rect.unit (s := S8x128) ![1, 0] S1x128.size inb_S8x128_S1x128_1_0) (fun _ => rfl)).squeeze S128 squeezes_S1x128_S128)).view.read (Elt F) (idxG p2 d L) x).toNat < 16 := fun x => idxG_lt p2 d L _
    have hin2 : ∀ x, (((((idxV).slice (Rect.unit (s := S8x128) ![2, 0] S1x128.size inb_S8x128_S1x128_2_0) (fun _ => rfl)).squeeze S128 squeezes_S1x128_S128)).view.read (Elt F) (idxG p2 d L) x).toNat < 16 := fun x => idxG_lt p2 d L _
    have hin3 : ∀ x, (((((idxV).slice (Rect.unit (s := S8x128) ![3, 0] S1x128.size inb_S8x128_S1x128_3_0) (fun _ => rfl)).squeeze S128 squeezes_S1x128_S128)).view.read (Elt F) (idxG p2 d L) x).toNat < 16 := fun x => idxG_lt p2 d L _
    have hin4 : ∀ x, (((((idxV).slice (Rect.unit (s := S8x128) ![4, 0] S1x128.size inb_S8x128_S1x128_4_0) (fun _ => rfl)).squeeze S128 squeezes_S1x128_S128)).view.read (Elt F) (idxG p2 d L) x).toNat < 16 := fun x => idxG_lt p2 d L _
    have hin5 : ∀ x, (((((idxV).slice (Rect.unit (s := S8x128) ![5, 0] S1x128.size inb_S8x128_S1x128_5_0) (fun _ => rfl)).squeeze S128 squeezes_S1x128_S128)).view.read (Elt F) (idxG p2 d L) x).toNat < 16 := fun x => idxG_lt p2 d L _
    have hin6 : ∀ x, (((((idxV).slice (Rect.unit (s := S8x128) ![6, 0] S1x128.size inb_S8x128_S1x128_6_0) (fun _ => rfl)).squeeze S128 squeezes_S1x128_S128)).view.read (Elt F) (idxG p2 d L) x).toNat < 16 := fun x => idxG_lt p2 d L _
    have hin7 : ∀ x, (((((idxV).slice (Rect.unit (s := S8x128) ![7, 0] S1x128.size inb_S8x128_S1x128_7_0) (fun _ => rfl)).squeeze S128 squeezes_S1x128_S128)).view.read (Elt F) (idxG p2 d L) x).toNat < 16 := fun x => idxG_lt p2 d L _
    -- seven gathers read the staged table at once: one read token of the tile's token per gather cell
    ihave Hspl := (Transfers.pointsTo_toks_split (Transfers.shareTokN fullShare (jV L).val) 7) $$ Hsh2
    icases Hspl with ⟨Hshr, Hs7⟩
    ihave Hs7' := (Entails.of_eq (bigSep_fin7 (F := F) _)) $$ Hs7
    icases Hs7' with ⟨Hs0, Hs1, Hs2, Hs3, Hs4, Hs5, Hs6⟩
    sl_exec
    -- the seven read tokens of the staged table rejoin the tile's token
    ihave Hs7j := (Entails.of_eq (bigSep_fin7 (F := F) (fun i : Fin 7 => ((shV).view.loc (VT d L) ↦{Transfers.shareTok (Transfers.shareTokN fullShare (jV L).val) 7 i} tbS tb d (cV L) : sProp 𝕄))).symm) $$ [Hs0 Hs1 Hs2 Hs3 Hs4 Hs5 Hs6]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    ihave Hshj := (Transfers.pointsTo_toks_join (Transfers.shareTokN fullShare (jV L).val) 7) $$ [Hshr Hs7j]
    · isplitl [Hshr]; · iexact Hshr
      iexact Hs7j
    -- each result block holds the lookup
    ihave Hb0 := (show ((oBlk L 0).view.loc (VT d L) ↦[(oBlk L 0).view.set]{fullShare} (oBlk L 0).view.writes (Elt F) fo [⟨Rect.whole S128x128, _root_.Cert.Proof.KB.tile_body.sl.dma0_3 p2 tb d L fb hin0 hin1 hin2 hin3 hin4 hin5 hin6⟩] : sProp 𝕄) ⊢ ((oBlk L 0).view.loc (VT d L) ↦[(oBlk L 0).view.set]{fullShare} sinOut p2 tb d : sProp 𝕄) from Entails.of_eq (pointsTo_congr (block_0 p2 tb d L fo fb rfl hin0 hin1 hin2 hin3 hin4 hin5 hin6))) $$ Ho0'
    ihave Hb1 := (show ((oBlk L 1).view.loc (VT d L) ↦[(oBlk L 1).view.set]{fullShare} (oBlk L 1).view.writes (Elt F) fo [⟨Rect.whole S128x128, _root_.Cert.Proof.KB.tile_body.sl.dma0_4 p2 tb d L fb hin0 hin1 hin2 hin3 hin4 hin5 hin6⟩] : sProp 𝕄) ⊢ ((oBlk L 1).view.loc (VT d L) ↦[(oBlk L 1).view.set]{fullShare} sinOut p2 tb d : sProp 𝕄) from Entails.of_eq (pointsTo_congr (block_1 p2 tb d L fo fb rfl hin0 hin1 hin2 hin3 hin4 hin5 hin6))) $$ Ho1'
    ihave Hb2 := (show ((oBlk L 2).view.loc (VT d L) ↦[(oBlk L 2).view.set]{fullShare} (oBlk L 2).view.writes (Elt F) fo [⟨Rect.whole S128x128, _root_.Cert.Proof.KB.tile_body.sl.dma0_5 p2 tb d L fb hin0 hin1 hin2 hin3 hin4 hin5 hin6⟩] : sProp 𝕄) ⊢ ((oBlk L 2).view.loc (VT d L) ↦[(oBlk L 2).view.set]{fullShare} sinOut p2 tb d : sProp 𝕄) from Entails.of_eq (pointsTo_congr (block_2 p2 tb d L fo fb rfl hin0 hin1 hin2 hin3 hin4 hin5 hin6))) $$ Ho2'
    ihave Hb3 := (show ((oBlk L 3).view.loc (VT d L) ↦[(oBlk L 3).view.set]{fullShare} (oBlk L 3).view.writes (Elt F) fo [⟨Rect.whole S128x128, _root_.Cert.Proof.KB.tile_body.sl.dma0_6 p2 tb d L fb hin0 hin1 hin2 hin3 hin4 hin5 hin6⟩] : sProp 𝕄) ⊢ ((oBlk L 3).view.loc (VT d L) ↦[(oBlk L 3).view.set]{fullShare} sinOut p2 tb d : sProp 𝕄) from Entails.of_eq (pointsTo_congr (block_3 p2 tb d L fo fb rfl hin0 hin1 hin2 hin3 hin4 hin5 hin6))) $$ Ho3'
    ihave Hb4 := (show ((oBlk L 4).view.loc (VT d L) ↦[(oBlk L 4).view.set]{fullShare} (oBlk L 4).view.writes (Elt F) fo [⟨Rect.whole S128x128, _root_.Cert.Proof.KB.tile_body.sl.dma0_7 p2 tb d L fb hin0 hin1 hin2 hin3 hin4 hin5 hin6⟩] : sProp 𝕄) ⊢ ((oBlk L 4).view.loc (VT d L) ↦[(oBlk L 4).view.set]{fullShare} sinOut p2 tb d : sProp 𝕄) from Entails.of_eq (pointsTo_congr (block_4 p2 tb d L fo fb rfl hin0 hin1 hin2 hin3 hin4 hin5 hin6))) $$ Ho4'
    ihave Hb5 := (show ((oBlk L 5).view.loc (VT d L) ↦[(oBlk L 5).view.set]{fullShare} (oBlk L 5).view.writes (Elt F) fo [⟨Rect.whole S128x128, _root_.Cert.Proof.KB.tile_body.sl.dma0_8 p2 tb d L fb hin0 hin1 hin2 hin3 hin4 hin5 hin6⟩] : sProp 𝕄) ⊢ ((oBlk L 5).view.loc (VT d L) ↦[(oBlk L 5).view.set]{fullShare} sinOut p2 tb d : sProp 𝕄) from Entails.of_eq (pointsTo_congr (block_5 p2 tb d L fo fb rfl hin0 hin1 hin2 hin3 hin4 hin5 hin6))) $$ Ho5'
    ihave Hb6 := (show ((oBlk L 6).view.loc (VT d L) ↦[(oBlk L 6).view.set]{fullShare} (oBlk L 6).view.writes (Elt F) fo [⟨Rect.whole S128x128, _root_.Cert.Proof.KB.tile_body.sl.dma0_9 p2 tb d L fb hin0 hin1 hin2 hin3 hin4 hin5 hin6⟩] : sProp 𝕄) ⊢ ((oBlk L 6).view.loc (VT d L) ↦[(oBlk L 6).view.set]{fullShare} sinOut p2 tb d : sProp 𝕄) from Entails.of_eq (pointsTo_congr (block_6 p2 tb d L fo fb rfl hin0 hin1 hin2 hin3 hin4 hin5 hin6))) $$ Ho6'
    ihave Hb7 := (show ((oBlk L 7).view.loc (VT d L) ↦[(oBlk L 7).view.set]{fullShare} (oBlk L 7).view.writes (Elt F) fo [⟨Rect.whole S128x128, _root_.Cert.Proof.KB.tile_body.sl.dma0_10 p2 tb d L fb hin0 hin1 hin2 hin3 hin4 hin5 hin6 hin7⟩] : sProp 𝕄) ⊢ ((oBlk L 7).view.loc (VT d L) ↦[(oBlk L 7).view.set]{fullShare} sinOut p2 tb d : sProp 𝕄) from Entails.of_eq (pointsTo_congr (block_7 p2 tb d L fo fb rfl hin0 hin1 hin2 hin3 hin4 hin5 hin6 hin7))) $$ Ho7'
    sl_step
    isplitl [Hpos' Htab' Hb0 Hb1 Hb2 Hb3 Hb4 Hb5 Hb6 Hb7 Hshj Hdrop]
    · isplitl [Hpos' Htab' Hb0 Hb1 Hb2 Hb3 Hb4 Hb5 Hb6 Hb7]
      · isplitl [Hpos']; · iapply (Entails.of_eq (pts_posV (F := F) d L _ _)); iexact Hpos'
        isplitl [Htab']; · iapply (Entails.of_eq (pts_tabV (F := F) d L _ _)); iexact Htab'
        isplitl [Hb0]; · iapply (Entails.of_eq (pts_oBlk (F := F) d L 0 _)); iexact Hb0
        isplitl [Hb1]; · iapply (Entails.of_eq (pts_oBlk (F := F) d L 1 _)); iexact Hb1
        isplitl [Hb2]; · iapply (Entails.of_eq (pts_oBlk (F := F) d L 2 _)); iexact Hb2
        isplitl [Hb3]; · iapply (Entails.of_eq (pts_oBlk (F := F) d L 3 _)); iexact Hb3
        isplitl [Hb4]; · iapply (Entails.of_eq (pts_oBlk (F := F) d L 4 _)); iexact Hb4
        isplitl [Hb5]; · iapply (Entails.of_eq (pts_oBlk (F := F) d L 5 _)); iexact Hb5
        isplitl [Hb6]; · iapply (Entails.of_eq (pts_oBlk (F := F) d L 6 _)); iexact Hb6
        iapply (Entails.of_eq (pts_oBlk (F := F) d L 7 _)); iexact Hb7
      · isplitl [Hshj]; · iapply (Entails.of_eq (pts_shV (F := F) d L _ _)); iexact Hshj
        iexact Hdrop
    isplitl [Hidx2 Hbuf' Hbufs]
    · isplitl [Hidx2]; · iexists _; iapply (Entails.of_eq (pts_idxV (F := F) d L _)); iexact Hidx2
      isplitl [Hbuf']; · iexists _; iapply (Entails.of_eq (pts_bufV (F := F) d L _)); iexact Hbuf'
      iexact Hbufs
    isplitl [Hc0 Hc1 Hc2 Hc3 Hc4 Hc5 Hc6 Hc7 Hc8 Hc9 Hc10 Hc11 Hc12 Hc13 Hc14 Hc15 Hsems]
    · isplitl [Hc0 Hc1 Hc2 Hc3 Hc4 Hc5 Hc6 Hc7 Hc8 Hc9 Hc10 Hc11 Hc12 Hc13 Hc14 Hc15]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        isplitl [Hc7]; · iexact Hc7
        isplitl [Hc8]; · iexact Hc8
        isplitl [Hc9]; · iexact Hc9
        isplitl [Hc10]; · iexact Hc10
        isplitl [Hc11]; · iexact Hc11
        isplitl [Hc12]; · iexact Hc12
        isplitl [Hc13]; · iexact Hc13
        isplitl [Hc14]; · iexact Hc14
        iexact Hc15
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact hW1 p hp

/-! ## The obligation -/

omit [FloatOps F] in
theorem defs₀_vector [FloatOps F] (c : Fin τ.nSC) (s : Fin τ.nSub) :
    defs₀ (F := F) (.scVector c s) 0 ()
      = SparseCore.onTile hcore0 hsub0 (fun c s => cc0_body (coordsV c s)
          posV (Memref.isWhole_whole _) tabV (Memref.isWhole_whole _) outV (Memref.isWhole_whole _) idxV (Memref.isWhole_whole _)
          shV (Memref.isWhole_whole _) bufV (Memref.isWhole_whole _) cc0_scratch3 cc0_scratch4 cc0_scoped0 cc0_scoped1) ⟨⟩ c s := rfl

set_option maxRecDepth 16384 in
theorem tileObl (fo : (d : Dev nD) → Buf (Elt F) (outLoc d)) (hF : (K (F := F)).Facts) : (K (F := F)).TileObl (D (F := F)) 𝒱 (P p2 tb fo) v₀ 0 := by
  intro d c i O W hO hOlev _
  have hci : ((K (F := F)).core 0 c).val < grid0.bound 0 ∧ ((K (F := F)).sub 0 i).val < grid0.bound 1 := ⟨c.isLt, i.isLt⟩
  rw [show (P p2 tb fo).ox 0 (V d ((K (F := F)).core 0 c) ((K (F := F)).sub 0 i)) = oxV d ((K (F := F)).core 0 c) from rfl,
    show (P p2 tb fo).x 0 (V d ((K (F := F)).core 0 c) ((K (F := F)).sub 0 i)) = bkit tb d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body p2 tb d (coordsV ⟨_, hci.1⟩ ⟨_, hci.2⟩) hF O W hO hOlev (fo d)

end Cert.Proof.KB

end
-- ==== Proof.TcData.lean ====
/-
  The TensorCore call's result as a function of its two inputs.  One grid point reads a block of 64 x 128
  positions and the 16 x 128 table and stores 64 pieces of 128 x 128 into its 8192 x 128 output block, piece
  `r` at rows `128 r ...`.  Each stored piece is a term over the position block and the table alone; `pieceN r`
  names the `r`-th.  The block is the pieces stacked, the whole result the four blocks stacked: output row `b`
  is local row `b % 128` of piece `(b % 8192) / 128` of the block computed from position rows `64 (b / 8192) ...`.
-/
import proofs.«214958_g36086315221739_cont_8to1_b_1353_25_alg».proof.Proof.Ghost
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- The `k`-th piece a grid point stores, over the position block `v0` and the table `v19` it loaded. -/
def pieceN (k : ℕ) (v0 : Vec F S64x128 .i32) (v19 : Vec F S16x128 .f32) : FVec F S128x128 .f32 :=
  match k with
  | 0 => k1_pay5 v0 v19
  | 1 => k1_pay6 v0 v19
  | 2 => k1_pay8 v19 (k1_pay7 v0) (constant S128x128 .f32 0x00000000#32)
  | 3 => k1_pay9 (k1_pay3 v0) (k1_pay4 (F := F)) v19
  | 4 => k1_pay10 (k1_pay3 v0) (k1_pay4 (F := F)) v19
  | 5 => k1_pay11 (k1_pay3 v0) (k1_pay4 (F := F)) v19
  | 6 => k1_pay12 (k1_pay3 v0) (k1_pay4 (F := F)) v19
  | 7 => k1_pay14 v19 (k1_pay13 (k1_pay3 v0) (k1_pay4 (F := F))) (constant S128x128 .f32 0x00000000#32)
  | 8 => k1_pay15 (k1_pay3 v0) (k1_pay4 (F := F)) v19
  | 9 => k1_pay16 (k1_pay3 v0) (k1_pay4 (F := F)) v19
  | 10 => k1_pay17 (k1_pay3 v0) (k1_pay4 (F := F)) v19
  | 11 => k1_pay18 (k1_pay3 v0) (k1_pay4 (F := F)) v19
  | 12 => k1_pay20 v19 (k1_pay19 (k1_pay3 v0) (k1_pay4 (F := F))) (constant S128x128 .f32 0x00000000#32)
  | 13 => k1_pay21 (k1_pay3 v0) (k1_pay4 (F := F)) v19
  | 14 => k1_pay22 (k1_pay3 v0) (k1_pay4 (F := F)) v19
  | 15 => k1_pay23 (k1_pay3 v0) (k1_pay4 (F := F)) v19
  | 16 => k1_pay24 (k1_pay3 v0) (k1_pay4 (F := F)) v19
  | 17 => k1_pay26 v19 (k1_pay25 (k1_pay3 v0) (k1_pay4 (F := F))) (constant S128x128 .f32 0x00000000#32)
  | 18 => k1_pay27 (k1_pay3 v0) (k1_pay4 (F := F)) v19
  | 19 => k1_pay28 (k1_pay3 v0) (k1_pay4 (F := F)) v19
  | 20 => k1_pay29 (k1_pay3 v0) (k1_pay4 (F := F)) v19
  | 21 => k1_pay30 (k1_pay3 v0) (k1_pay4 (F := F)) v19
  | 22 => k1_pay32 v19 (k1_pay31 (k1_pay3 v0) (k1_pay4 (F := F))) (constant S128x128 .f32 0x00000000#32)
  | 23 => k1_pay33 (k1_pay3 v0) (k1_pay4 (F := F)) v19
  | 24 => k1_pay34 (k1_pay3 v0) (k1_pay4 (F := F)) v19
  | 25 => k1_pay35 (k1_pay3 v0) (k1_pay4 (F := F)) v19
  | 26 => k1_pay36 (k1_pay3 v0) (k1_pay4 (F := F)) v19
  | 27 => k1_pay38 v19 (k1_pay37 (k1_pay3 v0) (k1_pay4 (F := F))) (constant S128x128 .f32 0x00000000#32)
  | 28 => k1_pay39 (k1_pay3 v0) (k1_pay4 (F := F)) v19
  | 29 => k1_pay40 (k1_pay3 v0) (k1_pay4 (F := F)) v19
  | 30 => k1_pay41 (k1_pay3 v0) (k1_pay4 (F := F)) v19
  | 31 => k1_pay42 (k1_pay3 v0) (k1_pay4 (F := F)) v19
  | 32 => k1_pay44 v19 (k1_pay43 (k1_pay3 v0) (k1_pay4 (F := F))) (constant S128x128 .f32 0x00000000#32)
  | 33 => k1_pay45 (k1_pay3 v0) (k1_pay4 (F := F)) v19
  | 34 => k1_pay46 (k1_pay3 v0) (k1_pay4 (F := F)) v19
  | 35 => k1_pay47 (k1_pay3 v0) (k1_pay4 (F := F)) v19
  | 36 => k1_pay48 (k1_pay3 v0) (k1_pay4 (F := F)) v19
  | 37 => k1_pay50 v19 (k1_pay49 (k1_pay3 v0) (k1_pay4 (F := F))) (constant S128x128 .f32 0x00000000#32)
  | 38 => k1_pay51 (k1_pay3 v0) (k1_pay4 (F := F)) v19
  | 39 => k1_pay52 (k1_pay3 v0) (k1_pay4 (F := F)) v19
  | 40 => k1_pay53 (k1_pay3 v0) (k1_pay4 (F := F)) v19
  | 41 => k1_pay54 (k1_pay3 v0) (k1_pay4 (F := F)) v19
  | 42 => k1_pay56 v19 (k1_pay55 (k1_pay3 v0) (k1_pay4 (F := F))) (constant S128x128 .f32 0x00000000#32)
  | 43 => k1_pay57 (k1_pay3 v0) (k1_pay4 (F := F)) v19
  | 44 => k1_pay58 (k1_pay3 v0) (k1_pay4 (F := F)) v19
  | 45 => k1_pay59 (k1_pay3 v0) (k1_pay4 (F := F)) v19
  | 46 => k1_pay60 (k1_pay3 v0) (k1_pay4 (F := F)) v19
  | 47 => k1_pay62 v19 (k1_pay61 (k1_pay3 v0) (k1_pay4 (F := F))) (constant S128x128 .f32 0x00000000#32)
  | 48 => k1_pay63 (k1_pay3 v0) (k1_pay4 (F := F)) v19
  | 49 => k1_pay64 (k1_pay3 v0) (k1_pay4 (F := F)) v19
  | 50 => k1_pay65 (k1_pay3 v0) (k1_pay4 (F := F)) v19
  | 51 => k1_pay66 (k1_pay3 v0) (k1_pay4 (F := F)) v19
  | 52 => k1_pay68 v19 (k1_pay67 (k1_pay3 v0) (k1_pay4 (F := F))) (constant S128x128 .f32 0x00000000#32)
  | 53 => k1_pay69 (k1_pay3 v0) (k1_pay4 (F := F)) v19
  | 54 => k1_pay70 (k1_pay3 v0) (k1_pay4 (F := F)) v19
  | 55 => k1_pay71 (k1_pay3 v0) (k1_pay4 (F := F)) v19
  | 56 => k1_pay72 (k1_pay3 v0) (k1_pay4 (F := F)) v19
  | 57 => k1_pay74 v19 (k1_pay73 (k1_pay3 v0) (k1_pay4 (F := F))) (constant S128x128 .f32 0x00000000#32)
  | 58 => k1_pay75 (k1_pay3 v0) (k1_pay4 (F := F)) v19
  | 59 => k1_pay76 (k1_pay3 v0) (k1_pay4 (F := F)) v19
  | 60 => k1_pay77 (k1_pay3 v0) (k1_pay4 (F := F)) v19
  | 61 => k1_pay78 (k1_pay3 v0) (k1_pay4 (F := F)) v19
  | 62 => k1_pay1 v19 (k1_pay79 (k1_pay3 v0) (k1_pay4 (F := F))) (constant S128x128 .f32 0x00000000#32)
  | _ => k1_pay2 (k1_pay3 v0) (k1_pay4 (F := F)) v19

/-- The same, at a piece number below 64. -/
def pieceOf (r : Fin 64) (v0 : Vec F S64x128 .i32) (v19 : Vec F S16x128 .f32) : FVec F S128x128 .f32 := pieceN r.val v0 v19

theorem pieceN_0 (v0 : Vec F S64x128 .i32) (v19 : Vec F S16x128 .f32) : pieceN 0 v0 v19 = k1_pay5 v0 v19 := rfl
theorem pieceN_1 (v0 : Vec F S64x128 .i32) (v19 : Vec F S16x128 .f32) : pieceN 1 v0 v19 = k1_pay6 v0 v19 := rfl
theorem pieceN_2 (v0 : Vec F S64x128 .i32) (v19 : Vec F S16x128 .f32) : pieceN 2 v0 v19 = k1_pay8 v19 (k1_pay7 v0) (constant S128x128 .f32 0x00000000#32) := rfl
theorem pieceN_3 (v0 : Vec F S64x128 .i32) (v19 : Vec F S16x128 .f32) : pieceN 3 v0 v19 = k1_pay9 (k1_pay3 v0) (k1_pay4 (F := F)) v19 := rfl
theorem pieceN_4 (v0 : Vec F S64x128 .i32) (v19 : Vec F S16x128 .f32) : pieceN 4 v0 v19 = k1_pay10 (k1_pay3 v0) (k1_pay4 (F := F)) v19 := rfl
theorem pieceN_5 (v0 : Vec F S64x128 .i32) (v19 : Vec F S16x128 .f32) : pieceN 5 v0 v19 = k1_pay11 (k1_pay3 v0) (k1_pay4 (F := F)) v19 := rfl
theorem pieceN_6 (v0 : Vec F S64x128 .i32) (v19 : Vec F S16x128 .f32) : pieceN 6 v0 v19 = k1_pay12 (k1_pay3 v0) (k1_pay4 (F := F)) v19 := rfl
theorem pieceN_7 (v0 : Vec F S64x128 .i32) (v19 : Vec F S16x128 .f32) : pieceN 7 v0 v19 = k1_pay14 v19 (k1_pay13 (k1_pay3 v0) (k1_pay4 (F := F))) (constant S128x128 .f32 0x00000000#32) := rfl
theorem pieceN_8 (v0 : Vec F S64x128 .i32) (v19 : Vec F S16x128 .f32) : pieceN 8 v0 v19 = k1_pay15 (k1_pay3 v0) (k1_pay4 (F := F)) v19 := rfl
theorem pieceN_9 (v0 : Vec F S64x128 .i32) (v19 : Vec F S16x128 .f32) : pieceN 9 v0 v19 = k1_pay16 (k1_pay3 v0) (k1_pay4 (F := F)) v19 := rfl
theorem pieceN_10 (v0 : Vec F S64x128 .i32) (v19 : Vec F S16x128 .f32) : pieceN 10 v0 v19 = k1_pay17 (k1_pay3 v0) (k1_pay4 (F := F)) v19 := rfl
theorem pieceN_11 (v0 : Vec F S64x128 .i32) (v19 : Vec F S16x128 .f32) : pieceN 11 v0 v19 = k1_pay18 (k1_pay3 v0) (k1_pay4 (F := F)) v19 := rfl
theorem pieceN_12 (v0 : Vec F S64x128 .i32) (v19 : Vec F S16x128 .f32) : pieceN 12 v0 v19 = k1_pay20 v19 (k1_pay19 (k1_pay3 v0) (k1_pay4 (F := F))) (constant S128x128 .f32 0x00000000#32) := rfl
theorem pieceN_13 (v0 : Vec F S64x128 .i32) (v19 : Vec F S16x128 .f32) : pieceN 13 v0 v19 = k1_pay21 (k1_pay3 v0) (k1_pay4 (F := F)) v19 := rfl
theorem pieceN_14 (v0 : Vec F S64x128 .i32) (v19 : Vec F S16x128 .f32) : pieceN 14 v0 v19 = k1_pay22 (k1_pay3 v0) (k1_pay4 (F := F)) v19 := rfl
theorem pieceN_15 (v0 : Vec F S64x128 .i32) (v19 : Vec F S16x128 .f32) : pieceN 15 v0 v19 = k1_pay23 (k1_pay3 v0) (k1_pay4 (F := F)) v19 := rfl
theorem pieceN_16 (v0 : Vec F S64x128 .i32) (v19 : Vec F S16x128 .f32) : pieceN 16 v0 v19 = k1_pay24 (k1_pay3 v0) (k1_pay4 (F := F)) v19 := rfl
theorem pieceN_17 (v0 : Vec F S64x128 .i32) (v19 : Vec F S16x128 .f32) : pieceN 17 v0 v19 = k1_pay26 v19 (k1_pay25 (k1_pay3 v0) (k1_pay4 (F := F))) (constant S128x128 .f32 0x00000000#32) := rfl
theorem pieceN_18 (v0 : Vec F S64x128 .i32) (v19 : Vec F S16x128 .f32) : pieceN 18 v0 v19 = k1_pay27 (k1_pay3 v0) (k1_pay4 (F := F)) v19 := rfl
theorem pieceN_19 (v0 : Vec F S64x128 .i32) (v19 : Vec F S16x128 .f32) : pieceN 19 v0 v19 = k1_pay28 (k1_pay3 v0) (k1_pay4 (F := F)) v19 := rfl
theorem pieceN_20 (v0 : Vec F S64x128 .i32) (v19 : Vec F S16x128 .f32) : pieceN 20 v0 v19 = k1_pay29 (k1_pay3 v0) (k1_pay4 (F := F)) v19 := rfl
theorem pieceN_21 (v0 : Vec F S64x128 .i32) (v19 : Vec F S16x128 .f32) : pieceN 21 v0 v19 = k1_pay30 (k1_pay3 v0) (k1_pay4 (F := F)) v19 := rfl
theorem pieceN_22 (v0 : Vec F S64x128 .i32) (v19 : Vec F S16x128 .f32) : pieceN 22 v0 v19 = k1_pay32 v19 (k1_pay31 (k1_pay3 v0) (k1_pay4 (F := F))) (constant S128x128 .f32 0x00000000#32) := rfl
theorem pieceN_23 (v0 : Vec F S64x128 .i32) (v19 : Vec F S16x128 .f32) : pieceN 23 v0 v19 = k1_pay33 (k1_pay3 v0) (k1_pay4 (F := F)) v19 := rfl
theorem pieceN_24 (v0 : Vec F S64x128 .i32) (v19 : Vec F S16x128 .f32) : pieceN 24 v0 v19 = k1_pay34 (k1_pay3 v0) (k1_pay4 (F := F)) v19 := rfl
theorem pieceN_25 (v0 : Vec F S64x128 .i32) (v19 : Vec F S16x128 .f32) : pieceN 25 v0 v19 = k1_pay35 (k1_pay3 v0) (k1_pay4 (F := F)) v19 := rfl
theorem pieceN_26 (v0 : Vec F S64x128 .i32) (v19 : Vec F S16x128 .f32) : pieceN 26 v0 v19 = k1_pay36 (k1_pay3 v0) (k1_pay4 (F := F)) v19 := rfl
theorem pieceN_27 (v0 : Vec F S64x128 .i32) (v19 : Vec F S16x128 .f32) : pieceN 27 v0 v19 = k1_pay38 v19 (k1_pay37 (k1_pay3 v0) (k1_pay4 (F := F))) (constant S128x128 .f32 0x00000000#32) := rfl
theorem pieceN_28 (v0 : Vec F S64x128 .i32) (v19 : Vec F S16x128 .f32) : pieceN 28 v0 v19 = k1_pay39 (k1_pay3 v0) (k1_pay4 (F := F)) v19 := rfl
theorem pieceN_29 (v0 : Vec F S64x128 .i32) (v19 : Vec F S16x128 .f32) : pieceN 29 v0 v19 = k1_pay40 (k1_pay3 v0) (k1_pay4 (F := F)) v19 := rfl
theorem pieceN_30 (v0 : Vec F S64x128 .i32) (v19 : Vec F S16x128 .f32) : pieceN 30 v0 v19 = k1_pay41 (k1_pay3 v0) (k1_pay4 (F := F)) v19 := rfl
theorem pieceN_31 (v0 : Vec F S64x128 .i32) (v19 : Vec F S16x128 .f32) : pieceN 31 v0 v19 = k1_pay42 (k1_pay3 v0) (k1_pay4 (F := F)) v19 := rfl
theorem pieceN_32 (v0 : Vec F S64x128 .i32) (v19 : Vec F S16x128 .f32) : pieceN 32 v0 v19 = k1_pay44 v19 (k1_pay43 (k1_pay3 v0) (k1_pay4 (F := F))) (constant S128x128 .f32 0x00000000#32) := rfl
theorem pieceN_33 (v0 : Vec F S64x128 .i32) (v19 : Vec F S16x128 .f32) : pieceN 33 v0 v19 = k1_pay45 (k1_pay3 v0) (k1_pay4 (F := F)) v19 := rfl
theorem pieceN_34 (v0 : Vec F S64x128 .i32) (v19 : Vec F S16x128 .f32) : pieceN 34 v0 v19 = k1_pay46 (k1_pay3 v0) (k1_pay4 (F := F)) v19 := rfl
theorem pieceN_35 (v0 : Vec F S64x128 .i32) (v19 : Vec F S16x128 .f32) : pieceN 35 v0 v19 = k1_pay47 (k1_pay3 v0) (k1_pay4 (F := F)) v19 := rfl
theorem pieceN_36 (v0 : Vec F S64x128 .i32) (v19 : Vec F S16x128 .f32) : pieceN 36 v0 v19 = k1_pay48 (k1_pay3 v0) (k1_pay4 (F := F)) v19 := rfl
theorem pieceN_37 (v0 : Vec F S64x128 .i32) (v19 : Vec F S16x128 .f32) : pieceN 37 v0 v19 = k1_pay50 v19 (k1_pay49 (k1_pay3 v0) (k1_pay4 (F := F))) (constant S128x128 .f32 0x00000000#32) := rfl
theorem pieceN_38 (v0 : Vec F S64x128 .i32) (v19 : Vec F S16x128 .f32) : pieceN 38 v0 v19 = k1_pay51 (k1_pay3 v0) (k1_pay4 (F := F)) v19 := rfl
theorem pieceN_39 (v0 : Vec F S64x128 .i32) (v19 : Vec F S16x128 .f32) : pieceN 39 v0 v19 = k1_pay52 (k1_pay3 v0) (k1_pay4 (F := F)) v19 := rfl
theorem pieceN_40 (v0 : Vec F S64x128 .i32) (v19 : Vec F S16x128 .f32) : pieceN 40 v0 v19 = k1_pay53 (k1_pay3 v0) (k1_pay4 (F := F)) v19 := rfl
theorem pieceN_41 (v0 : Vec F S64x128 .i32) (v19 : Vec F S16x128 .f32) : pieceN 41 v0 v19 = k1_pay54 (k1_pay3 v0) (k1_pay4 (F := F)) v19 := rfl
theorem pieceN_42 (v0 : Vec F S64x128 .i32) (v19 : Vec F S16x128 .f32) : pieceN 42 v0 v19 = k1_pay56 v19 (k1_pay55 (k1_pay3 v0) (k1_pay4 (F := F))) (constant S128x128 .f32 0x00000000#32) := rfl
theorem pieceN_43 (v0 : Vec F S64x128 .i32) (v19 : Vec F S16x128 .f32) : pieceN 43 v0 v19 = k1_pay57 (k1_pay3 v0) (k1_pay4 (F := F)) v19 := rfl
theorem pieceN_44 (v0 : Vec F S64x128 .i32) (v19 : Vec F S16x128 .f32) : pieceN 44 v0 v19 = k1_pay58 (k1_pay3 v0) (k1_pay4 (F := F)) v19 := rfl
theorem pieceN_45 (v0 : Vec F S64x128 .i32) (v19 : Vec F S16x128 .f32) : pieceN 45 v0 v19 = k1_pay59 (k1_pay3 v0) (k1_pay4 (F := F)) v19 := rfl
theorem pieceN_46 (v0 : Vec F S64x128 .i32) (v19 : Vec F S16x128 .f32) : pieceN 46 v0 v19 = k1_pay60 (k1_pay3 v0) (k1_pay4 (F := F)) v19 := rfl
theorem pieceN_47 (v0 : Vec F S64x128 .i32) (v19 : Vec F S16x128 .f32) : pieceN 47 v0 v19 = k1_pay62 v19 (k1_pay61 (k1_pay3 v0) (k1_pay4 (F := F))) (constant S128x128 .f32 0x00000000#32) := rfl
theorem pieceN_48 (v0 : Vec F S64x128 .i32) (v19 : Vec F S16x128 .f32) : pieceN 48 v0 v19 = k1_pay63 (k1_pay3 v0) (k1_pay4 (F := F)) v19 := rfl
theorem pieceN_49 (v0 : Vec F S64x128 .i32) (v19 : Vec F S16x128 .f32) : pieceN 49 v0 v19 = k1_pay64 (k1_pay3 v0) (k1_pay4 (F := F)) v19 := rfl
theorem pieceN_50 (v0 : Vec F S64x128 .i32) (v19 : Vec F S16x128 .f32) : pieceN 50 v0 v19 = k1_pay65 (k1_pay3 v0) (k1_pay4 (F := F)) v19 := rfl
theorem pieceN_51 (v0 : Vec F S64x128 .i32) (v19 : Vec F S16x128 .f32) : pieceN 51 v0 v19 = k1_pay66 (k1_pay3 v0) (k1_pay4 (F := F)) v19 := rfl
theorem pieceN_52 (v0 : Vec F S64x128 .i32) (v19 : Vec F S16x128 .f32) : pieceN 52 v0 v19 = k1_pay68 v19 (k1_pay67 (k1_pay3 v0) (k1_pay4 (F := F))) (constant S128x128 .f32 0x00000000#32) := rfl
theorem pieceN_53 (v0 : Vec F S64x128 .i32) (v19 : Vec F S16x128 .f32) : pieceN 53 v0 v19 = k1_pay69 (k1_pay3 v0) (k1_pay4 (F := F)) v19 := rfl
theorem pieceN_54 (v0 : Vec F S64x128 .i32) (v19 : Vec F S16x128 .f32) : pieceN 54 v0 v19 = k1_pay70 (k1_pay3 v0) (k1_pay4 (F := F)) v19 := rfl
theorem pieceN_55 (v0 : Vec F S64x128 .i32) (v19 : Vec F S16x128 .f32) : pieceN 55 v0 v19 = k1_pay71 (k1_pay3 v0) (k1_pay4 (F := F)) v19 := rfl
theorem pieceN_56 (v0 : Vec F S64x128 .i32) (v19 : Vec F S16x128 .f32) : pieceN 56 v0 v19 = k1_pay72 (k1_pay3 v0) (k1_pay4 (F := F)) v19 := rfl
theorem pieceN_57 (v0 : Vec F S64x128 .i32) (v19 : Vec F S16x128 .f32) : pieceN 57 v0 v19 = k1_pay74 v19 (k1_pay73 (k1_pay3 v0) (k1_pay4 (F := F))) (constant S128x128 .f32 0x00000000#32) := rfl
theorem pieceN_58 (v0 : Vec F S64x128 .i32) (v19 : Vec F S16x128 .f32) : pieceN 58 v0 v19 = k1_pay75 (k1_pay3 v0) (k1_pay4 (F := F)) v19 := rfl
theorem pieceN_59 (v0 : Vec F S64x128 .i32) (v19 : Vec F S16x128 .f32) : pieceN 59 v0 v19 = k1_pay76 (k1_pay3 v0) (k1_pay4 (F := F)) v19 := rfl
theorem pieceN_60 (v0 : Vec F S64x128 .i32) (v19 : Vec F S16x128 .f32) : pieceN 60 v0 v19 = k1_pay77 (k1_pay3 v0) (k1_pay4 (F := F)) v19 := rfl
theorem pieceN_61 (v0 : Vec F S64x128 .i32) (v19 : Vec F S16x128 .f32) : pieceN 61 v0 v19 = k1_pay78 (k1_pay3 v0) (k1_pay4 (F := F)) v19 := rfl
theorem pieceN_62 (v0 : Vec F S64x128 .i32) (v19 : Vec F S16x128 .f32) : pieceN 62 v0 v19 = k1_pay1 v19 (k1_pay79 (k1_pay3 v0) (k1_pay4 (F := F))) (constant S128x128 .f32 0x00000000#32) := rfl
theorem pieceN_63 (v0 : Vec F S64x128 .i32) (v19 : Vec F S16x128 .f32) : pieceN 63 v0 v19 = k1_pay2 (k1_pay3 v0) (k1_pay4 (F := F)) v19 := rfl

/-- Block `t` of the positions: rows `64 t ...` of the `[256, 128]` array. -/
def posBlk (t : Fin 4) (pos2 : Vec F S256x128 .i32) : Vec F S64x128 .i32 :=
  fun j => pos2 (ix2 (n0 := 256) (n1 := 128) ⟨64 * t.val + (j 0).val, by have := t.isLt; have := idx2_lt0 j; omega⟩ (j 1))

/-- What one grid point leaves in its output block: row `y` is local row `y % 128` of piece `y / 128`. -/
def blockOut (v0 : Vec F S64x128 .i32) (v19 : Vec F S16x128 .f32) : Vec F S8192x128 .f32 :=
  fun y => pieceN ((y 0).val / 128) v0 v19 (ix2 (n0 := 128) (n1 := 128) ⟨(y 0).val % 128, Nat.mod_lt _ (by decide)⟩ (y 1))

/-- The call's result: row `b` is row `b % 8192` of the block computed from position block `b / 8192`. -/
def tcOut (pos2 : Vec F S256x128 .i32) (tab : Vec F S16x128 .f32) : Vec F S32768x128 .f32 :=
  fun i => blockOut (posBlk ⟨(i 0).val / 8192, by have := idx2_lt0 i; omega⟩ pos2) tab
    (ix2 (n0 := 8192) (n1 := 128) ⟨(i 0).val % 8192, Nat.mod_lt _ (by decide)⟩ (i 1))

theorem blockOut_apply (v0 : Vec F S64x128 .i32) (v19 : Vec F S16x128 .f32) (y : Fin 8192) (dd : Fin 128) :
    blockOut v0 v19 (ix2 (n0 := 8192) (n1 := 128) y dd)
      = pieceN (y.val / 128) v0 v19 (ix2 (n0 := 128) (n1 := 128) ⟨y.val % 128, Nat.mod_lt _ (by decide)⟩ dd) := rfl

theorem tcOut_apply (pos2 : Vec F S256x128 .i32) (tab : Vec F S16x128 .f32) (b : Fin 32768) (dd : Fin 128) :
    tcOut pos2 tab (ix2 (n0 := 32768) (n1 := 128) b dd)
      = pieceN (b.val % 8192 / 128) (posBlk ⟨b.val / 8192, by have := b.isLt; omega⟩ pos2) tab
          (ix2 (n0 := 128) (n1 := 128) ⟨b.val % 128, Nat.mod_lt _ (by decide)⟩ dd) := by
  have h : b.val % 8192 % 128 = b.val % 128 := Nat.mod_mod_of_dvd _ (by decide)
  show pieceN (b.val % 8192 / 128) _ tab (ix2 (n0 := 128) (n1 := 128) ⟨b.val % 8192 % 128, _⟩ dd) = _
  congr 2
  exact Fin.ext h

end Cert.Proof.KI

end
-- ==== Proof.TcBody.lean ====
/-
  One grid point of the TensorCore call, run once at symbolic staging buffers.  From the position block `x0`, the
  table `x1` and an output block at anything, the body hands back the two inputs as they were and the output block
  at `blockOut x0 x1`: its 64 stores, each a whole 128 x 128 piece at rows `128 k ...`, tile the block, so what the
  block reads after them is, at every index, the payload of the one piece that holds the index.
-/
import proofs.«214958_g36086315221739_cont_8to1_b_1353_25_alg».proof.Proof.TcData
import Idealize.ShloMosaic.Lib.Pipeline.Value

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The stores as pieces -/

/-- Piece `k`'s rectangle lies in the block: rows `128 k ... 128 k + 127`, all 128 columns. -/
theorem inbP (k : ℕ) (hk : k < 64) : ∀ a : Fin 2, (![128 * k, 0] : Fin 2 → ℕ) a + S128x128.size a ≤ S8192x128.size a := by
  intro a
  match a with
  | ⟨0, _⟩ => show 128 * k + 128 ≤ 8192; omega
  | ⟨1, _⟩ => show 0 + 128 ≤ 128; omega

/-- The `k`-th store: its rectangle and its payload. -/
def pieceAt (v0 : Vec F S64x128 .i32) (v19 : Vec F S16x128 .f32) (k : ℕ) (hk : k < 64) : View.Piece (Elt F) S8192x128 .f32 :=
  ⟨Rect.unit ![128 * k, 0] S128x128.size (inbP k hk), pieceN k v0 v19⟩

/-- The body's stores into its output block, last first. -/
def pieces (v0 : Vec F S64x128 .i32) (v19 : Vec F S16x128 .f32) : List (View.Piece (Elt F) S8192x128 .f32) :=
  [pieceAt v0 v19 63 (by decide),
   pieceAt v0 v19 62 (by decide),
   pieceAt v0 v19 61 (by decide),
   pieceAt v0 v19 60 (by decide),
   pieceAt v0 v19 59 (by decide),
   pieceAt v0 v19 58 (by decide),
   pieceAt v0 v19 57 (by decide),
   pieceAt v0 v19 56 (by decide),
   pieceAt v0 v19 55 (by decide),
   pieceAt v0 v19 54 (by decide),
   pieceAt v0 v19 53 (by decide),
   pieceAt v0 v19 52 (by decide),
   pieceAt v0 v19 51 (by decide),
   pieceAt v0 v19 50 (by decide),
   pieceAt v0 v19 49 (by decide),
   pieceAt v0 v19 48 (by decide),
   pieceAt v0 v19 47 (by decide),
   pieceAt v0 v19 46 (by decide),
   pieceAt v0 v19 45 (by decide),
   pieceAt v0 v19 44 (by decide),
   pieceAt v0 v19 43 (by decide),
   pieceAt v0 v19 42 (by decide),
   pieceAt v0 v19 41 (by decide),
   pieceAt v0 v19 40 (by decide),
   pieceAt v0 v19 39 (by decide),
   pieceAt v0 v19 38 (by decide),
   pieceAt v0 v19 37 (by decide),
   pieceAt v0 v19 36 (by decide),
   pieceAt v0 v19 35 (by decide),
   pieceAt v0 v19 34 (by decide),
   pieceAt v0 v19 33 (by decide),
   pieceAt v0 v19 32 (by decide),
   pieceAt v0 v19 31 (by decide),
   pieceAt v0 v19 30 (by decide),
   pieceAt v0 v19 29 (by decide),
   pieceAt v0 v19 28 (by decide),
   pieceAt v0 v19 27 (by decide),
   pieceAt v0 v19 26 (by decide),
   pieceAt v0 v19 25 (by decide),
   pieceAt v0 v19 24 (by decide),
   pieceAt v0 v19 23 (by decide),
   pieceAt v0 v19 22 (by decide),
   pieceAt v0 v19 21 (by decide),
   pieceAt v0 v19 20 (by decide),
   pieceAt v0 v19 19 (by decide),
   pieceAt v0 v19 18 (by decide),
   pieceAt v0 v19 17 (by decide),
   pieceAt v0 v19 16 (by decide),
   pieceAt v0 v19 15 (by decide),
   pieceAt v0 v19 14 (by decide),
   pieceAt v0 v19 13 (by decide),
   pieceAt v0 v19 12 (by decide),
   pieceAt v0 v19 11 (by decide),
   pieceAt v0 v19 10 (by decide),
   pieceAt v0 v19 9 (by decide),
   pieceAt v0 v19 8 (by decide),
   pieceAt v0 v19 7 (by decide),
   pieceAt v0 v19 6 (by decide),
   pieceAt v0 v19 5 (by decide),
   pieceAt v0 v19 4 (by decide),
   pieceAt v0 v19 3 (by decide),
   pieceAt v0 v19 2 (by decide),
   pieceAt v0 v19 1 (by decide),
   pieceAt v0 v19 0 (by decide)]

/-- Every piece is the block's function restricted to its rectangle. -/
theorem pieceAt_ok (v0 : Vec F S64x128 .i32) (v19 : Vec F S16x128 .f32) (k : ℕ) (hk : k < 64)
    (x : (pieceAt v0 v19 k hk).1.shape.Idx) :
    (pieceAt v0 v19 k hk).2 x = blockOut v0 v19 ((pieceAt v0 v19 k hk).1.emb x) := by
  have hx0 : (x 0).val < 128 := (x 0).isLt
  have h0 : ((pieceAt v0 v19 k hk).1.emb x 0).val = 128 * k + 1 * (x 0).val := rfl
  have h1 : ((pieceAt v0 v19 k hk).1.emb x 1).val = 0 + 1 * (x 1).val := rfl
  have hd : ((pieceAt v0 v19 k hk).1.emb x 0).val / 128 = k := by rw [h0]; omega
  have hm : ((pieceAt v0 v19 k hk).1.emb x 0).val % 128 = (x 0).val := by rw [h0]; omega
  have hix : (ix2 (n0 := 128) (n1 := 128) ⟨((pieceAt v0 v19 k hk).1.emb x 0).val % 128, Nat.mod_lt _ (by decide)⟩
      ((pieceAt v0 v19 k hk).1.emb x 1) : S128x128.Idx) = x := by
    funext a
    match a with
    | ⟨0, _⟩ => exact Fin.ext hm
    | ⟨1, _⟩ => exact Fin.ext (h1.trans (by show 0 + 1 * (x 1).val = (x 1).val; omega))
  show pieceN k v0 v19 x = pieceN (((pieceAt v0 v19 k hk).1.emb x 0).val / 128) v0 v19 _
  exact (congr (congrArg (fun n => pieceN n v0 v19) hd) hix).symm

theorem pieces_ok (v0 : Vec F S64x128 .i32) (v19 : Vec F S16x128 .f32) :
    ∀ p ∈ pieces v0 v19, ∀ x : p.1.shape.Idx, p.2 x = blockOut v0 v19 (p.1.emb x) := by
  intro p hp
  have h : ∃ k hk, p = pieceAt v0 v19 k hk := by
    simp only [pieces, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact ⟨_, _, rfl⟩
  obtain ⟨k, hk, rfl⟩ := h
  exact pieceAt_ok v0 v19 k hk

/-- The pieces tile the block (checked by evaluation), so they cover it. -/
theorem pieces_cover (v0 : Vec F S64x128 .i32) (v19 : Vec F S16x128 .f32) (y : S8192x128.Idx) :
    ∃ p ∈ pieces v0 v19, y ∈ p.1.set :=
  View.cover_of_tiled (pieces v0 v19) S128x128.size (by rfl) y

/-- What the block reads after the stores, through any view of it: `blockOut`. -/
theorem read_pieces {κ : Kind} {sp : Space} (v : View sig κ sp S8192x128 .f32) (v0 : Vec F S64x128 .i32) (v19 : Vec F S16x128 .f32) :
    v.read (Elt F) (v.writes (Elt F) v.junk (pieces v0 v19)) = blockOut v0 v19 := by
  funext y
  rw [View.read_writes_junk_apply_eq_canon]
  exact View.canon_apply_of_pieces (blockOut v0 v19) (pieces v0 v19) (pieces_ok v0 v19) y (pieces_cover v0 v19 y)

/-! ## The body's triple -/

/-- A whole-rectangle load at offset zero reads the contents. -/
theorem ld_whole0 (x0 : Vec F S64x128 .i32) (inb : ∀ a, (![0, 0] : Fin 2 → ℕ) a + S64x128.size a ≤ S64x128.size a) :
    View.ld x0 (Rect.unit ![0, 0] S64x128.size inb) = x0 :=
  View.ld_unit_zero (by funext a; match a with | ⟨0, _⟩ => rfl | ⟨1, _⟩ => rfl) inb x0
theorem ld_whole1 (x1 : Vec F S16x128 .f32) (inb : ∀ a, (![0, 0] : Fin 2 → ℕ) a + S16x128.size a ≤ S16x128.size a) :
    View.ld x1 (Rect.unit ![0, 0] S16x128.size inb) = x1 :=
  View.ld_unit_zero (by funext a; match a with | ⟨0, _⟩ => rfl | ⟨1, _⟩ => rfl) inb x1

/-- What the output block reads after the stores, the payloads stated over the two whole-rectangle loads. -/
theorem read_pieces_ld {κ : Kind} {sp : Space} (v : View sig κ sp S8192x128 .f32) (x0 : Vec F S64x128 .i32) (x1 : Vec F S16x128 .f32)
    (inb0 : ∀ a, (![0, 0] : Fin 2 → ℕ) a + S64x128.size a ≤ S64x128.size a) (inb1 : ∀ a, (![0, 0] : Fin 2 → ℕ) a + S16x128.size a ≤ S16x128.size a) :
    v.read (Elt F) (v.writes (Elt F) v.junk (pieces (View.ld x0 (Rect.unit ![0, 0] S64x128.size inb0)) (View.ld x1 (Rect.unit ![0, 0] S16x128.size inb1))))
      = blockOut x0 x1 := by
  rw [ld_whole0, ld_whole1]; exact read_pieces v x0 x1

set_option maxHeartbeats 4000000 in
set_option maxRecDepth 65536 in
/-- The body on whole staging memrefs, the inputs' at read contents `x0`, `x1` and the output's at anything, runs to
    the continuation holding the inputs' as they were and the output's at `blockOut x0 x1`. -/
theorem sound_kernel (c : Dev nD) (E : Set ℕ) (i : grid1.Coords)
    (arg1 : Memref sig .tc .vmem S64x128 .i32) (harg1 : arg1.IsWhole) (arg2 : Memref sig .tc .vmem S16x128 .f32) (harg2 : arg2.IsWhole)
    (arg3 : Memref sig .tc .vmem S8192x128 .f32) (harg3 : arg3.IsWhole)
    (x0 : Vec F S64x128 .i32) (x1 : Vec F S16x128 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (blockOut x0 x1)) -∗ Q ⟨⟩))
      ⊢ wp frame (wpE (defs₀ (F := F)) Variants.none c none) E (cc1_body i arg1 harg1 arg2 harg2 arg3 harg3) Q := by
  unfold owns
  iintro ⟨⟨%f1, %hf1, H1⟩, ⟨%f2, %hf2, H2⟩, ⟨%d3, %f3, -, H3⟩, Hk⟩
  subst hf1 hf2
  sl_exec_parts!
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact read_pieces_ld arg3.view (arg1.view.read (Elt F) f1) (arg2.view.read (Elt F) f2) _ _

end Cert.Proof.KI

end
-- ==== Proof.TcGeo.lean ====
/-
  Where the TensorCore call's windows sit.  The grid has four points; at point `t` the position window is rows
  `64 t ...` of the `[256, 128]` array, the table window the whole table, the result window rows `8192 t ...` of
  the `[32768, 128]` result.  So the position block the body is handed is `posBlk t`, the table block the table, what
  point `t` writes back is its block of `tcOut`, and the four result blocks cover the result.
-/
import proofs.«214958_g36086315221739_cont_8to1_b_1353_25_alg».proof.Proof.TcData
import proofs.«214958_g36086315221739_cont_8to1_b_1353_25_alg».proof.Proof.Gen.KernelIdeal.Launch
import proofs.«214958_g36086315221739_cont_8to1_b_1353_25_alg».proof.Proof.Gen.KernelIdeal.Points
import Idealize.ShloMosaic.Lib.Pipeline.Value

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The windows' geometry -/

/-- The windows' block indices at a point: windows 0 and 2 follow the point, window 1 stays at its one block. -/
theorem idx_facts : ∀ t : Fin cfg1.N,
    ((cfg1.win 0).index t 0 = t.val ∧ (cfg1.win 0).index t 1 = 0) ∧ ((cfg1.win 1).index t 0 = 0 ∧ (cfg1.win 1).index t 1 = 0)
      ∧ ((cfg1.win 2).index t 0 = t.val ∧ (cfg1.win 2).index t 1 = 0) :=
  (by decide +kernel : ∀ t : Fin grid1.N,
    (win1_0.index t 0 = t.val ∧ win1_0.index t 1 = 0) ∧ (win1_1.index t 0 = 0 ∧ win1_1.index t 1 = 0)
      ∧ (win1_2.index t 0 = t.val ∧ win1_2.index t 1 = 0))

/-- A point as a number below 4. -/
def tOf (t : Fin cfg1.N) : Fin 4 := t.cast N_1

/-- Window 0's block at point `t`, read off the positions: rows `64 t ...`. -/
theorem blk0_read (d : Dev nD) (pos2 : Vec F S256x128 .i32) (t : Fin cfg1.N) :
    ((cfg1.win 0).blk t).view.read (Elt F) (pos2 : Buf (Elt F) ((cfg1.win 0).arr.view.loc ((T d) : Thread nD τ))) = posBlk (tOf t) pos2 := by
  funext y
  have ht : t.val < 4 := (tOf t).isLt
  have hy : (y 0).val < 64 := (y 0).isLt
  have e0 : ((win1_0.rect t).emb y 0).val = 64 * t.val + (y 0).val := by
    rw [Window.rect_emb_val, (idx_facts t).1.1]; show t.val * 64 + (y 0).val = _; omega
  have e1 : ((win1_0.rect t).emb y 1).val = (y 1).val := by
    rw [Window.rect_emb_val, (idx_facts t).1.2]; show 0 * 128 + (y 1).val = _; omega
  have hi : ((win1_0.rect t).emb y : S256x128.Idx)
      = ix2 (n0 := 256) (n1 := 128) ⟨64 * (tOf t).val + (y 0).val, by show 64 * t.val + (y 0).val < 256; omega⟩ ⟨(y 1).val, (y 1).isLt⟩ := by
    funext a
    match a with
    | ⟨0, _⟩ => exact Fin.ext e0
    | ⟨1, _⟩ => exact Fin.ext e1
  exact congrArg pos2 hi

/-- Window 1's block at any point, read off the table: all of it. -/
theorem blk1_read (d : Dev nD) (tab : Vec F S16x128 .f32) (t : Fin cfg1.N) :
    ((cfg1.win 1).blk t).view.read (Elt F) (tab : Buf (Elt F) ((cfg1.win 1).arr.view.loc ((T d) : Thread nD τ))) = tab := by
  funext y
  have e0 : ((win1_1.rect t).emb y 0).val = (y 0).val := by
    rw [Window.rect_emb_val, (idx_facts t).2.1.1]; show 0 * 16 + (y 0).val = _; omega
  have e1 : ((win1_1.rect t).emb y 1).val = (y 1).val := by
    rw [Window.rect_emb_val, (idx_facts t).2.1.2]; show 0 * 128 + (y 1).val = _; omega
  have hi : ((win1_1.rect t).emb y : S16x128.Idx) = y := by
    funext a
    match a with
    | ⟨0, _⟩ => exact Fin.ext e0
    | ⟨1, _⟩ => exact Fin.ext e1
  exact congrArg tab hi

/-- Window 2's block at point `t`, read off the result function: what point `t`'s body leaves. -/
theorem blk2_read (d : Dev nD) (pos2 : Vec F S256x128 .i32) (tab : Vec F S16x128 .f32) (t : Fin cfg1.N) :
    ((cfg1.win 2).blk t).view.read (Elt F) (tcOut pos2 tab : Buf (Elt F) ((cfg1.win 2).arr.view.loc ((T d) : Thread nD τ)))
      = blockOut (posBlk (tOf t) pos2) tab := by
  funext y
  have ht : t.val < 4 := (tOf t).isLt
  have hy : (y 0).val < 8192 := (y 0).isLt
  have e0 : ((win1_2.rect t).emb y 0).val = 8192 * t.val + (y 0).val := by
    rw [Window.rect_emb_val, (idx_facts t).2.2.1]; show t.val * 8192 + (y 0).val = _; omega
  have e1 : ((win1_2.rect t).emb y 1).val = (y 1).val := by
    rw [Window.rect_emb_val, (idx_facts t).2.2.2]; show 0 * 128 + (y 1).val = _; omega
  show tcOut pos2 tab ((win1_2.rect t).emb y) = _
  unfold tcOut
  have hq : ((win1_2.rect t).emb y 0).val / 8192 = t.val := by rw [e0]; omega
  have hr : ((win1_2.rect t).emb y 0).val % 8192 = (y 0).val := by rw [e0]; omega
  have hb : (⟨((win1_2.rect t).emb y 0).val / 8192, by rw [hq]; exact ht⟩ : Fin 4) = tOf t := Fin.ext hq
  have hi : (ix2 (n0 := 8192) (n1 := 128) ⟨((win1_2.rect t).emb y 0).val % 8192, Nat.mod_lt _ (by decide)⟩ ((win1_2.rect t).emb y 1) : S8192x128.Idx) = y := by
    funext a
    match a with
    | ⟨0, _⟩ => exact Fin.ext hr
    | ⟨1, _⟩ => exact Fin.ext e1
  exact congr (congrArg (fun b => blockOut (posBlk b pos2) tab) hb) hi

/-- Membership in window 2's block at a point, coordinate by coordinate. -/
theorem mem_blk2 (t : Fin cfg1.N) (i : S32768x128.Idx) :
    i ∈ ((View.whole main_v2).slice (win1_2.rect t)).set
      ↔ ∀ a, win1_2.index t a * win1_2.size a ≤ (i a : ℕ) ∧ (i a : ℕ) < win1_2.index t a * win1_2.size a + win1_2.xsize (grid1.coords t) a := by
  rw [View.set_slice_whole, Rect.mem_set_unit]

/-- Every row of the result lies in some point's block. -/
theorem cover2 (d : Dev nD) (i : ((cfg1.win 2).arr.view.loc ((T d) : Thread nD τ)).2.ty.Idx) :
    ∃ t : Fin cfg1.N, (cfg1.win 2).flush t = true ∧ i ∈ ((cfg1.win 2).blk t).view.set := by
  have hi : (i 0).val < 32768 := (i 0).isLt
  have hi1 : (i 1).val < 128 := (i 1).isLt
  have hq : (i 0).val / 8192 < cfg1.N := by rw [show cfg1.N = 4 from N_1]; omega
  refine ⟨⟨(i 0).val / 8192, hq⟩, flush1_2 _, ?_⟩
  show (i : S32768x128.Idx) ∈ ((View.whole main_v2).slice (win1_2.rect ⟨(i 0).val / 8192, hq⟩)).set
  rw [mem_blk2]
  have h0 : win1_2.index ⟨(i 0).val / 8192, hq⟩ 0 * win1_2.size 0 ≤ ((i 0 : Fin 32768) : ℕ)
      ∧ ((i 0 : Fin 32768) : ℕ) < win1_2.index ⟨(i 0).val / 8192, hq⟩ 0 * win1_2.size 0 + win1_2.xsize (grid1.coords ⟨(i 0).val / 8192, hq⟩) 0 := by
    rw [show win1_2.index ⟨(i 0).val / 8192, hq⟩ 0 = (i 0).val / 8192 from (idx_facts ⟨(i 0).val / 8192, hq⟩).2.2.1]
    show (i 0).val / 8192 * 8192 ≤ (i 0).val ∧ (i 0).val < (i 0).val / 8192 * 8192 + 8192
    omega
  have h1 : win1_2.index ⟨(i 0).val / 8192, hq⟩ 1 * win1_2.size 1 ≤ ((i 1 : Fin 128) : ℕ)
      ∧ ((i 1 : Fin 128) : ℕ) < win1_2.index ⟨(i 0).val / 8192, hq⟩ 1 * win1_2.size 1 + win1_2.xsize (grid1.coords ⟨(i 0).val / 8192, hq⟩) 1 := by
    rw [show win1_2.index ⟨(i 0).val / 8192, hq⟩ 1 = 0 from (idx_facts ⟨(i 0).val / 8192, hq⟩).2.2.2]
    show 0 * 128 ≤ (i 1).val ∧ (i 1).val < 0 * 128 + 128
    omega
  intro a
  match a with
  | ⟨0, _⟩ => exact h0
  | ⟨1, _⟩ => exact h1

end Cert.Proof.KI

end
-- ==== Proof.TcRegion.lean ====
/-
  The TensorCore call as one step of @main on a device's TensorCore.  The call is a pipeline over a grid of four
  points: point `t` fetches rows `64 t ...` of the positions and (once) the table, runs the body, and writes its
  8192 x 128 block back to rows `8192 t ...` of the result.  The body leaves the inputs' staging buffers as fetched
  and the output's at `blockOut` of them (the body's triple), so each write-back is its block of the one function
  `tcOut`, the four blocks tile the result, and the result ends at `tcOut` whatever it held.  Around the pipeline's
  own rule stand the region's entry and exit: the staging cells' invariants are allocated at entry from the cells'
  launch state and the scoped semaphores at zero, and the region hands the boundary back whole.  The core owes
  nothing while the region runs (the one SparseCore call is over), and the pairs its waits have recorded stay
  below the level bound they were below: the pipeline's own waits are at the index no call has, of level zero.
-/
import proofs.«214958_g36086315221739_cont_8to1_b_1353_25_alg».proof.Proof.TcBody
import proofs.«214958_g36086315221739_cont_8to1_b_1353_25_alg».proof.Proof.TcGeo

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The call has no prefetched table. -/
abbrev adm : (p : Fin 1) → (pcfgs (F := F) p).Adm := fun p => (cfgs p).toPCfg_adm

section Data

variable (b : ℕ) (pos2 : Vec F S256x128 .i32) (tab : Vec F S16x128 .f32) (f2 : Vec F S32768x128 .f32)

/-! ## The pipeline's proof data -/

/-- The proof data on device `d`: the three arrays as the region finds them; after the body at point `t` the
    position window at its block, the table window at the table, the result window at `blockOut` of the two; no
    invariant of the body's own; nothing owed; full shares; the recorded pairs below level `b`. -/
def dats (_ : Fin 1) (d : Dev nD) : Dat τ (Elt F) (HIx 1) ℕ UU ℕ cfg1 d where
  A w := match w with
    | ⟨0, _⟩ => pos2
    | ⟨1, _⟩ => tab
    | ⟨2, _⟩ => f2
  after w t := match w with
    | ⟨0, _⟩ => posBlk (tOf t) pos2
    | ⟨1, _⟩ => tab
    | ⟨2, _⟩ => blockOut (posBlk (tOf t) pos2) tab
  Φ _ := iprop(emp)
  q _ := fullShare
  owed _ := 0
  recorded _ := {p | (K (F := F)).lev (((T d) : Thread nD τ), p.1) p.2 ≤ b}

theorem after0 (d : Dev nD) (t : Fin cfg1.N) : (dats b pos2 tab f2 0 d).after 0 t = posBlk (tOf t) pos2 := by dsimp only [dats]
theorem after1 (d : Dev nD) (t : Fin cfg1.N) : (dats b pos2 tab f2 0 d).after 1 t = tab := by dsimp only [dats]
theorem after2 (d : Dev nD) (t : Fin cfg1.N) : (dats b pos2 tab f2 0 d).after 2 t = blockOut (posBlk (tOf t) pos2) tab := by dsimp only [dats]

/-- The position window's buffer holds its block at every point (it is fetched at every point). -/
theorem before0 (d : Dev nD) (t : Fin cfg1.N) (dd) : (dats b pos2 tab f2 0 d).before 0 t dd = posBlk (tOf t) pos2 :=
  ((dats b pos2 tab f2 0 d).before_in_eq_fetched 0 rfl (fun _ => rfl) (fun _ _ _ => rfl)
    (fun t => by rw [after0]; unfold Dat.blockOf; exact (blk0_read d pos2 t).symm) t dd).trans
    (by unfold Dat.fetched Dat.blockOf; exact blk0_read d pos2 t)

/-- The table window's buffer holds the table at every point, fetched there or not. -/
theorem before1 (d : Dev nD) (t : Fin cfg1.N) (dd) : (dats b pos2 tab f2 0 d).before 1 t dd = tab :=
  ((dats b pos2 tab f2 0 d).before_in_eq_fetched 1 rfl (fun _ => rfl) (fun _ _ _ => rfl)
    (fun t => by rw [after1]; unfold Dat.blockOf; exact (blk1_read d tab t).symm) t dd).trans
    (by unfold Dat.fetched Dat.blockOf; exact blk1_read d tab t)

/-! ## The body obligation -/

/-- The body at any point: the inputs' buffers hold their blocks, so the body's triple applies; the invariant and the
    core's `owes` pass through unread. -/
theorem sound_body (d : Dev nD) (t : Fin cfg1.N) :
    iprop((dats b pos2 tab f2 0 d).Φ t.castSucc ∗ (dats b pos2 tab f2 0 d).owesAt none t.castSucc
        ∗ (∃ dd, owns ((T d) : Thread nD τ) (st1_0 t) fullShare ((dats b pos2 tab f2 0 d).before 0 t dd))
        ∗ (∃ dd, owns ((T d) : Thread nD τ) (st1_1 t) fullShare ((dats b pos2 tab f2 0 d).before 1 t dd))
        ∗ (∃ dd, owns ((T d) : Thread nD τ) (st1_2 t) fullShare ((dats b pos2 tab f2 0 d).before 2 t dd)))
      ⊢ wp frame (wpE (defs₀ (F := F)) Variants.none d none) Set.univ (bodyAt1 t) fun _ =>
          iprop((dats b pos2 tab f2 0 d).Φ t.succ ∗ (dats b pos2 tab f2 0 d).owesAt none t.succ
            ∗ owns ((T d) : Thread nD τ) (st1_0 t) fullShare ((dats b pos2 tab f2 0 d).after 0 t)
            ∗ owns ((T d) : Thread nD τ) (st1_1 t) fullShare ((dats b pos2 tab f2 0 d).after 1 t)
            ∗ owns ((T d) : Thread nD τ) (st1_2 t) fullShare ((dats b pos2 tab f2 0 d).after 2 t)) := by
  unfold bodyAt1
  simp only [before0, before1]
  rw [show (dats b pos2 tab f2 0 d).Φ t.succ = (dats b pos2 tab f2 0 d).Φ t.castSucc from rfl,
    show (dats b pos2 tab f2 0 d).owesAt none t.succ = (dats b pos2 tab f2 0 d).owesAt none t.castSucc from rfl, after0, after1, after2]
  iintro ⟨HΦ, Ho, ⟨%d0, H0⟩, ⟨%d1, H1⟩, ⟨%d2, H2⟩⟩
  iapply (sound_kernel d Set.univ (grid1.coords t) _ _ _ _ _ _ (posBlk (tOf t) pos2) tab _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dats b pos2 tab f2 0 d) (defs₀ (F := F)) Variants.none (none : HIx 1) Set.univ := fun t => by
  rw [bigSep_W1, bigSep_W1]
  exact sound_body b pos2 tab f2 d t

/-! ## The arrays after the run -/

theorem share_eq (d : Dev nD) (w : Fin cfg1.W) : (dats b pos2 tab f2 0 d).share w = fullShare := (dats b pos2 tab f2 0 d).share_full (fun _ => rfl) w

theorem arrAt0 (d : Dev nD) : (dats b pos2 tab f2 0 d).arrAt 0 cfg1.N = pos2 := (dats b pos2 tab f2 0 d).arrAt_in 0 rfl _
theorem arrAt1 (d : Dev nD) : (dats b pos2 tab f2 0 d).arrAt 1 cfg1.N = tab := (dats b pos2 tab f2 0 d).arrAt_in 1 rfl _
/-- The result ends at `tcOut`: every point writes back its block of it, and the blocks cover the result. -/
theorem arrAt2 (d : Dev nD) : (dats b pos2 tab f2 0 d).arrAt 2 cfg1.N = tcOut pos2 tab :=
  (dats b pos2 tab f2 0 d).arrAt_eq_of_cover 2 (tcOut pos2 tab)
    (fun t _ => by
      show (cfg1.win 2).cut (cfg1.grid.coords t) ((dats b pos2 tab f2 0 d).after 2 t) = _
      rw [after2]; exact (blk2_read d pos2 tab t).symm)
    (cover2 d)

end Data

/-! ## The arrays at the region's two ends, one by one -/

section Ends

variable (b : ℕ) (pos2 : Vec F S256x128 .i32) (tab : Vec F S16x128 .f32) (f2 : Vec F S32768x128 .f32)

theorem arrays_entry (d : Dev nD) :
    ((dats b pos2 tab f2 0 d).arrays ((dats b pos2 tab f2 0 d).arrAt · 0) : sProp 𝕄)
      = iprop((((T d) : Thread nD τ).loc main_v0 ↦{fullShare} pos2) ∗ (((T d) : Thread nD τ).loc main_arg2 ↦{fullShare} tab)
          ∗ (((T d) : Thread nD τ).loc main_v2 ↦{fullShare} f2)) := by
  rw [Pipeline.arrays_eq cfgs (dats b pos2 tab f2) 0 d launch1.arr_whole (share_eq b pos2 tab f2 d), bigSep_W1]
  rfl

theorem arrays_exit (d : Dev nD) :
    ((dats b pos2 tab f2 0 d).arrays ((dats b pos2 tab f2 0 d).arrAt · cfg1.N) : sProp 𝕄)
      = iprop((((T d) : Thread nD τ).loc main_v0 ↦{fullShare} pos2) ∗ (((T d) : Thread nD τ).loc main_arg2 ↦{fullShare} tab)
          ∗ (((T d) : Thread nD τ).loc main_v2 ↦{fullShare} tcOut pos2 tab)) := by
  rw [Pipeline.arrays_eq cfgs (dats b pos2 tab f2) 0 d launch1.arr_whole (share_eq b pos2 tab f2 d), bigSep_W1]
  show iprop((_ ↦{fullShare} (dats b pos2 tab f2 0 d).arrAt 0 cfg1.N) ∗ (_ ↦{fullShare} (dats b pos2 tab f2 0 d).arrAt 1 cfg1.N) ∗ (_ ↦{fullShare} (dats b pos2 tab f2 0 d).arrAt 2 cfg1.N)) = _
  rw [arrAt0, arrAt1, arrAt2]

end Ends

/-! ## The region -/

/-- What the core owes — nothing — with its recorded pairs below level `b`, as the launch keeps it. -/
abbrev owesB (b : ℕ) (d : Dev nD) : sProp 𝕄 :=
  iprop(∃ W, ⌜(K (F := F)).WBelow (T d) W b⌝ ∗ owes ((T d) : Thread nD τ) (0 : CellTallies nD τ sig (HIx 1)) W)

/-- The thread state the region is entered from: the three arrays and the core's `owes`. -/
abbrev regPre (b : ℕ) (d : Dev nD) (pos2 : Vec F S256x128 .i32) (tab : Vec F S16x128 .f32) (f2 : Vec F S32768x128 .f32) : sProp 𝕄 :=
  iprop((((T d) : Thread nD τ).loc main_v0 ↦{fullShare} pos2) ∗ (((T d) : Thread nD τ).loc main_arg2 ↦{fullShare} tab)
    ∗ (((T d) : Thread nD τ).loc main_v2 ↦{fullShare} f2) ∗ owesB b d)
/-- The one it leaves: the result at `tcOut`. -/
abbrev regPost (b : ℕ) (d : Dev nD) (pos2 : Vec F S256x128 .i32) (tab : Vec F S16x128 .f32) : sProp 𝕄 :=
  iprop((((T d) : Thread nD τ).loc main_v0 ↦{fullShare} pos2) ∗ (((T d) : Thread nD τ).loc main_arg2 ↦{fullShare} tab)
    ∗ (((T d) : Thread nD τ).loc main_v2 ↦{fullShare} tcOut pos2 tab) ∗ owesB b d)

section Region

variable (lv : GSem nD τ sig → HIx 1 → ℕ) (b : ℕ) (pos2 : Vec F S256x128 .i32) (tab : Vec F S16x128 .f32) (f2 : Vec F S32768x128 .f32)

set_option backward.isDefEq.respectTransparency.types false in
/-- The region: the windows' decided layout, no semaphore of the kernel's own, the body obligation; entered from the
    three arrays and the core's `owes`, left with the result at `tcOut`. -/
def reg : Pipeline.RegionSeg (pcfgs (F := F)) adm (dats b pos2 tab f2) (none : HIx 1) defs₀ 𝒱₀ (K (F := F)).L lv 0 where
  win := launch1.win.to₀
  block_pos := launch1.block_pos
  stage_whole := launch1.stage_whole
  K := PEmpty
  osem := fun k => k.elim
  ho := Pipeline.OwnSemFacts.none spec1
  hbody c := (body_obligation b pos2 tab f2 c).loose
  hwaits := Pipeline.hwaits_of_owed_zero _ _ _ _ _ lv 0 fun _ _ => rfl
  pre d := regPre b d pos2 tab f2
  post d := regPost b d pos2 tab
  X _ := iprop(emp)
  Y _ := iprop(emp)
  Z _ := iprop(emp)
  hentry d := by
    rw [arrays_entry]
    iintro ⟨⟨H0, H1, H2, ⟨%W, %hW, HO⟩⟩, -, -⟩
    imodintro
    isplitl [H0 H1 H2]
    · isplitl [H0]; · iexact H0
      isplitl [H1] <;> iassumption
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin d := by
    rw [show (dats b pos2 tab f2 0 d).Φ 0 = (BI.emp : sProp 𝕄) from rfl]
    iintro -; iempintro
  hout d := by
    rw [Pipeline.ownSems0_none, scopedRest1_eq, show (dats b pos2 tab f2 0 d).Φ (Fin.last cfg1.N) = (BI.emp : sProp 𝕄) from rfl]
    iintro -
    isplitr; · iempintro
    isplitr <;> iempintro
  hexit d := by
    rw [arrays_exit]
    iintro ⟨⟨H0, H1, H2⟩, HO, -, -⟩
    imodintro
    isplitl [H0]; · iexact H0
    isplitl [H1]; · iexact H1
    isplitl [H2]; · iexact H2
    unfold Pipeline.Dat.owesAt Pipeline.owesWithin
    icases HO with ⟨%W, %hW, HO⟩
    iexists W; isplitr; swap; · iexact HO
    ipureintro
    intro p hp
    rcases hW (Finset.mem_coe.mpr hp) with h | ⟨w, s, e⟩
    · exact h
    · rw [e]; exact Nat.zero_le _

theorem reg_pre (d : Dev nD) : (reg lv b pos2 tab f2).pre d = regPre b d pos2 tab f2 := rfl
theorem reg_post (d : Dev nD) : (reg lv b pos2 tab f2).post d = regPost b d pos2 tab := rfl

end Region

/-! ## The step of @main -/

/-- The region's ghost resources on device `d`: the launch state of the call's staging cells and the duty tokens of
    the transfers its loop issues. -/
def RG (d : Dev nD) : sProp 𝕄 :=
  iprop(Pipeline.cellsGhost (Pipeline.pin (pcfgs (F := F)) adm) EP 0 d ∗ Pipeline.toksInit (Pipeline.pin (pcfgs (F := F)) adm) EP 0 d)

/-- What the call runs from, beside the region's ghost resources and the level facts. -/
abbrev tcPre (b : ℕ) (d : Dev nD) (pos2 : Vec F S256x128 .i32) (tab : Vec F S16x128 .f32) : sProp 𝕄 :=
  iprop(boundary ((T d) : Thread nD τ)
    ∗ (((T d) : Thread nD τ).loc main_v0 ↦{fullShare} pos2) ∗ (((T d) : Thread nD τ).loc main_arg2 ↦{fullShare} tab)
    ∗ (∃ f, ((T d) : Thread nD τ).loc main_v2 ↦{fullShare} f) ∗ owesB b d)

/-- What it runs to. -/
abbrev tcPost (b : ℕ) (d : Dev nD) (pos2 : Vec F S256x128 .i32) (tab : Vec F S16x128 .f32) : sProp 𝕄 :=
  iprop(boundary ((T d) : Thread nD τ)
    ∗ (((T d) : Thread nD τ).loc main_v0 ↦{fullShare} pos2) ∗ (((T d) : Thread nD τ).loc main_arg2 ↦{fullShare} tab)
    ∗ (((T d) : Thread nD τ).loc main_v2 ↦{fullShare} tcOut pos2 tab) ∗ owesB b d)

set_option maxHeartbeats 1000000 in
set_option backward.isDefEq.respectTransparency.types false in
/-- The call in the pipeline library's own signature: the region rule at the region above, its continuation the return. -/
theorem tc_region₀ (lv : GSem nD τ sig → HIx 1 → ℕ) (b : ℕ) (d : Dev nD) (pos2 : Vec F S256x128 .i32) (tab : Vec F S16x128 .f32) :
    iprop(RG (F := F) d ∗ levAts (K (F := F)).L lv ∗ tcPre b d pos2 tab)
      ⊢ wp frame (wpE (D (F := F)) 𝒱 (T d) none) Set.univ
          (.op (.customCall (Pipeline.entry (0 : Fin 1)) ()) fun _ => .ret PUnit.unit) fun _ => tcPost b d pos2 tab := by
  unfold RG
  iintro ⟨⟨Hg, Ht⟩, #Hla, Hbd, H0, H1, ⟨%f2, H2⟩, HO⟩
  have hwp := Pipeline.RegionSeg.wp (pcfgs (F := F)) adm (dats b pos2 tab f2) (none : HIx 1) cellOf_inj EP defs₀ 𝒱₀ (K (F := F)).L lv
    (reg lv b pos2 tab f2) d none (fun u hu => nomatch hu) (α := PUnit) (fun _ => .ret PUnit.unit) (fun _ => tcPost b d pos2 tab)
  rw [reg_pre, reg_post] at hwp
  iapply hwp
  isplitr
  · iintro ⟨Hbd, H0, H1, H2, HO⟩
    rw [wp_ret]
    imodintro
    isplitl [Hbd]; · iexact Hbd
    isplitl [H0]; · iexact H0
    isplitl [H1]; · iexact H1
    isplitl [H2] <;> iassumption
  isplitl [Hbd]; · iexact Hbd
  isplitl [H0 H1 H2 HO]
  · isplitl [H0]; · iexact H0
    isplitl [H1]; · iexact H1
    isplitl [H2] <;> iassumption
  isplitr; · iexact Hla
  isplitl [Hg] <;> iassumption

set_option maxHeartbeats 1000000 in
/-- The call's line of @main is the pipeline's call lifted to the launch's signature. -/
theorem lift_entry :
    SparseCore.liftProg (Q := 1) (.op (.customCall (Pipeline.entry (0 : Fin 1)) ()) fun _ => .ret PUnit.unit :
        Prog (TpuEff nD τ sig (Elt F) (ΛP (F := F)) .tc) PUnit)
      = Prog.lift (.customCall (SparseCore.inner (Pipeline.entry 0)) ()) := rfl

set_option maxHeartbeats 1000000 in
/-- The call, from the region's ghost resources, the level facts, the region boundary, the two inputs, the result at
    anything and the core owing nothing: it runs to the boundary, the inputs as they were and the result at `tcOut`. -/
theorem tc_region (lv : GSem nD τ sig → HIx 1 → ℕ) (b : ℕ) (d : Dev nD) (pos2 : Vec F S256x128 .i32) (tab : Vec F S16x128 .f32) :
    iprop(RG (F := F) d ∗ levAts (K (F := F)).L lv ∗ boundary ((T d) : Thread nD τ)
        ∗ (((T d) : Thread nD τ).loc main_v0 ↦{fullShare} pos2) ∗ (((T d) : Thread nD τ).loc main_arg2 ↦{fullShare} tab)
        ∗ (∃ f, ((T d) : Thread nD τ).loc main_v2 ↦{fullShare} f) ∗ owesB b d)
      ⊢ wp frame (wpE ((K (F := F)).defs D) 𝒱 (T d) none) Set.univ (Prog.lift (.customCall (SparseCore.inner (Pipeline.entry 0)) ())) fun _ =>
          iprop(boundary ((T d) : Thread nD τ)
            ∗ (((T d) : Thread nD τ).loc main_v0 ↦{fullShare} pos2) ∗ (((T d) : Thread nD τ).loc main_arg2 ↦{fullShare} tab)
            ∗ (((T d) : Thread nD τ).loc main_v2 ↦{fullShare} tcOut pos2 tab) ∗ owesB b d) := by
  rw [← lift_entry]
  exact (tc_region₀ lv b d pos2 tab).trans ((K (F := F)).wp_liftProg D 𝒱 (T d) Set.univ none _ _)

/-! ## Funding the region's ghost resources at launch -/

/-- The launch element of the staging cells' rounds: every cell's owner at round 0, a duty token per transfer. -/
def upInit : UP := initOf (Pipeline.cells cfgs cellOf_inj) (Pipeline.launchToks cfgs cellOf_inj)

/-- From it, every device's region resources. -/
theorem RG_fund : BI.own ((EP (F := F)) upInit) ⊢ |==> bigSep Finset.univ fun d : Dev nD => RG (F := F) d := by
  have h1 : ∀ Φ : Fin 1 → sProp 𝕄, bigSep Finset.univ Φ = Φ 0 := fun Φ => by
    rw [show (Finset.univ : Finset (Fin 1)) = {0} from rfl, bigSep_singleton]
  have key : iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
      ⊢ bigSep Finset.univ fun d : Dev nD => RG (F := F) d := by
    simp only [h1]
    unfold RG
    exact .rfl
  exact (Pipeline.fund_ghost cfgs (EP (F := F)) cellOf_inj).trans (Laws.bupd_mono key)

end Cert.Proof.KI

end
-- ==== Proof.Split.lean ====
/-
  How the three HBM arrays are dealt to the SparseCore call and collected from it.  Before the call each array is held
  whole.  The reshaped positions and the sine table are only read: each yields thirty-two read tokens, token
  `16 c + i` for tile `(c, i)`, and what the tokens leave of it stays behind.  The sine result is written: it is its
  256 blocks of 128 rows, eight per tile.  A tile's share is its two tokens and its eight blocks; a SparseCore's, its
  sixteen tiles' shares.  The split is an equivalence, read forwards before the call (the result at whatever it held)
  and backwards after it (the result the lookup).
-/
import proofs.«214958_g36086315221739_cont_8to1_b_1353_25_alg».proof.Proof.SplitGeom

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (p2 : (d : Dev nD) → Buf (Elt F) (posLoc d)) (tb : (d : Dev nD) → Buf (Elt F) (tabLoc d))
variable (fo : (d : Dev nD) → Buf (Elt F) (outLoc d))

/-! ## The read tokens: thirty-two, dealt to the tiles -/

/-- Tile `(c, i)`'s token number. -/
theorem tix_LV (c : Fin ((K (F := F)).nCore 0)) (i : Fin ((K (F := F)).nSub 0)) :
    tix (cV (LV (F := F) c i)) (jV (LV (F := F) c i)) = 16 * c.val + i.val := rfl

/-- A family over the thirty-two numbers `16 c + i`, indexed by the number or by the pair. -/
theorem bigSep_tiles (Φ : ℕ → sProp 𝕄) :
    (bigSep Finset.univ fun n : Fin 32 => Φ n.val)
      = bigSep Finset.univ fun c : Fin ((K (F := F)).nCore 0) => bigSep Finset.univ fun i : Fin ((K (F := F)).nSub 0) =>
          Φ (16 * c.val + i.val) := by
  refine (bigSep_univ_equiv (finProdFinEquiv : Fin ((K (F := F)).nCore 0) × Fin ((K (F := F)).nSub 0) ≃ Fin 32)
    (fun n => Φ n.val)).trans ?_
  rw [bigSep_univ_prod]
  refine bigSep_congr fun c _ => bigSep_congr fun i _ => ?_
  show Φ (i.val + 16 * c.val) = Φ (16 * c.val + i.val)
  rw [Nat.add_comm]

/-- An array held whole is what thirty-two read tokens leave of it and the tokens, one per tile. -/
theorem toks_tiles {ℓ : Loc nD τ sig} (f : Buf (Elt F) ℓ) :
    (ℓ ↦{fullShare} f : sProp 𝕄) ⊣⊢ iprop((ℓ ↦{Transfers.shareDrop fullShare 32} f)
      ∗ bigSep Finset.univ fun c : Fin ((K (F := F)).nCore 0) => bigSep Finset.univ fun i : Fin ((K (F := F)).nSub 0) =>
          ℓ ↦{Transfers.shareTokN fullShare (tix (cV (LV (F := F) c i)) (jV (LV (F := F) c i)))} f) := by
  have hb := bigSep_tiles (F := F) (fun n => (ℓ ↦{Transfers.shareTokN fullShare n} f : sProp 𝕄))
  have h' : (ℓ ↦{fullShare} f : sProp 𝕄) ⊣⊢ iprop((ℓ ↦{Transfers.shareDrop fullShare 32} f)
      ∗ bigSep Finset.univ fun n : Fin 32 => ℓ ↦{Transfers.shareTokN fullShare n.val} f) :=
    Transfers.pointsTo_toks fullShare 32
  rw [hb] at h'
  exact h'

/-! ## Regrouping -/

theorem shuffle5 (a b c e o : sProp 𝕄) : iprop((a ∗ b) ∗ (c ∗ e) ∗ o) ⊣⊢ iprop((a ∗ c) ∗ (b ∗ e ∗ o)) := by
  constructor
  · iintro ⟨⟨Ha, Hb⟩, ⟨Hc, He⟩, Ho⟩
    isplitl [Ha Hc]
    · isplitl [Ha] <;> iassumption
    · isplitl [Hb]
      · iexact Hb
      · isplitl [He] <;> iassumption
  · iintro ⟨⟨Ha, Hc⟩, Hb, He, Ho⟩
    isplitl [Ha Hb]
    · isplitl [Ha] <;> iassumption
    · isplitl [Hc He]
      · isplitl [Hc] <;> iassumption
      · iexact Ho

/-- The tiles' shares, array by array. -/
theorem tiles_sep (d : Dev nD) (g : Buf (Elt F) (outLoc d)) :
    (bigSep Finset.univ fun c : Fin ((K (F := F)).nCore 0) => bigSep Finset.univ fun i : Fin ((K (F := F)).nSub 0) =>
        tileArr p2 tb d (LV (F := F) c i) g : sProp 𝕄)
      = iprop((bigSep Finset.univ fun c : Fin ((K (F := F)).nCore 0) => bigSep Finset.univ fun i : Fin ((K (F := F)).nSub 0) =>
            posLoc d ↦{Transfers.shareTokN fullShare (tix (cV (LV (F := F) c i)) (jV (LV (F := F) c i)))} p2 d)
        ∗ (bigSep Finset.univ fun c : Fin ((K (F := F)).nCore 0) => bigSep Finset.univ fun i : Fin ((K (F := F)).nSub 0) =>
            tabLoc d ↦{Transfers.shareTokN fullShare (tix (cV (LV (F := F) c i)) (jV (LV (F := F) c i)))} tb d)
        ∗ (bigSep Finset.univ fun c : Fin ((K (F := F)).nCore 0) => bigSep Finset.univ fun i : Fin ((K (F := F)).nSub 0) =>
            bigSep Finset.univ fun k : Fin 8 => outLoc d ↦[oSet (LV (F := F) c i) k]{fullShare} g)) := by
  simp only [tileArr, bigSep_sep']

/-- The three arrays held whole are what the tokens leave of the two read ones, and every tile's share. -/
theorem split_iff (d : Dev nD) (g : Buf (Elt F) (outLoc d)) :
    (iprop((posLoc d ↦{fullShare} p2 d) ∗ (tabLoc d ↦{fullShare} tb d) ∗ (outLoc d ↦{fullShare} g)) : sProp 𝕄)
      ⊣⊢ iprop(((posLoc d ↦{Transfers.shareDrop fullShare 32} p2 d) ∗ (tabLoc d ↦{Transfers.shareDrop fullShare 32} tb d))
          ∗ bigSep Finset.univ fun c : Fin ((K (F := F)).nCore 0) => bigSep Finset.univ fun i : Fin ((K (F := F)).nSub 0) =>
              tileArr p2 tb d (LV (F := F) c i) g) := by
  have hp := toks_tiles (F := F) (p2 d)
  have ht := toks_tiles (F := F) (tb d)
  rw [tiles_sep, ← out_blocks, BI.equiv_iff.mp ⟨hp.1, hp.2⟩, BI.equiv_iff.mp ⟨ht.1, ht.2⟩]
  exact shuffle5 _ _ _ _ _

variable [FloatOps F]

/-- Before the call: the three arrays whole give what the tokens leave of the two read ones, and each SparseCore the
    shares of its sixteen tiles, the result at its contents `fo`. -/
theorem st_intro (d : Dev nD) :
    iprop((posLoc d ↦{fullShare} p2 d) ∗ (tabLoc d ↦{fullShare} tb d) ∗ (outLoc d ↦{fullShare} fo d))
      ⊢ (iprop(((posLoc d ↦{Transfers.shareDrop fullShare 32} p2 d) ∗ (tabLoc d ↦{Transfers.shareDrop fullShare 32} tb d))
          ∗ bigSep Finset.univ fun c : Fin ((K (F := F)).nCore 0) => (P (F := F) p2 tb fo).st 0 d c) : sProp 𝕄) :=
  (split_iff p2 tb d (fo d)).1

/-- After the call: what the tokens left and every tile's share, the result written, join back to the three arrays
    whole, the result the lookup. -/
theorem dn_elim (d : Dev nD) :
    (iprop(((posLoc d ↦{Transfers.shareDrop fullShare 32} p2 d) ∗ (tabLoc d ↦{Transfers.shareDrop fullShare 32} tb d))
          ∗ bigSep Finset.univ fun c : Fin ((K (F := F)).nCore 0) => (P (F := F) p2 tb fo).dn 0 d c) : sProp 𝕄)
      ⊢ iprop((posLoc d ↦{fullShare} p2 d) ∗ (tabLoc d ↦{fullShare} tb d) ∗ (outLoc d ↦{fullShare} sinOut p2 tb d)) :=
  (split_iff p2 tb d (sinOut p2 tb d)).2

end Cert.Proof.KI

end
-- ==== Proof.LaunchCells.lean ====
/-
  The barrier cells of the whole mesh and the tokens of their one round.  Every device has two SparseCores of sixteen
  tiles, and every tile has one barrier semaphore: a cell per (device, SparseCore, tile).  In the round of tile `j`'s
  cell each of the sixteen tiles of the same SparseCore has one duty, named by the tile's number: a token per (cell, tile).
  Here: those two finite families, that a conjunction over them is one over the triples (and pairs of tiles), and two
  small facts about big conjunctions and sums of tallies.
-/
import proofs.«214958_g36086315221739_cont_8to1_b_1353_25_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev DCI : Type := Dev nD × Fin τ.nSC × Fin τ.nSub
abbrev bcell₃ (x : DCI) : GSem nD τ sig := bcell x.1 x.2.1 x.2.2

/-- Every tile's barrier cell, of every SparseCore of every device. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- A conjunction over the cells is one over the triples. -/
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- The tokens, regrouped: per tile, its token in each cell of its SparseCore. -/
theorem toks_eq : (bigSep bToks fun x => (dutyTok (EB (F := F)) x.1 x.2.1 x.2.2 : sProp 𝕄))
    = bigSep Finset.univ fun dci : DCI => bigSep Finset.univ fun j : Fin (grid0.bound 1) => dutyTok (EB (F := F)) (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

/-- `n` unit tallies at one cell are the tally `n` there. -/
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

end Cert.Proof.KI

end
-- ==== Proof.LaunchElem.lean ====
/-
  The launch element of the ghost state, and what the launch deals from it.  The element is the initial element of each
  of the three rounds libraries — the launch handshakes', the barrier cells' (every cell of the mesh, every token of its
  one round), the TensorCore pipeline's cells' — beside the unit of the transfer counters.  From it, the credit for what
  the tiles owe at the barrier, and the free semaphores at zero: the handshakes' initial element goes on to the launch
  theorem; the pipeline's funds each device's region; and the barrier cells' funds every cell's round state, position and
  tokens, whose invariants are allocated for every tile at once (a tile may signal a sibling whose task has not begun),
  so that every tile of BOTH SparseCores gets its kit: all sixteen invariants of its SparseCore, that each cell has
  reached round 0, its own position, its token in each of the sixteen rounds, and the credit for the sixteen arrivals at
  its own cell.
-/
import proofs.«214958_g36086315221739_cont_8to1_b_1353_25_alg».proof.Proof.LaunchCells

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (p2 : (d : Dev nD) → Buf (Elt F) (posLoc d)) (tb : (d : Dev nD) → Buf (Elt F) (tabLoc d))
variable (fo : (d : Dev nD) → Buf (Elt F) (outLoc d))
variable [FloatOps F]

/-- The launch element, over the pipeline cells' initial element. -/
def u₀ (upInit : UP) : UU := (initOf (K (F := F)).hsCells (K (F := F)).hsToks, (initOf bCells bToks, (upInit, 1)))

omit [FloatOps F] in
/-- The element splits into the three libraries' (the counters' unit dropped). -/
theorem ownU_split (a : UH) (b : UB) (p : UP) :
    (ownU ((a, (b, (p, 1))) : UU) : sProp 𝕄) ⊢ iprop(BI.own (EH (F := F) a) ∗ BI.own (EB (F := F) b) ∗ BI.own (EP (F := F) p)) := by
  have h1 : (ownU ((a, (b, (p, 1))) : UU) : sProp 𝕄) ⊢ iprop(BI.own (EH (F := F) a)
      ∗ BI.own ((uEmb (nD := nD) (sig := sig) (Ix := HIx 1) (Val := Elt F) (Name := ℕ) (U := UU) (Lvl := ℕ)).toEmb ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 1) (Val := Elt F) (Name := ℕ) (U := UU) (Lvl := ℕ)).toEmb ((1, (b, (p, 1))) : UU)) : sProp 𝕄)
      ⊢ iprop(BI.own (EB (F := F) b) ∗ BI.own (EP (F := F) p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro H
  ihave H' := h1 $$ H
  icases H' with ⟨HH, Hr⟩
  ihave H'' := h2 $$ Hr
  icases H'' with ⟨HB, HP⟩
  isplitl [HH]; · iexact HH
  isplitl [HB]; · iexact HB
  iexact HP

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) tb) g 0)
    ⊢ |={Set.univ}=> iprop(∃ κ : GSem nD τ sig → ℕ, bigSep bCells fun g => cellInv EB (bRd (F := F) tb) (κ g) g) := by
  refine (Rounds.bodies_intro EB (bRd (F := F) tb) bCells).trans ((inv_alloc_family bCells (Rounds.body EB (bRd (F := F) tb)) ∅ (E := Set.univ)).trans ?_)
  iintro H
  imod H with ⟨%κ, -, Hinv⟩
  imodintro; iexists κ; iexact Hinv

/-- The credit for the tiles' own debts, regrouped: each tile the sixteen units of its own cell. -/
theorem creds_b : ((P (F := F) p2 tb fo).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) p2 tb fo).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) p2 tb fo).oxFrom 0 (V d c i) = oxV d c := fun i => by
    rw [show (0 : ℕ) = (0 : Fin 1).val from rfl, (P p2 tb fo).oxFrom_step, (P p2 tb fo).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

theorem Px_T (d : Dev nD) : (bigSep Finset.univ fun q : Fin 1 => (P (F := F) p2 tb fo).x q (SparseCore.T d)) = iprop(emp) :=
  bigSep_univ_of_subsingleton (0 : Fin 1)
theorem Px_S (d : Dev nD) (c : Fin τ.nSC) : (bigSep Finset.univ fun q : Fin 1 => (P (F := F) p2 tb fo).x q (S d c)) = iprop(emp) :=
  bigSep_univ_of_subsingleton (0 : Fin 1)
theorem Px_V (d : Dev nD) (c : Fin τ.nSC) (i : Fin τ.nSub) :
    (bigSep Finset.univ fun q : Fin 1 => (P (F := F) p2 tb fo).x q (V d c i)) = bkit tb d c i :=
  bigSep_univ_of_subsingleton (0 : Fin 1)

/-- What every tile is handed alike: every barrier cell's invariant, and that each has reached round 0. -/
abbrev shared : sProp 𝕄 :=
  iprop((∃ κ : GSem nD τ sig → ℕ, bigSep Finset.univ fun x : DCI => cellInv EB (bRd (F := F) tb) (κ (bcell₃ x)) (bcell₃ x))
    ∗ bigSep Finset.univ fun x : DCI => reached (EB (F := F)) (bcell₃ x) 0)
/-- What each tile is handed of its own: its position, its tokens, its credit. -/
abbrev mine (dci : DCI) : sProp 𝕄 :=
  iprop(atPos (EB (F := F)) (bcell₃ dci) 0 ∅ 0
    ∗ (bigSep Finset.univ fun j : Fin (grid0.bound 1) => dutyTok (EB (F := F)) (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) tb ∗ mine (F := F) dci) ⊢ (bkit (F := F) tb dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) tb) (κ (bcell₃ x)) (bcell₃ x)) fun j _ =>
        sep_elim_left.trans (bigSep_elim (Φ := fun x : DCI => (cellInv EB (bRd (F := F) tb) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached (EB (F := F)) (bcell₃ x) 0) fun j _ =>
        sep_elim_left.trans (bigSep_elim (Φ := fun x : DCI => (reached (EB (F := F)) (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) tb ∗ (bigSep Finset.univ fun x : DCI => atPos (EB (F := F)) (bcell₃ x) 0 ∅ 0)
        ∗ (bigSep Finset.univ fun dci : DCI => bigSep Finset.univ fun j : Fin (grid0.bound 1) => dutyTok (EB (F := F)) (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) p2 tb fo).x q thr : sProp 𝕄) := by
  rw [SparseCore.Cfg.bigSep_threads (fun thr : Thread nD τ => bigSep Finset.univ fun q : Fin 1 => (P p2 tb fo).x q thr)]
  simp only [Px_T, Px_S, Px_V, bigSep_emp']
  iintro ⟨#Hsh, Hat, Htok, Hcred⟩
  isplitr; · iempintro
  isplitr; · iempintro
  iapply (bigSep_mono_frame (R := shared (F := F) tb) (Φ := mine (F := F)) fun dci _ => kit_intro (F := F) tb dci)
  isplitr; · iexact Hsh
  unfold mine
  rw [bigSep_sep', bigSep_sep']
  isplitl [Hat]; · iexact Hat
  isplitl [Htok]; · iexact Htok
  iexact Hcred

/-- The launch element: the handshakes' initial element on to the launch theorem, each device's region funded, every
    tile its barrier kit. -/
theorem hu₀ (upInit : UP) (RG : Dev nD → sProp 𝕄)
    (RG_fund : BI.own ((EP (F := F)) upInit) ⊢ |==> bigSep Finset.univ fun d : Dev nD => RG d) :
    iprop(ownU (u₀ (F := F) upInit) ∗ (P (F := F) p2 tb fo).oxCred ∗ (K (F := F)).freeSems0)
      ⊢ |={Set.univ}=> iprop(BI.own (EH (initOf (K (F := F)).hsCells (K (F := F)).hsToks)) ∗ bigSep Finset.univ (fun d : Dev nD => RG d)
        ∗ (bigSep Finset.univ fun thr : Thread nD τ => bigSep Finset.univ fun q : Fin 1 => (P (F := F) p2 tb fo).x q thr) : sProp 𝕄) := by
  unfold u₀
  iintro ⟨Hu, Hcred, Hfree⟩
  ihave H := (ownU_split _ _ _) $$ Hu
  icases H with ⟨HH, HB, HP⟩
  imod RG_fund $$ HP with HRG
  imod (Rounds.fund EB (bRd (F := F) tb) bCells bToks) $$ HB with ⟨Hst, #Hr, Hat, Htok⟩
  ihave Hsems := (sems_b (F := F)) $$ Hfree
  imod (invs_b (F := F) tb) $$ [Hsems Hst] with ⟨%κ, #Hinv⟩
  · isplitl [Hsems] <;> iassumption
  ihave Hcred' := (creds_b p2 tb fo) $$ Hcred
  ihave Hinv' := (Entails.of_eq (bCells_eq (F := F) fun g => cellInv EB (bRd (F := F) tb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HRG]; · iexact HRG
  iapply (kits_deal p2 tb fo)
  isplitr
  · isplitl; · iexists κ; iexact Hinv'
    iexact Hr'
  isplitl [Hat']; · iexact Hat'
  isplitl [Htok']; · iexact Htok'
  iexact Hcred'

end Cert.Proof.KI

end
-- ==== Proof.LaunchSplit.lean ====
/-
  How a SparseCore's share of the call's operands splits among its sixteen tiles, and how their results gather.
  The arrays: the start hands the SparseCore the sixteen tiles' shares already cut, so they pass to the tiles and back
  unchanged.  The SparseCore's shared memory is among the sequencer's own buffers, held whole at contents not chosen:
  tile 0 receives it whole (it stages the table there), the other tiles nothing.  At the tasks' end every tile returns
  its read token of the shared table, and tile 0 also what the sixteen tokens left of the whole; the sixteen tokens and
  that remainder compose to the full share again, so the sequencer holds its buffer whole as before (at the table).
-/
import proofs.«214958_g36086315221739_cont_8to1_b_1353_25_alg».proof.Proof.Pay
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (p2 : (d : Dev nD) → Buf (Elt F) (posLoc d)) (tb : (d : Dev nD) → Buf (Elt F) (tabLoc d))
variable (fo : (d : Dev nD) → Buf (Elt F) (outLoc d))
variable [FloatOps F]

/-- The call's tile number 0. -/
abbrev i0 : Fin ((K (F := F)).nSub 0) := ⟨0, by rw [nSub_zero]; exact Nat.zero_lt_succ 15⟩

omit [FloatOps F] in
theorem cV_LV (c : Fin ((K (F := F)).nCore 0)) (i : Fin ((K (F := F)).nSub 0)) : cV (LV (F := F) c i) = coreOf (F := F) c := Fin.ext rfl
omit [FloatOps F] in
theorem jV_LV_val (c : Fin ((K (F := F)).nCore 0)) (i : Fin ((K (F := F)).nSub 0)) : (jV (LV (F := F) c i)).val = i.val := rfl

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A conjunction over the tiles of something only tile 0 has is that thing. -/
theorem bigSep_only_zero (R : sProp 𝕄) (n : Fin ((K (F := F)).nSub 0) → ℕ) (hn : ∀ i, n i = i.val) :
    (bigSep Finset.univ fun i : Fin ((K (F := F)).nSub 0) => if n i = 0 then R else iprop(emp)) = R := by
  rw [SparseCore.bigSep_erase' (Finset.mem_univ (i0 (F := F))), if_pos (hn _),
    bigSep_congr (Ψ := fun _ => iprop(emp)) fun i hi => if_neg fun h =>
      (Finset.mem_erase.mp hi).1 (Fin.ext ((hn i).symm.trans h)), bigSep_emp']
  exact BI.Entails.antisymm sep_emp.1 sep_emp.2

omit [FloatOps F] in
/-- The shared memory, whole, dealt to the tiles: tile 0 all of it. -/
theorem shIn_deal (d : Dev nD) (c : Fin ((K (F := F)).nCore 0)) :
    (iprop(∃ f, shLoc d (coreOf (F := F) c) ↦{fullShare} f) : sProp 𝕄)
      ⊢ bigSep Finset.univ fun i : Fin ((K (F := F)).nSub 0) => shIn (F := F) d (cV (LV (F := F) c i)) (jV (LV (F := F) c i)) := by
  have e : (fun i : Fin ((K (F := F)).nSub 0) => shIn (F := F) d (cV (LV (F := F) c i)) (jV (LV (F := F) c i)))
      = fun i => if (jV (LV (F := F) c i)).val = 0 then (iprop(∃ f, shLoc d (coreOf (F := F) c) ↦{fullShare} f) : sProp 𝕄) else iprop(emp) :=
    funext fun i => by unfold shIn; rw [cV_LV]
  rw [e, bigSep_only_zero _ _ (jV_LV_val c)]

omit [FloatOps F] in
/-- What the tiles return of the shared memory is it whole again, at the table. -/
theorem shBack_join (d : Dev nD) (c : Fin ((K (F := F)).nCore 0)) :
    (bigSep Finset.univ fun i : Fin ((K (F := F)).nSub 0) => shBack tb d (cV (LV (F := F) c i)) (jV (LV (F := F) c i)) : sProp 𝕄)
      ⊢ iprop(∃ f, shLoc d (coreOf (F := F) c) ↦{fullShare} f) := by
  have e : (fun i : Fin ((K (F := F)).nSub 0) => shBack tb d (cV (LV (F := F) c i)) (jV (LV (F := F) c i)))
      = fun i => iprop((fun k : Fin 16 => (shLoc d (coreOf (F := F) c) ↦{Transfers.shareTok fullShare 16 k} tbS tb d (coreOf (F := F) c) : sProp 𝕄)) (Fin.cast nSub_zero i)
          ∗ if (jV (LV (F := F) c i)).val = 0 then (shLoc d (coreOf (F := F) c) ↦{Transfers.shareDrop fullShare 16} tbS tb d (coreOf (F := F) c) : sProp 𝕄) else iprop(emp)) :=
    funext fun i => by unfold shBack; rw [cV_LV]; rfl
  rw [e, bigSep_sep', bigSep_only_zero _ _ (jV_LV_val c),
    bigSep_tasks (F := F) (fun k : Fin 16 => (shLoc d (coreOf (F := F) c) ↦{Transfers.shareTok fullShare 16 k} tbS tb d (coreOf (F := F) c) : sProp 𝕄))]
  iintro ⟨Htoks, Hrem⟩
  iexists (tbS tb d (coreOf (F := F) c))
  iapply (Transfers.pointsTo_toks_join fullShare 16)
  isplitl [Hrem]; · iexact Hrem
  iexact Htoks

/-- The split of the one call: arrays through, the shared memory to tile 0 and back. -/
theorem vecSplit : (K (F := F)).VecSplit (P (F := F) p2 tb fo) 0 := by
  intro d c
  show iprop((bigSep Finset.univ fun i : Fin ((K (F := F)).nSub 0) => tileArr p2 tb d (LV c i) (fo d)) ∗ ownBufs (S d (coreOf (F := F) c)))
      ⊢ |={Set.univ}=> iprop(
        (bigSep Finset.univ fun i : Fin ((K (F := F)).nSub 0) => iprop(tileArr p2 tb d (LV c i) (fo d) ∗ shIn d (cV (LV (F := F) c i)) (jV (LV (F := F) c i))))
        ∗ ((bigSep Finset.univ fun i : Fin ((K (F := F)).nSub 0) => iprop(tileArr p2 tb d (LV c i) (sinOut p2 tb d) ∗ shBack tb d (cV (LV (F := F) c i)) (jV (LV (F := F) c i))))
            -∗ iprop((bigSep Finset.univ fun i : Fin ((K (F := F)).nSub 0) => tileArr p2 tb d (LV c i) (sinOut p2 tb d)) ∗ ownBufs (S d (coreOf (F := F) c)))))
  rw [bigSep_sep', bigSep_sep', ownBufs_S]
  iintro ⟨Harr, Hsh, Hrest⟩; imodintro
  isplitl [Harr Hsh]
  · isplitl [Harr]; · iexact Harr
    iapply (shIn_deal (F := F) d c); iexact Hsh
  iintro ⟨Harr, Hback⟩
  isplitl [Harr]; · iexact Harr
  isplitl [Hback]; · iapply (shBack_join tb d c); iexact Hback
  iexact Hrest

end Cert.Proof.KI

end
-- ==== Proof.MainRun.lean ====
/-
  @main on a device's TensorCore, and the program's run.  @main is four lines: the host reshape of the positions
  `[4, 8192]` to `[256, 128]`; the SparseCore call, which reads the reshaped positions and the sine table and writes
  its result; the TensorCore call, which reads the reshaped positions and the cosine table and writes its result;
  the return.  Each line takes the arrays it touches from the TensorCore's holdings and hands them back: the reshape
  leaves the positions as they were and the reshape's buffer at their row-major recast; the SparseCore call lends
  the reshaped positions and the sine table to its tiles and gets them back with the result at the lookup; the
  TensorCore call leaves its inputs as they were and its result at `tcOut`.  So every final memory has the four
  arguments as launched and the two results at those two functions of them.
-/
import proofs.«214958_g36086315221739_cont_8to1_b_1353_25_alg».proof.Proof.TcRegion
import proofs.«214958_g36086315221739_cont_8to1_b_1353_25_alg».proof.Proof.Split
import proofs.«214958_g36086315221739_cont_8to1_b_1353_25_alg».proof.Proof.LaunchElem
import proofs.«214958_g36086315221739_cont_8to1_b_1353_25_alg».proof.Proof.LaunchSplit

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the calls read -/

/-- The positions as the host reshape lays them out: the launch contents of the position argument, recast row-major. -/
def pos2Of (d : Dev nD) : Buf (Elt F) (posLoc d) :=
  shapeCast S256x128 (m ((T d : Thread nD τ).loc main_arg1)) Facts₀.shapeCasts_S4x8192_S256x128
/-- The sine table and the SparseCore call's result buffer, as launched. -/
abbrev tbOf (d : Dev nD) : Buf (Elt F) (tabLoc d) := m (tabLoc d)
abbrev foOf (d : Dev nD) : Buf (Elt F) (outLoc d) := m (outLoc d)

/-! ## The TensorCore's arrays -/

theorem unscopedBufs_eq (d : Dev nD) (W : (b : Ref sig .tc) → Buf (Elt F) ((d.tc : Thread nD τ).loc b)) :
    (unscopedBufs d W : sProp 𝕄)
      = iprop(((T d : Thread nD τ).loc main_arg0 ↦{fullShare} W main_arg0) ∗ ((T d : Thread nD τ).loc main_arg1 ↦{fullShare} W main_arg1)
          ∗ ((T d : Thread nD τ).loc main_arg2 ↦{fullShare} W main_arg2) ∗ ((T d : Thread nD τ).loc main_arg3 ↦{fullShare} W main_arg3)
          ∗ ((T d : Thread nD τ).loc main_v0 ↦{fullShare} W main_v0) ∗ ((T d : Thread nD τ).loc main_v1 ↦{fullShare} W main_v1)
          ∗ ((T d : Thread nD τ).loc main_v2 ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The host reshape -/

abbrev a1' : DevRef τ sig := Proc.devRef .tc (main_arg1 : Ref sig .tc)
abbrev v0' : DevRef τ sig := Proc.devRef .tc (main_v0 : Ref sig .tc)
abbrev opR : HloOp τ sig (Elt F) := StableHlo.reshape main_arg1 main_v0 rfl Facts₀.shapeCasts_S4x8192_S256x128

/-- The two arrays the reshape touches. -/
abbrev S2 : Finset (DevRef τ sig) := {a1', v0'}

omit [FloatOps F] in
theorem held_S2 (d : Dev nD) (W : Valuation τ sig (Elt F)) :
    (held (T d) S2 W : sProp 𝕄) = iprop(((T d : Thread nD τ).loc main_arg1 ↦{fullShare} W a1') ∗ ((T d : Thread nD τ).loc main_v0 ↦{fullShare} W v0')) := by
  unfold held S2
  rw [SparseCore.bigSep_insert' (by decide), bigSep_singleton]

/-- The launch valuation. -/
def V0 (d : Dev nD) : Valuation τ sig (Elt F) := fun b => m (d, b)

theorem opR_sub : (opR (F := F)).bufs ⊆ S2 := show ({a1', v0'} : Finset (DevRef τ sig)) ⊆ S2 by decide

/-- The reshape leaves its operand as it was, -/
theorem res_a1 (d : Dev nD) : (opR (F := F)).result (V0 m d) a1' = m ((T d : Thread nD τ).loc main_arg1) :=
  StableHlo.reshape_result_ne (x := main_arg1) (y := main_v0) rfl Facts₀.shapeCasts_S4x8192_S256x128 ⟨by decide, rfl⟩ ⟨by decide, rfl⟩ (V0 m d)
    (r := main_arg1) (by decide)
/-- and its result at the recast. -/
theorem res_v0 (d : Dev nD) : (opR (F := F)).result (V0 m d) v0' = pos2Of m d :=
  (StableHlo.reshape_result main_arg1 main_v0 rfl Facts₀.shapeCasts_S4x8192_S256x128 ⟨by decide, rfl⟩ ⟨by decide, rfl⟩ (V0 m d)).trans rfl

/-! ## @main on the TensorCore -/

/-- What @main leaves the claim: the four arguments as launched, the two results at their functions of them. -/
def FIN (d : Dev nD) : sProp 𝕄 :=
  iprop(((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_arg3 ↦{fullShare} m ((T d : Thread nD τ).loc main_arg3))
    ∗ ((T d : Thread nD τ).loc main_v1 ↦{fullShare} sinOut (pos2Of m) (tbOf m) d)
    ∗ ((T d : Thread nD τ).loc main_v2 ↦{fullShare} tcOut (pos2Of m d) (m ((T d : Thread nD τ).loc main_arg2))))

/-- The core owes nothing once the one SparseCore call is over. -/
theorem Otc_one (d : Dev nD) : (K (F := F)).Otc d 1 = 0 := (K (F := F)).Otc_end d le_rfl

/-- The TensorCore's handshake state after the call: it owes nothing, its recorded pairs below level 8, and the rest. -/
theorem tcSt_one_split (d : Dev nD) : ∃ R : sProp 𝕄, (K (F := F)).tcSt EH d 1 = iprop(owesB (8 * 1) d ∗ R) := by
  unfold SparseCore.Cfg.tcSt
  rw [Otc_one]
  exact ⟨_, rfl⟩

set_option maxHeartbeats 1000000 in
/-- @main on device `d`'s TensorCore: the reshape, the SparseCore call, the TensorCore call, the return. -/
theorem hmain (κ : GSem nD τ sig → ℕ) (d : Dev nD) :
    iprop((K (F := F)).ctx EH (P (pos2Of m) (tbOf m) (foOf m)) κ ∗ (K (F := F)).tcSt EH d 0 ∗ (K (F := F)).tcRes m ρ d ∗ RG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2⟩, -, -⟩, Hrg⟩
  -- the reshape, over the position argument and its recast
  iapply (wp_hlo_within 𝒱 (SparseCore.T d) none Set.univ (op := opR) (S := S2) opR_sub (V := V0 m d)) $$ [Hb Ha1 Hv0]
  · isplitl [Hb]; · iexact Hb
    rw [held_S2]
    isplitl [Ha1]; · iexact Ha1
    iexact Hv0
  iintro ⟨Hb, Hheld⟩
  rw [wp_ret]; imodintro
  ihave Hh := (Entails.of_eq (held_S2 (F := F) d _)) $$ Hheld
  rw [res_a1, res_v0]
  icases Hh with ⟨Ha1, Hv0⟩
  -- the SparseCore call: the recast positions, the sine table and the result buffer lent and handed back
  iapply ((K (F := F)).wp_run (D (F := F)) 𝒱 (EH := EH) (P := P (pos2Of m) (tbOf m) (foOf m)) κ d 0) $$ [Hst Hv0 Ha3 Hv1 Hb Ha0 Ha1 Ha2 Hv2 Hrg]
  isplitr; · iexact Hctx
  isplitl [Hst]; · iexact Hst
  ihave Hsplit := (st_intro (pos2Of m) (tbOf m) (foOf m) d) $$ [Hv0 Ha3 Hv1]
  · isplitl [Hv0]; · iexact Hv0
    isplitl [Ha3]; · iexact Ha3
    iexact Hv1
  icases Hsplit with ⟨⟨Hp32, Ht32⟩, Hstq⟩
  isplitl [Hstq]; · iexact Hstq
  iintro ⟨Hst, Hdn⟩
  ihave Hback := (dn_elim (pos2Of m) (tbOf m) (foOf m) d) $$ [Hp32 Ht32 Hdn]
  · isplitl [Hp32 Ht32]
    · isplitl [Hp32]; · iexact Hp32
      iexact Ht32
    iexact Hdn
  icases Hback with ⟨Hv0, Ha3, Hv1⟩
  -- the TensorCore call
  obtain ⟨R, hR1⟩ := tcSt_one_split (F := F) d
  rw [hR1]
  have hR1' : (K (F := F)).tcSt EH d ((0 : Fin 1).val + 1) = iprop(owesB (8 * 1) d ∗ R) := hR1
  ihave Hst' := (Entails.of_eq hR1') $$ Hst
  icases Hst' with ⟨HO, HR⟩
  iapply (wp_wand_r frame _ Set.univ)
  isplitl [Hrg Hb Hv0 Ha2 Hv2 HO]
  · iapply (tc_region (F := F) (K (F := F)).lev (8 * 1) d (pos2Of m d) (m ((T d : Thread nD τ).loc main_arg2)))
    isplitl [Hrg]; · iexact Hrg
    isplitr; · iapply (SparseCore.Cfg.ctx_levAts κ); iexact Hctx
    isplitl [Hb]; · iexact Hb
    isplitl [Hv0]; · iexact Hv0
    isplitl [Ha2]; · iexact Ha2
    isplitl [Hv2]; · iexists _; iexact Hv2
    iexact HO
  iintro %_ ⟨Hb, Hv0, Ha2, Hv2, HO⟩
  imodintro
  isplitl [HO HR]
  · isplitl [HO]; · iexact HO
    iexact HR
  unfold FIN
  isplitl [Ha0]; · iexact Ha0
  isplitl [Ha1]; · iexact Ha1
  isplitl [Ha2]; · iexact Ha2
  isplitl [Ha3]; · iexact Ha3
  isplitl [Hv1]; · iexact Hv1
  iexact Hv2

/-! ## Reading the claim off a final state -/

/-- What the claim says of device `d` in a final state: the two results and the four arguments. -/
def fq (d : Dev nD) (s' : Phys nD τ sig (Elt F)) : Prop :=
  s'.mem.mem ((T d : Thread nD τ).loc main_v2) = tcOut (pos2Of m d) (m ((T d : Thread nD τ).loc main_arg2))
    ∧ s'.mem.mem ((T d : Thread nD τ).loc main_v1) = sinOut (pos2Of m) (tbOf m) d
    ∧ s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_arg2) = m ((T d : Thread nD τ).loc main_arg2)
    ∧ s'.mem.mem ((T d : Thread nD τ).loc main_arg3) = m ((T d : Thread nD τ).loc main_arg3)

theorem hfin (d : Dev nD) (s' : Phys nD τ sig (Elt F)) : iprop(FIN m d ∗ SI s') ⊢ (⌜fq m d s'⌝ : sProp 𝕄) := by
  unfold FIN
  iintro ⟨⟨Ha0, Ha1, Ha2, Ha3, Hv1, Hv2⟩, HSI⟩
  icombine HSI Ha0 gives %h0
  icombine HSI Ha1 gives %h1
  icombine HSI Ha2 gives %h2
  icombine HSI Ha3 gives %h3
  icombine HSI Hv1 gives %hv1
  icombine HSI Hv2 gives %hv2
  ipureintro
  exact ⟨funext fun i => hv2 i (Finset.mem_univ i), funext fun i => hv1 i (Finset.mem_univ i), funext fun i => h0 i (Finset.mem_univ i),
    funext fun i => h1 i (Finset.mem_univ i), funext fun i => h2 i (Finset.mem_univ i), funext fun i => h3 i (Finset.mem_univ i)⟩

/-! ## The program's run -/

/-- Every final memory: the two results at their functions of the arguments, the arguments as launched. -/
def QAll : PUnit × MemSt nD τ sig (Elt F) → Prop := fun r =>
  ∀ c : Dev nD, r.2.mem ((c.tc : Thread nD τ).loc main_v2) = tcOut (pos2Of m c) (m ((c.tc : Thread nD τ).loc main_arg2))
    ∧ r.2.mem ((c.tc : Thread nD τ).loc main_v1) = sinOut (pos2Of m) (tbOf m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- The run, from the tiles' obligation: every weakly fair execution of the 35 threads from a memory whose semaphores
    read zero terminates, and every final memory is as `QAll` says. -/
theorem run_all [∀ e, Nonempty (Elt F e)]
    (htile : (K (F := F)).TileObl (D (F := F)) 𝒱 (P (pos2Of m) (tbOf m) (foOf m)) v₀ 0 (K (F := F)).lev) :
    θ_run (Cert.KernelIdeal.defs (F := F)) (Cert.KernelIdeal.threads (F := F)) ⟨m, fun _ => 0, ρ⟩ (QAll m) :=
  SparseCore.Cfg.θ_run_sc (K := K (F := F)) (D := D (F := F)) (𝒱 := 𝒱) (EH := EH) (P := P (pos2Of m) (tbOf m) (foOf m)) facts v₀
    (fun q hq => match q with | 0 => nomatch hq)
    (fun q _ => match q with | 0 => htile)
    (fun q _ => match q with | 0 => vecSplit (pos2Of m) (tbOf m) (foOf m))
    m ρ main (fun d => RG (F := F) d) (FIN m) (u₀ (F := F) upInit)
    (hu₀ (pos2Of m) (tbOf m) (foOf m) upInit (fun d => RG (F := F) d) RG_fund)
    (hmain m ρ) (fq m) (hfin m) (QAll m) (fun _ h => h)

end Cert.Proof.KI

end
-- ==== Proof.TcDataK.lean ====
/-
  The TensorCore call's result as a function of its two inputs.  One grid point reads a block of 64 x 128
  positions and the 16 x 128 table and stores 64 pieces of 128 x 128 into its 8192 x 128 output block, piece
  `r` at rows `128 r ...`.  Each stored piece is a term over the position block and the table alone; `pieceN r`
  names the `r`-th.  The block is the pieces stacked, the whole result the four blocks stacked: output row `b`
  is local row `b % 128` of piece `(b % 8192) / 128` of the block computed from position rows `64 (b / 8192) ...`.
-/
import proofs.«214958_g36086315221739_cont_8to1_b_1353_25_alg».proof.Proof.GhostK
import Idealize.ShloMosaic.Lib.ValueIdx

noncomputable section

namespace Cert.Proof.KB

open Cert.Kernel Cert.Kernel.Gen
open Idealize.ShloMosaic Idealize.ShloMosaic.ValueIdx

variable {F : FTy → Type} [FloatOps F]

/-- The `k`-th piece a grid point stores, over the position block `v0` and the table `v19` it loaded. -/
def pieceN (k : ℕ) (v0 : Vec F S64x128 .i32) (v19 : Vec F S16x128 .f32) : FVec F S128x128 .f32 :=
  match k with
  | 0 => k1_pay5 v0 v19
  | 1 => k1_pay6 v0 v19
  | 2 => k1_pay8 v19 (k1_pay7 v0) (constant S128x128 .f32 0x00000000#32)
  | 3 => k1_pay9 (k1_pay3 v0) (k1_pay4 (F := F)) v19
  | 4 => k1_pay10 (k1_pay3 v0) (k1_pay4 (F := F)) v19
  | 5 => k1_pay11 (k1_pay3 v0) (k1_pay4 (F := F)) v19
  | 6 => k1_pay12 (k1_pay3 v0) (k1_pay4 (F := F)) v19
  | 7 => k1_pay14 v19 (k1_pay13 (k1_pay3 v0) (k1_pay4 (F := F))) (constant S128x128 .f32 0x00000000#32)
  | 8 => k1_pay15 (k1_pay3 v0) (k1_pay4 (F := F)) v19
  | 9 => k1_pay16 (k1_pay3 v0) (k1_pay4 (F := F)) v19
  | 10 => k1_pay17 (k1_pay3 v0) (k1_pay4 (F := F)) v19
  | 11 => k1_pay18 (k1_pay3 v0) (k1_pay4 (F := F)) v19
  | 12 => k1_pay20 v19 (k1_pay19 (k1_pay3 v0) (k1_pay4 (F := F))) (constant S128x128 .f32 0x00000000#32)
  | 13 => k1_pay21 (k1_pay3 v0) (k1_pay4 (F := F)) v19
  | 14 => k1_pay22 (k1_pay3 v0) (k1_pay4 (F := F)) v19
  | 15 => k1_pay23 (k1_pay3 v0) (k1_pay4 (F := F)) v19
  | 16 => k1_pay24 (k1_pay3 v0) (k1_pay4 (F := F)) v19
  | 17 => k1_pay26 v19 (k1_pay25 (k1_pay3 v0) (k1_pay4 (F := F))) (constant S128x128 .f32 0x00000000#32)
  | 18 => k1_pay27 (k1_pay3 v0) (k1_pay4 (F := F)) v19
  | 19 => k1_pay28 (k1_pay3 v0) (k1_pay4 (F := F)) v19
  | 20 => k1_pay29 (k1_pay3 v0) (k1_pay4 (F := F)) v19
  | 21 => k1_pay30 (k1_pay3 v0) (k1_pay4 (F := F)) v19
  | 22 => k1_pay32 v19 (k1_pay31 (k1_pay3 v0) (k1_pay4 (F := F))) (constant S128x128 .f32 0x00000000#32)
  | 23 => k1_pay33 (k1_pay3 v0) (k1_pay4 (F := F)) v19
  | 24 => k1_pay34 (k1_pay3 v0) (k1_pay4 (F := F)) v19
  | 25 => k1_pay35 (k1_pay3 v0) (k1_pay4 (F := F)) v19
  | 26 => k1_pay36 (k1_pay3 v0) (k1_pay4 (F := F)) v19
  | 27 => k1_pay38 v19 (k1_pay37 (k1_pay3 v0) (k1_pay4 (F := F))) (constant S128x128 .f32 0x00000000#32)
  | 28 => k1_pay39 (k1_pay3 v0) (k1_pay4 (F := F)) v19
  | 29 => k1_pay40 (k1_pay3 v0) (k1_pay4 (F := F)) v19
  | 30 => k1_pay41 (k1_pay3 v0) (k1_pay4 (F := F)) v19
  | 31 => k1_pay42 (k1_pay3 v0) (k1_pay4 (F := F)) v19
  | 32 => k1_pay44 v19 (k1_pay43 (k1_pay3 v0) (k1_pay4 (F := F))) (constant S128x128 .f32 0x00000000#32)
  | 33 => k1_pay45 (k1_pay3 v0) (k1_pay4 (F := F)) v19
  | 34 => k1_pay46 (k1_pay3 v0) (k1_pay4 (F := F)) v19
  | 35 => k1_pay47 (k1_pay3 v0) (k1_pay4 (F := F)) v19
  | 36 => k1_pay48 (k1_pay3 v0) (k1_pay4 (F := F)) v19
  | 37 => k1_pay50 v19 (k1_pay49 (k1_pay3 v0) (k1_pay4 (F := F))) (constant S128x128 .f32 0x00000000#32)
  | 38 => k1_pay51 (k1_pay3 v0) (k1_pay4 (F := F)) v19
  | 39 => k1_pay52 (k1_pay3 v0) (k1_pay4 (F := F)) v19
  | 40 => k1_pay53 (k1_pay3 v0) (k1_pay4 (F := F)) v19
  | 41 => k1_pay54 (k1_pay3 v0) (k1_pay4 (F := F)) v19
  | 42 => k1_pay56 v19 (k1_pay55 (k1_pay3 v0) (k1_pay4 (F := F))) (constant S128x128 .f32 0x00000000#32)
  | 43 => k1_pay57 (k1_pay3 v0) (k1_pay4 (F := F)) v19
  | 44 => k1_pay58 (k1_pay3 v0) (k1_pay4 (F := F)) v19
  | 45 => k1_pay59 (k1_pay3 v0) (k1_pay4 (F := F)) v19
  | 46 => k1_pay60 (k1_pay3 v0) (k1_pay4 (F := F)) v19
  | 47 => k1_pay62 v19 (k1_pay61 (k1_pay3 v0) (k1_pay4 (F := F))) (constant S128x128 .f32 0x00000000#32)
  | 48 => k1_pay63 (k1_pay3 v0) (k1_pay4 (F := F)) v19
  | 49 => k1_pay64 (k1_pay3 v0) (k1_pay4 (F := F)) v19
  | 50 => k1_pay65 (k1_pay3 v0) (k1_pay4 (F := F)) v19
  | 51 => k1_pay66 (k1_pay3 v0) (k1_pay4 (F := F)) v19
  | 52 => k1_pay68 v19 (k1_pay67 (k1_pay3 v0) (k1_pay4 (F := F))) (constant S128x128 .f32 0x00000000#32)
  | 53 => k1_pay69 (k1_pay3 v0) (k1_pay4 (F := F)) v19
  | 54 => k1_pay70 (k1_pay3 v0) (k1_pay4 (F := F)) v19
  | 55 => k1_pay71 (k1_pay3 v0) (k1_pay4 (F := F)) v19
  | 56 => k1_pay72 (k1_pay3 v0) (k1_pay4 (F := F)) v19
  | 57 => k1_pay74 v19 (k1_pay73 (k1_pay3 v0) (k1_pay4 (F := F))) (constant S128x128 .f32 0x00000000#32)
  | 58 => k1_pay75 (k1_pay3 v0) (k1_pay4 (F := F)) v19
  | 59 => k1_pay76 (k1_pay3 v0) (k1_pay4 (F := F)) v19
  | 60 => k1_pay77 (k1_pay3 v0) (k1_pay4 (F := F)) v19
  | 61 => k1_pay78 (k1_pay3 v0) (k1_pay4 (F := F)) v19
  | 62 => k1_pay1 v19 (k1_pay79 (k1_pay3 v0) (k1_pay4 (F := F))) (constant S128x128 .f32 0x00000000#32)
  | _ => k1_pay2 (k1_pay3 v0) (k1_pay4 (F := F)) v19

/-- The same, at a piece number below 64. -/
def pieceOf (r : Fin 64) (v0 : Vec F S64x128 .i32) (v19 : Vec F S16x128 .f32) : FVec F S128x128 .f32 := pieceN r.val v0 v19

theorem pieceN_0 (v0 : Vec F S64x128 .i32) (v19 : Vec F S16x128 .f32) : pieceN 0 v0 v19 = k1_pay5 v0 v19 := rfl
theorem pieceN_1 (v0 : Vec F S64x128 .i32) (v19 : Vec F S16x128 .f32) : pieceN 1 v0 v19 = k1_pay6 v0 v19 := rfl
theorem pieceN_2 (v0 : Vec F S64x128 .i32) (v19 : Vec F S16x128 .f32) : pieceN 2 v0 v19 = k1_pay8 v19 (k1_pay7 v0) (constant S128x128 .f32 0x00000000#32) := rfl
theorem pieceN_3 (v0 : Vec F S64x128 .i32) (v19 : Vec F S16x128 .f32) : pieceN 3 v0 v19 = k1_pay9 (k1_pay3 v0) (k1_pay4 (F := F)) v19 := rfl
theorem pieceN_4 (v0 : Vec F S64x128 .i32) (v19 : Vec F S16x128 .f32) : pieceN 4 v0 v19 = k1_pay10 (k1_pay3 v0) (k1_pay4 (F := F)) v19 := rfl
theorem pieceN_5 (v0 : Vec F S64x128 .i32) (v19 : Vec F S16x128 .f32) : pieceN 5 v0 v19 = k1_pay11 (k1_pay3 v0) (k1_pay4 (F := F)) v19 := rfl
theorem pieceN_6 (v0 : Vec F S64x128 .i32) (v19 : Vec F S16x128 .f32) : pieceN 6 v0 v19 = k1_pay12 (k1_pay3 v0) (k1_pay4 (F := F)) v19 := rfl
theorem pieceN_7 (v0 : Vec F S64x128 .i32) (v19 : Vec F S16x128 .f32) : pieceN 7 v0 v19 = k1_pay14 v19 (k1_pay13 (k1_pay3 v0) (k1_pay4 (F := F))) (constant S128x128 .f32 0x00000000#32) := rfl
theorem pieceN_8 (v0 : Vec F S64x128 .i32) (v19 : Vec F S16x128 .f32) : pieceN 8 v0 v19 = k1_pay15 (k1_pay3 v0) (k1_pay4 (F := F)) v19 := rfl
theorem pieceN_9 (v0 : Vec F S64x128 .i32) (v19 : Vec F S16x128 .f32) : pieceN 9 v0 v19 = k1_pay16 (k1_pay3 v0) (k1_pay4 (F := F)) v19 := rfl
theorem pieceN_10 (v0 : Vec F S64x128 .i32) (v19 : Vec F S16x128 .f32) : pieceN 10 v0 v19 = k1_pay17 (k1_pay3 v0) (k1_pay4 (F := F)) v19 := rfl
theorem pieceN_11 (v0 : Vec F S64x128 .i32) (v19 : Vec F S16x128 .f32) : pieceN 11 v0 v19 = k1_pay18 (k1_pay3 v0) (k1_pay4 (F := F)) v19 := rfl
theorem pieceN_12 (v0 : Vec F S64x128 .i32) (v19 : Vec F S16x128 .f32) : pieceN 12 v0 v19 = k1_pay20 v19 (k1_pay19 (k1_pay3 v0) (k1_pay4 (F := F))) (constant S128x128 .f32 0x00000000#32) := rfl
theorem pieceN_13 (v0 : Vec F S64x128 .i32) (v19 : Vec F S16x128 .f32) : pieceN 13 v0 v19 = k1_pay21 (k1_pay3 v0) (k1_pay4 (F := F)) v19 := rfl
theorem pieceN_14 (v0 : Vec F S64x128 .i32) (v19 : Vec F S16x128 .f32) : pieceN 14 v0 v19 = k1_pay22 (k1_pay3 v0) (k1_pay4 (F := F)) v19 := rfl
theorem pieceN_15 (v0 : Vec F S64x128 .i32) (v19 : Vec F S16x128 .f32) : pieceN 15 v0 v19 = k1_pay23 (k1_pay3 v0) (k1_pay4 (F := F)) v19 := rfl
theorem pieceN_16 (v0 : Vec F S64x128 .i32) (v19 : Vec F S16x128 .f32) : pieceN 16 v0 v19 = k1_pay24 (k1_pay3 v0) (k1_pay4 (F := F)) v19 := rfl
theorem pieceN_17 (v0 : Vec F S64x128 .i32) (v19 : Vec F S16x128 .f32) : pieceN 17 v0 v19 = k1_pay26 v19 (k1_pay25 (k1_pay3 v0) (k1_pay4 (F := F))) (constant S128x128 .f32 0x00000000#32) := rfl
theorem pieceN_18 (v0 : Vec F S64x128 .i32) (v19 : Vec F S16x128 .f32) : pieceN 18 v0 v19 = k1_pay27 (k1_pay3 v0) (k1_pay4 (F := F)) v19 := rfl
theorem pieceN_19 (v0 : Vec F S64x128 .i32) (v19 : Vec F S16x128 .f32) : pieceN 19 v0 v19 = k1_pay28 (k1_pay3 v0) (k1_pay4 (F := F)) v19 := rfl
theorem pieceN_20 (v0 : Vec F S64x128 .i32) (v19 : Vec F S16x128 .f32) : pieceN 20 v0 v19 = k1_pay29 (k1_pay3 v0) (k1_pay4 (F := F)) v19 := rfl
theorem pieceN_21 (v0 : Vec F S64x128 .i32) (v19 : Vec F S16x128 .f32) : pieceN 21 v0 v19 = k1_pay30 (k1_pay3 v0) (k1_pay4 (F := F)) v19 := rfl
theorem pieceN_22 (v0 : Vec F S64x128 .i32) (v19 : Vec F S16x128 .f32) : pieceN 22 v0 v19 = k1_pay32 v19 (k1_pay31 (k1_pay3 v0) (k1_pay4 (F := F))) (constant S128x128 .f32 0x00000000#32) := rfl
theorem pieceN_23 (v0 : Vec F S64x128 .i32) (v19 : Vec F S16x128 .f32) : pieceN 23 v0 v19 = k1_pay33 (k1_pay3 v0) (k1_pay4 (F := F)) v19 := rfl
theorem pieceN_24 (v0 : Vec F S64x128 .i32) (v19 : Vec F S16x128 .f32) : pieceN 24 v0 v19 = k1_pay34 (k1_pay3 v0) (k1_pay4 (F := F)) v19 := rfl
theorem pieceN_25 (v0 : Vec F S64x128 .i32) (v19 : Vec F S16x128 .f32) : pieceN 25 v0 v19 = k1_pay35 (k1_pay3 v0) (k1_pay4 (F := F)) v19 := rfl
theorem pieceN_26 (v0 : Vec F S64x128 .i32) (v19 : Vec F S16x128 .f32) : pieceN 26 v0 v19 = k1_pay36 (k1_pay3 v0) (k1_pay4 (F := F)) v19 := rfl
theorem pieceN_27 (v0 : Vec F S64x128 .i32) (v19 : Vec F S16x128 .f32) : pieceN 27 v0 v19 = k1_pay38 v19 (k1_pay37 (k1_pay3 v0) (k1_pay4 (F := F))) (constant S128x128 .f32 0x00000000#32) := rfl
theorem pieceN_28 (v0 : Vec F S64x128 .i32) (v19 : Vec F S16x128 .f32) : pieceN 28 v0 v19 = k1_pay39 (k1_pay3 v0) (k1_pay4 (F := F)) v19 := rfl
theorem pieceN_29 (v0 : Vec F S64x128 .i32) (v19 : Vec F S16x128 .f32) : pieceN 29 v0 v19 = k1_pay40 (k1_pay3 v0) (k1_pay4 (F := F)) v19 := rfl
theorem pieceN_30 (v0 : Vec F S64x128 .i32) (v19 : Vec F S16x128 .f32) : pieceN 30 v0 v19 = k1_pay41 (k1_pay3 v0) (k1_pay4 (F := F)) v19 := rfl
theorem pieceN_31 (v0 : Vec F S64x128 .i32) (v19 : Vec F S16x128 .f32) : pieceN 31 v0 v19 = k1_pay42 (k1_pay3 v0) (k1_pay4 (F := F)) v19 := rfl
theorem pieceN_32 (v0 : Vec F S64x128 .i32) (v19 : Vec F S16x128 .f32) : pieceN 32 v0 v19 = k1_pay44 v19 (k1_pay43 (k1_pay3 v0) (k1_pay4 (F := F))) (constant S128x128 .f32 0x00000000#32) := rfl
theorem pieceN_33 (v0 : Vec F S64x128 .i32) (v19 : Vec F S16x128 .f32) : pieceN 33 v0 v19 = k1_pay45 (k1_pay3 v0) (k1_pay4 (F := F)) v19 := rfl
theorem pieceN_34 (v0 : Vec F S64x128 .i32) (v19 : Vec F S16x128 .f32) : pieceN 34 v0 v19 = k1_pay46 (k1_pay3 v0) (k1_pay4 (F := F)) v19 := rfl
theorem pieceN_35 (v0 : Vec F S64x128 .i32) (v19 : Vec F S16x128 .f32) : pieceN 35 v0 v19 = k1_pay47 (k1_pay3 v0) (k1_pay4 (F := F)) v19 := rfl
theorem pieceN_36 (v0 : Vec F S64x128 .i32) (v19 : Vec F S16x128 .f32) : pieceN 36 v0 v19 = k1_pay48 (k1_pay3 v0) (k1_pay4 (F := F)) v19 := rfl
theorem pieceN_37 (v0 : Vec F S64x128 .i32) (v19 : Vec F S16x128 .f32) : pieceN 37 v0 v19 = k1_pay50 v19 (k1_pay49 (k1_pay3 v0) (k1_pay4 (F := F))) (constant S128x128 .f32 0x00000000#32) := rfl
theorem pieceN_38 (v0 : Vec F S64x128 .i32) (v19 : Vec F S16x128 .f32) : pieceN 38 v0 v19 = k1_pay51 (k1_pay3 v0) (k1_pay4 (F := F)) v19 := rfl
theorem pieceN_39 (v0 : Vec F S64x128 .i32) (v19 : Vec F S16x128 .f32) : pieceN 39 v0 v19 = k1_pay52 (k1_pay3 v0) (k1_pay4 (F := F)) v19 := rfl
theorem pieceN_40 (v0 : Vec F S64x128 .i32) (v19 : Vec F S16x128 .f32) : pieceN 40 v0 v19 = k1_pay53 (k1_pay3 v0) (k1_pay4 (F := F)) v19 := rfl
theorem pieceN_41 (v0 : Vec F S64x128 .i32) (v19 : Vec F S16x128 .f32) : pieceN 41 v0 v19 = k1_pay54 (k1_pay3 v0) (k1_pay4 (F := F)) v19 := rfl
theorem pieceN_42 (v0 : Vec F S64x128 .i32) (v19 : Vec F S16x128 .f32) : pieceN 42 v0 v19 = k1_pay56 v19 (k1_pay55 (k1_pay3 v0) (k1_pay4 (F := F))) (constant S128x128 .f32 0x00000000#32) := rfl
theorem pieceN_43 (v0 : Vec F S64x128 .i32) (v19 : Vec F S16x128 .f32) : pieceN 43 v0 v19 = k1_pay57 (k1_pay3 v0) (k1_pay4 (F := F)) v19 := rfl
theorem pieceN_44 (v0 : Vec F S64x128 .i32) (v19 : Vec F S16x128 .f32) : pieceN 44 v0 v19 = k1_pay58 (k1_pay3 v0) (k1_pay4 (F := F)) v19 := rfl
theorem pieceN_45 (v0 : Vec F S64x128 .i32) (v19 : Vec F S16x128 .f32) : pieceN 45 v0 v19 = k1_pay59 (k1_pay3 v0) (k1_pay4 (F := F)) v19 := rfl
theorem pieceN_46 (v0 : Vec F S64x128 .i32) (v19 : Vec F S16x128 .f32) : pieceN 46 v0 v19 = k1_pay60 (k1_pay3 v0) (k1_pay4 (F := F)) v19 := rfl
theorem pieceN_47 (v0 : Vec F S64x128 .i32) (v19 : Vec F S16x128 .f32) : pieceN 47 v0 v19 = k1_pay62 v19 (k1_pay61 (k1_pay3 v0) (k1_pay4 (F := F))) (constant S128x128 .f32 0x00000000#32) := rfl
theorem pieceN_48 (v0 : Vec F S64x128 .i32) (v19 : Vec F S16x128 .f32) : pieceN 48 v0 v19 = k1_pay63 (k1_pay3 v0) (k1_pay4 (F := F)) v19 := rfl
theorem pieceN_49 (v0 : Vec F S64x128 .i32) (v19 : Vec F S16x128 .f32) : pieceN 49 v0 v19 = k1_pay64 (k1_pay3 v0) (k1_pay4 (F := F)) v19 := rfl
theorem pieceN_50 (v0 : Vec F S64x128 .i32) (v19 : Vec F S16x128 .f32) : pieceN 50 v0 v19 = k1_pay65 (k1_pay3 v0) (k1_pay4 (F := F)) v19 := rfl
theorem pieceN_51 (v0 : Vec F S64x128 .i32) (v19 : Vec F S16x128 .f32) : pieceN 51 v0 v19 = k1_pay66 (k1_pay3 v0) (k1_pay4 (F := F)) v19 := rfl
theorem pieceN_52 (v0 : Vec F S64x128 .i32) (v19 : Vec F S16x128 .f32) : pieceN 52 v0 v19 = k1_pay68 v19 (k1_pay67 (k1_pay3 v0) (k1_pay4 (F := F))) (constant S128x128 .f32 0x00000000#32) := rfl
theorem pieceN_53 (v0 : Vec F S64x128 .i32) (v19 : Vec F S16x128 .f32) : pieceN 53 v0 v19 = k1_pay69 (k1_pay3 v0) (k1_pay4 (F := F)) v19 := rfl
theorem pieceN_54 (v0 : Vec F S64x128 .i32) (v19 : Vec F S16x128 .f32) : pieceN 54 v0 v19 = k1_pay70 (k1_pay3 v0) (k1_pay4 (F := F)) v19 := rfl
theorem pieceN_55 (v0 : Vec F S64x128 .i32) (v19 : Vec F S16x128 .f32) : pieceN 55 v0 v19 = k1_pay71 (k1_pay3 v0) (k1_pay4 (F := F)) v19 := rfl
theorem pieceN_56 (v0 : Vec F S64x128 .i32) (v19 : Vec F S16x128 .f32) : pieceN 56 v0 v19 = k1_pay72 (k1_pay3 v0) (k1_pay4 (F := F)) v19 := rfl
theorem pieceN_57 (v0 : Vec F S64x128 .i32) (v19 : Vec F S16x128 .f32) : pieceN 57 v0 v19 = k1_pay74 v19 (k1_pay73 (k1_pay3 v0) (k1_pay4 (F := F))) (constant S128x128 .f32 0x00000000#32) := rfl
theorem pieceN_58 (v0 : Vec F S64x128 .i32) (v19 : Vec F S16x128 .f32) : pieceN 58 v0 v19 = k1_pay75 (k1_pay3 v0) (k1_pay4 (F := F)) v19 := rfl
theorem pieceN_59 (v0 : Vec F S64x128 .i32) (v19 : Vec F S16x128 .f32) : pieceN 59 v0 v19 = k1_pay76 (k1_pay3 v0) (k1_pay4 (F := F)) v19 := rfl
theorem pieceN_60 (v0 : Vec F S64x128 .i32) (v19 : Vec F S16x128 .f32) : pieceN 60 v0 v19 = k1_pay77 (k1_pay3 v0) (k1_pay4 (F := F)) v19 := rfl
theorem pieceN_61 (v0 : Vec F S64x128 .i32) (v19 : Vec F S16x128 .f32) : pieceN 61 v0 v19 = k1_pay78 (k1_pay3 v0) (k1_pay4 (F := F)) v19 := rfl
theorem pieceN_62 (v0 : Vec F S64x128 .i32) (v19 : Vec F S16x128 .f32) : pieceN 62 v0 v19 = k1_pay1 v19 (k1_pay79 (k1_pay3 v0) (k1_pay4 (F := F))) (constant S128x128 .f32 0x00000000#32) := rfl
theorem pieceN_63 (v0 : Vec F S64x128 .i32) (v19 : Vec F S16x128 .f32) : pieceN 63 v0 v19 = k1_pay2 (k1_pay3 v0) (k1_pay4 (F := F)) v19 := rfl

/-- Block `t` of the positions: rows `64 t ...` of the `[256, 128]` array. -/
def posBlk (t : Fin 4) (pos2 : Vec F S256x128 .i32) : Vec F S64x128 .i32 :=
  fun j => pos2 (ix2 (n0 := 256) (n1 := 128) ⟨64 * t.val + (j 0).val, by have := t.isLt; have := idx2_lt0 j; omega⟩ (j 1))

/-- What one grid point leaves in its output block: row `y` is local row `y % 128` of piece `y / 128`. -/
def blockOut (v0 : Vec F S64x128 .i32) (v19 : Vec F S16x128 .f32) : Vec F S8192x128 .f32 :=
  fun y => pieceN ((y 0).val / 128) v0 v19 (ix2 (n0 := 128) (n1 := 128) ⟨(y 0).val % 128, Nat.mod_lt _ (by decide)⟩ (y 1))

/-- The call's result: row `b` is row `b % 8192` of the block computed from position block `b / 8192`. -/
def tcOut (pos2 : Vec F S256x128 .i32) (tab : Vec F S16x128 .f32) : Vec F S32768x128 .f32 :=
  fun i => blockOut (posBlk ⟨(i 0).val / 8192, by have := idx2_lt0 i; omega⟩ pos2) tab
    (ix2 (n0 := 8192) (n1 := 128) ⟨(i 0).val % 8192, Nat.mod_lt _ (by decide)⟩ (i 1))

theorem blockOut_apply (v0 : Vec F S64x128 .i32) (v19 : Vec F S16x128 .f32) (y : Fin 8192) (dd : Fin 128) :
    blockOut v0 v19 (ix2 (n0 := 8192) (n1 := 128) y dd)
      = pieceN (y.val / 128) v0 v19 (ix2 (n0 := 128) (n1 := 128) ⟨y.val % 128, Nat.mod_lt _ (by decide)⟩ dd) := rfl

theorem tcOut_apply (pos2 : Vec F S256x128 .i32) (tab : Vec F S16x128 .f32) (b : Fin 32768) (dd : Fin 128) :
    tcOut pos2 tab (ix2 (n0 := 32768) (n1 := 128) b dd)
      = pieceN (b.val % 8192 / 128) (posBlk ⟨b.val / 8192, by have := b.isLt; omega⟩ pos2) tab
          (ix2 (n0 := 128) (n1 := 128) ⟨b.val % 128, Nat.mod_lt _ (by decide)⟩ dd) := by
  have h : b.val % 8192 % 128 = b.val % 128 := Nat.mod_mod_of_dvd _ (by decide)
  show pieceN (b.val % 8192 / 128) _ tab (ix2 (n0 := 128) (n1 := 128) ⟨b.val % 8192 % 128, _⟩ dd) = _
  congr 2
  exact Fin.ext h

end Cert.Proof.KB

end
-- ==== Proof.TcBodyK.lean ====
/-
  One grid point of the TensorCore call, run once at symbolic staging buffers.  From the position block `x0`, the
  table `x1` and an output block at anything, the body hands back the two inputs as they were and the output block
  at `blockOut x0 x1`: its 64 stores, each a whole 128 x 128 piece at rows `128 k ...`, tile the block, so what the
  block reads after them is, at every index, the payload of the one piece that holds the index.
-/
import proofs.«214958_g36086315221739_cont_8to1_b_1353_25_alg».proof.Proof.TcDataK
import Idealize.ShloMosaic.Lib.Pipeline.Value

noncomputable section

namespace Cert.Proof.KB

open Cert.Kernel Cert.Kernel.Gen
open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The stores as pieces -/

/-- Piece `k`'s rectangle lies in the block: rows `128 k ... 128 k + 127`, all 128 columns. -/
theorem inbP (k : ℕ) (hk : k < 64) : ∀ a : Fin 2, (![128 * k, 0] : Fin 2 → ℕ) a + S128x128.size a ≤ S8192x128.size a := by
  intro a
  match a with
  | ⟨0, _⟩ => show 128 * k + 128 ≤ 8192; omega
  | ⟨1, _⟩ => show 0 + 128 ≤ 128; omega

/-- The `k`-th store: its rectangle and its payload. -/
def pieceAt (v0 : Vec F S64x128 .i32) (v19 : Vec F S16x128 .f32) (k : ℕ) (hk : k < 64) : View.Piece (Elt F) S8192x128 .f32 :=
  ⟨Rect.unit ![128 * k, 0] S128x128.size (inbP k hk), pieceN k v0 v19⟩

/-- The body's stores into its output block, last first. -/
def pieces (v0 : Vec F S64x128 .i32) (v19 : Vec F S16x128 .f32) : List (View.Piece (Elt F) S8192x128 .f32) :=
  [pieceAt v0 v19 63 (by decide),
   pieceAt v0 v19 62 (by decide),
   pieceAt v0 v19 61 (by decide),
   pieceAt v0 v19 60 (by decide),
   pieceAt v0 v19 59 (by decide),
   pieceAt v0 v19 58 (by decide),
   pieceAt v0 v19 57 (by decide),
   pieceAt v0 v19 56 (by decide),
   pieceAt v0 v19 55 (by decide),
   pieceAt v0 v19 54 (by decide),
   pieceAt v0 v19 53 (by decide),
   pieceAt v0 v19 52 (by decide),
   pieceAt v0 v19 51 (by decide),
   pieceAt v0 v19 50 (by decide),
   pieceAt v0 v19 49 (by decide),
   pieceAt v0 v19 48 (by decide),
   pieceAt v0 v19 47 (by decide),
   pieceAt v0 v19 46 (by decide),
   pieceAt v0 v19 45 (by decide),
   pieceAt v0 v19 44 (by decide),
   pieceAt v0 v19 43 (by decide),
   pieceAt v0 v19 42 (by decide),
   pieceAt v0 v19 41 (by decide),
   pieceAt v0 v19 40 (by decide),
   pieceAt v0 v19 39 (by decide),
   pieceAt v0 v19 38 (by decide),
   pieceAt v0 v19 37 (by decide),
   pieceAt v0 v19 36 (by decide),
   pieceAt v0 v19 35 (by decide),
   pieceAt v0 v19 34 (by decide),
   pieceAt v0 v19 33 (by decide),
   pieceAt v0 v19 32 (by decide),
   pieceAt v0 v19 31 (by decide),
   pieceAt v0 v19 30 (by decide),
   pieceAt v0 v19 29 (by decide),
   pieceAt v0 v19 28 (by decide),
   pieceAt v0 v19 27 (by decide),
   pieceAt v0 v19 26 (by decide),
   pieceAt v0 v19 25 (by decide),
   pieceAt v0 v19 24 (by decide),
   pieceAt v0 v19 23 (by decide),
   pieceAt v0 v19 22 (by decide),
   pieceAt v0 v19 21 (by decide),
   pieceAt v0 v19 20 (by decide),
   pieceAt v0 v19 19 (by decide),
   pieceAt v0 v19 18 (by decide),
   pieceAt v0 v19 17 (by decide),
   pieceAt v0 v19 16 (by decide),
   pieceAt v0 v19 15 (by decide),
   pieceAt v0 v19 14 (by decide),
   pieceAt v0 v19 13 (by decide),
   pieceAt v0 v19 12 (by decide),
   pieceAt v0 v19 11 (by decide),
   pieceAt v0 v19 10 (by decide),
   pieceAt v0 v19 9 (by decide),
   pieceAt v0 v19 8 (by decide),
   pieceAt v0 v19 7 (by decide),
   pieceAt v0 v19 6 (by decide),
   pieceAt v0 v19 5 (by decide),
   pieceAt v0 v19 4 (by decide),
   pieceAt v0 v19 3 (by decide),
   pieceAt v0 v19 2 (by decide),
   pieceAt v0 v19 1 (by decide),
   pieceAt v0 v19 0 (by decide)]

/-- Every piece is the block's function restricted to its rectangle. -/
theorem pieceAt_ok (v0 : Vec F S64x128 .i32) (v19 : Vec F S16x128 .f32) (k : ℕ) (hk : k < 64)
    (x : (pieceAt v0 v19 k hk).1.shape.Idx) :
    (pieceAt v0 v19 k hk).2 x = blockOut v0 v19 ((pieceAt v0 v19 k hk).1.emb x) := by
  have hx0 : (x 0).val < 128 := (x 0).isLt
  have h0 : ((pieceAt v0 v19 k hk).1.emb x 0).val = 128 * k + 1 * (x 0).val := rfl
  have h1 : ((pieceAt v0 v19 k hk).1.emb x 1).val = 0 + 1 * (x 1).val := rfl
  have hd : ((pieceAt v0 v19 k hk).1.emb x 0).val / 128 = k := by rw [h0]; omega
  have hm : ((pieceAt v0 v19 k hk).1.emb x 0).val % 128 = (x 0).val := by rw [h0]; omega
  have hix : (ix2 (n0 := 128) (n1 := 128) ⟨((pieceAt v0 v19 k hk).1.emb x 0).val % 128, Nat.mod_lt _ (by decide)⟩
      ((pieceAt v0 v19 k hk).1.emb x 1) : S128x128.Idx) = x := by
    funext a
    match a with
    | ⟨0, _⟩ => exact Fin.ext hm
    | ⟨1, _⟩ => exact Fin.ext (h1.trans (by show 0 + 1 * (x 1).val = (x 1).val; omega))
  show pieceN k v0 v19 x = pieceN (((pieceAt v0 v19 k hk).1.emb x 0).val / 128) v0 v19 _
  exact (congr (congrArg (fun n => pieceN n v0 v19) hd) hix).symm

theorem pieces_ok (v0 : Vec F S64x128 .i32) (v19 : Vec F S16x128 .f32) :
    ∀ p ∈ pieces v0 v19, ∀ x : p.1.shape.Idx, p.2 x = blockOut v0 v19 (p.1.emb x) := by
  intro p hp
  have h : ∃ k hk, p = pieceAt v0 v19 k hk := by
    simp only [pieces, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact ⟨_, _, rfl⟩
  obtain ⟨k, hk, rfl⟩ := h
  exact pieceAt_ok v0 v19 k hk

/-- The pieces tile the block (checked by evaluation), so they cover it. -/
theorem pieces_cover (v0 : Vec F S64x128 .i32) (v19 : Vec F S16x128 .f32) (y : S8192x128.Idx) :
    ∃ p ∈ pieces v0 v19, y ∈ p.1.set :=
  View.cover_of_tiled (pieces v0 v19) S128x128.size (by rfl) y

/-- What the block reads after the stores, through any view of it: `blockOut`. -/
theorem read_pieces {κ : Kind} {sp : Space} (v : View sig κ sp S8192x128 .f32) (v0 : Vec F S64x128 .i32) (v19 : Vec F S16x128 .f32) :
    v.read (Elt F) (v.writes (Elt F) v.junk (pieces v0 v19)) = blockOut v0 v19 := by
  funext y
  rw [View.read_writes_junk_apply_eq_canon]
  exact View.canon_apply_of_pieces (blockOut v0 v19) (pieces v0 v19) (pieces_ok v0 v19) y (pieces_cover v0 v19 y)

/-! ## The body's triple -/

/-- A whole-rectangle load at offset zero reads the contents. -/
theorem ld_whole0 (x0 : Vec F S64x128 .i32) (inb : ∀ a, (![0, 0] : Fin 2 → ℕ) a + S64x128.size a ≤ S64x128.size a) :
    View.ld x0 (Rect.unit ![0, 0] S64x128.size inb) = x0 :=
  View.ld_unit_zero (by funext a; match a with | ⟨0, _⟩ => rfl | ⟨1, _⟩ => rfl) inb x0
theorem ld_whole1 (x1 : Vec F S16x128 .f32) (inb : ∀ a, (![0, 0] : Fin 2 → ℕ) a + S16x128.size a ≤ S16x128.size a) :
    View.ld x1 (Rect.unit ![0, 0] S16x128.size inb) = x1 :=
  View.ld_unit_zero (by funext a; match a with | ⟨0, _⟩ => rfl | ⟨1, _⟩ => rfl) inb x1

/-- What the output block reads after the stores, the payloads stated over the two whole-rectangle loads. -/
theorem read_pieces_ld {κ : Kind} {sp : Space} (v : View sig κ sp S8192x128 .f32) (x0 : Vec F S64x128 .i32) (x1 : Vec F S16x128 .f32)
    (inb0 : ∀ a, (![0, 0] : Fin 2 → ℕ) a + S64x128.size a ≤ S64x128.size a) (inb1 : ∀ a, (![0, 0] : Fin 2 → ℕ) a + S16x128.size a ≤ S16x128.size a) :
    v.read (Elt F) (v.writes (Elt F) v.junk (pieces (View.ld x0 (Rect.unit ![0, 0] S64x128.size inb0)) (View.ld x1 (Rect.unit ![0, 0] S16x128.size inb1))))
      = blockOut x0 x1 := by
  rw [ld_whole0, ld_whole1]; exact read_pieces v x0 x1

set_option maxHeartbeats 4000000 in
set_option maxRecDepth 65536 in
/-- The body on whole staging memrefs, the inputs' at read contents `x0`, `x1` and the output's at anything, runs to
    the continuation holding the inputs' as they were and the output's at `blockOut x0 x1`. -/
theorem sound_kernel (c : Dev nD) (E : Set ℕ) (i : grid1.Coords)
    (arg1 : Memref sig .tc .vmem S64x128 .i32) (harg1 : arg1.IsWhole) (arg2 : Memref sig .tc .vmem S16x128 .f32) (harg2 : arg2.IsWhole)
    (arg3 : Memref sig .tc .vmem S8192x128 .f32) (harg3 : arg3.IsWhole)
    (x0 : Vec F S64x128 .i32) (x1 : Vec F S16x128 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (blockOut x0 x1)) -∗ Q ⟨⟩))
      ⊢ wp frame (wpE (defs₀ (F := F)) Variants.none c none) E (cc1_body i arg1 harg1 arg2 harg2 arg3 harg3) Q := by
  unfold owns
  iintro ⟨⟨%f1, %hf1, H1⟩, ⟨%f2, %hf2, H2⟩, ⟨%d3, %f3, -, H3⟩, Hk⟩
  subst hf1 hf2
  sl_exec_parts!
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact read_pieces_ld arg3.view (arg1.view.read (Elt F) f1) (arg2.view.read (Elt F) f2) _ _

end Cert.Proof.KB

end
-- ==== Proof.TcGeoK.lean ====
/-
  Where the TensorCore call's windows sit.  The grid has four points; at point `t` the position window is rows
  `64 t ...` of the `[256, 128]` array, the table window the whole table, the result window rows `8192 t ...` of
  the `[32768, 128]` result.  So the position block the body is handed is `posBlk t`, the table block the table, what
  point `t` writes back is its block of `tcOut`, and the four result blocks cover the result.
-/
import proofs.«214958_g36086315221739_cont_8to1_b_1353_25_alg».proof.Proof.TcDataK
import proofs.«214958_g36086315221739_cont_8to1_b_1353_25_alg».proof.Proof.Gen.Kernel.Launch
import proofs.«214958_g36086315221739_cont_8to1_b_1353_25_alg».proof.Proof.Gen.Kernel.Points
import Idealize.ShloMosaic.Lib.Pipeline.Value

noncomputable section

namespace Cert.Proof.KB

open Cert.Kernel Cert.Kernel.Gen
open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The windows' geometry -/

/-- The windows' block indices at a point: windows 0 and 2 follow the point, window 1 stays at its one block. -/
theorem idx_facts : ∀ t : Fin cfg1.N,
    ((cfg1.win 0).index t 0 = t.val ∧ (cfg1.win 0).index t 1 = 0) ∧ ((cfg1.win 1).index t 0 = 0 ∧ (cfg1.win 1).index t 1 = 0)
      ∧ ((cfg1.win 2).index t 0 = t.val ∧ (cfg1.win 2).index t 1 = 0) :=
  (by decide +kernel : ∀ t : Fin grid1.N,
    (win1_0.index t 0 = t.val ∧ win1_0.index t 1 = 0) ∧ (win1_1.index t 0 = 0 ∧ win1_1.index t 1 = 0)
      ∧ (win1_2.index t 0 = t.val ∧ win1_2.index t 1 = 0))

/-- A point as a number below 4. -/
def tOf (t : Fin cfg1.N) : Fin 4 := t.cast N_1

/-- Window 0's block at point `t`, read off the positions: rows `64 t ...`. -/
theorem blk0_read (d : Dev nD) (pos2 : Vec F S256x128 .i32) (t : Fin cfg1.N) :
    ((cfg1.win 0).blk t).view.read (Elt F) (pos2 : Buf (Elt F) ((cfg1.win 0).arr.view.loc ((T d) : Thread nD τ))) = posBlk (tOf t) pos2 := by
  funext y
  have ht : t.val < 4 := (tOf t).isLt
  have hy : (y 0).val < 64 := (y 0).isLt
  have e0 : ((win1_0.rect t).emb y 0).val = 64 * t.val + (y 0).val := by
    rw [Window.rect_emb_val, (idx_facts t).1.1]; show t.val * 64 + (y 0).val = _; omega
  have e1 : ((win1_0.rect t).emb y 1).val = (y 1).val := by
    rw [Window.rect_emb_val, (idx_facts t).1.2]; show 0 * 128 + (y 1).val = _; omega
  have hi : ((win1_0.rect t).emb y : S256x128.Idx)
      = ix2 (n0 := 256) (n1 := 128) ⟨64 * (tOf t).val + (y 0).val, by show 64 * t.val + (y 0).val < 256; omega⟩ ⟨(y 1).val, (y 1).isLt⟩ := by
    funext a
    match a with
    | ⟨0, _⟩ => exact Fin.ext e0
    | ⟨1, _⟩ => exact Fin.ext e1
  exact congrArg pos2 hi

/-- Window 1's block at any point, read off the table: all of it. -/
theorem blk1_read (d : Dev nD) (tab : Vec F S16x128 .f32) (t : Fin cfg1.N) :
    ((cfg1.win 1).blk t).view.read (Elt F) (tab : Buf (Elt F) ((cfg1.win 1).arr.view.loc ((T d) : Thread nD τ))) = tab := by
  funext y
  have e0 : ((win1_1.rect t).emb y 0).val = (y 0).val := by
    rw [Window.rect_emb_val, (idx_facts t).2.1.1]; show 0 * 16 + (y 0).val = _; omega
  have e1 : ((win1_1.rect t).emb y 1).val = (y 1).val := by
    rw [Window.rect_emb_val, (idx_facts t).2.1.2]; show 0 * 128 + (y 1).val = _; omega
  have hi : ((win1_1.rect t).emb y : S16x128.Idx) = y := by
    funext a
    match a with
    | ⟨0, _⟩ => exact Fin.ext e0
    | ⟨1, _⟩ => exact Fin.ext e1
  exact congrArg tab hi

/-- Window 2's block at point `t`, read off the result function: what point `t`'s body leaves. -/
theorem blk2_read (d : Dev nD) (pos2 : Vec F S256x128 .i32) (tab : Vec F S16x128 .f32) (t : Fin cfg1.N) :
    ((cfg1.win 2).blk t).view.read (Elt F) (tcOut pos2 tab : Buf (Elt F) ((cfg1.win 2).arr.view.loc ((T d) : Thread nD τ)))
      = blockOut (posBlk (tOf t) pos2) tab := by
  funext y
  have ht : t.val < 4 := (tOf t).isLt
  have hy : (y 0).val < 8192 := (y 0).isLt
  have e0 : ((win1_2.rect t).emb y 0).val = 8192 * t.val + (y 0).val := by
    rw [Window.rect_emb_val, (idx_facts t).2.2.1]; show t.val * 8192 + (y 0).val = _; omega
  have e1 : ((win1_2.rect t).emb y 1).val = (y 1).val := by
    rw [Window.rect_emb_val, (idx_facts t).2.2.2]; show 0 * 128 + (y 1).val = _; omega
  show tcOut pos2 tab ((win1_2.rect t).emb y) = _
  unfold tcOut
  have hq : ((win1_2.rect t).emb y 0).val / 8192 = t.val := by rw [e0]; omega
  have hr : ((win1_2.rect t).emb y 0).val % 8192 = (y 0).val := by rw [e0]; omega
  have hb : (⟨((win1_2.rect t).emb y 0).val / 8192, by rw [hq]; exact ht⟩ : Fin 4) = tOf t := Fin.ext hq
  have hi : (ix2 (n0 := 8192) (n1 := 128) ⟨((win1_2.rect t).emb y 0).val % 8192, Nat.mod_lt _ (by decide)⟩ ((win1_2.rect t).emb y 1) : S8192x128.Idx) = y := by
    funext a
    match a with
    | ⟨0, _⟩ => exact Fin.ext hr
    | ⟨1, _⟩ => exact Fin.ext e1
  exact congr (congrArg (fun b => blockOut (posBlk b pos2) tab) hb) hi

/-- Membership in window 2's block at a point, coordinate by coordinate. -/
theorem mem_blk2 (t : Fin cfg1.N) (i : S32768x128.Idx) :
    i ∈ ((View.whole main_v2).slice (win1_2.rect t)).set
      ↔ ∀ a, win1_2.index t a * win1_2.size a ≤ (i a : ℕ) ∧ (i a : ℕ) < win1_2.index t a * win1_2.size a + win1_2.xsize (grid1.coords t) a := by
  rw [View.set_slice_whole, Rect.mem_set_unit]

/-- Every row of the result lies in some point's block. -/
theorem cover2 (d : Dev nD) (i : ((cfg1.win 2).arr.view.loc ((T d) : Thread nD τ)).2.ty.Idx) :
    ∃ t : Fin cfg1.N, (cfg1.win 2).flush t = true ∧ i ∈ ((cfg1.win 2).blk t).view.set := by
  have hi : (i 0).val < 32768 := (i 0).isLt
  have hi1 : (i 1).val < 128 := (i 1).isLt
  have hq : (i 0).val / 8192 < cfg1.N := by rw [show cfg1.N = 4 from N_1]; omega
  refine ⟨⟨(i 0).val / 8192, hq⟩, flush1_2 _, ?_⟩
  show (i : S32768x128.Idx) ∈ ((View.whole main_v2).slice (win1_2.rect ⟨(i 0).val / 8192, hq⟩)).set
  rw [mem_blk2]
  have h0 : win1_2.index ⟨(i 0).val / 8192, hq⟩ 0 * win1_2.size 0 ≤ ((i 0 : Fin 32768) : ℕ)
      ∧ ((i 0 : Fin 32768) : ℕ) < win1_2.index ⟨(i 0).val / 8192, hq⟩ 0 * win1_2.size 0 + win1_2.xsize (grid1.coords ⟨(i 0).val / 8192, hq⟩) 0 := by
    rw [show win1_2.index ⟨(i 0).val / 8192, hq⟩ 0 = (i 0).val / 8192 from (idx_facts ⟨(i 0).val / 8192, hq⟩).2.2.1]
    show (i 0).val / 8192 * 8192 ≤ (i 0).val ∧ (i 0).val < (i 0).val / 8192 * 8192 + 8192
    omega
  have h1 : win1_2.index ⟨(i 0).val / 8192, hq⟩ 1 * win1_2.size 1 ≤ ((i 1 : Fin 128) : ℕ)
      ∧ ((i 1 : Fin 128) : ℕ) < win1_2.index ⟨(i 0).val / 8192, hq⟩ 1 * win1_2.size 1 + win1_2.xsize (grid1.coords ⟨(i 0).val / 8192, hq⟩) 1 := by
    rw [show win1_2.index ⟨(i 0).val / 8192, hq⟩ 1 = 0 from (idx_facts ⟨(i 0).val / 8192, hq⟩).2.2.2]
    show 0 * 128 ≤ (i 1).val ∧ (i 1).val < 0 * 128 + 128
    omega
  intro a
  match a with
  | ⟨0, _⟩ => exact h0
  | ⟨1, _⟩ => exact h1

end Cert.Proof.KB

end
-- ==== Proof.TcRegionK.lean ====
/-
  The TensorCore call as one step of @main on a device's TensorCore.  The call is a pipeline over a grid of four
  points: point `t` fetches rows `64 t ...` of the positions and (once) the table, runs the body, and writes its
  8192 x 128 block back to rows `8192 t ...` of the result.  The body leaves the inputs' staging buffers as fetched
  and the output's at `blockOut` of them (the body's triple), so each write-back is its block of the one function
  `tcOut`, the four blocks tile the result, and the result ends at `tcOut` whatever it held.  Around the pipeline's
  own rule stand the region's entry and exit: the staging cells' invariants are allocated at entry from the cells'
  launch state and the scoped semaphores at zero, and the region hands the boundary back whole.  The core owes
  nothing while the region runs (the one SparseCore call is over), and the pairs its waits have recorded stay
  below the level bound they were below: the pipeline's own waits are at the index no call has, of level zero.
-/
import proofs.«214958_g36086315221739_cont_8to1_b_1353_25_alg».proof.Proof.TcBodyK
import proofs.«214958_g36086315221739_cont_8to1_b_1353_25_alg».proof.Proof.TcGeoK

noncomputable section

namespace Cert.Proof.KB

open Cert.Kernel Cert.Kernel.Gen
open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The call has no prefetched table. -/
abbrev adm : (p : Fin 1) → (pcfgs (F := F) p).Adm := fun p => (cfgs p).toPCfg_adm

section Data

variable (b : ℕ) (pos2 : Vec F S256x128 .i32) (tab : Vec F S16x128 .f32) (f2 : Vec F S32768x128 .f32)

/-! ## The pipeline's proof data -/

/-- The proof data on device `d`: the three arrays as the region finds them; after the body at point `t` the
    position window at its block, the table window at the table, the result window at `blockOut` of the two; no
    invariant of the body's own; nothing owed; full shares; the recorded pairs below level `b`. -/
def dats (_ : Fin 1) (d : Dev nD) : Dat τ (Elt F) (HIx 1) ℕ UU ℕ cfg1 d where
  A w := match w with
    | ⟨0, _⟩ => pos2
    | ⟨1, _⟩ => tab
    | ⟨2, _⟩ => f2
  after w t := match w with
    | ⟨0, _⟩ => posBlk (tOf t) pos2
    | ⟨1, _⟩ => tab
    | ⟨2, _⟩ => blockOut (posBlk (tOf t) pos2) tab
  Φ _ := iprop(emp)
  q _ := fullShare
  owed _ := 0
  recorded _ := {p | (K (F := F)).lev (((T d) : Thread nD τ), p.1) p.2 ≤ b}

theorem after0 (d : Dev nD) (t : Fin cfg1.N) : (dats b pos2 tab f2 0 d).after 0 t = posBlk (tOf t) pos2 := by dsimp only [dats]
theorem after1 (d : Dev nD) (t : Fin cfg1.N) : (dats b pos2 tab f2 0 d).after 1 t = tab := by dsimp only [dats]
theorem after2 (d : Dev nD) (t : Fin cfg1.N) : (dats b pos2 tab f2 0 d).after 2 t = blockOut (posBlk (tOf t) pos2) tab := by dsimp only [dats]

/-- The position window's buffer holds its block at every point (it is fetched at every point). -/
theorem before0 (d : Dev nD) (t : Fin cfg1.N) (dd) : (dats b pos2 tab f2 0 d).before 0 t dd = posBlk (tOf t) pos2 :=
  ((dats b pos2 tab f2 0 d).before_in_eq_fetched 0 rfl (fun _ => rfl) (fun _ _ _ => rfl)
    (fun t => by rw [after0]; unfold Dat.blockOf; exact (blk0_read d pos2 t).symm) t dd).trans
    (by unfold Dat.fetched Dat.blockOf; exact blk0_read d pos2 t)

/-- The table window's buffer holds the table at every point, fetched there or not. -/
theorem before1 (d : Dev nD) (t : Fin cfg1.N) (dd) : (dats b pos2 tab f2 0 d).before 1 t dd = tab :=
  ((dats b pos2 tab f2 0 d).before_in_eq_fetched 1 rfl (fun _ => rfl) (fun _ _ _ => rfl)
    (fun t => by rw [after1]; unfold Dat.blockOf; exact (blk1_read d tab t).symm) t dd).trans
    (by unfold Dat.fetched Dat.blockOf; exact blk1_read d tab t)

/-! ## The body obligation -/

/-- The body at any point: the inputs' buffers hold their blocks, so the body's triple applies; the invariant and the
    core's `owes` pass through unread. -/
theorem sound_body (d : Dev nD) (t : Fin cfg1.N) :
    iprop((dats b pos2 tab f2 0 d).Φ t.castSucc ∗ (dats b pos2 tab f2 0 d).owesAt none t.castSucc
        ∗ (∃ dd, owns ((T d) : Thread nD τ) (st1_0 t) fullShare ((dats b pos2 tab f2 0 d).before 0 t dd))
        ∗ (∃ dd, owns ((T d) : Thread nD τ) (st1_1 t) fullShare ((dats b pos2 tab f2 0 d).before 1 t dd))
        ∗ (∃ dd, owns ((T d) : Thread nD τ) (st1_2 t) fullShare ((dats b pos2 tab f2 0 d).before 2 t dd)))
      ⊢ wp frame (wpE (defs₀ (F := F)) Variants.none d none) Set.univ (bodyAt1 t) fun _ =>
          iprop((dats b pos2 tab f2 0 d).Φ t.succ ∗ (dats b pos2 tab f2 0 d).owesAt none t.succ
            ∗ owns ((T d) : Thread nD τ) (st1_0 t) fullShare ((dats b pos2 tab f2 0 d).after 0 t)
            ∗ owns ((T d) : Thread nD τ) (st1_1 t) fullShare ((dats b pos2 tab f2 0 d).after 1 t)
            ∗ owns ((T d) : Thread nD τ) (st1_2 t) fullShare ((dats b pos2 tab f2 0 d).after 2 t)) := by
  unfold bodyAt1
  simp only [before0, before1]
  rw [show (dats b pos2 tab f2 0 d).Φ t.succ = (dats b pos2 tab f2 0 d).Φ t.castSucc from rfl,
    show (dats b pos2 tab f2 0 d).owesAt none t.succ = (dats b pos2 tab f2 0 d).owesAt none t.castSucc from rfl, after0, after1, after2]
  iintro ⟨HΦ, Ho, ⟨%d0, H0⟩, ⟨%d1, H1⟩, ⟨%d2, H2⟩⟩
  iapply (sound_kernel d Set.univ (grid1.coords t) _ _ _ _ _ _ (posBlk (tOf t) pos2) tab _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (d : Dev nD) : BodyObligation (dats b pos2 tab f2 0 d) (defs₀ (F := F)) Variants.none (none : HIx 1) Set.univ := fun t => by
  rw [bigSep_W1, bigSep_W1]
  exact sound_body b pos2 tab f2 d t

/-! ## The arrays after the run -/

theorem share_eq (d : Dev nD) (w : Fin cfg1.W) : (dats b pos2 tab f2 0 d).share w = fullShare := (dats b pos2 tab f2 0 d).share_full (fun _ => rfl) w

theorem arrAt0 (d : Dev nD) : (dats b pos2 tab f2 0 d).arrAt 0 cfg1.N = pos2 := (dats b pos2 tab f2 0 d).arrAt_in 0 rfl _
theorem arrAt1 (d : Dev nD) : (dats b pos2 tab f2 0 d).arrAt 1 cfg1.N = tab := (dats b pos2 tab f2 0 d).arrAt_in 1 rfl _
/-- The result ends at `tcOut`: every point writes back its block of it, and the blocks cover the result. -/
theorem arrAt2 (d : Dev nD) : (dats b pos2 tab f2 0 d).arrAt 2 cfg1.N = tcOut pos2 tab :=
  (dats b pos2 tab f2 0 d).arrAt_eq_of_cover 2 (tcOut pos2 tab)
    (fun t _ => by
      show (cfg1.win 2).cut (cfg1.grid.coords t) ((dats b pos2 tab f2 0 d).after 2 t) = _
      rw [after2]; exact (blk2_read d pos2 tab t).symm)
    (cover2 d)

end Data

/-! ## The arrays at the region's two ends, one by one -/

section Ends

variable (b : ℕ) (pos2 : Vec F S256x128 .i32) (tab : Vec F S16x128 .f32) (f2 : Vec F S32768x128 .f32)

theorem arrays_entry (d : Dev nD) :
    ((dats b pos2 tab f2 0 d).arrays ((dats b pos2 tab f2 0 d).arrAt · 0) : sProp 𝕄)
      = iprop((((T d) : Thread nD τ).loc main_v0 ↦{fullShare} pos2) ∗ (((T d) : Thread nD τ).loc main_arg2 ↦{fullShare} tab)
          ∗ (((T d) : Thread nD τ).loc main_v2 ↦{fullShare} f2)) := by
  rw [Pipeline.arrays_eq cfgs (dats b pos2 tab f2) 0 d launch1.arr_whole (share_eq b pos2 tab f2 d), bigSep_W1]
  rfl

theorem arrays_exit (d : Dev nD) :
    ((dats b pos2 tab f2 0 d).arrays ((dats b pos2 tab f2 0 d).arrAt · cfg1.N) : sProp 𝕄)
      = iprop((((T d) : Thread nD τ).loc main_v0 ↦{fullShare} pos2) ∗ (((T d) : Thread nD τ).loc main_arg2 ↦{fullShare} tab)
          ∗ (((T d) : Thread nD τ).loc main_v2 ↦{fullShare} tcOut pos2 tab)) := by
  rw [Pipeline.arrays_eq cfgs (dats b pos2 tab f2) 0 d launch1.arr_whole (share_eq b pos2 tab f2 d), bigSep_W1]
  show iprop((_ ↦{fullShare} (dats b pos2 tab f2 0 d).arrAt 0 cfg1.N) ∗ (_ ↦{fullShare} (dats b pos2 tab f2 0 d).arrAt 1 cfg1.N) ∗ (_ ↦{fullShare} (dats b pos2 tab f2 0 d).arrAt 2 cfg1.N)) = _
  rw [arrAt0, arrAt1, arrAt2]

end Ends

/-! ## The region -/

/-- What the core owes — nothing — with its recorded pairs below level `b`, as the launch keeps it. -/
abbrev owesB (b : ℕ) (d : Dev nD) : sProp 𝕄 :=
  iprop(∃ W, ⌜(K (F := F)).WBelow (T d) W b⌝ ∗ owes ((T d) : Thread nD τ) (0 : CellTallies nD τ sig (HIx 1)) W)

/-- The thread state the region is entered from: the three arrays and the core's `owes`. -/
abbrev regPre (b : ℕ) (d : Dev nD) (pos2 : Vec F S256x128 .i32) (tab : Vec F S16x128 .f32) (f2 : Vec F S32768x128 .f32) : sProp 𝕄 :=
  iprop((((T d) : Thread nD τ).loc main_v0 ↦{fullShare} pos2) ∗ (((T d) : Thread nD τ).loc main_arg2 ↦{fullShare} tab)
    ∗ (((T d) : Thread nD τ).loc main_v2 ↦{fullShare} f2) ∗ owesB b d)
/-- The one it leaves: the result at `tcOut`. -/
abbrev regPost (b : ℕ) (d : Dev nD) (pos2 : Vec F S256x128 .i32) (tab : Vec F S16x128 .f32) : sProp 𝕄 :=
  iprop((((T d) : Thread nD τ).loc main_v0 ↦{fullShare} pos2) ∗ (((T d) : Thread nD τ).loc main_arg2 ↦{fullShare} tab)
    ∗ (((T d) : Thread nD τ).loc main_v2 ↦{fullShare} tcOut pos2 tab) ∗ owesB b d)

section Region

variable (lv : GSem nD τ sig → HIx 1 → ℕ) (b : ℕ) (pos2 : Vec F S256x128 .i32) (tab : Vec F S16x128 .f32) (f2 : Vec F S32768x128 .f32)

set_option backward.isDefEq.respectTransparency.types false in
/-- The region: the windows' decided layout, no semaphore of the kernel's own, the body obligation; entered from the
    three arrays and the core's `owes`, left with the result at `tcOut`. -/
def reg : Pipeline.RegionSeg (pcfgs (F := F)) adm (dats b pos2 tab f2) (none : HIx 1) defs₀ 𝒱₀ (K (F := F)).L lv 0 where
  win := launch1.win.to₀
  block_pos := launch1.block_pos
  stage_whole := launch1.stage_whole
  K := PEmpty
  osem := fun k => k.elim
  ho := Pipeline.OwnSemFacts.none spec1
  hbody c := (body_obligation b pos2 tab f2 c).loose
  hwaits := Pipeline.hwaits_of_owed_zero _ _ _ _ _ lv 0 fun _ _ => rfl
  pre d := regPre b d pos2 tab f2
  post d := regPost b d pos2 tab
  X _ := iprop(emp)
  Y _ := iprop(emp)
  Z _ := iprop(emp)
  hentry d := by
    rw [arrays_entry]
    iintro ⟨⟨H0, H1, H2, ⟨%W, %hW, HO⟩⟩, -, -⟩
    imodintro
    isplitl [H0 H1 H2]
    · isplitl [H0]; · iexact H0
      isplitl [H1] <;> iassumption
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin d := by
    rw [show (dats b pos2 tab f2 0 d).Φ 0 = (BI.emp : sProp 𝕄) from rfl]
    iintro -; iempintro
  hout d := by
    rw [Pipeline.ownSems0_none, scopedRest1_eq, show (dats b pos2 tab f2 0 d).Φ (Fin.last cfg1.N) = (BI.emp : sProp 𝕄) from rfl]
    iintro -
    isplitr; · iempintro
    isplitr <;> iempintro
  hexit d := by
    rw [arrays_exit]
    iintro ⟨⟨H0, H1, H2⟩, HO, -, -⟩
    imodintro
    isplitl [H0]; · iexact H0
    isplitl [H1]; · iexact H1
    isplitl [H2]; · iexact H2
    unfold Pipeline.Dat.owesAt Pipeline.owesWithin
    icases HO with ⟨%W, %hW, HO⟩
    iexists W; isplitr; swap; · iexact HO
    ipureintro
    intro p hp
    rcases hW (Finset.mem_coe.mpr hp) with h | ⟨w, s, e⟩
    · exact h
    · rw [e]; exact Nat.zero_le _

theorem reg_pre (d : Dev nD) : (reg lv b pos2 tab f2).pre d = regPre b d pos2 tab f2 := rfl
theorem reg_post (d : Dev nD) : (reg lv b pos2 tab f2).post d = regPost b d pos2 tab := rfl

end Region

/-! ## The step of @main -/

/-- The region's ghost resources on device `d`: the launch state of the call's staging cells and the duty tokens of
    the transfers its loop issues. -/
def RG (d : Dev nD) : sProp 𝕄 :=
  iprop(Pipeline.cellsGhost (Pipeline.pin (pcfgs (F := F)) adm) EP 0 d ∗ Pipeline.toksInit (Pipeline.pin (pcfgs (F := F)) adm) EP 0 d)

/-- What the call runs from, beside the region's ghost resources and the level facts. -/
abbrev tcPre (b : ℕ) (d : Dev nD) (pos2 : Vec F S256x128 .i32) (tab : Vec F S16x128 .f32) : sProp 𝕄 :=
  iprop(boundary ((T d) : Thread nD τ)
    ∗ (((T d) : Thread nD τ).loc main_v0 ↦{fullShare} pos2) ∗ (((T d) : Thread nD τ).loc main_arg2 ↦{fullShare} tab)
    ∗ (∃ f, ((T d) : Thread nD τ).loc main_v2 ↦{fullShare} f) ∗ owesB b d)

/-- What it runs to. -/
abbrev tcPost (b : ℕ) (d : Dev nD) (pos2 : Vec F S256x128 .i32) (tab : Vec F S16x128 .f32) : sProp 𝕄 :=
  iprop(boundary ((T d) : Thread nD τ)
    ∗ (((T d) : Thread nD τ).loc main_v0 ↦{fullShare} pos2) ∗ (((T d) : Thread nD τ).loc main_arg2 ↦{fullShare} tab)
    ∗ (((T d) : Thread nD τ).loc main_v2 ↦{fullShare} tcOut pos2 tab) ∗ owesB b d)

set_option maxHeartbeats 1000000 in
set_option backward.isDefEq.respectTransparency.types false in
/-- The call in the pipeline library's own signature: the region rule at the region above, its continuation the return. -/
theorem tc_region₀ (lv : GSem nD τ sig → HIx 1 → ℕ) (b : ℕ) (d : Dev nD) (pos2 : Vec F S256x128 .i32) (tab : Vec F S16x128 .f32) :
    iprop(RG (F := F) d ∗ levAts (K (F := F)).L lv ∗ tcPre b d pos2 tab)
      ⊢ wp frame (wpE (D (F := F)) 𝒱 (T d) none) Set.univ
          (.op (.customCall (Pipeline.entry (0 : Fin 1)) ()) fun _ => .ret PUnit.unit) fun _ => tcPost b d pos2 tab := by
  unfold RG
  iintro ⟨⟨Hg, Ht⟩, #Hla, Hbd, H0, H1, ⟨%f2, H2⟩, HO⟩
  have hwp := Pipeline.RegionSeg.wp (pcfgs (F := F)) adm (dats b pos2 tab f2) (none : HIx 1) cellOf_inj EP defs₀ 𝒱₀ (K (F := F)).L lv
    (reg lv b pos2 tab f2) d none (fun u hu => nomatch hu) (α := PUnit) (fun _ => .ret PUnit.unit) (fun _ => tcPost b d pos2 tab)
  rw [reg_pre, reg_post] at hwp
  iapply hwp
  isplitr
  · iintro ⟨Hbd, H0, H1, H2, HO⟩
    rw [wp_ret]
    imodintro
    isplitl [Hbd]; · iexact Hbd
    isplitl [H0]; · iexact H0
    isplitl [H1]; · iexact H1
    isplitl [H2] <;> iassumption
  isplitl [Hbd]; · iexact Hbd
  isplitl [H0 H1 H2 HO]
  · isplitl [H0]; · iexact H0
    isplitl [H1]; · iexact H1
    isplitl [H2] <;> iassumption
  isplitr; · iexact Hla
  isplitl [Hg] <;> iassumption

set_option maxHeartbeats 1000000 in
/-- The call's line of @main is the pipeline's call lifted to the launch's signature. -/
theorem lift_entry :
    SparseCore.liftProg (Q := 1) (.op (.customCall (Pipeline.entry (0 : Fin 1)) ()) fun _ => .ret PUnit.unit :
        Prog (TpuEff nD τ sig (Elt F) (ΛP (F := F)) .tc) PUnit)
      = Prog.lift (.customCall (SparseCore.inner (Pipeline.entry 0)) ()) := rfl

set_option maxHeartbeats 1000000 in
/-- The call, from the region's ghost resources, the level facts, the region boundary, the two inputs, the result at
    anything and the core owing nothing: it runs to the boundary, the inputs as they were and the result at `tcOut`. -/
theorem tc_region (lv : GSem nD τ sig → HIx 1 → ℕ) (b : ℕ) (d : Dev nD) (pos2 : Vec F S256x128 .i32) (tab : Vec F S16x128 .f32) :
    iprop(RG (F := F) d ∗ levAts (K (F := F)).L lv ∗ boundary ((T d) : Thread nD τ)
        ∗ (((T d) : Thread nD τ).loc main_v0 ↦{fullShare} pos2) ∗ (((T d) : Thread nD τ).loc main_arg2 ↦{fullShare} tab)
        ∗ (∃ f, ((T d) : Thread nD τ).loc main_v2 ↦{fullShare} f) ∗ owesB b d)
      ⊢ wp frame (wpE ((K (F := F)).defs D) 𝒱 (T d) none) Set.univ (Prog.lift (.customCall (SparseCore.inner (Pipeline.entry 0)) ())) fun _ =>
          iprop(boundary ((T d) : Thread nD τ)
            ∗ (((T d) : Thread nD τ).loc main_v0 ↦{fullShare} pos2) ∗ (((T d) : Thread nD τ).loc main_arg2 ↦{fullShare} tab)
            ∗ (((T d) : Thread nD τ).loc main_v2 ↦{fullShare} tcOut pos2 tab) ∗ owesB b d) := by
  rw [← lift_entry]
  exact (tc_region₀ lv b d pos2 tab).trans ((K (F := F)).wp_liftProg D 𝒱 (T d) Set.univ none _ _)

/-! ## Funding the region's ghost resources at launch -/

/-- The launch element of the staging cells' rounds: every cell's owner at round 0, a duty token per transfer. -/
def upInit : UP := initOf (Pipeline.cells cfgs cellOf_inj) (Pipeline.launchToks cfgs cellOf_inj)

/-- From it, every device's region resources. -/
theorem RG_fund : BI.own ((EP (F := F)) upInit) ⊢ |==> bigSep Finset.univ fun d : Dev nD => RG (F := F) d := by
  have h1 : ∀ Φ : Fin 1 → sProp 𝕄, bigSep Finset.univ Φ = Φ 0 := fun Φ => by
    rw [show (Finset.univ : Finset (Fin 1)) = {0} from rfl, bigSep_singleton]
  have key : iprop((bigSep Finset.univ fun c : Dev nD => bigSep Finset.univ fun p => Pipeline.cellsGhost cfgs (EP (F := F)) p c)
        ∗ (bigSep Finset.univ fun c : Dev nD => bigSep Finset.univ fun p => (Pipeline.toksInit cfgs (EP (F := F)) p c : sProp 𝕄)))
      ⊢ bigSep Finset.univ fun d : Dev nD => RG (F := F) d := by
    simp only [h1]
    unfold RG
    exact .rfl
  exact (Pipeline.fund_ghost cfgs (EP (F := F)) cellOf_inj).trans (Laws.bupd_mono key)

end Cert.Proof.KB

end
-- ==== Proof.SplitK.lean ====
/-
  How the three HBM arrays are dealt to the SparseCore call and collected from it.  Before the call each array is held
  whole.  The reshaped positions and the sine table are only read: each yields thirty-two read tokens, token
  `16 c + i` for tile `(c, i)`, and what the tokens leave of it stays behind.  The sine result is written: it is its
  256 blocks of 128 rows, eight per tile.  A tile's share is its two tokens and its eight blocks; a SparseCore's, its
  sixteen tiles' shares.  The split is an equivalence, read forwards before the call (the result at whatever it held)
  and backwards after it (the result the lookup).
-/
import proofs.«214958_g36086315221739_cont_8to1_b_1353_25_alg».proof.Proof.SplitGeomK

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (p2 : (d : Dev nD) → Buf (Elt F) (posLoc d)) (tb : (d : Dev nD) → Buf (Elt F) (tabLoc d))
variable (fo : (d : Dev nD) → Buf (Elt F) (outLoc d))

/-! ## The read tokens: thirty-two, dealt to the tiles -/

/-- Tile `(c, i)`'s token number. -/
theorem tix_LV (c : Fin ((K (F := F)).nCore 0)) (i : Fin ((K (F := F)).nSub 0)) :
    tix (cV (LV (F := F) c i)) (jV (LV (F := F) c i)) = 16 * c.val + i.val := rfl

/-- A family over the thirty-two numbers `16 c + i`, indexed by the number or by the pair. -/
theorem bigSep_tiles (Φ : ℕ → sProp 𝕄) :
    (bigSep Finset.univ fun n : Fin 32 => Φ n.val)
      = bigSep Finset.univ fun c : Fin ((K (F := F)).nCore 0) => bigSep Finset.univ fun i : Fin ((K (F := F)).nSub 0) =>
          Φ (16 * c.val + i.val) := by
  refine (bigSep_univ_equiv (finProdFinEquiv : Fin ((K (F := F)).nCore 0) × Fin ((K (F := F)).nSub 0) ≃ Fin 32)
    (fun n => Φ n.val)).trans ?_
  rw [bigSep_univ_prod]
  refine bigSep_congr fun c _ => bigSep_congr fun i _ => ?_
  show Φ (i.val + 16 * c.val) = Φ (16 * c.val + i.val)
  rw [Nat.add_comm]

/-- An array held whole is what thirty-two read tokens leave of it and the tokens, one per tile. -/
theorem toks_tiles {ℓ : Loc nD τ sig} (f : Buf (Elt F) ℓ) :
    (ℓ ↦{fullShare} f : sProp 𝕄) ⊣⊢ iprop((ℓ ↦{Transfers.shareDrop fullShare 32} f)
      ∗ bigSep Finset.univ fun c : Fin ((K (F := F)).nCore 0) => bigSep Finset.univ fun i : Fin ((K (F := F)).nSub 0) =>
          ℓ ↦{Transfers.shareTokN fullShare (tix (cV (LV (F := F) c i)) (jV (LV (F := F) c i)))} f) := by
  have hb := bigSep_tiles (F := F) (fun n => (ℓ ↦{Transfers.shareTokN fullShare n} f : sProp 𝕄))
  have h' : (ℓ ↦{fullShare} f : sProp 𝕄) ⊣⊢ iprop((ℓ ↦{Transfers.shareDrop fullShare 32} f)
      ∗ bigSep Finset.univ fun n : Fin 32 => ℓ ↦{Transfers.shareTokN fullShare n.val} f) :=
    Transfers.pointsTo_toks fullShare 32
  rw [hb] at h'
  exact h'

/-! ## Regrouping -/

theorem shuffle5 (a b c e o : sProp 𝕄) : iprop((a ∗ b) ∗ (c ∗ e) ∗ o) ⊣⊢ iprop((a ∗ c) ∗ (b ∗ e ∗ o)) := by
  constructor
  · iintro ⟨⟨Ha, Hb⟩, ⟨Hc, He⟩, Ho⟩
    isplitl [Ha Hc]
    · isplitl [Ha] <;> iassumption
    · isplitl [Hb]
      · iexact Hb
      · isplitl [He] <;> iassumption
  · iintro ⟨⟨Ha, Hc⟩, Hb, He, Ho⟩
    isplitl [Ha Hb]
    · isplitl [Ha] <;> iassumption
    · isplitl [Hc He]
      · isplitl [Hc] <;> iassumption
      · iexact Ho

/-- The tiles' shares, array by array. -/
theorem tiles_sep (d : Dev nD) (g : Buf (Elt F) (outLoc d)) :
    (bigSep Finset.univ fun c : Fin ((K (F := F)).nCore 0) => bigSep Finset.univ fun i : Fin ((K (F := F)).nSub 0) =>
        tileArr p2 tb d (LV (F := F) c i) g : sProp 𝕄)
      = iprop((bigSep Finset.univ fun c : Fin ((K (F := F)).nCore 0) => bigSep Finset.univ fun i : Fin ((K (F := F)).nSub 0) =>
            posLoc d ↦{Transfers.shareTokN fullShare (tix (cV (LV (F := F) c i)) (jV (LV (F := F) c i)))} p2 d)
        ∗ (bigSep Finset.univ fun c : Fin ((K (F := F)).nCore 0) => bigSep Finset.univ fun i : Fin ((K (F := F)).nSub 0) =>
            tabLoc d ↦{Transfers.shareTokN fullShare (tix (cV (LV (F := F) c i)) (jV (LV (F := F) c i)))} tb d)
        ∗ (bigSep Finset.univ fun c : Fin ((K (F := F)).nCore 0) => bigSep Finset.univ fun i : Fin ((K (F := F)).nSub 0) =>
            bigSep Finset.univ fun k : Fin 8 => outLoc d ↦[oSet (LV (F := F) c i) k]{fullShare} g)) := by
  simp only [tileArr, bigSep_sep']

/-- The three arrays held whole are what the tokens leave of the two read ones, and every tile's share. -/
theorem split_iff (d : Dev nD) (g : Buf (Elt F) (outLoc d)) :
    (iprop((posLoc d ↦{fullShare} p2 d) ∗ (tabLoc d ↦{fullShare} tb d) ∗ (outLoc d ↦{fullShare} g)) : sProp 𝕄)
      ⊣⊢ iprop(((posLoc d ↦{Transfers.shareDrop fullShare 32} p2 d) ∗ (tabLoc d ↦{Transfers.shareDrop fullShare 32} tb d))
          ∗ bigSep Finset.univ fun c : Fin ((K (F := F)).nCore 0) => bigSep Finset.univ fun i : Fin ((K (F := F)).nSub 0) =>
              tileArr p2 tb d (LV (F := F) c i) g) := by
  have hp := toks_tiles (F := F) (p2 d)
  have ht := toks_tiles (F := F) (tb d)
  rw [tiles_sep, ← out_blocks, BI.equiv_iff.mp ⟨hp.1, hp.2⟩, BI.equiv_iff.mp ⟨ht.1, ht.2⟩]
  exact shuffle5 _ _ _ _ _

variable [FloatOps F]

/-- Before the call: the three arrays whole give what the tokens leave of the two read ones, and each SparseCore the
    shares of its sixteen tiles, the result at its contents `fo`. -/
theorem st_intro (d : Dev nD) :
    iprop((posLoc d ↦{fullShare} p2 d) ∗ (tabLoc d ↦{fullShare} tb d) ∗ (outLoc d ↦{fullShare} fo d))
      ⊢ (iprop(((posLoc d ↦{Transfers.shareDrop fullShare 32} p2 d) ∗ (tabLoc d ↦{Transfers.shareDrop fullShare 32} tb d))
          ∗ bigSep Finset.univ fun c : Fin ((K (F := F)).nCore 0) => (P (F := F) p2 tb fo).st 0 d c) : sProp 𝕄) :=
  (split_iff p2 tb d (fo d)).1

/-- After the call: what the tokens left and every tile's share, the result written, join back to the three arrays
    whole, the result the lookup. -/
theorem dn_elim (d : Dev nD) :
    (iprop(((posLoc d ↦{Transfers.shareDrop fullShare 32} p2 d) ∗ (tabLoc d ↦{Transfers.shareDrop fullShare 32} tb d))
          ∗ bigSep Finset.univ fun c : Fin ((K (F := F)).nCore 0) => (P (F := F) p2 tb fo).dn 0 d c) : sProp 𝕄)
      ⊢ iprop((posLoc d ↦{fullShare} p2 d) ∗ (tabLoc d ↦{fullShare} tb d) ∗ (outLoc d ↦{fullShare} sinOut p2 tb d)) :=
  (split_iff p2 tb d (sinOut p2 tb d)).2

end Cert.Proof.KB

end
-- ==== Proof.LaunchCellsK.lean ====
/-
  The barrier cells of the whole mesh and the tokens of their one round.  Every device has two SparseCores of sixteen
  tiles, and every tile has one barrier semaphore: a cell per (device, SparseCore, tile).  In the round of tile `j`'s
  cell each of the sixteen tiles of the same SparseCore has one duty, named by the tile's number: a token per (cell, tile).
  Here: those two finite families, that a conjunction over them is one over the triples (and pairs of tiles), and two
  small facts about big conjunctions and sums of tallies.
-/
import proofs.«214958_g36086315221739_cont_8to1_b_1353_25_alg».proof.Proof.PayK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev DCI : Type := Dev nD × Fin τ.nSC × Fin τ.nSub
abbrev bcell₃ (x : DCI) : GSem nD τ sig := bcell x.1 x.2.1 x.2.2

/-- Every tile's barrier cell, of every SparseCore of every device. -/
def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- A conjunction over the cells is one over the triples. -/
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- The tokens, regrouped: per tile, its token in each cell of its SparseCore. -/
theorem toks_eq : (bigSep bToks fun x => (dutyTok (EB (F := F)) x.1 x.2.1 x.2.2 : sProp 𝕄))
    = bigSep Finset.univ fun dci : DCI => bigSep Finset.univ fun j : Fin (grid0.bound 1) => dutyTok (EB (F := F)) (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

/-- `n` unit tallies at one cell are the tally `n` there. -/
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

end Cert.Proof.KB

end
-- ==== Proof.LaunchElemK.lean ====
/-
  The launch element of the ghost state, and what the launch deals from it.  The element is the initial element of each
  of the three rounds libraries — the launch handshakes', the barrier cells' (every cell of the mesh, every token of its
  one round), the TensorCore pipeline's cells' — beside the unit of the transfer counters.  From it, the credit for what
  the tiles owe at the barrier, and the free semaphores at zero: the handshakes' initial element goes on to the launch
  theorem; the pipeline's funds each device's region; and the barrier cells' funds every cell's round state, position and
  tokens, whose invariants are allocated for every tile at once (a tile may signal a sibling whose task has not begun),
  so that every tile of BOTH SparseCores gets its kit: all sixteen invariants of its SparseCore, that each cell has
  reached round 0, its own position, its token in each of the sixteen rounds, and the credit for the sixteen arrivals at
  its own cell.
-/
import proofs.«214958_g36086315221739_cont_8to1_b_1353_25_alg».proof.Proof.LaunchCellsK

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (p2 : (d : Dev nD) → Buf (Elt F) (posLoc d)) (tb : (d : Dev nD) → Buf (Elt F) (tabLoc d))
variable (fo : (d : Dev nD) → Buf (Elt F) (outLoc d))
variable [FloatOps F]

/-- The launch element, over the pipeline cells' initial element. -/
def u₀ (upInit : UP) : UU := (initOf (K (F := F)).hsCells (K (F := F)).hsToks, (initOf bCells bToks, (upInit, 1)))

omit [FloatOps F] in
/-- The element splits into the three libraries' (the counters' unit dropped). -/
theorem ownU_split (a : UH) (b : UB) (p : UP) :
    (ownU ((a, (b, (p, 1))) : UU) : sProp 𝕄) ⊢ iprop(BI.own (EH (F := F) a) ∗ BI.own (EB (F := F) b) ∗ BI.own (EP (F := F) p)) := by
  have h1 : (ownU ((a, (b, (p, 1))) : UU) : sProp 𝕄) ⊢ iprop(BI.own (EH (F := F) a)
      ∗ BI.own ((uEmb (nD := nD) (sig := sig) (Ix := HIx 1) (Val := Elt F) (Name := ℕ) (U := UU) (Lvl := ℕ)).toEmb ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 1) (Val := Elt F) (Name := ℕ) (U := UU) (Lvl := ℕ)).toEmb ((1, (b, (p, 1))) : UU)) : sProp 𝕄)
      ⊢ iprop(BI.own (EB (F := F) b) ∗ BI.own (EP (F := F) p)) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro H
  ihave H' := h1 $$ H
  icases H' with ⟨HH, Hr⟩
  ihave H'' := h2 $$ Hr
  icases H'' with ⟨HB, HP⟩
  isplitl [HH]; · iexact HH
  isplitl [HB]; · iexact HB
  iexact HP

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) tb) g 0)
    ⊢ |={Set.univ}=> iprop(∃ κ : GSem nD τ sig → ℕ, bigSep bCells fun g => cellInv EB (bRd (F := F) tb) (κ g) g) := by
  refine (Rounds.bodies_intro EB (bRd (F := F) tb) bCells).trans ((inv_alloc_family bCells (Rounds.body EB (bRd (F := F) tb)) ∅ (E := Set.univ)).trans ?_)
  iintro H
  imod H with ⟨%κ, -, Hinv⟩
  imodintro; iexists κ; iexact Hinv

/-- The credit for the tiles' own debts, regrouped: each tile the sixteen units of its own cell. -/
theorem creds_b : ((P (F := F) p2 tb fo).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) p2 tb fo).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) p2 tb fo).oxFrom 0 (V d c i) = oxV d c := fun i => by
    rw [show (0 : ℕ) = (0 : Fin 1).val from rfl, (P p2 tb fo).oxFrom_step, (P p2 tb fo).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

theorem Px_T (d : Dev nD) : (bigSep Finset.univ fun q : Fin 1 => (P (F := F) p2 tb fo).x q (SparseCore.T d)) = iprop(emp) :=
  bigSep_univ_of_subsingleton (0 : Fin 1)
theorem Px_S (d : Dev nD) (c : Fin τ.nSC) : (bigSep Finset.univ fun q : Fin 1 => (P (F := F) p2 tb fo).x q (S d c)) = iprop(emp) :=
  bigSep_univ_of_subsingleton (0 : Fin 1)
theorem Px_V (d : Dev nD) (c : Fin τ.nSC) (i : Fin τ.nSub) :
    (bigSep Finset.univ fun q : Fin 1 => (P (F := F) p2 tb fo).x q (V d c i)) = bkit tb d c i :=
  bigSep_univ_of_subsingleton (0 : Fin 1)

/-- What every tile is handed alike: every barrier cell's invariant, and that each has reached round 0. -/
abbrev shared : sProp 𝕄 :=
  iprop((∃ κ : GSem nD τ sig → ℕ, bigSep Finset.univ fun x : DCI => cellInv EB (bRd (F := F) tb) (κ (bcell₃ x)) (bcell₃ x))
    ∗ bigSep Finset.univ fun x : DCI => reached (EB (F := F)) (bcell₃ x) 0)
/-- What each tile is handed of its own: its position, its tokens, its credit. -/
abbrev mine (dci : DCI) : sProp 𝕄 :=
  iprop(atPos (EB (F := F)) (bcell₃ dci) 0 ∅ 0
    ∗ (bigSep Finset.univ fun j : Fin (grid0.bound 1) => dutyTok (EB (F := F)) (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) tb ∗ mine (F := F) dci) ⊢ (bkit (F := F) tb dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) tb) (κ (bcell₃ x)) (bcell₃ x)) fun j _ =>
        sep_elim_left.trans (bigSep_elim (Φ := fun x : DCI => (cellInv EB (bRd (F := F) tb) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached (EB (F := F)) (bcell₃ x) 0) fun j _ =>
        sep_elim_left.trans (bigSep_elim (Φ := fun x : DCI => (reached (EB (F := F)) (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) tb ∗ (bigSep Finset.univ fun x : DCI => atPos (EB (F := F)) (bcell₃ x) 0 ∅ 0)
        ∗ (bigSep Finset.univ fun dci : DCI => bigSep Finset.univ fun j : Fin (grid0.bound 1) => dutyTok (EB (F := F)) (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) p2 tb fo).x q thr : sProp 𝕄) := by
  rw [SparseCore.Cfg.bigSep_threads (fun thr : Thread nD τ => bigSep Finset.univ fun q : Fin 1 => (P p2 tb fo).x q thr)]
  simp only [Px_T, Px_S, Px_V, bigSep_emp']
  iintro ⟨#Hsh, Hat, Htok, Hcred⟩
  isplitr; · iempintro
  isplitr; · iempintro
  iapply (bigSep_mono_frame (R := shared (F := F) tb) (Φ := mine (F := F)) fun dci _ => kit_intro (F := F) tb dci)
  isplitr; · iexact Hsh
  unfold mine
  rw [bigSep_sep', bigSep_sep']
  isplitl [Hat]; · iexact Hat
  isplitl [Htok]; · iexact Htok
  iexact Hcred

/-- The launch element: the handshakes' initial element on to the launch theorem, each device's region funded, every
    tile its barrier kit. -/
theorem hu₀ (upInit : UP) (RG : Dev nD → sProp 𝕄)
    (RG_fund : BI.own ((EP (F := F)) upInit) ⊢ |==> bigSep Finset.univ fun d : Dev nD => RG d) :
    iprop(ownU (u₀ (F := F) upInit) ∗ (P (F := F) p2 tb fo).oxCred ∗ (K (F := F)).freeSems0)
      ⊢ |={Set.univ}=> iprop(BI.own (EH (initOf (K (F := F)).hsCells (K (F := F)).hsToks)) ∗ bigSep Finset.univ (fun d : Dev nD => RG d)
        ∗ (bigSep Finset.univ fun thr : Thread nD τ => bigSep Finset.univ fun q : Fin 1 => (P (F := F) p2 tb fo).x q thr) : sProp 𝕄) := by
  unfold u₀
  iintro ⟨Hu, Hcred, Hfree⟩
  ihave H := (ownU_split _ _ _) $$ Hu
  icases H with ⟨HH, HB, HP⟩
  imod RG_fund $$ HP with HRG
  imod (Rounds.fund EB (bRd (F := F) tb) bCells bToks) $$ HB with ⟨Hst, #Hr, Hat, Htok⟩
  ihave Hsems := (sems_b (F := F)) $$ Hfree
  imod (invs_b (F := F) tb) $$ [Hsems Hst] with ⟨%κ, #Hinv⟩
  · isplitl [Hsems] <;> iassumption
  ihave Hcred' := (creds_b p2 tb fo) $$ Hcred
  ihave Hinv' := (Entails.of_eq (bCells_eq (F := F) fun g => cellInv EB (bRd (F := F) tb) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HRG]; · iexact HRG
  iapply (kits_deal p2 tb fo)
  isplitr
  · isplitl; · iexists κ; iexact Hinv'
    iexact Hr'
  isplitl [Hat']; · iexact Hat'
  isplitl [Htok']; · iexact Htok'
  iexact Hcred'

end Cert.Proof.KB

end
-- ==== Proof.LaunchSplitK.lean ====
/-
  How a SparseCore's share of the call's operands splits among its sixteen tiles, and how their results gather.
  The arrays: the start hands the SparseCore the sixteen tiles' shares already cut, so they pass to the tiles and back
  unchanged.  The SparseCore's shared memory is among the sequencer's own buffers, held whole at contents not chosen:
  tile 0 receives it whole (it stages the table there), the other tiles nothing.  At the tasks' end every tile returns
  its read token of the shared table, and tile 0 also what the sixteen tokens left of the whole; the sixteen tokens and
  that remainder compose to the full share again, so the sequencer holds its buffer whole as before (at the table).
-/
import proofs.«214958_g36086315221739_cont_8to1_b_1353_25_alg».proof.Proof.PayK
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (p2 : (d : Dev nD) → Buf (Elt F) (posLoc d)) (tb : (d : Dev nD) → Buf (Elt F) (tabLoc d))
variable (fo : (d : Dev nD) → Buf (Elt F) (outLoc d))
variable [FloatOps F]

/-- The call's tile number 0. -/
abbrev i0 : Fin ((K (F := F)).nSub 0) := ⟨0, by rw [nSub_zero]; exact Nat.zero_lt_succ 15⟩

omit [FloatOps F] in
theorem cV_LV (c : Fin ((K (F := F)).nCore 0)) (i : Fin ((K (F := F)).nSub 0)) : cV (LV (F := F) c i) = coreOf (F := F) c := Fin.ext rfl
omit [FloatOps F] in
theorem jV_LV_val (c : Fin ((K (F := F)).nCore 0)) (i : Fin ((K (F := F)).nSub 0)) : (jV (LV (F := F) c i)).val = i.val := rfl

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A conjunction over the tiles of something only tile 0 has is that thing. -/
theorem bigSep_only_zero (R : sProp 𝕄) (n : Fin ((K (F := F)).nSub 0) → ℕ) (hn : ∀ i, n i = i.val) :
    (bigSep Finset.univ fun i : Fin ((K (F := F)).nSub 0) => if n i = 0 then R else iprop(emp)) = R := by
  rw [SparseCore.bigSep_erase' (Finset.mem_univ (i0 (F := F))), if_pos (hn _),
    bigSep_congr (Ψ := fun _ => iprop(emp)) fun i hi => if_neg fun h =>
      (Finset.mem_erase.mp hi).1 (Fin.ext ((hn i).symm.trans h)), bigSep_emp']
  exact BI.Entails.antisymm sep_emp.1 sep_emp.2

omit [FloatOps F] in
/-- The shared memory, whole, dealt to the tiles: tile 0 all of it. -/
theorem shIn_deal (d : Dev nD) (c : Fin ((K (F := F)).nCore 0)) :
    (iprop(∃ f, shLoc d (coreOf (F := F) c) ↦{fullShare} f) : sProp 𝕄)
      ⊢ bigSep Finset.univ fun i : Fin ((K (F := F)).nSub 0) => shIn (F := F) d (cV (LV (F := F) c i)) (jV (LV (F := F) c i)) := by
  have e : (fun i : Fin ((K (F := F)).nSub 0) => shIn (F := F) d (cV (LV (F := F) c i)) (jV (LV (F := F) c i)))
      = fun i => if (jV (LV (F := F) c i)).val = 0 then (iprop(∃ f, shLoc d (coreOf (F := F) c) ↦{fullShare} f) : sProp 𝕄) else iprop(emp) :=
    funext fun i => by unfold shIn; rw [cV_LV]
  rw [e, bigSep_only_zero _ _ (jV_LV_val c)]

omit [FloatOps F] in
/-- What the tiles return of the shared memory is it whole again, at the table. -/
theorem shBack_join (d : Dev nD) (c : Fin ((K (F := F)).nCore 0)) :
    (bigSep Finset.univ fun i : Fin ((K (F := F)).nSub 0) => shBack tb d (cV (LV (F := F) c i)) (jV (LV (F := F) c i)) : sProp 𝕄)
      ⊢ iprop(∃ f, shLoc d (coreOf (F := F) c) ↦{fullShare} f) := by
  have e : (fun i : Fin ((K (F := F)).nSub 0) => shBack tb d (cV (LV (F := F) c i)) (jV (LV (F := F) c i)))
      = fun i => iprop((fun k : Fin 16 => (shLoc d (coreOf (F := F) c) ↦{Transfers.shareTok fullShare 16 k} tbS tb d (coreOf (F := F) c) : sProp 𝕄)) (Fin.cast nSub_zero i)
          ∗ if (jV (LV (F := F) c i)).val = 0 then (shLoc d (coreOf (F := F) c) ↦{Transfers.shareDrop fullShare 16} tbS tb d (coreOf (F := F) c) : sProp 𝕄) else iprop(emp)) :=
    funext fun i => by unfold shBack; rw [cV_LV]; rfl
  rw [e, bigSep_sep', bigSep_only_zero _ _ (jV_LV_val c),
    bigSep_tasks (F := F) (fun k : Fin 16 => (shLoc d (coreOf (F := F) c) ↦{Transfers.shareTok fullShare 16 k} tbS tb d (coreOf (F := F) c) : sProp 𝕄))]
  iintro ⟨Htoks, Hrem⟩
  iexists (tbS tb d (coreOf (F := F) c))
  iapply (Transfers.pointsTo_toks_join fullShare 16)
  isplitl [Hrem]; · iexact Hrem
  iexact Htoks

/-- The split of the one call: arrays through, the shared memory to tile 0 and back. -/
theorem vecSplit : (K (F := F)).VecSplit (P (F := F) p2 tb fo) 0 := by
  intro d c
  show iprop((bigSep Finset.univ fun i : Fin ((K (F := F)).nSub 0) => tileArr p2 tb d (LV c i) (fo d)) ∗ ownBufs (S d (coreOf (F := F) c)))
      ⊢ |={Set.univ}=> iprop(
        (bigSep Finset.univ fun i : Fin ((K (F := F)).nSub 0) => iprop(tileArr p2 tb d (LV c i) (fo d) ∗ shIn d (cV (LV (F := F) c i)) (jV (LV (F := F) c i))))
        ∗ ((bigSep Finset.univ fun i : Fin ((K (F := F)).nSub 0) => iprop(tileArr p2 tb d (LV c i) (sinOut p2 tb d) ∗ shBack tb d (cV (LV (F := F) c i)) (jV (LV (F := F) c i))))
            -∗ iprop((bigSep Finset.univ fun i : Fin ((K (F := F)).nSub 0) => tileArr p2 tb d (LV c i) (sinOut p2 tb d)) ∗ ownBufs (S d (coreOf (F := F) c)))))
  rw [bigSep_sep', bigSep_sep', ownBufs_S]
  iintro ⟨Harr, Hsh, Hrest⟩; imodintro
  isplitl [Harr Hsh]
  · isplitl [Harr]; · iexact Harr
    iapply (shIn_deal (F := F) d c); iexact Hsh
  iintro ⟨Harr, Hback⟩
  isplitl [Harr]; · iexact Harr
  isplitl [Hback]; · iapply (shBack_join tb d c); iexact Hback
  iexact Hrest

end Cert.Proof.KB

end
-- ==== Proof.MainRunK.lean ====
/-
  @main on a device's TensorCore, and the program's run.  @main is four lines: the host reshape of the positions
  `[4, 8192]` to `[256, 128]`; the SparseCore call, which reads the reshaped positions and the sine table and writes
  its result; the TensorCore call, which reads the reshaped positions and the cosine table and writes its result;
  the return.  Each line takes the arrays it touches from the TensorCore's holdings and hands them back: the reshape
  leaves the positions as they were and the reshape's buffer at their row-major recast; the SparseCore call lends
  the reshaped positions and the sine table to its tiles and gets them back with the result at the lookup; the
  TensorCore call leaves its inputs as they were and its result at `tcOut`.  So every final memory has the four
  arguments as launched and the two results at those two functions of them.
-/
import proofs.«214958_g36086315221739_cont_8to1_b_1353_25_alg».proof.Proof.TcRegionK
import proofs.«214958_g36086315221739_cont_8to1_b_1353_25_alg».proof.Proof.SplitK
import proofs.«214958_g36086315221739_cont_8to1_b_1353_25_alg».proof.Proof.LaunchElemK
import proofs.«214958_g36086315221739_cont_8to1_b_1353_25_alg».proof.Proof.LaunchSplitK

noncomputable section

namespace Cert.Proof.KB

open Cert.Kernel Cert.Kernel.Gen
open Idealize.ShloMosaic Idealize.ShloMosaic.ValueIdx
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the calls read -/

/-- The positions as the host reshape lays them out: the launch contents of the position argument, recast row-major. -/
def pos2Of (d : Dev nD) : Buf (Elt F) (posLoc d) :=
  shapeCast S256x128 (m ((T d : Thread nD τ).loc main_arg1)) Facts₀.shapeCasts_S4x8192_S256x128
/-- The sine table and the SparseCore call's result buffer, as launched. -/
abbrev tbOf (d : Dev nD) : Buf (Elt F) (tabLoc d) := m (tabLoc d)
abbrev foOf (d : Dev nD) : Buf (Elt F) (outLoc d) := m (outLoc d)

/-! ## The TensorCore's arrays -/

theorem unscopedBufs_eq (d : Dev nD) (W : (b : Ref sig .tc) → Buf (Elt F) ((d.tc : Thread nD τ).loc b)) :
    (unscopedBufs d W : sProp 𝕄)
      = iprop(((T d : Thread nD τ).loc main_arg0 ↦{fullShare} W main_arg0) ∗ ((T d : Thread nD τ).loc main_arg1 ↦{fullShare} W main_arg1)
          ∗ ((T d : Thread nD τ).loc main_arg2 ↦{fullShare} W main_arg2) ∗ ((T d : Thread nD τ).loc main_arg3 ↦{fullShare} W main_arg3)
          ∗ ((T d : Thread nD τ).loc main_v0 ↦{fullShare} W main_v0) ∗ ((T d : Thread nD τ).loc main_v1 ↦{fullShare} W main_v1)
          ∗ ((T d : Thread nD τ).loc main_v2 ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The host reshape -/

abbrev a1' : DevRef τ sig := Proc.devRef .tc (main_arg1 : Ref sig .tc)
abbrev v0' : DevRef τ sig := Proc.devRef .tc (main_v0 : Ref sig .tc)
abbrev opR : HloOp τ sig (Elt F) := StableHlo.reshape main_arg1 main_v0 rfl Facts₀.shapeCasts_S4x8192_S256x128

/-- The two arrays the reshape touches. -/
abbrev S2 : Finset (DevRef τ sig) := {a1', v0'}

omit [FloatOps F] in
theorem held_S2 (d : Dev nD) (W : Valuation τ sig (Elt F)) :
    (held (T d) S2 W : sProp 𝕄) = iprop(((T d : Thread nD τ).loc main_arg1 ↦{fullShare} W a1') ∗ ((T d : Thread nD τ).loc main_v0 ↦{fullShare} W v0')) := by
  unfold held S2
  rw [SparseCore.bigSep_insert' (by decide), bigSep_singleton]

/-- The launch valuation. -/
def V0 (d : Dev nD) : Valuation τ sig (Elt F) := fun b => m (d, b)

theorem opR_sub : (opR (F := F)).bufs ⊆ S2 := show ({a1', v0'} : Finset (DevRef τ sig)) ⊆ S2 by decide

/-- The reshape leaves its operand as it was, -/
theorem res_a1 (d : Dev nD) : (opR (F := F)).result (V0 m d) a1' = m ((T d : Thread nD τ).loc main_arg1) :=
  StableHlo.reshape_result_ne (x := main_arg1) (y := main_v0) rfl Facts₀.shapeCasts_S4x8192_S256x128 ⟨by decide, rfl⟩ ⟨by decide, rfl⟩ (V0 m d)
    (r := main_arg1) (by decide)
/-- and its result at the recast. -/
theorem res_v0 (d : Dev nD) : (opR (F := F)).result (V0 m d) v0' = pos2Of m d :=
  (StableHlo.reshape_result main_arg1 main_v0 rfl Facts₀.shapeCasts_S4x8192_S256x128 ⟨by decide, rfl⟩ ⟨by decide, rfl⟩ (V0 m d)).trans rfl

/-! ## @main on the TensorCore -/

/-- What @main leaves the claim: the four arguments as launched, the two results at their functions of them. -/
def FIN (d : Dev nD) : sProp 𝕄 :=
  iprop(((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ ((T d : Thread nD τ).loc main_arg3 ↦{fullShare} m ((T d : Thread nD τ).loc main_arg3))
    ∗ ((T d : Thread nD τ).loc main_v1 ↦{fullShare} sinOut (pos2Of m) (tbOf m) d)
    ∗ ((T d : Thread nD τ).loc main_v2 ↦{fullShare} tcOut (pos2Of m d) (m ((T d : Thread nD τ).loc main_arg2))))

/-- The core owes nothing once the one SparseCore call is over. -/
theorem Otc_one (d : Dev nD) : (K (F := F)).Otc d 1 = 0 := (K (F := F)).Otc_end d le_rfl

/-- The TensorCore's handshake state after the call: it owes nothing, its recorded pairs below level 8, and the rest. -/
theorem tcSt_one_split (d : Dev nD) : ∃ R : sProp 𝕄, (K (F := F)).tcSt EH d 1 = iprop(owesB (8 * 1) d ∗ R) := by
  unfold SparseCore.Cfg.tcSt
  rw [Otc_one]
  exact ⟨_, rfl⟩

set_option maxHeartbeats 1000000 in
/-- @main on device `d`'s TensorCore: the reshape, the SparseCore call, the TensorCore call, the return. -/
theorem hmain (κ : GSem nD τ sig → ℕ) (d : Dev nD) :
    iprop((K (F := F)).ctx EH (P (pos2Of m) (tbOf m) (foOf m)) κ ∗ (K (F := F)).tcSt EH d 0 ∗ (K (F := F)).tcRes m ρ d ∗ RG (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2⟩, -, -⟩, Hrg⟩
  -- the reshape, over the position argument and its recast
  iapply (wp_hlo_within 𝒱 (SparseCore.T d) none Set.univ (op := opR) (S := S2) opR_sub (V := V0 m d)) $$ [Hb Ha1 Hv0]
  · isplitl [Hb]; · iexact Hb
    rw [held_S2]
    isplitl [Ha1]; · iexact Ha1
    iexact Hv0
  iintro ⟨Hb, Hheld⟩
  rw [wp_ret]; imodintro
  ihave Hh := (Entails.of_eq (held_S2 (F := F) d _)) $$ Hheld
  rw [res_a1, res_v0]
  icases Hh with ⟨Ha1, Hv0⟩
  -- the SparseCore call: the recast positions, the sine table and the result buffer lent and handed back
  iapply ((K (F := F)).wp_run (D (F := F)) 𝒱 (EH := EH) (P := P (pos2Of m) (tbOf m) (foOf m)) κ d 0) $$ [Hst Hv0 Ha3 Hv1 Hb Ha0 Ha1 Ha2 Hv2 Hrg]
  isplitr; · iexact Hctx
  isplitl [Hst]; · iexact Hst
  ihave Hsplit := (st_intro (pos2Of m) (tbOf m) (foOf m) d) $$ [Hv0 Ha3 Hv1]
  · isplitl [Hv0]; · iexact Hv0
    isplitl [Ha3]; · iexact Ha3
    iexact Hv1
  icases Hsplit with ⟨⟨Hp32, Ht32⟩, Hstq⟩
  isplitl [Hstq]; · iexact Hstq
  iintro ⟨Hst, Hdn⟩
  ihave Hback := (dn_elim (pos2Of m) (tbOf m) (foOf m) d) $$ [Hp32 Ht32 Hdn]
  · isplitl [Hp32 Ht32]
    · isplitl [Hp32]; · iexact Hp32
      iexact Ht32
    iexact Hdn
  icases Hback with ⟨Hv0, Ha3, Hv1⟩
  -- the TensorCore call
  obtain ⟨R, hR1⟩ := tcSt_one_split (F := F) d
  rw [hR1]
  have hR1' : (K (F := F)).tcSt EH d ((0 : Fin 1).val + 1) = iprop(owesB (8 * 1) d ∗ R) := hR1
  ihave Hst' := (Entails.of_eq hR1') $$ Hst
  icases Hst' with ⟨HO, HR⟩
  iapply (wp_wand_r frame _ Set.univ)
  isplitl [Hrg Hb Hv0 Ha2 Hv2 HO]
  · iapply (tc_region (F := F) (K (F := F)).lev (8 * 1) d (pos2Of m d) (m ((T d : Thread nD τ).loc main_arg2)))
    isplitl [Hrg]; · iexact Hrg
    isplitr; · iapply (SparseCore.Cfg.ctx_levAts κ); iexact Hctx
    isplitl [Hb]; · iexact Hb
    isplitl [Hv0]; · iexact Hv0
    isplitl [Ha2]; · iexact Ha2
    isplitl [Hv2]; · iexists _; iexact Hv2
    iexact HO
  iintro %_ ⟨Hb, Hv0, Ha2, Hv2, HO⟩
  imodintro
  isplitl [HO HR]
  · isplitl [HO]; · iexact HO
    iexact HR
  unfold FIN
  isplitl [Ha0]; · iexact Ha0
  isplitl [Ha1]; · iexact Ha1
  isplitl [Ha2]; · iexact Ha2
  isplitl [Ha3]; · iexact Ha3
  isplitl [Hv1]; · iexact Hv1
  iexact Hv2

/-! ## Reading the claim off a final state -/

/-- What the claim says of device `d` in a final state: the two results and the four arguments. -/
def fq (d : Dev nD) (s' : Phys nD τ sig (Elt F)) : Prop :=
  s'.mem.mem ((T d : Thread nD τ).loc main_v2) = tcOut (pos2Of m d) (m ((T d : Thread nD τ).loc main_arg2))
    ∧ s'.mem.mem ((T d : Thread nD τ).loc main_v1) = sinOut (pos2Of m) (tbOf m) d
    ∧ s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_arg2) = m ((T d : Thread nD τ).loc main_arg2)
    ∧ s'.mem.mem ((T d : Thread nD τ).loc main_arg3) = m ((T d : Thread nD τ).loc main_arg3)

theorem hfin (d : Dev nD) (s' : Phys nD τ sig (Elt F)) : iprop(FIN m d ∗ SI s') ⊢ (⌜fq m d s'⌝ : sProp 𝕄) := by
  unfold FIN
  iintro ⟨⟨Ha0, Ha1, Ha2, Ha3, Hv1, Hv2⟩, HSI⟩
  icombine HSI Ha0 gives %h0
  icombine HSI Ha1 gives %h1
  icombine HSI Ha2 gives %h2
  icombine HSI Ha3 gives %h3
  icombine HSI Hv1 gives %hv1
  icombine HSI Hv2 gives %hv2
  ipureintro
  exact ⟨funext fun i => hv2 i (Finset.mem_univ i), funext fun i => hv1 i (Finset.mem_univ i), funext fun i => h0 i (Finset.mem_univ i),
    funext fun i => h1 i (Finset.mem_univ i), funext fun i => h2 i (Finset.mem_univ i), funext fun i => h3 i (Finset.mem_univ i)⟩

/-! ## The program's run -/

/-- Every final memory: the two results at their functions of the arguments, the arguments as launched. -/
def QAll : PUnit × MemSt nD τ sig (Elt F) → Prop := fun r =>
  ∀ c : Dev nD, r.2.mem ((c.tc : Thread nD τ).loc main_v2) = tcOut (pos2Of m c) (m ((c.tc : Thread nD τ).loc main_arg2))
    ∧ r.2.mem ((c.tc : Thread nD τ).loc main_v1) = sinOut (pos2Of m) (tbOf m) c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)

/-- The run, from the tiles' obligation: every weakly fair execution of the 35 threads from a memory whose semaphores
    read zero terminates, and every final memory is as `QAll` says. -/
theorem run_all [∀ e, Nonempty (Elt F e)]
    (htile : (K (F := F)).TileObl (D (F := F)) 𝒱 (P (pos2Of m) (tbOf m) (foOf m)) v₀ 0 (K (F := F)).lev) :
    θ_run (Cert.Kernel.defs (F := F)) (Cert.Kernel.threads (F := F)) ⟨m, fun _ => 0, ρ⟩ (QAll m) :=
  SparseCore.Cfg.θ_run_sc (K := K (F := F)) (D := D (F := F)) (𝒱 := 𝒱) (EH := EH) (P := P (pos2Of m) (tbOf m) (foOf m)) facts v₀
    (fun q hq => match q with | 0 => nomatch hq)
    (fun q _ => match q with | 0 => htile)
    (fun q _ => match q with | 0 => vecSplit (pos2Of m) (tbOf m) (foOf m))
    m ρ main (fun d => RG (F := F) d) (FIN m) (u₀ (F := F) upInit)
    (hu₀ (pos2Of m) (tbOf m) (foOf m) upInit (fun d => RG (F := F) d) RG_fund)
    (hmain m ρ) (fq m) (hfin m) (QAll m) (fun _ h => h)

end Cert.Proof.KB

end
-- ==== Proof.TcMathWord.lean ====
/-
  One position of the block, as a word and as a real.  A position word `x` with `x.toNat ≤ 8191` converts
  (signed) to the real `x.toNat`; the float remainder `x - ⌊x · (1/16)⌋ · 16` of that real is the real
  `x.toNat % 16`; comparing it for equality with a natural `k` decides `x.toNat % 16 = k`; and the one-bit
  answer, widened and converted, is the real `1` or `0`.  Everything here is about extended reals and words
  only: no program is imported.
-/
import proofs.«214958_g36086315221739_cont_8to1_b_1353_25_alg».proof.Proof.Spec
import Idealize.ShloMosaic.PureOps.Ideal.Laws

noncomputable section

namespace Cert.Proof.TcMath

open Idealize.ShloMosaic

/-- The word `0x3D800000` is the float `1/16`. -/
theorem ofBits_sixteenth : Ideal.ofBits .f32 0x3D800000#32 = (((1 : ℝ) / 16 : ℝ) : EReal) := by
  simp [Ideal.ofBits, Ideal.ieee, -EReal.coe_mul]; norm_num

/-- The word `0x41800000` is the float `16`. -/
theorem ofBits_sixteen : Ideal.ofBits .f32 0x41800000#32 = ((16 : ℝ) : EReal) := by
  simp [Ideal.ofBits, Ideal.ieee, -EReal.coe_mul]; norm_num

/-- A word below `2^31` read signed is its unsigned value. -/
theorem toInt_of_le (x : BitVec 32) (h : x.toNat ≤ 8191) : x.toInt = (x.toNat : ℤ) :=
  BitVec.toInt_eq_toNat_of_lt (by omega)

/-- Converted to a float, a position in range is its unsigned value. -/
theorem sitofp_pos (x : BitVec 32) (h : x.toNat ≤ 8191) :
    FloatOps.sitofp (F := Ideal) .f32 x = (((x.toNat : ℕ) : ℝ) : EReal) := by
  show (((x.toInt : ℤ) : ℝ) : EReal) = _
  rw [toInt_of_le x h, Int.cast_natCast]

/-- The floor of a natural times `1/16` is its quotient by 16. -/
theorem floor_sixteenth (n : ℕ) : ⌊(n : ℝ) * (1 / 16)⌋ = ((n / 16 : ℕ) : ℤ) := by
  have h := Nat.div_add_mod n 16
  have hm := Nat.mod_lt n (show 0 < 16 by norm_num)
  generalize n / 16 = q at h ⊢
  generalize n % 16 = m at h hm
  have hr : (n : ℝ) = 16 * (q : ℝ) + (m : ℝ) := by exact_mod_cast h.symm
  have hm' : (m : ℝ) < 16 := by exact_mod_cast hm
  have h0 : (0 : ℝ) ≤ (m : ℝ) := Nat.cast_nonneg _
  rw [Int.floor_eq_iff, Int.cast_natCast]
  constructor <;> linarith

/-- The float remainder: `n - ⌊n · (1/16)⌋ · 16` is `n % 16`, over the reals. -/
theorem mod16_real (n : ℕ) : (n : ℝ) - ((⌊(n : ℝ) * (1 / 16)⌋ : ℤ) : ℝ) * 16 = ((n % 16 : ℕ) : ℝ) := by
  rw [floor_sixteenth, Int.cast_natCast]
  have h := Nat.div_add_mod n 16
  generalize n / 16 = q at h ⊢
  generalize n % 16 = m at h ⊢
  have hr : (n : ℝ) = 16 * (q : ℝ) + (m : ℝ) := by exact_mod_cast h.symm
  linarith

/-- The same over the extended reals, in the operations the block's arithmetic uses. -/
theorem fmod16 (x : BitVec 32) (h : x.toNat ≤ 8191) :
    FloatOps.subf (FloatOps.sitofp (F := Ideal) .f32 x)
        (FloatOps.mulf
          (FloatOps.floor (FloatOps.mulf (FloatOps.sitofp (F := Ideal) .f32 x) (Ideal.ofBits .f32 0x3D800000#32)))
          (Ideal.ofBits .f32 0x41800000#32))
      = (((x.toNat % 16 : ℕ) : ℝ) : EReal) := by
  rw [sitofp_pos x h, ofBits_sixteenth, ofBits_sixteen]
  show ((x.toNat : ℝ) : EReal)
      - Ideal.liftRound Int.floor (((x.toNat : ℝ) : EReal) * (((1 : ℝ) / 16 : ℝ) : EReal)) * ((16 : ℝ) : EReal) = _
  rw [← EReal.coe_mul, Ideal.liftRound_coe, ← EReal.coe_mul, ← EReal.coe_sub, mod16_real]

/-- Equality of two naturals, compared as floats. -/
theorem cmp_oeq_nat (a b : ℕ) :
    FloatOps.cmpf (F := Ideal) (φ := .f32) .oeq (((a : ℕ) : ℝ) : EReal) (((b : ℕ) : ℝ) : EReal)
      = BitVec.ofBool (decide (a = b)) := by
  show BitVec.ofBool (decide ((((a : ℕ) : ℝ) : EReal) = (((b : ℕ) : ℝ) : EReal))) = _
  congr 1
  exact decide_eq_decide.mpr (EReal.coe_eq_coe_iff.trans Nat.cast_inj)

/-- A decided bit, widened to a word and converted to a float, is `1` or `0`. -/
theorem sitofp_bit (c : Bool) :
    FloatOps.sitofp (F := Ideal) .f32 ((BitVec.ofBool c).setWidth 32) = if c = true then (1 : EReal) else 0 := by
  cases c
  · show (((((BitVec.ofBool false).setWidth 32).toInt : ℤ) : ℝ) : EReal) = _
    have : ((BitVec.ofBool false).setWidth 32).toInt = 0 := by decide
    rw [this]; simp
  · show (((((BitVec.ofBool true).setWidth 32).toInt : ℤ) : ℝ) : EReal) = _
    have : ((BitVec.ofBool true).setWidth 32).toInt = 1 := by decide
    rw [this]; simp

/-- The natural `k < 16` as a word, converted to a float, is `k`. -/
theorem sitofp_ofNat16 (k : Fin 16) :
    FloatOps.sitofp (F := Ideal) .f32 (BitVec.ofNat 32 k.val) = (((k.val : ℕ) : ℝ) : EReal) := by
  have hk := k.isLt
  have h1 : (BitVec.ofNat 32 k.val).toNat = k.val := by
    rw [BitVec.toNat_ofNat]; exact Nat.mod_eq_of_lt (by omega)
  rw [sitofp_pos _ (by omega), h1]

end Cert.Proof.TcMath

end
-- ==== Proof.TcMathPay.lean ====
/-
  The two values every one-hot product of the block reads, at an index.  The block's transposed remainder
  matrix: entry `(p, r)` is the real `pos (r, p) % 16` — the product of the remainder block, contracted on its
  row axis, with the 64×64 identity is a sum with one nonzero term.  The float iota row: entry `(0, k)` is `k`.
-/
import proofs.«214958_g36086315221739_cont_8to1_b_1353_25_alg».proof.Proof.Gen.KernelIdeal.Skeleton
import proofs.«214958_g36086315221739_cont_8to1_b_1353_25_alg».proof.Proof.TcMathWord
import Idealize.ShloMosaic.Lib.Pipeline.Value

noncomputable section

namespace Cert.Proof.TcMath

open Cert.KernelIdeal Cert.KernelIdeal.Gen Idealize.ShloMosaic Idealize.ShloMosaic.ValueIdx

/-- A decided proposition's bit, widened and converted, is `1` or `0`. -/
theorem sitofp_decide (q : Prop) [Decidable q] :
    FloatOps.sitofp (F := Ideal) .f32 ((BitVec.ofBool (decide q)).setWidth 32) = if q then (1 : EReal) else 0 := by
  rw [sitofp_bit]
  by_cases h : q <;> simp [h]

/-! ## The transposing product: its operand indices -/

/-- The left operand of the transposing product at output `(p, r)`, contraction position `k`: entry `(k, p)`. -/
theorem tr_lhsIdx (p : Fin 128) (r k : Fin 64) :
    dot_S64x128_S64x64_S128x64_0_0_1_1_n_n.lhsIdx (ix2 p r)
      ((contrEquiv1 dot_S64x128_S64x64_S128x64_0_0_1_1_n_n 64 rfl rfl).symm k) = ix2 k p := by
  have c2 := contrEquiv1_symm_val dot_S64x128_S64x64_S128x64_0_0_1_1_n_n 64 rfl rfl k
  funext ax; apply Fin.ext
  match ax with
  | ⟨0, _⟩ => simp [DotDims.lhsIdx, dot_S64x128_S64x64_S128x64_0_0_1_1_n_n]; exact c2
  | ⟨1, _⟩ => simp [DotDims.lhsIdx, dot_S64x128_S64x64_S128x64_0_0_1_1_n_n]; rfl

/-- The right operand (the identity) at output `(p, r)`, contraction position `k`: entry `(k, r)`. -/
theorem tr_rhsIdx (p : Fin 128) (r k : Fin 64) :
    dot_S64x128_S64x64_S128x64_0_0_1_1_n_n.rhsIdx (ix2 p r)
      ((contrEquiv1 dot_S64x128_S64x64_S128x64_0_0_1_1_n_n 64 rfl rfl).symm k) = ix2 k r := by
  have c2 := contrEquiv1_symm_val dot_S64x128_S64x64_S128x64_0_0_1_1_n_n 64 rfl rfl k
  funext ax; apply Fin.ext
  match ax with
  | ⟨0, _⟩ => simp [DotDims.rhsIdx, dot_S64x128_S64x64_S128x64_0_0_1_1_n_n]; exact c2
  | ⟨1, _⟩ => simp [DotDims.rhsIdx, dot_S64x128_S64x64_S128x64_0_0_1_1_n_n]; rfl

/-! ## The identity the transposing product multiplies by -/

/-- "Row index equals column index" on words below 64. -/
theorem eye_bit (k r : Fin 64) :
    IntOp.cmpi .eq (IntOp.addi (BitVec.ofNat 32 k.val) 0#32) (BitVec.ofNat 32 r.val) = BitVec.ofBool (decide (k = r)) := by
  have hk := k.isLt
  have hr := r.isLt
  show BitVec.ofBool ((BitVec.ofNat 32 k.val + 0#32) == BitVec.ofNat 32 r.val) = _
  congr 1
  by_cases h : k = r
  · subst h; simp
  · have hne : BitVec.ofNat 32 k.val ≠ BitVec.ofNat 32 r.val := by
      intro e
      have e' := congrArg BitVec.toNat e
      rw [BitVec.toNat_ofNat, BitVec.toNat_ofNat, Nat.mod_eq_of_lt (by omega), Nat.mod_eq_of_lt (by omega)] at e'
      exact h (Fin.ext e')
    simp [h, hne]

/-- The 64×64 matrix built from the two iotas is the identity: entry `(k, r)` is `1` if `k = r`, else `0`. -/
theorem eye_apply (h0 : S64x64.Iotas .tc 32 [0]) (h1 : S64x64.Iotas .tc 32 [1]) (hlt : 1 < 32) (k r : Fin 64) :
    (sitofp .f32 (extui 32 (cmpi .eq (addi (iota .tc S64x64 32 [0] h0) (broadcast S64x64 0#32))
        (iota .tc S64x64 32 [1] h1)) hlt) : FVec Ideal S64x64 .f32) (ix2 k r)
      = if k = r then (1 : EReal) else 0 := by
  show FloatOps.sitofp (F := Ideal) .f32
      ((IntOp.cmpi .eq (IntOp.addi (iota .tc S64x64 32 [0] h0 (ix2 k r)) 0#32) (iota .tc S64x64 32 [1] h1 (ix2 k r))).setWidth 32) = _
  rw [iota_single_apply, iota_single_apply]
  show FloatOps.sitofp (F := Ideal) .f32
      ((IntOp.cmpi .eq (IntOp.addi (BitVec.ofNat 32 k.val) 0#32) (BitVec.ofNat 32 r.val)).setWidth 32) = _
  rw [eye_bit, sitofp_decide]

/-! ## The transposed remainder matrix and the iota row, at an index -/

/-- Entry `(p, r)` of the transposed remainder matrix is the real `pos (r, p) % 16`. -/
theorem pay3_apply (v0 : Vec Ideal S64x128 .i32) (hrange : ∀ j, (v0 j).toNat ≤ 8191) (p : Fin 128) (r : Fin 64) :
    k1_pay3 (F := Ideal) v0 (ix2 p r) = ((((v0 (ix2 r p)).toNat % 16 : ℕ) : ℝ) : EReal) := by
  simp only [k1_pay3, matmul]
  rw [Ideal.matmul_constant_zero_apply,
    ← Equiv.sum_comp (contrEquiv1 dot_S64x128_S64x64_S128x64_0_0_1_1_n_n 64 rfl rfl).symm]
  rw [Finset.sum_eq_single r]
  · rw [tr_lhsIdx, tr_rhsIdx, eye_apply, if_pos rfl, mul_one, shapeCast_self]
    exact fmod16 (v0 (ix2 r p)) (hrange _)
  · intro k _ hk
    rw [tr_rhsIdx, eye_apply, if_neg hk, mul_zero]
  · intro h; exact absurd (Finset.mem_univ r) h

/-- Entry `(0, k)` of the float iota row is `k`. -/
theorem pay4_apply (k : Fin 16) :
    k1_pay4 (F := Ideal) (ix2 (n0 := 1) (n1 := 16) 0 k) = (((k.val : ℕ) : ℝ) : EReal) := by
  simp only [k1_pay4]
  show FloatOps.sitofp (F := Ideal) .f32 (iota .tc S1x16 32 [1] iota_S1x16_d1_w32 (ix2 (n0 := 1) (n1 := 16) 0 k)) = _
  rw [iota_single_apply]
  exact sitofp_ofNat16 k

end Cert.Proof.TcMath

end
-- ==== Proof.TcMath.lean ====
/-
  One one-hot product of the block.  Column `c` of the transposed remainder matrix, broadcast along 16 lanes and
  compared with the iota row, is the 128×16 matrix whose row `p` has a `1` in lane `pos (c, p) % 16` and `0`
  elsewhere; its product with the 16×128 table is therefore, row by row, the table row that position selects:
  `∑ k, [row = k] · tab (k, d) = tab (row, d)`, a sum with one nonzero term.  No finiteness of the table is
  needed: on the extended reals `0 · x = 0` and `1 · x = x` for every `x`, the infinities included.
-/
import proofs.«214958_g36086315221739_cont_8to1_b_1353_25_alg».proof.Proof.TcMathPay

noncomputable section

namespace Cert.Proof.TcMath

open Cert.KernelIdeal Cert.KernelIdeal.Gen Idealize.ShloMosaic Idealize.ShloMosaic.ValueIdx

/-! ## The one-hot product: its operand indices -/

/-- The left operand (the one-hot matrix) at output `(p, d)`, contraction position `k`: entry `(p, k)`. -/
theorem oh_lhsIdx (p d : Fin 128) (k : Fin 16) :
    dot_S128x16_S16x128_S128x128_1_0_0_1_n_n.lhsIdx (ix2 p d) ((contrEquiv1 dot_S128x16_S16x128_S128x128_1_0_0_1_n_n 16 rfl rfl).symm k) = ix2 p k := by
  have c2 := contrEquiv1_symm_val dot_S128x16_S16x128_S128x128_1_0_0_1_n_n 16 rfl rfl k
  funext ax; apply Fin.ext
  match ax with
  | ⟨0, _⟩ => simp [DotDims.lhsIdx, dot_S128x16_S16x128_S128x128_1_0_0_1_n_n]; rfl
  | ⟨1, _⟩ => simp [DotDims.lhsIdx, dot_S128x16_S16x128_S128x128_1_0_0_1_n_n]; exact c2

/-- The right operand (the table) at output `(p, d)`, contraction position `k`: entry `(k, d)`. -/
theorem oh_rhsIdx (p d : Fin 128) (k : Fin 16) :
    dot_S128x16_S16x128_S128x128_1_0_0_1_n_n.rhsIdx (ix2 p d) ((contrEquiv1 dot_S128x16_S16x128_S128x128_1_0_0_1_n_n 16 rfl rfl).symm k) = ix2 k d := by
  have c2 := contrEquiv1_symm_val dot_S128x16_S16x128_S128x128_1_0_0_1_n_n 16 rfl rfl k
  funext ax; apply Fin.ext
  match ax with
  | ⟨0, _⟩ => simp [DotDims.rhsIdx, dot_S128x16_S16x128_S128x128_1_0_0_1_n_n]; exact c2
  | ⟨1, _⟩ => simp [DotDims.rhsIdx, dot_S128x16_S16x128_S128x128_1_0_0_1_n_n]; rfl

/-! ## The one-hot matrix at an index -/

/-- Entry `(p, k)` of the one-hot matrix built from column `c` of `v16` and the row `v18`: the converted bit
    of the comparison of `v16 (p, c)` with `v18 (0, k)`. -/
theorem onehot_entry (v16 : FVec Ideal S128x64 .f32) (v18 : FVec Ideal S1x16 .f32) (c : ℕ) (hc : c < 64)
    (hs : S128x64.Slices ![0, c] S128x1) (hb1 : S128x1.Broadcasts S128x16) (hb2 : S1x16.Broadcasts S128x16)
    (hlt : 1 < 32) (p : Fin 128) (k : Fin 16) :
    (sitofp .f32 (extui 32 (cmpf .oeq
        (broadcastTo S128x16 (extractStridedSlice S128x1 ![0, c] v16 hs) hb1)
        (broadcastTo S128x16 v18 hb2)) hlt) : FVec Ideal S128x16 .f32) (ix2 p k)
      = FloatOps.sitofp (F := Ideal) .f32
          ((FloatOps.cmpf .oeq (v16 (ix2 p ⟨c, hc⟩)) (v18 (ix2 (n0 := 1) (n1 := 16) 0 k))).setWidth 32) := by
  show FloatOps.sitofp (F := Ideal) .f32 ((FloatOps.cmpf .oeq
      (broadcastTo S128x16 (extractStridedSlice S128x1 ![0, c] v16 hs) hb1 (ix2 p k))
      (broadcastTo S128x16 v18 hb2 (ix2 p k))).setWidth 32) = _
  rw [broadcastTo_apply _ hb1 (ix2 p k) (ix2 (n0 := 128) (n1 := 1) p 0)
      (fun a => match a with | ⟨0, _⟩ => rfl | ⟨1, _⟩ => rfl),
    extractStridedSlice_apply _ v16 hs (ix2 (n0 := 128) (n1 := 1) p 0) (ix2 p ⟨c, hc⟩)
      (fun a => match a with | ⟨0, _⟩ => (Nat.zero_add _).symm | ⟨1, _⟩ => rfl),
    broadcastTo_apply _ hb2 (ix2 p k) (ix2 (n0 := 1) (n1 := 16) 0 k)
      (fun a => match a with | ⟨0, _⟩ => rfl | ⟨1, _⟩ => rfl)]

/-! ## The product -/

/-- The one-hot product over VARIABLES for the two matrices it is built from: if `v16 (p, c)` is the real `row`
    and `v18` is the iota row, row `p` of the product is row `row` of the table. -/
theorem onehot_row_var (v16 : FVec Ideal S128x64 .f32) (v18 : FVec Ideal S1x16 .f32) (v19 : FVec Ideal S16x128 .f32)
    (c : ℕ) (hc : c < 64) (hs : S128x64.Slices ![0, c] S128x1) (p d : Fin 128) (row : Fin 16)
    (h16 : v16 (ix2 p ⟨c, hc⟩) = (((row.val : ℕ) : ℝ) : EReal))
    (h18 : ∀ k : Fin 16, v18 (ix2 (n0 := 1) (n1 := 16) 0 k) = (((k.val : ℕ) : ℝ) : EReal)) :
    matmul dot_S128x16_S16x128_S128x128_1_0_0_1_n_n none
        (sitofp .f32 (extui 32 (cmpf .oeq
          (broadcastTo S128x16 (extractStridedSlice S128x1 ![0, c] v16 hs) broadcasts_S128x1_S128x16)
          (broadcastTo S128x16 v18 broadcasts_S1x16_S128x16)) natLt_1_32))
        v19 (constant S128x128 .f32 0x00000000#32) (ix2 p d)
      = v19 (ix2 row d) := by
  simp only [matmul]
  rw [Ideal.matmul_constant_zero_apply, ← Equiv.sum_comp (contrEquiv1 dot_S128x16_S16x128_S128x128_1_0_0_1_n_n 16 rfl rfl).symm]
  rw [Finset.sum_eq_single row]
  · rw [oh_lhsIdx, oh_rhsIdx, onehot_entry v16 v18 c hc, h16, h18, cmp_oeq_nat, sitofp_decide, if_pos rfl, one_mul]
  · intro k _ hk
    rw [oh_lhsIdx, onehot_entry v16 v18 c hc, h16, h18, cmp_oeq_nat, sitofp_decide,
      if_neg (fun e => hk (Fin.ext e.symm)), zero_mul]
  · intro h; exact absurd (Finset.mem_univ row) h

/-- One one-hot product of the body, the slice offset a natural number `c < 64`: row `p` of the `c`-th stored
    128×128 piece is the table row that position `(c, p)` of the block selects. -/
theorem onehot_row_at (v0 : Vec Ideal S64x128 .i32) (v19 : FVec Ideal S16x128 .f32) (c : ℕ) (hc : c < 64)
    (hs : S128x64.Slices ![0, c] S128x1) (hrange : ∀ j, (v0 j).toNat ≤ 8191) (p d : Fin 128) :
    matmul dot_S128x16_S16x128_S128x128_1_0_0_1_n_n none
        (sitofp .f32 (extui 32 (cmpf .oeq
          (broadcastTo S128x16 (extractStridedSlice S128x1 ![0, c] (k1_pay3 (F := Ideal) v0) hs) broadcasts_S128x1_S128x16)
          (broadcastTo S128x16 (k1_pay4 (F := Ideal)) broadcasts_S1x16_S128x16)) natLt_1_32))
        v19 (constant S128x128 .f32 0x00000000#32) (ix2 p d)
      = v19 (ix2 (Cert.Proof.Spec.rowOf (v0 (ix2 ⟨c, hc⟩ p))) d) :=
  onehot_row_var (k1_pay3 (F := Ideal) v0) (k1_pay4 (F := Ideal)) v19 c hc hs p d
    (Cert.Proof.Spec.rowOf (v0 (ix2 ⟨c, hc⟩ p))) (pay3_apply v0 hrange p ⟨c, hc⟩) pay4_apply

/-- one one-hot matmul of the body: row p of the r-th stored 128x128 piece is the table row that position (r, p) of
    the block selects -/
theorem onehot_row (v0 : Vec Ideal S64x128 .i32) (v19 : FVec Ideal S16x128 .f32) (r : Fin 64)
    (hs : S128x64.Slices ![0, r.val] S128x1) (hrange : ∀ j, (v0 j).toNat ≤ 8191) (p d : Fin 128) :
    matmul dot_S128x16_S16x128_S128x128_1_0_0_1_n_n none
        (sitofp .f32 (extui 32 (cmpf .oeq
          (broadcastTo S128x16 (extractStridedSlice S128x1 ![0, r.val] (k1_pay3 (F := Ideal) v0) hs) broadcasts_S128x1_S128x16)
          (broadcastTo S128x16 (k1_pay4 (F := Ideal)) broadcasts_S1x16_S128x16)) natLt_1_32))
        v19 (constant S128x128 .f32 0x00000000#32) (ix2 p d)
      = v19 (ix2 (Cert.Proof.Spec.rowOf (v0 (ix2 r p))) d) :=
  onehot_row_at v0 v19 r.val r.isLt hs hrange p d

/-- The same with the transposed remainder matrix and the iota row bound to variables, as the later parts of the
    body have them; the slice offset a natural number. -/
theorem onehot_row_at' (v0 : Vec Ideal S64x128 .i32) (v16 : FVec Ideal S128x64 .f32) (v18 : FVec Ideal S1x16 .f32)
    (v19 : FVec Ideal S16x128 .f32) (h16 : v16 = k1_pay3 (F := Ideal) v0) (h18 : v18 = k1_pay4 (F := Ideal))
    (c : ℕ) (hc : c < 64) (hs : S128x64.Slices ![0, c] S128x1) (hrange : ∀ j, (v0 j).toNat ≤ 8191) (p d : Fin 128) :
    matmul dot_S128x16_S16x128_S128x128_1_0_0_1_n_n none
        (sitofp .f32 (extui 32 (cmpf .oeq
          (broadcastTo S128x16 (extractStridedSlice S128x1 ![0, c] v16 hs) broadcasts_S128x1_S128x16)
          (broadcastTo S128x16 v18 broadcasts_S1x16_S128x16)) natLt_1_32))
        v19 (constant S128x128 .f32 0x00000000#32) (ix2 p d)
      = v19 (ix2 (Cert.Proof.Spec.rowOf (v0 (ix2 ⟨c, hc⟩ p))) d) := by
  subst h16; subst h18
  exact onehot_row_at v0 v19 c hc hs hrange p d

/-- The same with the slice offset an index `r : Fin 64`. -/
theorem onehot_row' (v0 : Vec Ideal S64x128 .i32) (v16 : FVec Ideal S128x64 .f32) (v18 : FVec Ideal S1x16 .f32)
    (v19 : FVec Ideal S16x128 .f32) (h16 : v16 = k1_pay3 (F := Ideal) v0) (h18 : v18 = k1_pay4 (F := Ideal))
    (r : Fin 64) (hs : S128x64.Slices ![0, r.val] S128x1) (hrange : ∀ j, (v0 j).toNat ≤ 8191) (p d : Fin 128) :
    matmul dot_S128x16_S16x128_S128x128_1_0_0_1_n_n none
        (sitofp .f32 (extui 32 (cmpf .oeq
          (broadcastTo S128x16 (extractStridedSlice S128x1 ![0, r.val] v16 hs) broadcasts_S128x1_S128x16)
          (broadcastTo S128x16 v18 broadcasts_S1x16_S128x16)) natLt_1_32))
        v19 (constant S128x128 .f32 0x00000000#32) (ix2 p d)
      = v19 (ix2 (Cert.Proof.Spec.rowOf (v0 (ix2 r p))) d) :=
  onehot_row_at' v0 v16 v18 v19 h16 h18 r.val r.isLt hs hrange p d

/-! ## The whole stored piece, as a function of its index -/

/-- The `c`-th stored 128×128 piece as ONE function: entry `(p, d)` is entry `(pos (c, p) % 16, d)` of the table. -/
theorem onehot_piece_at (v0 : Vec Ideal S64x128 .i32) (v19 : FVec Ideal S16x128 .f32) (c : ℕ) (hc : c < 64)
    (hs : S128x64.Slices ![0, c] S128x1) (hrange : ∀ j, (v0 j).toNat ≤ 8191) :
    (matmul dot_S128x16_S16x128_S128x128_1_0_0_1_n_n none
        (sitofp .f32 (extui 32 (cmpf .oeq
          (broadcastTo S128x16 (extractStridedSlice S128x1 ![0, c] (k1_pay3 (F := Ideal) v0) hs) broadcasts_S128x1_S128x16)
          (broadcastTo S128x16 (k1_pay4 (F := Ideal)) broadcasts_S1x16_S128x16)) natLt_1_32))
        v19 (constant S128x128 .f32 0x00000000#32)
        : FVec Ideal S128x128 .f32)
      = fun i : S128x128.Idx =>
          v19 (ix2 (Cert.Proof.Spec.rowOf (v0 (ix2 (n0 := 64) (n1 := 128) ⟨c, hc⟩ (i 0)))) (i 1)) := by
  funext i
  obtain ⟨p, d, rfl⟩ : ∃ (p : Fin 128) (d : Fin 128), i = ix2 p d := ⟨i 0, i 1, eq_ix2 i⟩
  exact onehot_row_at v0 v19 c hc hs hrange p d

/-- The same with the transposed remainder matrix and the iota row bound to variables. -/
theorem onehot_piece_at' (v0 : Vec Ideal S64x128 .i32) (v16 : FVec Ideal S128x64 .f32) (v18 : FVec Ideal S1x16 .f32)
    (v19 : FVec Ideal S16x128 .f32) (h16 : v16 = k1_pay3 (F := Ideal) v0) (h18 : v18 = k1_pay4 (F := Ideal))
    (c : ℕ) (hc : c < 64) (hs : S128x64.Slices ![0, c] S128x1) (hrange : ∀ j, (v0 j).toNat ≤ 8191) :
    (matmul dot_S128x16_S16x128_S128x128_1_0_0_1_n_n none
        (sitofp .f32 (extui 32 (cmpf .oeq
          (broadcastTo S128x16 (extractStridedSlice S128x1 ![0, c] v16 hs) broadcasts_S128x1_S128x16)
          (broadcastTo S128x16 v18 broadcasts_S1x16_S128x16)) natLt_1_32))
        v19 (constant S128x128 .f32 0x00000000#32)
        : FVec Ideal S128x128 .f32)
      = fun i : S128x128.Idx =>
          v19 (ix2 (Cert.Proof.Spec.rowOf (v0 (ix2 (n0 := 64) (n1 := 128) ⟨c, hc⟩ (i 0)))) (i 1)) := by
  subst h16; subst h18
  exact onehot_piece_at v0 v19 c hc hs hrange

end Cert.Proof.TcMath

end
-- ==== Proof.BridgePieces.lean ====
/-
  Every stored piece of the TensorCore body is the lookup.  The `k`-th piece a grid point stores is the product of
  the one-hot matrix of column `k` of the transposed remainder matrix with the table; entry `(p, d)` of it is
  therefore entry `(pos (k, p) % 16, d)` of the table.  The 64 pieces are the same term at the 64 slice offsets.
-/
import proofs.«214958_g36086315221739_cont_8to1_b_1353_25_alg».proof.Proof.TcData
import proofs.«214958_g36086315221739_cont_8to1_b_1353_25_alg».proof.Proof.TcMath

noncomputable section

namespace Cert.Proof.Bridge

open Cert.KernelIdeal Cert.KernelIdeal.Gen Idealize.ShloMosaic Idealize.ShloMosaic.ValueIdx
open Cert.Proof.KI Cert.Proof.TcMath

/-- The `k`-th stored piece, `k < 64`, as one function of its index. -/
theorem pieceN_eq (k : ℕ) (hk : k < 64) (v0 : Vec Ideal S64x128 .i32) (v19 : Vec Ideal S16x128 .f32)
    (hrange : ∀ j, (v0 j).toNat ≤ 8191) :
    pieceN (F := Ideal) k v0 v19
      = fun i : S128x128.Idx =>
          v19 (ix2 (Cert.Proof.Spec.rowOf (v0 (ix2 (n0 := 64) (n1 := 128) ⟨k, hk⟩ (i 0)))) (i 1)) := by
  interval_cases k <;> exact onehot_piece_at v0 v19 _ _ (by decide) hrange

end Cert.Proof.Bridge

end
-- ==== Proof.BridgeTc.lean ====
/-
  The TensorCore call's result is the lookup read off the `[256, 128]` positions.  Output row `b` is local row
  `b % 128` of piece `(b % 8192) / 128` of the block computed from position rows `64 (b / 8192) ...`; that piece's
  entry is the table row selected by position `(64 (b / 8192) + (b % 8192) / 128, b % 128) = (b / 128, b % 128)`,
  which is flat position `b`.
-/
import proofs.«214958_g36086315221739_cont_8to1_b_1353_25_alg».proof.Proof.BridgePieces

noncomputable section

namespace Cert.Proof.Bridge

open Cert.KernelIdeal Cert.KernelIdeal.Gen Idealize.ShloMosaic Idealize.ShloMosaic.ValueIdx
open Cert.Proof.KI

/-- The TensorCore call's result, for positions in range, is `rows2` of the positions and the table. -/
theorem tcOut_eq (pos2 : Vec Ideal S256x128 .i32) (tab : Vec Ideal S16x128 .f32)
    (hrange : ∀ j, (pos2 j).toNat ≤ 8191) :
    Cert.Proof.KI.tcOut (F := Ideal) pos2 tab = Cert.Proof.Spec.rows2 pos2 tab := by
  funext i
  obtain ⟨b, dd, rfl⟩ : ∃ (b : Fin 32768) (dd : Fin 128), i = ix2 b dd := ⟨i 0, i 1, eq_ix2 i⟩
  have hb := b.isLt
  have hk : b.val % 8192 / 128 < 64 := by omega
  rw [tcOut_apply, Cert.Proof.Spec.rows2_apply,
    pieceN_eq (b.val % 8192 / 128) hk (posBlk ⟨b.val / 8192, by omega⟩ pos2) tab (fun j => hrange _)]
  show tab (ix2 (Cert.Proof.Spec.rowOf (pos2 (ix2 (n0 := 256) (n1 := 128)
      ⟨64 * (b.val / 8192) + b.val % 8192 / 128, by omega⟩ ⟨b.val % 128, Nat.mod_lt _ (by decide)⟩))) dd) = _
  have e : (⟨64 * (b.val / 8192) + b.val % 8192 / 128, by omega⟩ : Fin 256) = ⟨b.val / 128, by omega⟩ :=
    Fin.ext (by show 64 * (b.val / 8192) + b.val % 8192 / 128 = b.val / 128; omega)
  rw [e]
  rfl

end Cert.Proof.Bridge

end
-- ==== Proof.BridgeReshape.lean ====
/-
  The positions as the kernel's first host operation lays them out.  The `[4, 8192]` array reshaped to
  `[256, 128]` holds the same flat sequence: flat position `b` sits at `(b / 8192, b % 8192)` of the first and at
  `(b / 128, b % 128)` of the second, the same row-major number `b`.  So the lookup read off the reshape is the
  lookup, and a bound on every position is a bound on every entry of the reshape.
-/
import proofs.«214958_g36086315221739_cont_8to1_b_1353_25_alg».proof.Proof.Spec
import proofs.«214958_g36086315221739_cont_8to1_b_1353_25_alg».proof.KernelIdeal
import Idealize.ShloMosaic.Lib.Pipeline.Value

noncomputable section

namespace Cert.Proof.Bridge

open Idealize.ShloMosaic Idealize.ShloMosaic.ValueIdx

/-- Flat position `b` of the reshape is flat position `b` of the array. -/
theorem reshape_posIx2 {β : Type} (pos : Cert.KernelIdeal.S4x8192.Idx → β)
    (h : Cert.KernelIdeal.S4x8192.ShapeCasts Cert.KernelIdeal.S256x128) (b : Fin 32768) :
    shapeCast Cert.KernelIdeal.S256x128 pos h (Cert.Proof.Spec.posIx2 b) = pos (Cert.Proof.Spec.posIx b) := by
  have hb := b.isLt
  refine shapeCast_apply pos h (Cert.Proof.Spec.posIx2 b) (Cert.Proof.Spec.posIx b) ?_
  rw [Shape.rowMajor_val_two, Shape.rowMajor_val_two]
  show b.val / 8192 * 8192 + b.val % 8192 = b.val / 128 * 128 + b.val % 128
  omega

/-- The lookup read off the reshaped positions is the lookup. -/
theorem rows2_reshape {α : Type} (pos : Cert.KernelIdeal.S4x8192.Idx → BitVec 32) (tab : Cert.KernelIdeal.S16x128.Idx → α)
    (h : Cert.KernelIdeal.S4x8192.ShapeCasts Cert.KernelIdeal.S256x128) :
    Cert.Proof.Spec.rows2 (shapeCast Cert.KernelIdeal.S256x128 pos h) tab = Cert.Proof.Spec.rows pos tab := by
  funext i
  obtain ⟨b, dd, rfl⟩ : ∃ (b : Fin 32768) (dd : Fin 128), i = ix2 b dd := ⟨i 0, i 1, eq_ix2 i⟩
  rw [Cert.Proof.Spec.rows2_apply, Cert.Proof.Spec.rows_apply, reshape_posIx2]

/-- Every entry of the reshape is an entry of the array. -/
theorem reshape_entry {β : Type} (pos : Cert.KernelIdeal.S4x8192.Idx → β)
    (h : Cert.KernelIdeal.S4x8192.ShapeCasts Cert.KernelIdeal.S256x128) (j : Cert.KernelIdeal.S256x128.Idx) :
    ∃ k, shapeCast Cert.KernelIdeal.S256x128 pos h j = pos k :=
  ⟨Shape.reshapeEquiv h j, rfl⟩

/-- A bound on every position is a bound on every entry of the reshape. -/
theorem reshape_range (pos : Cert.KernelIdeal.S4x8192.Idx → BitVec 32)
    (h : Cert.KernelIdeal.S4x8192.ShapeCasts Cert.KernelIdeal.S256x128) (hr : ∀ j, (pos j).toNat ≤ 8191) :
    ∀ j, (shapeCast Cert.KernelIdeal.S256x128 pos h j).toNat ≤ 8191 :=
  fun j => hr (Shape.reshapeEquiv h j)

end Cert.Proof.Bridge

end
-- ==== Proof.BridgePre.lean ====
/-
  What the precondition says of the positions.  The input-domain predicate ends in the conjunct "every position
  `x` satisfies `0 ≤ x` and `x ≤ 8191`", both comparisons signed, reduced by `and` over the whole array.  The
  predicate being `1` therefore gives, for every position word, `0 ≤ x.toInt ≤ 8191`, hence `x.toNat ≤ 8191`.
  The conjunct is about integer words only: it holds at every float instance.
-/
import proofs.«214958_g36086315221739_cont_8to1_b_1353_25_alg».proof.Defs
import Idealize.ShloMosaic.Lib.ReduceAll
import Idealize.ShloMosaic.Lib.ValueIdx

noncomputable section

namespace Cert.Proof.Bridge

open Idealize.ShloMosaic Idealize.SL.Sem

/-- A word whose signed value lies in `[0, 8191]` has that unsigned value. -/
theorem toNat_le_of_toInt (x : BitVec 32) (h0 : (0 : ℤ) ≤ x.toInt) (h1 : x.toInt ≤ 8191) : x.toNat ≤ 8191 := by
  have e := BitVec.toInt_eq_toNat_cond x
  have hlt := x.isLt
  split at e <;> omega

/-- The predicate's last conjunct, read back at one position, at any float instance. -/
theorem range_of_fn {F : FTy → Type} [FloatOps F] [Cert.Pre_input_domain.Facts]
    (a0 : FVec F Cert.Pre_input_domain.S4x8192x2048 .f32) (a1 : IVec Cert.Pre_input_domain.S4x8192 32)
    (a2 a3 : FVec F Cert.Pre_input_domain.S16x128 .f32)
    (h : Cert.Pre_input_domain.fn (F := F) a0 a1 a2 a3 = fun _ => 1#1) :
    ∀ j : Cert.Pre_input_domain.S4x8192.Idx, (a1 j).toNat ≤ 8191 := by
  intro j
  haveI : Subsingleton Cert.Pre_input_domain.S_.Idx := ⟨fun a b => funext fun d => d.elim0⟩
  have h0 := congrFun h ValueIdx.ix0
  dsimp only [Cert.Pre_input_domain.fn, Cert.Pre_input_domain.fn_part1] at h0
  have h1 := (IntOp.andi_eq_one.1 h0).2
  have h2 := Host.reduce_andi_all _ _ _ _ _ h1 j
  obtain ⟨hge, hle⟩ := IntOp.andi_eq_one.1 h2
  have hge' : (0#32 : BitVec 32).toInt ≤ (a1 j).toInt := IntOp.cmpi_sge.1 hge
  have hle' : (a1 j).toInt ≤ (8191#32 : BitVec 32).toInt := IntOp.cmpi_sle.1 hle
  have z0 : (0#32 : BitVec 32).toInt = 0 := by decide
  have z1 : (8191#32 : BitVec 32).toInt = 8191 := by decide
  rw [z0] at hge'
  rw [z1] at hle'
  exact toNat_le_of_toInt _ hge' hle'

/-- Under the kernel's precondition every position of every device's argument lies in `[0, 8191]`. -/
theorem pre_range [Cert.KernelIdeal.Facts] [Cert.Pre_input_domain.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ j : Cert.KernelIdeal.S4x8192.Idx,
      ((m ((c.tc : Thread Cert.KernelIdeal.nD Cert.KernelIdeal.τ).loc Cert.KernelIdeal.main_arg1)
          : IVec Cert.KernelIdeal.S4x8192 32) j).toNat ≤ 8191 :=
  range_of_fn (F := Ideal) _ _ _ _ (h c)

end Cert.Proof.Bridge

end
-- ==== Proof.BridgeAll.lean ====
/-
  The three facts composed: for positions in range, the TensorCore call's result computed from the reshaped
  positions is the lookup `rows` of the positions as given; and under the kernel's precondition the positions of
  every device are in range.
-/
import proofs.«214958_g36086315221739_cont_8to1_b_1353_25_alg».proof.Proof.BridgeTc
import proofs.«214958_g36086315221739_cont_8to1_b_1353_25_alg».proof.Proof.BridgeReshape
import proofs.«214958_g36086315221739_cont_8to1_b_1353_25_alg».proof.Proof.BridgePre

noncomputable section

namespace Cert.Proof.Bridge

open Cert.KernelIdeal Idealize.ShloMosaic Idealize.ShloMosaic.ValueIdx Idealize.SL.Sem

/-- The TensorCore call's result from the reshaped positions is `rows` of the positions. -/
theorem tcOut_rows (pos : Vec Ideal S4x8192 .i32) (tab : Vec Ideal S16x128 .f32) (h : S4x8192.ShapeCasts S256x128)
    (hr : ∀ j, (pos j).toNat ≤ 8191) :
    Cert.Proof.KI.tcOut (F := Ideal) (shapeCast S256x128 pos h) tab = Cert.Proof.Spec.rows pos tab :=
  (tcOut_eq (shapeCast S256x128 pos h) tab (reshape_range pos h hr)).trans (rows2_reshape pos tab h)

/-- The same under the kernel's precondition, at a device's position argument. -/
theorem tcOut_rows_pre [Cert.KernelIdeal.Facts] [Cert.Pre_input_domain.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (tab : Vec Ideal S16x128 .f32)
    (h : S4x8192.ShapeCasts S256x128) :
    Cert.Proof.KI.tcOut (F := Ideal)
        (shapeCast S256x128 (m ((c.tc : Thread Cert.KernelIdeal.nD Cert.KernelIdeal.τ).loc Cert.KernelIdeal.main_arg1)
          : Vec Ideal S4x8192 .i32) h) tab
      = Cert.Proof.Spec.rows (m ((c.tc : Thread Cert.KernelIdeal.nD Cert.KernelIdeal.τ).loc Cert.KernelIdeal.main_arg1)
          : Vec Ideal S4x8192 .i32) tab :=
  tcOut_rows _ tab h (pre_range m hpre c)

end Cert.Proof.Bridge

end
-- ==== Proof.RefStage.lean ====
/-
  The reference's two stages as functions of arrays, each written with the program's own operations in the
  program's own order, so that the run's result is these functions of the arguments by unfolding alone.

  `remStage p` is `jnp.remainder(p, 16)` on the 32768 flat positions: the divisor `d` is 16 unless it is 0 (then 1),
  `r` is the truncated remainder of the position by `d`, and `d` is added back where `r` is nonzero and its sign differs
  from the divisor's.  `takeStage tab idx` is `jnp.take(tab, idx, axis = 0, mode = "fill")`: a negative index has 16
  added, the index is tested against `[0, 15]`, one table row is gathered per index (the start index clamped into
  the table), and a row whose index failed the test is replaced by the fill value.
-/
import proofs.«214958_g36086315221739_cont_8to1_b_1353_25_alg».proof.ReferenceIdeal

noncomputable section

namespace Cert.Proof.Ref

open Cert.ReferenceIdeal Idealize.ShloMosaic

variable {F : FTy → Type} [FloatOps F] [Cert.ReferenceIdeal.Facts]
open Cert.ReferenceIdeal.Facts₀

/-- The flat positions: the `[4, 8192]` array read row-major as `[32768]`. -/
def flatStage (pos : IVec S4x8192 32) : IVec S32768 32 :=
  shapeCast S32768 pos shapeCasts_S4x8192_S32768

/-- `jnp.remainder(p, 16)`, operation by operation. -/
def remStage (p : IVec S32768 32) : IVec S32768 32 :=
  let c : IVec S_ 32 := constantI S_ 32 16#32
  let v0 : IVec S_ 32 := id c
  let c0 : IVec S_ 32 := constantI S_ 32 0#32
  let v1 : IVec S_ 1 := cmpi .eq v0 c0
  let c_0 : IVec S_ 32 := constantI S_ 32 1#32
  let v2 : IVec S_ 32 := select v1 c_0 v0
  let v3 : IVec S32768 32 := broadcastInDim S32768 ![] bcast_S_S32768 v2
  let v4 : IVec S32768 32 := Host.remsi p v3
  let c_1 : IVec S_ 32 := constantI S_ 32 0#32
  let v5 : IVec S32768 32 := broadcastInDim S32768 ![] bcast_S_S32768 c_1
  let v6 : IVec S32768 1 := cmpi .ne v4 v5
  let c_2 : IVec S_ 32 := constantI S_ 32 0#32
  let v7 : IVec S32768 32 := broadcastInDim S32768 ![] bcast_S_S32768 c_2
  let v8 : IVec S32768 1 := cmpi .slt v4 v7
  let c_3 : IVec S_ 32 := constantI S_ 32 0#32
  let v9 : IVec S_ 1 := cmpi .slt v2 c_3
  let v10 : IVec S32768 1 := broadcastInDim S32768 ![] bcast_S_S32768 v9
  let v11 : IVec S32768 1 := cmpi .ne v8 v10
  let v12 : IVec S32768 1 := andi v11 v6
  let v13 : IVec S32768 32 := broadcastInDim S32768 ![] bcast_S_S32768 v2
  let v14 : IVec S32768 32 := addi v4 v13
  select v12 v14 v4

/-- `jnp.take(tab, idx, axis = 0, mode = "fill")`, operation by operation. -/
def takeStage (tab : FVec F S16x128 .f32) (idx : IVec S32768 32) : FVec F S32768x128 .f32 :=
  let c : IVec S_ 32 := constantI S_ 32 0#32
  let v0 : IVec S32768 32 := broadcastInDim S32768 ![] bcast_S_S32768 c
  let v1 : IVec S32768 1 := cmpi .slt idx v0
  let c_0 : IVec S_ 32 := constantI S_ 32 16#32
  let v2 : IVec S32768 32 := broadcastInDim S32768 ![] bcast_S_S32768 c_0
  let v3 : IVec S32768 32 := addi idx v2
  let v4 : IVec S32768 32 := select v1 v3 idx
  let v5 : IVec S32768x1 32 := broadcastInDim S32768x1 ![0] bcast_S32768_S32768x1_0 v4
  let c_1 : IVec S1 32 := constantI S1 32 15#32
  let c_2 : IVec S_ 32 := constantI S_ 32 0#32
  let v6 : IVec S32768x1 32 := broadcastInDim S32768x1 ![] bcast_S_S32768x1 c_2
  let v7 : IVec S32768x1 1 := cmpi .sge v5 v6
  let v8 : IVec S1x1 32 := broadcastInDim S1x1 ![1] bcast_S1_S1x1_1 c_1
  let v9 : IVec S32768x1 32 := broadcastInDim S32768x1 ![0, 1] bcast_S1x1_S32768x1_0_1 v8
  let v10 : IVec S32768x1 1 := cmpi .sle v5 v9
  let v11 : IVec S32768x1 1 := andi v7 v10
  let c_3 : IVec S_ 1 := constantI S_ 1 1#1
  let v12 : IVec S32768 1 := Host.reduce IntOp.andi v11 c_3 reducesTo_S32768x1_S32768_d1 h_S_
  let v13 : FVec F S32768x128 .f32 := Host.gather gather_S16x128_S32768x1_S32768x128_1_0_n_n_0_1_1128 tab v5
  let v14 : IVec S32768x128 1 := broadcastInDim S32768x128 ![0] bcast_S32768_S32768x128_0 v12
  let cst : FVec F S_ .f32 := constant S_ .f32 0x7FC00000#32
  let v15 : FVec F S32768x128 .f32 := broadcastInDim S32768x128 ![] bcast_S_S32768x128 cst
  select v14 v13 v15

end Cert.Proof.Ref

end
-- ==== Proof.RefOps.lean ====
/-
  The reference's @main as a straight line.  Once the four outlined functions are unfolded at their call sites it is
  sixty-nine host operations: the reshape of the positions and the constant 16; the twenty-one operations of
  `remainder` (its one `_where` among them); and, twice, the twenty-three operations of `_take` (its one `_where_0`
  among them), once per table.  Here: the list, that @main is its sequence, that it touches TensorCore buffers only
  and nothing scoped, and which buffers each stretch leaves as it found them.
-/
import proofs.«214958_g36086315221739_cont_8to1_b_1353_25_alg».proof.Proof.RefStage
import Idealize.ShloMosaic.Lib.StableHlo.Run

noncomputable section

namespace Cert.Proof.Ref

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀

/-- The twenty-three operations of one `_take` call over its buffer record: table `tab`, indices `ix`. -/
abbrev takeOps (tab : TRef sig ⟨S16x128, .f32⟩) (ix : TRef sig ⟨S32768, .i32⟩) (φ : fn_take.Bufs) : List (HloOp τ sig (Elt F)) :=
  [ TRef.nullary φ.c (constantI S_ 32 0#32),
    TRef.unary φ.c φ.v0 (broadcastInDim S32768 ![] bcast_S_S32768),
    TRef.binary ix φ.v0 φ.v1 (cmpi .slt),
    TRef.nullary φ.c_0 (constantI S_ 32 16#32),
    TRef.unary φ.c_0 φ.v2 (broadcastInDim S32768 ![] bcast_S_S32768),
    TRef.binary ix φ.v2 φ.v3 addi,
    TRef.ternary φ.v1 φ.v3 ix φ.call0.v0 select,
    TRef.unary φ.call0.v0 φ.v5 (broadcastInDim S32768x1 ![0] bcast_S32768_S32768x1_0),
    TRef.nullary φ.c_1 (constantI S1 32 15#32),
    TRef.nullary φ.c_2 (constantI S_ 32 0#32),
    TRef.unary φ.c_2 φ.v6 (broadcastInDim S32768x1 ![] bcast_S_S32768x1),
    TRef.binary φ.v5 φ.v6 φ.v7 (cmpi .sge),
    TRef.unary φ.c_1 φ.v8 (broadcastInDim S1x1 ![1] bcast_S1_S1x1_1),
    TRef.unary φ.v8 φ.v9 (broadcastInDim S32768x1 ![0, 1] bcast_S1x1_S32768x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S32768x1_S32768_d1 h_S_),
    TRef.binary tab φ.v5 φ.v13 (fun x i => Host.gather gather_S16x128_S32768x1_S32768x128_1_0_n_n_0_1_1128 x i),
    TRef.unary φ.v12 φ.v14 (broadcastInDim S32768x128 ![0] bcast_S32768_S32768x128_0),
    TRef.nullary φ.cst (constant S_ .f32 0x7FC00000#32),
    TRef.unary φ.cst φ.v15 (broadcastInDim S32768x128 ![] bcast_S_S32768x128),
    TRef.ternary φ.v14 φ.v13 φ.v15 φ.v16 select ]

/-- The reshape of the positions and the constant 16. -/
abbrev headOps : List (HloOp τ sig (Elt F)) :=
  [ reshape main_arg1 main_v0 rfl shapeCasts_S4x8192_S32768,
    nullary main_c (constantI S_ 32 16#32) ]

/-- The twenty-one operations of `remainder` over `main_call0`. -/
abbrev remBodyOps : List (HloOp τ sig (Elt F)) :=
  [ TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S32768 ![] bcast_S_S32768),
    TRef.binary (.of main_v0 : TRef sig ⟨S32768, .i32⟩) main_call0.v3 main_call0.v4 Host.remsi,
    TRef.nullary main_call0.c_1 (constantI S_ 32 0#32),
    TRef.unary main_call0.c_1 main_call0.v5 (broadcastInDim S32768 ![] bcast_S_S32768),
    TRef.binary main_call0.v4 main_call0.v5 main_call0.v6 (cmpi .ne),
    TRef.nullary main_call0.c_2 (constantI S_ 32 0#32),
    TRef.unary main_call0.c_2 main_call0.v7 (broadcastInDim S32768 ![] bcast_S_S32768),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S32768 ![] bcast_S_S32768),
    TRef.binary main_call0.v8 main_call0.v10 main_call0.v11 (cmpi .ne),
    TRef.binary main_call0.v11 main_call0.v6 main_call0.v12 andi,
    TRef.unary main_call0.call0.v0 main_call0.v13 (broadcastInDim S32768 ![] bcast_S_S32768),
    TRef.binary main_call0.v4 main_call0.v13 main_call0.v14 addi,
    TRef.ternary main_call0.v12 main_call0.v14 main_call0.v4 main_call0.v15 select ]

/-- The reshape, the constant 16, and `remainder`: the first twenty-three operations. -/
abbrev remOps : List (HloOp τ sig (Elt F)) :=
  [ reshape main_arg1 main_v0 rfl shapeCasts_S4x8192_S32768,
    nullary main_c (constantI S_ 32 16#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S32768 ![] bcast_S_S32768),
    TRef.binary (.of main_v0 : TRef sig ⟨S32768, .i32⟩) main_call0.v3 main_call0.v4 Host.remsi,
    TRef.nullary main_call0.c_1 (constantI S_ 32 0#32),
    TRef.unary main_call0.c_1 main_call0.v5 (broadcastInDim S32768 ![] bcast_S_S32768),
    TRef.binary main_call0.v4 main_call0.v5 main_call0.v6 (cmpi .ne),
    TRef.nullary main_call0.c_2 (constantI S_ 32 0#32),
    TRef.unary main_call0.c_2 main_call0.v7 (broadcastInDim S32768 ![] bcast_S_S32768),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S32768 ![] bcast_S_S32768),
    TRef.binary main_call0.v8 main_call0.v10 main_call0.v11 (cmpi .ne),
    TRef.binary main_call0.v11 main_call0.v6 main_call0.v12 andi,
    TRef.unary main_call0.call0.v0 main_call0.v13 (broadcastInDim S32768 ![] bcast_S_S32768),
    TRef.binary main_call0.v4 main_call0.v13 main_call0.v14 addi,
    TRef.ternary main_call0.v12 main_call0.v14 main_call0.v4 main_call0.v15 select ]

/-- The first `_take`: the table is the third argument. -/
abbrev take1 : List (HloOp τ sig (Elt F)) :=
  [ TRef.nullary main_call1.c (constantI S_ 32 0#32),
    TRef.unary main_call1.c main_call1.v0 (broadcastInDim S32768 ![] bcast_S_S32768),
    TRef.binary (.of main_v1 : TRef sig ⟨S32768, .i32⟩) main_call1.v0 main_call1.v1 (cmpi .slt),
    TRef.nullary main_call1.c_0 (constantI S_ 32 16#32),
    TRef.unary main_call1.c_0 main_call1.v2 (broadcastInDim S32768 ![] bcast_S_S32768),
    TRef.binary (.of main_v1 : TRef sig ⟨S32768, .i32⟩) main_call1.v2 main_call1.v3 addi,
    TRef.ternary main_call1.v1 main_call1.v3 (.of main_v1 : TRef sig ⟨S32768, .i32⟩) main_call1.call0.v0 select,
    TRef.unary main_call1.call0.v0 main_call1.v5 (broadcastInDim S32768x1 ![0] bcast_S32768_S32768x1_0),
    TRef.nullary main_call1.c_1 (constantI S1 32 15#32),
    TRef.nullary main_call1.c_2 (constantI S_ 32 0#32),
    TRef.unary main_call1.c_2 main_call1.v6 (broadcastInDim S32768x1 ![] bcast_S_S32768x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32768x1 ![0, 1] bcast_S1x1_S32768x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32768x1_S32768_d1 h_S_),
    TRef.binary (.of main_arg2 : TRef sig ⟨S16x128, .f32⟩) main_call1.v5 main_call1.v13 (fun x i => Host.gather gather_S16x128_S32768x1_S32768x128_1_0_n_n_0_1_1128 x i),
    TRef.unary main_call1.v12 main_call1.v14 (broadcastInDim S32768x128 ![0] bcast_S32768_S32768x128_0),
    TRef.nullary main_call1.cst (constant S_ .f32 0x7FC00000#32),
    TRef.unary main_call1.cst main_call1.v15 (broadcastInDim S32768x128 ![] bcast_S_S32768x128),
    TRef.ternary main_call1.v14 main_call1.v13 main_call1.v15 main_call1.v16 select ]
/-- The second `_take`: the table is the fourth argument. -/
abbrev take2 : List (HloOp τ sig (Elt F)) :=
  [ TRef.nullary main_call2.c (constantI S_ 32 0#32),
    TRef.unary main_call2.c main_call2.v0 (broadcastInDim S32768 ![] bcast_S_S32768),
    TRef.binary (.of main_v1 : TRef sig ⟨S32768, .i32⟩) main_call2.v0 main_call2.v1 (cmpi .slt),
    TRef.nullary main_call2.c_0 (constantI S_ 32 16#32),
    TRef.unary main_call2.c_0 main_call2.v2 (broadcastInDim S32768 ![] bcast_S_S32768),
    TRef.binary (.of main_v1 : TRef sig ⟨S32768, .i32⟩) main_call2.v2 main_call2.v3 addi,
    TRef.ternary main_call2.v1 main_call2.v3 (.of main_v1 : TRef sig ⟨S32768, .i32⟩) main_call2.call0.v0 select,
    TRef.unary main_call2.call0.v0 main_call2.v5 (broadcastInDim S32768x1 ![0] bcast_S32768_S32768x1_0),
    TRef.nullary main_call2.c_1 (constantI S1 32 15#32),
    TRef.nullary main_call2.c_2 (constantI S_ 32 0#32),
    TRef.unary main_call2.c_2 main_call2.v6 (broadcastInDim S32768x1 ![] bcast_S_S32768x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S32768x1 ![0, 1] bcast_S1x1_S32768x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S32768x1_S32768_d1 h_S_),
    TRef.binary (.of main_arg3 : TRef sig ⟨S16x128, .f32⟩) main_call2.v5 main_call2.v13 (fun x i => Host.gather gather_S16x128_S32768x1_S32768x128_1_0_n_n_0_1_1128 x i),
    TRef.unary main_call2.v12 main_call2.v14 (broadcastInDim S32768x128 ![0] bcast_S32768_S32768x128_0),
    TRef.nullary main_call2.cst (constant S_ .f32 0x7FC00000#32),
    TRef.unary main_call2.cst main_call2.v15 (broadcastInDim S32768x128 ![] bcast_S_S32768x128),
    TRef.ternary main_call2.v14 main_call2.v13 main_call2.v15 main_call2.v16 select ]
theorem take1_eq : (take1 : List (HloOp τ sig (Elt F))) = takeOps (.of main_arg2 : TRef sig ⟨S16x128, .f32⟩) (.of main_v1 : TRef sig ⟨S32768, .i32⟩) main_call1 := rfl
theorem take2_eq : (take2 : List (HloOp τ sig (Elt F))) = takeOps (.of main_arg3 : TRef sig ⟨S16x128, .f32⟩) (.of main_v1 : TRef sig ⟨S32768, .i32⟩) main_call2 := rfl

/-- @main's sixty-nine operations, in order. -/
abbrev ops : List (HloOp τ sig (Elt F)) :=
  [ reshape main_arg1 main_v0 rfl shapeCasts_S4x8192_S32768,
    nullary main_c (constantI S_ 32 16#32),
    TRef.unary (.of main_c : TRef sig ⟨S_, .i32⟩) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S32768 ![] bcast_S_S32768),
    TRef.binary (.of main_v0 : TRef sig ⟨S32768, .i32⟩) main_call0.v3 main_call0.v4 Host.remsi,
    TRef.nullary main_call0.c_1 (constantI S_ 32 0#32),
    TRef.unary main_call0.c_1 main_call0.v5 (broadcastInDim S32768 ![] bcast_S_S32768),
    TRef.binary main_call0.v4 main_call0.v5 main_call0.v6 (cmpi .ne),
    TRef.nullary main_call0.c_2 (constantI S_ 32 0#32),
    TRef.unary main_call0.c_2 main_call0.v7 (broadcastInDim S32768 ![] bcast_S_S32768),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S32768 ![] bcast_S_S32768),
    TRef.binary main_call0.v8 main_call0.v10 main_call0.v11 (cmpi .ne),
    TRef.binary main_call0.v11 main_call0.v6 main_call0.v12 andi,
    TRef.unary main_call0.call0.v0 main_call0.v13 (broadcastInDim S32768 ![] bcast_S_S32768),
    TRef.binary main_call0.v4 main_call0.v13 main_call0.v14 addi,
    TRef.ternary main_call0.v12 main_call0.v14 main_call0.v4 main_call0.v15 select,
    TRef.nullary main_call1.c (constantI S_ 32 0#32),
    TRef.unary main_call1.c main_call1.v0 (broadcastInDim S32768 ![] bcast_S_S32768),
    TRef.binary (.of main_v1 : TRef sig ⟨S32768, .i32⟩) main_call1.v0 main_call1.v1 (cmpi .slt),
    TRef.nullary main_call1.c_0 (constantI S_ 32 16#32),
    TRef.unary main_call1.c_0 main_call1.v2 (broadcastInDim S32768 ![] bcast_S_S32768),
    TRef.binary (.of main_v1 : TRef sig ⟨S32768, .i32⟩) main_call1.v2 main_call1.v3 addi,
    TRef.ternary main_call1.v1 main_call1.v3 (.of main_v1 : TRef sig ⟨S32768, .i32⟩) main_call1.call0.v0 select,
    TRef.unary main_call1.call0.v0 main_call1.v5 (broadcastInDim S32768x1 ![0] bcast_S32768_S32768x1_0),
    TRef.nullary main_call1.c_1 (constantI S1 32 15#32),
    TRef.nullary main_call1.c_2 (constantI S_ 32 0#32),
    TRef.unary main_call1.c_2 main_call1.v6 (broadcastInDim S32768x1 ![] bcast_S_S32768x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S32768x1 ![0, 1] bcast_S1x1_S32768x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32768x1_S32768_d1 h_S_),
    TRef.binary (.of main_arg2 : TRef sig ⟨S16x128, .f32⟩) main_call1.v5 main_call1.v13 (fun x i => Host.gather gather_S16x128_S32768x1_S32768x128_1_0_n_n_0_1_1128 x i),
    TRef.unary main_call1.v12 main_call1.v14 (broadcastInDim S32768x128 ![0] bcast_S32768_S32768x128_0),
    TRef.nullary main_call1.cst (constant S_ .f32 0x7FC00000#32),
    TRef.unary main_call1.cst main_call1.v15 (broadcastInDim S32768x128 ![] bcast_S_S32768x128),
    TRef.ternary main_call1.v14 main_call1.v13 main_call1.v15 main_call1.v16 select,
    TRef.nullary main_call2.c (constantI S_ 32 0#32),
    TRef.unary main_call2.c main_call2.v0 (broadcastInDim S32768 ![] bcast_S_S32768),
    TRef.binary (.of main_v1 : TRef sig ⟨S32768, .i32⟩) main_call2.v0 main_call2.v1 (cmpi .slt),
    TRef.nullary main_call2.c_0 (constantI S_ 32 16#32),
    TRef.unary main_call2.c_0 main_call2.v2 (broadcastInDim S32768 ![] bcast_S_S32768),
    TRef.binary (.of main_v1 : TRef sig ⟨S32768, .i32⟩) main_call2.v2 main_call2.v3 addi,
    TRef.ternary main_call2.v1 main_call2.v3 (.of main_v1 : TRef sig ⟨S32768, .i32⟩) main_call2.call0.v0 select,
    TRef.unary main_call2.call0.v0 main_call2.v5 (broadcastInDim S32768x1 ![0] bcast_S32768_S32768x1_0),
    TRef.nullary main_call2.c_1 (constantI S1 32 15#32),
    TRef.nullary main_call2.c_2 (constantI S_ 32 0#32),
    TRef.unary main_call2.c_2 main_call2.v6 (broadcastInDim S32768x1 ![] bcast_S_S32768x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S32768x1 ![0, 1] bcast_S1x1_S32768x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S32768x1_S32768_d1 h_S_),
    TRef.binary (.of main_arg3 : TRef sig ⟨S16x128, .f32⟩) main_call2.v5 main_call2.v13 (fun x i => Host.gather gather_S16x128_S32768x1_S32768x128_1_0_n_n_0_1_1128 x i),
    TRef.unary main_call2.v12 main_call2.v14 (broadcastInDim S32768x128 ![0] bcast_S32768_S32768x128_0),
    TRef.nullary main_call2.cst (constant S_ .f32 0x7FC00000#32),
    TRef.unary main_call2.cst main_call2.v15 (broadcastInDim S32768x128 ![] bcast_S_S32768x128),
    TRef.ternary main_call2.v14 main_call2.v13 main_call2.v15 main_call2.v16 select ]

/-- The line is its stretches, one after the other. -/
theorem ops_eq : (ops : List (HloOp τ sig (Elt F))) = headOps ++ (remBodyOps ++ (take1 ++ take2)) := rfl
theorem ops_eq' : (ops : List (HloOp τ sig (Elt F))) = remOps ++ (take1 ++ take2) := rfl

/-- One `_take` call is the straight line of its operations, `_where_0` unfolded at its call. -/
theorem take_body_eq (tab : TRef sig ⟨S16x128, .f32⟩) (ix : TRef sig ⟨S32768, .i32⟩) (φ : fn_take.Bufs) :
    fn_take.body (F := F) tab ix φ = seq (takeOps tab ix φ) := by
  simp only [fn_take.body, fn_where_0.body, seq, bind_assoc, pure_bind]

/-- The `remainder` call is the straight line of its operations, `_where` unfolded at its call. -/
theorem rem_body_eq :
    fn_remainder.body (F := F) (.of main_v0) (.of main_c) main_call0 = seq remBodyOps := by
  simp only [fn_remainder.body, fn_where.body, seq, bind_assoc, pure_bind]

/-- @main is that straight line. -/
theorem main_eq (c : Dev nD) : main (F := F) c = seq ops := by
  have e : ∀ x : Prog (TpuEff nD τ sig (Elt F) (Pipeline.Sig Λ₀ (Fin 0) fun p => (pcfgs (F := F) p).Adm) .tc) PUnit,
      (x >>= fun _ => pure ⟨⟩) = x := fun x => bind_pure x
  rw [ops_eq, seq_append, seq_append, seq_append, take1_eq, take2_eq, ← take_body_eq, ← take_body_eq, ← rem_body_eq]
  simp only [main, seq, bind_assoc, pure_bind, e]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The fold of two stretches is the fold of the second over the fold of the first. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-! ### What each stretch leaves unchanged: it writes none of these buffers -/

theorem remOps_main_arg0 (W : Valuation τ sig (Elt F)) :
    after (remOps : List (HloOp τ sig (Elt F))) W (main_arg0 : DevRef τ sig) = W (main_arg0 : DevRef τ sig) := by
  after_results_simp
theorem remOps_main_arg1 (W : Valuation τ sig (Elt F)) :
    after (remOps : List (HloOp τ sig (Elt F))) W (main_arg1 : DevRef τ sig) = W (main_arg1 : DevRef τ sig) := by
  after_results_simp
theorem remOps_main_arg2 (W : Valuation τ sig (Elt F)) :
    after (remOps : List (HloOp τ sig (Elt F))) W (main_arg2 : DevRef τ sig) = W (main_arg2 : DevRef τ sig) := by
  after_results_simp
theorem remOps_main_arg3 (W : Valuation τ sig (Elt F)) :
    after (remOps : List (HloOp τ sig (Elt F))) W (main_arg3 : DevRef τ sig) = W (main_arg3 : DevRef τ sig) := by
  after_results_simp
theorem take1_main_arg0 (W : Valuation τ sig (Elt F)) :
    after (take1 : List (HloOp τ sig (Elt F))) W (main_arg0 : DevRef τ sig) = W (main_arg0 : DevRef τ sig) := by
  after_results_simp
theorem take1_main_arg1 (W : Valuation τ sig (Elt F)) :
    after (take1 : List (HloOp τ sig (Elt F))) W (main_arg1 : DevRef τ sig) = W (main_arg1 : DevRef τ sig) := by
  after_results_simp
theorem take1_main_arg2 (W : Valuation τ sig (Elt F)) :
    after (take1 : List (HloOp τ sig (Elt F))) W (main_arg2 : DevRef τ sig) = W (main_arg2 : DevRef τ sig) := by
  after_results_simp
theorem take1_main_arg3 (W : Valuation τ sig (Elt F)) :
    after (take1 : List (HloOp τ sig (Elt F))) W (main_arg3 : DevRef τ sig) = W (main_arg3 : DevRef τ sig) := by
  after_results_simp
theorem take1_main_v1 (W : Valuation τ sig (Elt F)) :
    after (take1 : List (HloOp τ sig (Elt F))) W (main_v1 : DevRef τ sig) = W (main_v1 : DevRef τ sig) := by
  after_results_simp
theorem take2_main_arg0 (W : Valuation τ sig (Elt F)) :
    after (take2 : List (HloOp τ sig (Elt F))) W (main_arg0 : DevRef τ sig) = W (main_arg0 : DevRef τ sig) := by
  after_results_simp
theorem take2_main_arg1 (W : Valuation τ sig (Elt F)) :
    after (take2 : List (HloOp τ sig (Elt F))) W (main_arg1 : DevRef τ sig) = W (main_arg1 : DevRef τ sig) := by
  after_results_simp
theorem take2_main_arg2 (W : Valuation τ sig (Elt F)) :
    after (take2 : List (HloOp τ sig (Elt F))) W (main_arg2 : DevRef τ sig) = W (main_arg2 : DevRef τ sig) := by
  after_results_simp
theorem take2_main_arg3 (W : Valuation τ sig (Elt F)) :
    after (take2 : List (HloOp τ sig (Elt F))) W (main_arg3 : DevRef τ sig) = W (main_arg3 : DevRef τ sig) := by
  after_results_simp
theorem take2_main_v2 (W : Valuation τ sig (Elt F)) :
    after (take2 : List (HloOp τ sig (Elt F))) W (main_v2 : DevRef τ sig) = W (main_v2 : DevRef τ sig) := by
  after_results_simp

end Cert.Proof.Ref

end
-- ==== Proof.RefFoldRem.lean ====
/-
  The first stretch of the reference's line read at the index buffer: after the reshape, the constant 16 and
  `remainder`'s twenty-one operations it holds `remainder` of the flat positions by 16, a function of the second
  argument's launch contents alone.
-/
import proofs.«214958_g36086315221739_cont_8to1_b_1353_25_alg».proof.Proof.RefOps

noncomputable section

namespace Cert.Proof.Ref

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀

-- the fold unrolled, each operation's result decides whether the buffer read is the one it writes, and the typed
-- references' casts are the identity at literal references: all by computation; the reduction and the gather stay folded
attribute [local irreducible] Host.reduce Host.gather in
set_option maxHeartbeats 4000000 in
/-- After the first stretch the index buffer holds `remainder` of the flat positions by 16. -/
theorem remOps_v1 (W : Valuation τ sig (Elt F)) :
    after (remOps : List (HloOp τ sig (Elt F))) W (main_v1 : DevRef τ sig)
      = remStage (flatStage (W (main_arg1 : DevRef τ sig))) := by
  simp only [after_cons, after_nil]
  rfl

end Cert.Proof.Ref

end
-- ==== Proof.RefFoldTake1.lean ====
/-
  The first `_take` stretch read at the first result buffer: its twenty-three operations leave there the lookup
  `jnp.take` makes of the third argument's contents at the index buffer's contents.
-/
import proofs.«214958_g36086315221739_cont_8to1_b_1353_25_alg».proof.Proof.RefOps

noncomputable section

namespace Cert.Proof.Ref

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀

-- the fold unrolled, each operation's result decides whether the buffer read is the one it writes, and the typed
-- references' casts are the identity at literal references: all by computation; the reduction and the gather stay folded
attribute [local irreducible] Host.reduce Host.gather in
set_option maxHeartbeats 4000000 in
/-- After the first `_take` the first result holds the third argument's rows at the index buffer. -/
theorem take1_v2 (W : Valuation τ sig (Elt F)) :
    after (take1 : List (HloOp τ sig (Elt F))) W (main_v2 : DevRef τ sig)
      = takeStage (W (main_arg2 : DevRef τ sig)) (W (main_v1 : DevRef τ sig)) := by
  simp only [after_cons, after_nil]
  rfl

end Cert.Proof.Ref

end
-- ==== Proof.RefFoldTake2.lean ====
/-
  The second `_take` stretch read at the second result buffer: its twenty-three operations leave there the lookup
  `jnp.take` makes of the fourth argument's contents at the index buffer's contents.
-/
import proofs.«214958_g36086315221739_cont_8to1_b_1353_25_alg».proof.Proof.RefOps

noncomputable section

namespace Cert.Proof.Ref

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀

-- the fold unrolled, each operation's result decides whether the buffer read is the one it writes, and the typed
-- references' casts are the identity at literal references: all by computation; the reduction and the gather stay folded
attribute [local irreducible] Host.reduce Host.gather in
set_option maxHeartbeats 4000000 in
/-- After the second `_take` the second result holds the fourth argument's rows at the index buffer. -/
theorem take2_v3 (W : Valuation τ sig (Elt F)) :
    after (take2 : List (HloOp τ sig (Elt F))) W (main_v3 : DevRef τ sig)
      = takeStage (W (main_arg3 : DevRef τ sig)) (W (main_v1 : DevRef τ sig)) := by
  simp only [after_cons, after_nil]
  rfl

end Cert.Proof.Ref

end
-- ==== Proof.RefRun.lean ====
/-
  The reference's run.  The line of sixty-nine operations is three stretches; the fold over the whole line at a
  buffer is the folds of the stretches composed.  The index buffer is written by the first stretch only and the two
  tables by none, so the first result is `jnp.take` of the third argument at `remainder` of the flat positions by 16,
  the second the same of the fourth argument, and the four arguments end as they began.  Every weakly fair
  execution of @main terminates in such a state.
-/
import proofs.«214958_g36086315221739_cont_8to1_b_1353_25_alg».proof.Proof.RefFoldRem
import proofs.«214958_g36086315221739_cont_8to1_b_1353_25_alg».proof.Proof.RefFoldTake1
import proofs.«214958_g36086315221739_cont_8to1_b_1353_25_alg».proof.Proof.RefFoldTake2

noncomputable section

namespace Cert.Proof.Ref

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀

theorem ops_v2 (V : Valuation τ sig (Elt F)) :
    after (ops : List (HloOp τ sig (Elt F))) V (main_v2 : DevRef τ sig)
      = takeStage (V (main_arg2 : DevRef τ sig)) (remStage (flatStage (V (main_arg1 : DevRef τ sig)))) := by
  rw [ops_eq', after_append, after_append, take2_main_v2, take1_v2, remOps_main_arg2, remOps_v1]

theorem ops_v3 (V : Valuation τ sig (Elt F)) :
    after (ops : List (HloOp τ sig (Elt F))) V (main_v3 : DevRef τ sig)
      = takeStage (V (main_arg3 : DevRef τ sig)) (remStage (flatStage (V (main_arg1 : DevRef τ sig)))) := by
  rw [ops_eq', after_append, after_append, take2_v3, take1_main_arg3, take1_main_v1, remOps_main_arg3, remOps_v1]
theorem ops_main_arg0 (V : Valuation τ sig (Elt F)) :
    after (ops : List (HloOp τ sig (Elt F))) V (main_arg0 : DevRef τ sig) = V (main_arg0 : DevRef τ sig) := by
  rw [ops_eq', after_append, after_append, take2_main_arg0, take1_main_arg0, remOps_main_arg0]
theorem ops_main_arg1 (V : Valuation τ sig (Elt F)) :
    after (ops : List (HloOp τ sig (Elt F))) V (main_arg1 : DevRef τ sig) = V (main_arg1 : DevRef τ sig) := by
  rw [ops_eq', after_append, after_append, take2_main_arg1, take1_main_arg1, remOps_main_arg1]
theorem ops_main_arg2 (V : Valuation τ sig (Elt F)) :
    after (ops : List (HloOp τ sig (Elt F))) V (main_arg2 : DevRef τ sig) = V (main_arg2 : DevRef τ sig) := by
  rw [ops_eq', after_append, after_append, take2_main_arg2, take1_main_arg2, remOps_main_arg2]
theorem ops_main_arg3 (V : Valuation τ sig (Elt F)) :
    after (ops : List (HloOp τ sig (Elt F))) V (main_arg3 : DevRef τ sig) = V (main_arg3 : DevRef τ sig) := by
  rw [ops_eq', after_append, after_append, take2_main_arg3, take1_main_arg3, remOps_main_arg3]

/-- For any float values, from any memory with zero counters: every weakly fair execution of @main terminates with the
    two results at the stage functions of the arguments — the third (fourth) argument's rows looked up at
    `remainder` of the flat positions by 16 — and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = takeStage (m ((c.tc : Thread nD τ).loc main_arg2)) (remStage (flatStage (m ((c.tc : Thread nD τ).loc main_arg1))))
      ∧ r.2.mem ((c.tc : Thread nD τ).loc main_v3)
          = takeStage (m ((c.tc : Thread nD τ).loc main_arg3)) (remStage (flatStage (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v2).trans (ops_v2 _), (h c main_v3).trans (ops_v3 _),
      (h c main_arg0).trans (ops_main_arg0 _), (h c main_arg1).trans (ops_main_arg1 _),
      (h c main_arg2).trans (ops_main_arg2 _), (h c main_arg3).trans (ops_main_arg3 _)⟩)
    (run_seq scopedRefs_eq scopedSems_eq defs main (fun _ => ops) main_eq (fun _ => ops_sub) m ρ)

end Cert.Proof.Ref

end
-- ==== Proof.RefWords.lean ====
/-
  Facts about ONE position word, and about one `jnp.all`-style fold, that the reference's value needs.  No program is
  imported here.

  For a word `x` with `0 ≤ x ≤ 8191` read signed (the precondition's range): `jnp.remainder(x, 16)` — the truncated
  remainder by 16, with 16 added back where the remainder is nonzero and of the other sign than the divisor — is the
  word of `x.toNat % 16`, because `x` is nonnegative and the sign fix-up never fires.  For a word `r` below 16:
  it is not negative, it passes the test `0 ≤ r ≤ 15`, and clamping it into `[0, 15]` leaves it unchanged.  A fold
  by `and` from 1 over words that are all 1 is 1.
-/
import Idealize.ShloMosaic.Lib.ReduceAll
import Idealize.ShloMosaic.Lib.ValueIdx
import proofs.«214958_g36086315221739_cont_8to1_b_1353_25_alg».proof.Proof.Spec

namespace Cert.Proof.Ref

open Idealize.ShloMosaic Idealize.ShloMosaic.ValueIdx

/-- `jnp.remainder(x, 16)` on one word, as the program spells it: the divisor `d` (16, or 1 were it 0), the
    truncated remainder `r`, and `r + d` where `r ≠ 0` and the signs of `r` and `d` differ. -/
def remWord (x : BitVec 32) : BitVec 32 :=
  let d : BitVec 32 := Scalar.select (IntOp.cmpi .eq 16#32 0#32) 1#32 16#32
  let r : BitVec 32 := IntOp.remsi .host x d
  Scalar.select (IntOp.andi (IntOp.cmpi .ne (IntOp.cmpi .slt r 0#32) (IntOp.cmpi .slt d 0#32)) (IntOp.cmpi .ne r 0#32))
    (IntOp.addi r d) r

/-- The divisor is 16. -/
theorem divisor_eq : Scalar.select (IntOp.cmpi .eq 16#32 0#32) 1#32 16#32 = 16#32 := by decide

/-- A word in `[0, 8191]` read signed is at most 8191 read unsigned. -/
theorem toNat_le_of_range {x : BitVec 32} (h0 : (0#32 : BitVec 32).toInt ≤ x.toInt) (h1 : x.toInt ≤ (8191#32 : BitVec 32).toInt) :
    x.toNat ≤ 8191 := by
  have e0 : (0#32 : BitVec 32).toInt = 0 := by decide
  have e1 : (8191#32 : BitVec 32).toInt = 8191 := by decide
  rw [e0] at h0; rw [e1] at h1
  have hx := x.isLt
  have hc := BitVec.toInt_eq_toNat_cond x
  split_ifs at hc <;> omega

/-- A small word is not negative. -/
theorem slt_zero_of_small {r : BitVec 32} (h : 2 * r.toNat < 2 ^ 32) : IntOp.cmpi .slt r 0#32 = 0#1 :=
  eq_zero_of_ne_one fun h1 => by
    have h2 := IntOp.cmpi_slt.mp h1
    rw [BitVec.toInt_eq_toNat_of_lt h, show (0#32 : BitVec 32).toInt = 0 from by decide] at h2
    omega

/-- Under the range, `jnp.remainder(x, 16)` is the word of `x.toNat % 16`. -/
theorem remWord_eq {x : BitVec 32} (hx : x.toNat ≤ 8191) : remWord x = BitVec.ofNat 32 (x.toNat % 16) := by
  have hr : (IntOp.remsi .host x (BitVec.ofNat 32 16)).toNat = x.toNat % 16 :=
    IntOp.toNat_remsi .host (by omega) 16 (by omega) (by omega)
  unfold remWord
  simp only [divisor_eq]
  generalize IntOp.remsi .host x 16#32 = r at hr ⊢
  have hlt : r.toNat < 16 := by rw [hr]; exact Nat.mod_lt _ (by decide)
  rw [slt_zero_of_small (by omega), show IntOp.cmpi .slt 16#32 0#32 = 0#1 from by decide,
    show IntOp.cmpi .ne 0#1 0#1 = 0#1 from by decide,
    show ∀ c : BitVec 1, IntOp.andi 0#1 c = 0#1 from by decide, select_zero]
  apply BitVec.eq_of_toNat_eq
  rw [hr, BitVec.toNat_ofNat]
  omega

/-- The word of `x.toNat % 16` is below 16, and is the specification's row. -/
theorem toNat_ofNat_mod16 (x : BitVec 32) : (BitVec.ofNat 32 (x.toNat % 16)).toNat = x.toNat % 16 := by
  rw [BitVec.toNat_ofNat]; omega

/-- What `jnp.take` asks of an index word below 16: it is not negative (so 16 is not added), it passes the range test
    `0 ≤ r` and `r ≤ 15`, and the gather's clamp into `[0, 15]` leaves it as it is. -/
theorem small_word {r : BitVec 32} (h : r.toNat < 16) :
    IntOp.cmpi .slt r 0#32 = 0#1 ∧ IntOp.cmpi .sge r 0#32 = 1#1 ∧ IntOp.cmpi .sle r 15#32 = 1#1
      ∧ min r.toInt.toNat (16 - 1) = r.toNat := by
  have hi : r.toInt = r.toNat := BitVec.toInt_eq_toNat_of_lt (by omega)
  refine ⟨slt_zero_of_small (by omega), IntOp.cmpi_sge.mpr ?_, IntOp.cmpi_sle.mpr ?_, ?_⟩
  · rw [hi, show (0#32 : BitVec 32).toInt = 0 from by decide]; omega
  · rw [hi, show (15#32 : BitVec 32).toInt = 15 from by decide]; omega
  · rw [hi]; omega

/-- A fold by `and` from 1 over words all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from the constant 1 of an array that is 1 everywhere is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

end Cert.Proof.Ref
-- ==== Proof.RefValue.lean ====
/-
  The reference's two stages are the specification's lookup, for positions in the precondition's range.

  Read at flat position `b`: the reshape reads position `(b / 8192, b % 8192)`; `remainder` of a position in
  `[0, 8191]` by 16 is the word of its value modulo 16 (no sign fix-up); that word is below 16, so in `jnp.take` it is
  not shifted by 16, it passes the test `0 ≤ i ≤ 15` — every index does, so the `all` over the one-element axis is 1
  and the fill value is never selected — and the gather, whose clamp into `[0, 15]` changes nothing, reads row
  `position mod 16` of the table at the result's column.  That is entry `(b, d)` of `Spec.rows`.
-/
import proofs.«214958_g36086315221739_cont_8to1_b_1353_25_alg».proof.Proof.RefStage
import proofs.«214958_g36086315221739_cont_8to1_b_1353_25_alg».proof.Proof.RefWords
import Idealize.ShloMosaic.Lib.ValueIdx
import Idealize.ShloMosaic.Lib.Pipeline.Value

noncomputable section

namespace Cert.Proof.Ref

open Cert.ReferenceIdeal Idealize.ShloMosaic Idealize.ShloMosaic.ValueIdx

variable {F : FTy → Type} [FloatOps F] [Cert.ReferenceIdeal.Facts]
open Cert.ReferenceIdeal.Facts₀

/-! ### The gather of one table row per index, read at an entry -/

local notation "G" => gather_S16x128_S32768x1_S32768x128_1_0_n_n_0_1_1128

/-- Entry \`(b, d)\` of the gather is the table's entry \`(i, d)\`, \`i\` the start index of row \`b\` read signed and clamped
    into \`[0, 15]\`: axis 0 of the table is collapsed and indexed, axis 1 is the offset axis. -/
theorem gather_row {α : Type} (tab : S16x128.Idx → α) (idx : IVec S32768x1 32) (b : Fin 32768) (d : Fin 128) :
    Host.gather G tab idx (ix2 (n0 := 32768) (n1 := 128) b d)
      = tab (ix2 (n0 := 16) (n1 := 128) ⟨min (idx (ix2 (n0 := 32768) (n1 := 1) b 0)).toInt.toNat (16 - 1), by omega⟩ d) := by
  unfold Host.gather
  congr 1
  funext a
  refine Fin.ext ?_
  match a with
  | ⟨0, _⟩ =>
    show GatherDims.start G (ix2 b d) idx 0 + GatherDims.batchCoord G (ix2 b d) 0 + GatherDims.offCoord G (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap G from List.mem_singleton.mpr rfl)]
    have hsi : GatherDims.siIdx G (ix2 (n0 := 32768) (n1 := 128) b d) ⟨List.idxOf (0 : Fin 2) (GatherDims.startIndexMap G),
        List.idxOf_lt_length_iff.2 (List.mem_singleton.mpr rfl)⟩ = ix2 (n0 := 32768) (n1 := 1) b 0 := by
      funext c; refine Fin.ext ?_
      match c with
      | ⟨0, _⟩ => rfl
      | ⟨1, _⟩ => rfl
    rw [hsi]
    rfl
  | ⟨1, _⟩ =>
    show GatherDims.start G (ix2 b d) idx 1 + GatherDims.batchCoord G (ix2 b d) 1 + GatherDims.offCoord G (ix2 b d) 1 = d.val
    rw [GatherDims.batchCoord_eq_zero _ _ _ List.not_mem_nil]
    unfold GatherDims.start
    rw [dif_neg (show (1 : Fin 2) ∉ GatherDims.startIndexMap G from fun h => absurd (List.mem_singleton.mp h) (by decide))]
    unfold GatherDims.offCoord
    rw [dif_pos (show (1 : Fin 2) ∈ GatherDims.sKept G from (GatherDims.mem_sKept _ _).mpr ⟨fun h => absurd (List.mem_singleton.mp h) (by decide), List.not_mem_nil⟩)]
    show 0 + 0 + d.val = d.val
    omega

/-! ### The stages at an index -/

/-- The reshape reads flat position `b` at `(b / 8192, b % 8192)`. -/
theorem flatStage_apply (pos : IVec S4x8192 32) (b : Fin 32768) :
    flatStage pos (ix1 b) = pos (Spec.posIx b) := by
  unfold flatStage
  refine shapeCast_apply pos _ (ix1 b) (Spec.posIx b) ?_
  rw [Shape.rowMajor_val_two, Shape.rowMajor_val_one]
  show b.val / 8192 * 8192 + b.val % 8192 = b.val
  omega

/-- `remainder` is pointwise the one-word function. -/
theorem remStage_apply (p : IVec S32768 32) (k : S32768.Idx) : remStage p k = remWord (p k) := rfl

/-- For positions at most 8191 the index array holds, at flat position `b`, the word of that position modulo 16. -/
theorem index_apply (pos : IVec S4x8192 32) (hpos : ∀ k, (pos k).toNat ≤ 8191) (b : Fin 32768) :
    remStage (flatStage pos) (ix1 b) = BitVec.ofNat 32 ((pos (Spec.posIx b)).toNat % 16) := by
  rw [remStage_apply, flatStage_apply, remWord_eq (hpos _)]

/-- `jnp.take` at indices all below 16: entry `(b, d)` is the table's entry `(idx b, d)`. -/
theorem takeStage_apply (tab : FVec F S16x128 .f32) (idx : IVec S32768 32) (h : ∀ k, (idx k).toNat < 16) (b : Fin 32768) (d : Fin 128) :
    takeStage tab idx (ix2 (n0 := 32768) (n1 := 128) b d)
      = tab (ix2 (n0 := 16) (n1 := 128) ⟨(idx (ix1 b)).toNat, h _⟩ d) := by
  -- no index is negative: the shift by 16 is never selected
  have hv4 : (select (cmpi .slt idx (broadcastInDim S32768 ![] bcast_S_S32768 (constantI S_ 32 0#32)))
      (addi idx (broadcastInDim S32768 ![] bcast_S_S32768 (constantI S_ 32 16#32))) idx : IVec S32768 32) = idx := by
    funext k
    show Scalar.select (IntOp.cmpi .slt (idx k) 0#32) _ (idx k) = idx k
    rw [(small_word (h k)).1, select_zero]
  unfold takeStage
  simp only [hv4]
  -- every index passes the range test, so the `all` over the unit axis is 1 everywhere
  have hv11 : ∀ i : S32768x1.Idx,
      (andi (cmpi .sge (broadcastInDim S32768x1 ![0] bcast_S32768_S32768x1_0 idx) (broadcastInDim S32768x1 ![] bcast_S_S32768x1 (constantI S_ 32 0#32)))
        (cmpi .sle (broadcastInDim S32768x1 ![0] bcast_S32768_S32768x1_0 idx)
          (broadcastInDim S32768x1 ![0, 1] bcast_S1x1_S32768x1_0_1 (broadcastInDim S1x1 ![1] bcast_S1_S1x1_1 (constantI S1 32 15#32)))) : IVec S32768x1 1) i = 1#1 := by
    intro i
    have hi : ((broadcastInDim S32768x1 ![0] bcast_S32768_S32768x1_0 idx : IVec S32768x1 32) i).toNat < 16 := h _
    show IntOp.andi (IntOp.cmpi .sge ((broadcastInDim S32768x1 ![0] bcast_S32768_S32768x1_0 idx : IVec S32768x1 32) i) 0#32)
        (IntOp.cmpi .sle ((broadcastInDim S32768x1 ![0] bcast_S32768_S32768x1_0 idx : IVec S32768x1 32) i) 15#32) = 1#1
    rw [(small_word hi).2.1, (small_word hi).2.2.1]
    decide
  have hv12 := fun j => reduce_andi_ones _ (constantI S_ 1 1#1) reducesTo_S32768x1_S32768_d1 h_S_ hv11 (fun _ => rfl) j
  rw [select_apply]
  have hc : (broadcastInDim S32768x128 ![0] bcast_S32768_S32768x128_0
      (Host.reduce IntOp.andi _ (constantI S_ 1 1#1) reducesTo_S32768x1_S32768_d1 h_S_) : IVec S32768x128 1) (ix2 b d) = 1#1 := hv12 _
  rw [hc, select_one, gather_row]
  refine congrArg tab (congrArg (fun r => ix2 (n0 := 16) (n1 := 128) r d) (Fin.ext ?_))
  have hb : (broadcastInDim S32768x1 ![0] bcast_S32768_S32768x1_0 idx : IVec S32768x1 32) (ix2 (n0 := 32768) (n1 := 1) b 0) = idx (ix1 b) :=
    broadcastInDim_apply _ _ idx _ (ix1 b) (fun a => by match a with | ⟨0, _⟩ => rfl)
  show min ((broadcastInDim S32768x1 ![0] bcast_S32768_S32768x1_0 idx : IVec S32768x1 32) (ix2 (n0 := 32768) (n1 := 1) b 0)).toInt.toNat (16 - 1) = (idx (ix1 b)).toNat
  rw [hb]
  exact (small_word (h _)).2.2.2

/-- Both stages together are the specification's lookup, for positions at most 8191. -/
theorem stages_eq_rows (pos : IVec S4x8192 32) (tab : FVec F S16x128 .f32) (hpos : ∀ k, (pos k).toNat ≤ 8191) :
    takeStage tab (remStage (flatStage pos)) = Spec.rows pos tab := by
  have hidx : ∀ k : S32768.Idx, (remStage (flatStage pos) k).toNat < 16 := by
    intro k
    obtain ⟨b, rfl⟩ : ∃ b : Fin 32768, k = ix1 b := ⟨k 0, eq_ix1 k⟩
    rw [index_apply pos hpos, toNat_ofNat_mod16]
    exact Nat.mod_lt _ (by decide)
  funext i
  obtain ⟨b, d, rfl⟩ : ∃ (b : Fin 32768) (d : Fin 128), i = ix2 b d := ⟨i 0, i 1, eq_ix2 i⟩
  rw [takeStage_apply tab _ hidx, Spec.rows_apply]
  refine congrArg tab (congrArg (fun r => ix2 (n0 := 16) (n1 := 128) r d) (Fin.ext ?_))
  show (remStage (flatStage pos) (ix1 b)).toNat = (pos (Spec.posIx b)).toNat % 16
  rw [index_apply pos hpos, toNat_ofNat_mod16]

end Cert.Proof.Ref

end
-- ==== Proof.RefPre.lean ====
/-
  What the precondition says of the positions.  `input_domain` ends in the conjunction of four `jnp.all`s, the last
  over `(0 ≤ pos) ∧ (pos ≤ 8191)` compared signed; when its one result is 1 that last `all` is 1, so every element
  of the compared array is 1, so every position word lies in `[0, 8191]` read signed — and is then at most 8191 read
  unsigned.  (The three finiteness conjuncts on the float arguments are not needed: the lookup moves data only.)
-/
import proofs.«214958_g36086315221739_cont_8to1_b_1353_25_alg».proof.Pre_input_domain
import proofs.«214958_g36086315221739_cont_8to1_b_1353_25_alg».proof.Proof.RefWords
import Idealize.ShloMosaic.Lib.ReduceAll
import Idealize.ShloMosaic.Lib.ValueIdx

namespace Cert.Proof.Ref

open Idealize.ShloMosaic

/-- Under the precondition every position word is at most 8191. -/
theorem range_of_pre [Cert.Pre_input_domain.Facts] {F : FTy → Type} [FloatOps F]
    (a0 : FVec F Cert.Pre_input_domain.S4x8192x2048 .f32) (a1 : IVec Cert.Pre_input_domain.S4x8192 32)
    (a2 a3 : FVec F Cert.Pre_input_domain.S16x128 .f32)
    (h : Cert.Pre_input_domain.fn (F := F) a0 a1 a2 a3 = fun _ => 1#1) : ∀ k, (a1 k).toNat ≤ 8191 := by
  have h0 := congrFun h ValueIdx.ix0
  dsimp only [Cert.Pre_input_domain.fn, Cert.Pre_input_domain.fn_part1] at h0
  have h1 := (IntOp.andi_eq_one.mp h0).2
  haveI : Subsingleton Cert.Pre_input_domain.S_.Idx := ⟨fun a b => funext fun d => d.elim0⟩
  intro k
  have h2 := Host.reduce_andi_all _ _ _ _ _ h1 k
  obtain ⟨h3, h4⟩ := IntOp.andi_eq_one.mp h2
  exact toNat_le_of_range (IntOp.cmpi_sge.mp h3) (IntOp.cmpi_sle.mp h4)

end Cert.Proof.Ref
-- ==== Proof.Ref.lean ====
/-
  The reference side of the certificate.  Under the precondition every position lies in `[0, 8191]`; the reference's
  run leaves each result at `jnp.take` of a table at `remainder` of the flat positions by 16, and for such positions
  that is the specification's lookup: result row `b` is the table's row `position b mod 16`.  The arguments end
  unchanged, whatever the positions hold: that alone is the reference's frame.
-/
import proofs.«214958_g36086315221739_cont_8to1_b_1353_25_alg».proof.Defs
import proofs.«214958_g36086315221739_cont_8to1_b_1353_25_alg».proof.Proof.Spec
import proofs.«214958_g36086315221739_cont_8to1_b_1353_25_alg».proof.Proof.RefRun
import proofs.«214958_g36086315221739_cont_8to1_b_1353_25_alg».proof.Proof.RefValue
import proofs.«214958_g36086315221739_cont_8to1_b_1353_25_alg».proof.Proof.RefPre

noncomputable section

open Idealize.ShloMosaic Idealize.SL.Sem

/-- The reference's run: both results are the specification's lookup, the arguments unchanged. -/
theorem Cert.Proof.Ref.run [Cert.ReferenceIdeal.Facts] [Cert.Pre_input_domain.Facts]
    (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v2) = Cert.Proof.Spec.rows (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v3) = Cert.Proof.Spec.rows (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run _ _ _).mono (fun r h c => by
      have hr := Cert.Proof.Ref.range_of_pre _ _ _ _ (hpre c)
      obtain ⟨h2, h3, hrest⟩ := h c
      exact ⟨h2.trans (Cert.Proof.Ref.stages_eq_rows _ _ hr), h3.trans (Cert.Proof.Ref.stages_eq_rows _ _ hr), hrest⟩)
    (Cert.Proof.Ref.run_stages (F := Ideal) m g)

/-- The reference's frame: it runs and its arguments end unchanged (the run with the two results dropped). -/
theorem Cert.Proof.Ref.frame [Cert.ReferenceIdeal.Facts] [Cert.Pre_input_domain.Facts] : Cert.frame_ReferenceIdeal :=
  fun m g _ => (θ_run _ _ _).mono (fun _ h c => (h c).2.2) (Cert.Proof.Ref.run_stages (F := Ideal) m g)

end
-- ==== Proof.lean ====
/-
  The claim, assembled.  Both printed programs (the kernel at the bit-exact instance, and its idealization, the same
  text read over the extended reals) run to the end on the thirty-five threads of the device — the TensorCore, two
  sequencers, thirty-two tiles — with every result named: the cosine result is the TensorCore's one-hot matmul of the
  reshaped positions against the cosine table, the sine result the tiles' gathers of the staged sine table at the masked
  positions.  The frames are that run with the results dropped.  At the ideal instance the one-hot matmul is exact, so both
  results are the lookup `table[pos mod 16]`, which is also what the reference's remainder-and-take computes on positions
  in `[0, 8191]`: the two programs end with equal results.  The ideal pass rewrote nothing, so there is nothing to preserve.
-/
import proofs.«214958_g36086315221739_cont_8to1_b_1353_25_alg».proof.Defs
import proofs.«214958_g36086315221739_cont_8to1_b_1353_25_alg».proof.Proof.Gen.Kernel
import proofs.«214958_g36086315221739_cont_8to1_b_1353_25_alg».proof.Proof.Gen.KernelIdeal
import proofs.«214958_g36086315221739_cont_8to1_b_1353_25_alg».proof.Proof.Gen.ReferenceIdeal
import proofs.«214958_g36086315221739_cont_8to1_b_1353_25_alg».proof.Proof.Gen.Pre_input_domain
import proofs.«214958_g36086315221739_cont_8to1_b_1353_25_alg».proof.Proof.TileBody
import proofs.«214958_g36086315221739_cont_8to1_b_1353_25_alg».proof.Proof.TileBodyK
import proofs.«214958_g36086315221739_cont_8to1_b_1353_25_alg».proof.Proof.MainRun
import proofs.«214958_g36086315221739_cont_8to1_b_1353_25_alg».proof.Proof.MainRunK
import proofs.«214958_g36086315221739_cont_8to1_b_1353_25_alg».proof.Proof.BridgeAll
import proofs.«214958_g36086315221739_cont_8to1_b_1353_25_alg».proof.Proof.Ref
import Idealize.ShloMosaic.Adequacy
import Idealize.ShloMosaic.Init

noncomputable section

namespace Cert.Proof

open Idealize.ShloMosaic Idealize.SL.Sem

/-- The printed kernel runs, faults nowhere, and leaves its arguments as they were. -/
theorem frame_K : Cert.frame_Kernel (hKernel := Cert.Kernel.Gen.facts) (hPre_input_domain := Cert.Pre_input_domain.Gen.facts) := fun m ρ _ =>
  (θ_run Cert.Kernel.defs _ _).mono (fun _ h c => (h c).2.2)
    (Cert.Proof.KB.run_all (F := Bits) m ρ (Cert.Proof.KB.tileObl _ _ _ Cert.Proof.KB.facts))

/-- So does its idealization. -/
theorem frame_KI : Cert.frame_KernelIdeal (hKernelIdeal := Cert.KernelIdeal.Gen.facts) (hPre_input_domain := Cert.Pre_input_domain.Gen.facts) := fun m ρ _ =>
  (θ_run Cert.KernelIdeal.defs _ _).mono (fun _ h c => (h c).2.2)
    (Cert.Proof.KI.run_all (F := Ideal) m ρ (Cert.Proof.KI.tileObl _ _ _ Cert.Proof.KI.facts))

/-- Over the extended reals both programs end with the lookup: the cosine result is `cos_table[pos mod 16]`, the sine
    result `sin_table[pos mod 16]`, row by row. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Proof.Spec.rows (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Proof.Spec.rows (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run Cert.KernelIdeal.defs _ _).mono (fun r h c => ?_)
      (Cert.Proof.KI.run_all (F := Ideal) m ρ (Cert.Proof.KI.tileObl _ _ _ Cert.Proof.KI.facts))
    obtain ⟨h2, h1, hrest⟩ := h c
    refine ⟨h2.trans ?_, h1.trans ?_, hrest⟩
    · exact Cert.Proof.Bridge.tcOut_rows_pre m hpre c _ _
    · exact Cert.Proof.Bridge.rows2_reshape _ _ _
  · have hpre' : Cert.Pre_ReferenceIdeal (hPre_input_domain := Cert.Pre_input_domain.Gen.facts) m' := fun c => by
      rw [(hagree c).1, (hagree c).2.1, (hagree c).2.2.1, (hagree c).2.2.2]; exact hpre c
    refine (θ_run Cert.ReferenceIdeal.defs _ _).mono (fun r h c => ?_) (Cert.Proof.Ref.run m' ρ' hpre')
    obtain ⟨h2, h3, hrest⟩ := h c
    refine ⟨h2.trans ?_, h3.trans ?_, hrest⟩
    · rw [(hagree c).2.1, (hagree c).2.2.1]
    · rw [(hagree c).2.1, (hagree c).2.2.2]

theorem claim : Cert.Claim :=
  ⟨Cert.Kernel.Gen.facts, Cert.KernelIdeal.Gen.facts, Cert.ReferenceIdeal.Gen.facts, Cert.Pre_input_domain.Gen.facts,
    frame_K, frame_KI, Cert.Proof.Ref.frame, trivial, algebraic⟩

end Cert.Proof

end
